-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v23_0)) (v2 : (c : Dev Cert.KernelIdeal.nD) → Buf (Elt Ideal) ((c.tc : Thread Cert.KernelIdeal.nD Cert.KernelIdeal.τ).loc Cert.KernelIdeal.main_v23_1)) (v3 : (c : Dev Cert.KernelIdeal.nD) → Buf (Elt Ideal) ((c.tc : Thread Cert.KernelIdeal.nD Cert.KernelIdeal.τ).loc Cert.KernelIdeal.main_v23_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v23_0) = v1 c
          ∧ r.2.mem ((c.tc : Thread Cert.KernelIdeal.nD Cert.KernelIdeal.τ).loc Cert.KernelIdeal.main_v23_1) = v2 c
          ∧ r.2.mem ((c.tc : Thread Cert.KernelIdeal.nD Cert.KernelIdeal.τ).loc Cert.KernelIdeal.main_v23_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_v60) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S262144 : Shape := ⟨1, ![262144]⟩
abbrev S8192x64 : Shape := ⟨2, ![8192, 64]⟩
abbrev S512x256 : Shape := ⟨2, ![512, 256]⟩
abbrev S256x64 : Shape := ⟨2, ![256, 64]⟩
abbrev S64x64 : Shape := ⟨2, ![64, 64]⟩
abbrev S64 : Shape := ⟨1, ![64]⟩
abbrev S64x512 : Shape := ⟨2, ![64, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S262144 : S_.BroadcastsInDim S262144 (![] : Fin 0 → Fin S262144.rank)
  reducesTo_S262144_S_d0 : S262144.ReducesTo [0] S_
  bcast_S_S8192x64 : S_.BroadcastsInDim S8192x64 (![] : Fin 0 → Fin S8192x64.rank)
  reducesTo_S8192x64_S_d0_1 : S8192x64.ReducesTo [0, 1] S_
  bcast_S_S512x256 : S_.BroadcastsInDim S512x256 (![] : Fin 0 → Fin S512x256.rank)
  reducesTo_S512x256_S_d0_1 : S512x256.ReducesTo [0, 1] S_
  bcast_S_S256x64 : S_.BroadcastsInDim S256x64 (![] : Fin 0 → Fin S256x64.rank)
  reducesTo_S256x64_S_d0_1 : S256x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x512 : S_.BroadcastsInDim S64x512 (![] : Fin 0 → Fin S64x512.rank)
  reducesTo_S64x512_S_d0_1 : S64x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_arg10 : IVec S262144 32) (main_arg11 : IVec S262144 32) (main_v48 : IVec S_ 1) (main_v50 : IVec S262144 1) : IVec S_ 1 :=
  let main_c_19 : IVec S_ 1 := constantI S_ 1 1#1
  let main_v51 : IVec S_ 1 := (fun x v => Host.reduce IntOp.andi x v reducesTo_S262144_S_d0 h_S_) main_v50 main_c_19
  let main_v52 : IVec S_ 1 := andi main_v48 main_v51
  let main_c_20 : IVec S_ 32 := constantI S_ 32 8192#32
  let main_v53 : IVec S262144 32 := broadcastInDim S262144 ![] bcast_S_S262144 main_c_20
  let main_v54 : IVec S262144 1 := cmpi .slt main_arg10 main_v53
  let main_c_21 : IVec S_ 1 := constantI S_ 1 1#1
  let main_v55 : IVec S_ 1 := (fun x v => Host.reduce IntOp.andi x v reducesTo_S262144_S_d0 h_S_) main_v54 main_c_21
  let main_v56 : IVec S_ 1 := andi main_v52 main_v55
  let main_c_22 : IVec S_ 32 := constantI S_ 32 0#32
  let main_v57 : IVec S262144 32 := broadcastInDim S262144 ![] bcast_S_S262144 main_c_22
  let main_v58 : IVec S262144 1 := cmpi .sge main_arg11 main_v57
  let main_c_23 : IVec S_ 1 := constantI S_ 1 1#1
  let main_v59 : IVec S_ 1 := (fun x v => Host.reduce IntOp.andi x v reducesTo_S262144_S_d0 h_S_) main_v58 main_c_23
  let main_v60 : IVec S_ 1 := andi main_v56 main_v59
  let main_c_24 : IVec S_ 32 := constantI S_ 32 8192#32
  let main_v61 : IVec S262144 32 := broadcastInDim S262144 ![] bcast_S_S262144 main_c_24
  let main_v62 : IVec S262144 1 := cmpi .slt main_arg11 main_v61
  let main_c_25 : IVec S_ 1 := constantI S_ 1 1#1
  let main_v63 : IVec S_ 1 := (fun x v => Host.reduce IntOp.andi x v reducesTo_S262144_S_d0 h_S_) main_v62 main_c_25
  let main_v64 : IVec S_ 1 := andi main_v60 main_v63
  main_v64

def fn_part2 {F : FTy → Type} [FloatOps F] (main_arg7 : FVec F S64 .f32) (main_arg8 : FVec F S64x512 .f32) (main_arg9 : FVec F S512 .f32) (main_arg10 : IVec S262144 32) (main_arg11 : IVec S262144 32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x512 .f32 := Host.absf main_arg8
  let main_cst_14 : FVec F S_ .f32 := constant S_ .f32 0x7F800000#32
  let main_v40 : FVec F S64x512 .f32 := broadcastInDim S64x512 ![] bcast_S_S64x512 main_cst_14
  let main_v41 : IVec S64x512 1 := cmpf .olt main_v39 main_v40
  let main_c_15 : IVec S_ 1 := constantI S_ 1 1#1
  let main_v42 : IVec S_ 1 := (fun x v => Host.reduce IntOp.andi x v reducesTo_S64x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_c_18 : IVec S_ 32 := constantI S_ 32 0#32
  let main_v49 : IVec S262144 32 := broadcastInDim S262144 ![] bcast_S_S262144 main_c_18
  let main_v50 : IVec S262144 1 := cmpi .sge main_arg10 main_v49
  fn_part3 (F := F) main_arg10 main_arg11 main_v48 main_v50

def fn_part1 {F : FTy → Type} [FloatOps F] (main_arg4 : FVec F S256x64 .f32) (main_arg5 : FVec F S256x64 .f32) (main_arg6 : FVec F S64x64 .f32) (main_arg7 : FVec F S64 .f32) (main_arg8 : FVec F S64x512 .f32) (main_arg9 : FVec F S512 .f32) (main_arg10 : IVec S262144 32) (main_arg11 : IVec S262144 32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S256x64 .f32 := Host.absf main_arg5
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S8192x512 .f32) (main_arg1 : FVec F S262144 .f32) (main_arg2 : FVec F S8192x64 .f32) (main_arg3 : FVec F S512x256 .f32) (main_arg4 : FVec F S256x64 .f32) (main_arg5 : FVec F S256x64 .f32) (main_arg6 : FVec F S64x64 .f32) (main_arg7 : FVec F S64 .f32) (main_arg8 : FVec F S64x512 .f32) (main_arg9 : FVec F S512 .f32) (main_arg10 : IVec S262144 32) (main_arg11 : IVec S262144 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S262144 .f32 := Host.absf main_arg1
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S8192x64 .f32 := Host.absf main_arg2
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_c_3 : IVec S_ 1 := constantI S_ 1 1#1
  let main_v12 : IVec S_ 1 := (fun x v => Host.reduce IntOp.andi x v reducesTo_S8192x64_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_arg7 main_arg8 main_arg9 main_arg10 main_arg11 main_v13 main_v16
-- ==== Kernel.lean ====
abbrev S8192x512 : Shape := ⟨2, ![8192, 512]⟩
abbrev S262144 : Shape := ⟨1, ![262144]⟩
abbrev S8192x64 : Shape := ⟨2, ![8192, 64]⟩
abbrev S512x256 : Shape := ⟨2, ![512, 256]⟩
abbrev S256x64 : Shape := ⟨2, ![256, 64]⟩
abbrev S64x64 : Shape := ⟨2, ![64, 64]⟩
abbrev S64 : Shape := ⟨1, ![64]⟩
abbrev S64x512 : Shape := ⟨2, ![64, 512]⟩
abbrev S512 : Shape := ⟨1, ![512]⟩
abbrev S_ : Shape := ⟨0, ![]⟩
abbrev S8192x8192 : Shape := ⟨2, ![8192, 8192]⟩
abbrev S262144x1 : Shape := ⟨2, ![262144, 1]⟩
abbrev S262144x2 : Shape := ⟨2, ![262144, 2]⟩
abbrev S8192x256 : Shape := ⟨2, ![8192, 256]⟩
abbrev S2048x512 : Shape := ⟨2, ![2048, 512]⟩
abbrev S2048x256 : Shape := ⟨2, ![2048, 256]⟩
abbrev S512x2048 : Shape := ⟨2, ![512, 2048]⟩
abbrev S256x128 : Shape := ⟨2, ![256, 128]⟩
abbrev S8192x128 : Shape := ⟨2, ![8192, 128]⟩
abbrev S2048x128 : Shape := ⟨2, ![2048, 128]⟩
abbrev S512x128 : Shape := ⟨2, ![512, 128]⟩
abbrev S1x64 : Shape := ⟨2, ![1, 64]⟩
abbrev S1x512 : Shape := ⟨2, ![1, 512]⟩
abbrev S2048x64 : Shape := ⟨2, ![2048, 64]⟩
abbrev S2048x2048 : Shape := ⟨2, ![2048, 2048]⟩
abbrev S2048x32 : Shape := ⟨2, ![2048, 32]⟩
abbrev S67108864 : Shape := ⟨1, ![67108864]⟩

abbrev nBuf : Space → Nat
  | .hbm => 46
  | .vmem => 44
  | .smem => 0
  | _ => 0

abbrev bufTy : (tb : Table) → Fin (tcTables nBuf tb) → BufTy
  | .hbm, ⟨0, _⟩ => ⟨S8192x512, .f32⟩
  | .hbm, ⟨1, _⟩ => ⟨S262144, .f32⟩
  | .hbm, ⟨2, _⟩ => ⟨S8192x64, .f32⟩
  | .hbm, ⟨3, _⟩ => ⟨S512x256, .f32⟩
  | .hbm, ⟨4, _⟩ => ⟨S256x64, .f32⟩
  | .hbm, ⟨5, _⟩ => ⟨S256x64, .f32⟩
  | .hbm, ⟨6, _⟩ => ⟨S64x64, .f32⟩
  | .hbm, ⟨7, _⟩ => ⟨S64, .f32⟩
  | .hbm, ⟨8, _⟩ => ⟨S64x512, .f32⟩
  | .hbm, ⟨9, _⟩ => ⟨S512, .f32⟩
  | .hbm, ⟨10, _⟩ => ⟨S262144, .i32⟩
  | .hbm, ⟨11, _⟩ => ⟨S262144, .i32⟩
  | .hbm, ⟨12, _⟩ => ⟨S_, .f32⟩
  | .hbm, ⟨13, _⟩ => ⟨S8192x8192, .f32⟩
  | .hbm, ⟨14, _⟩ => ⟨S_, .i32⟩
  | .hbm, ⟨15, _⟩ => ⟨S262144, .i32⟩
  | .hbm, ⟨16, _⟩ => ⟨S262144, .i1⟩
  | .hbm, ⟨17, _⟩ => ⟨S_, .i32⟩
  | .hbm, ⟨18, _⟩ => ⟨S262144, .i32⟩
  | .hbm, ⟨19, _⟩ => ⟨S262144, .i32⟩
  | .hbm, ⟨20, _⟩ => ⟨S262144, .i32⟩
  | .hbm, ⟨21, _⟩ => ⟨S_, .i32⟩
  | .hbm, ⟨22, _⟩ => ⟨S262144, .i32⟩
  | .hbm, ⟨23, _⟩ => ⟨S262144, .i1⟩
  | .hbm, ⟨24, _⟩ => ⟨S_, .i32⟩
  | .hbm, ⟨25, _⟩ => ⟨S262144, .i32⟩
  | .hbm, ⟨26, _⟩ => ⟨S262144, .i32⟩
  | .hbm, ⟨27, _⟩ => ⟨S262144, .i32⟩
  | .hbm, ⟨28, _⟩ => ⟨S262144x1, .i32⟩
  | .hbm, ⟨29, _⟩ => ⟨S262144x1, .i32⟩
  | .hbm, ⟨30, _⟩ => ⟨S262144x2, .i32⟩
  | .hbm, ⟨31, _⟩ => ⟨S8192x8192, .f32⟩
  | .hbm, ⟨32, _⟩ => ⟨S8192x8192, .bf16⟩
  | .hbm, ⟨33, _⟩ => ⟨S8192x256, .f32⟩
  | .hbm, ⟨34, _⟩ => ⟨S8192x256, .f32⟩
  | .hbm, ⟨35, _⟩ => ⟨S256x128, .f32⟩
  | .hbm, ⟨36, _⟩ => ⟨S8192x128, .f32⟩
  | .hbm, ⟨37, _⟩ => ⟨S8192x128, .f32⟩
  | .hbm, ⟨38, _⟩ => ⟨S1x64, .f32⟩
  | .hbm, ⟨39, _⟩ => ⟨S1x512, .f32⟩
  | .hbm, ⟨40, _⟩ => ⟨S8192x64, .f32⟩
  | .hbm, ⟨41, _⟩ => ⟨S8192x64, .f32⟩
  | .hbm, ⟨42, _⟩ => ⟨S8192x64, .f32⟩
  | .hbm, ⟨43, _⟩ => ⟨S8192x512, .f32⟩
  | .hbm, ⟨44, _⟩ => ⟨S8192x8192, .f32⟩
  | .hbm, ⟨45, _⟩ => ⟨S67108864, .f32⟩
  | .local _ .vmem, ⟨0, _⟩ => ⟨S2048x512, .f32⟩
  | .local _ .vmem, ⟨1, _⟩ => ⟨S2048x512, .f32⟩
  | .local _ .vmem, ⟨2, _⟩ => ⟨S512x256, .f32⟩
  | .local _ .vmem, ⟨3, _⟩ => ⟨S2048x256, .f32⟩
  | .local _ .vmem, ⟨4, _⟩ => ⟨S2048x256, .f32⟩
  | .local _ .vmem, ⟨5, _⟩ => ⟨S512x2048, .bf16⟩
  | .local _ .vmem, ⟨6, _⟩ => ⟨S512x2048, .bf16⟩
  | .local _ .vmem, ⟨7, _⟩ => ⟨S8192x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S2048x256, .f32⟩
  | .local _ .vmem, ⟨12, _⟩ => ⟨S2048x256, .f32⟩
  | .local _ .vmem, ⟨13, _⟩ => ⟨S256x128, .f32⟩
  | .local _ .vmem, ⟨14, _⟩ => ⟨S2048x128, .f32⟩
  | .local _ .vmem, ⟨15, _⟩ => ⟨S2048x128, .f32⟩
  | .local _ .vmem, ⟨16, _⟩ => ⟨S512x2048, .bf16⟩
  | .local _ .vmem, ⟨17, _⟩ => ⟨S512x2048, .bf16⟩
  | .local _ .vmem, ⟨18, _⟩ => ⟨S8192x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S2048x128, .f32⟩
  | .local _ .vmem, ⟨23, _⟩ => ⟨S2048x128, .f32⟩
  | .local _ .vmem, ⟨24, _⟩ => ⟨S2048x64, .f32⟩
  | .local _ .vmem, ⟨25, _⟩ => ⟨S2048x64, .f32⟩
  | .local _ .vmem, ⟨26, _⟩ => ⟨S64x64, .f32⟩
  | .local _ .vmem, ⟨27, _⟩ => ⟨S1x64, .f32⟩
  | .local _ .vmem, ⟨28, _⟩ => ⟨S64x512, .f32⟩
  | .local _ .vmem, ⟨29, _⟩ => ⟨S1x512, .f32⟩
  | .local _ .vmem, ⟨30, _⟩ => ⟨S2048x64, .f32⟩
  | .local _ .vmem, ⟨31, _⟩ => ⟨S2048x64, .f32⟩
  | .local _ .vmem, ⟨32, _⟩ => ⟨S2048x64, .f32⟩
  | .local _ .vmem, ⟨33, _⟩ => ⟨S2048x64, .f32⟩
  | .local _ .vmem, ⟨34, _⟩ => ⟨S2048x64, .f32⟩
  | .local _ .vmem, ⟨35, _⟩ => ⟨S2048x64, .f32⟩
  | .local _ .vmem, ⟨36, _⟩ => ⟨S2048x512, .f32⟩
  | .local _ .vmem, ⟨37, _⟩ => ⟨S2048x512, .f32⟩
  | .local _ .vmem, ⟨38, _⟩ => ⟨S2048x64, .f32⟩
  | .local _ .vmem, ⟨39, _⟩ => ⟨S2048x64, .f32⟩
  | .local _ .vmem, ⟨40, _⟩ => ⟨S2048x64, .f32⟩
  | .local _ .vmem, ⟨41, _⟩ => ⟨S2048x64, .f32⟩
  | .local _ .vmem, ⟨42, _⟩ => ⟨S2048x2048, .f32⟩
  | .local _ .vmem, ⟨43, _⟩ => ⟨S2048x2048, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c_1 : Ref sig .tc := ⟨.hbm, 21, rfl⟩
abbrev main_v6 : Ref sig .tc := ⟨.hbm, 22, rfl⟩
abbrev main_v7 : Ref sig .tc := ⟨.hbm, 23, rfl⟩
abbrev main_c_2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23_0 : Ref sig .tc := ⟨.hbm, 40, rfl⟩
abbrev main_v23_1 : Ref sig .tc := ⟨.hbm, 41, rfl⟩
abbrev main_v23_2 : Ref sig .tc := ⟨.hbm, 42, rfl⟩
abbrev main_v23_3 : Ref sig .tc := ⟨.hbm, 43, rfl⟩
abbrev main_v24 : Ref sig .tc := ⟨.hbm, 44, rfl⟩
abbrev main_v25 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc3_scratch0 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg4_0 : Ref sig .tc := ⟨.vmem, 28, rfl⟩
abbrev cc4_stg5_0 : Ref sig .tc := ⟨.vmem, 29, rfl⟩
abbrev cc4_stg6_0 : Ref sig .tc := ⟨.vmem, 30, rfl⟩
abbrev cc4_stg6_1 : Ref sig .tc := ⟨.vmem, 31, rfl⟩
abbrev cc4_stg7_0 : Ref sig .tc := ⟨.vmem, 32, rfl⟩
abbrev cc4_stg7_1 : Ref sig .tc := ⟨.vmem, 33, rfl⟩
abbrev cc4_stg8_0 : Ref sig .tc := ⟨.vmem, 34, rfl⟩
abbrev cc4_stg8_1 : Ref sig .tc := ⟨.vmem, 35, rfl⟩
abbrev cc4_stg9_0 : Ref sig .tc := ⟨.vmem, 36, rfl⟩
abbrev cc4_stg9_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg2_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem3_0 : DmaSem sig := 25
abbrev cc4_sem4_0 : DmaSem sig := 26
abbrev cc4_sem5_0 : DmaSem sig := 27
abbrev cc4_sem6_0 : DmaSem sig := 28
abbrev cc4_sem6_1 : DmaSem sig := 29
abbrev cc4_sem7_0 : DmaSem sig := 30
abbrev cc4_sem7_1 : DmaSem sig := 31
abbrev cc4_sem8_0 : DmaSem sig := 32
abbrev cc4_sem8_1 : DmaSem sig := 33
abbrev cc4_sem9_0 : DmaSem sig := 34
abbrev cc4_sem9_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 4], ![false, false]⟩

def k1_mult1 (i : grid1.Coords) : BitVec 32 :=
  let arg1 : BitVec 32 := BitVec.ofNat 32 (i 1).val
  let c2048_i32 : BitVec 32 := 2048#32
  let v3 : BitVec 32 := Scalar.muli arg1 c2048_i32
  v3
def k1_off1 (i : grid1.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_7 : BitVec 32 := 0#32
  let v19 : BitVec 1 := Scalar.cmpi .ne v18 c0_i32_7
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![16, 4], ![false, false]⟩

def k3_mult1 (i : grid3.Coords) : BitVec 32 :=
  let arg1 : BitVec 32 := BitVec.ofNat 32 (i 1).val
  let c2048_i32 : BitVec 32 := 2048#32
  let v3 : BitVec 32 := Scalar.muli arg1 c2048_i32
  v3
def k3_off1 (i : grid3.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k3_cond2 (i : grid3.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_7 : BitVec 32 := 0#32
  let v19 : BitVec 1 := Scalar.cmpi .ne v18 c0_i32_7
  v19

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S8192x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S512x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x512 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2048x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S2048x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S2048x64 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 2 → Memref sig .tc .vmem S2048x512 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨2, ![4, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S2048x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S2048x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S2048x2048 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

class Facts₀ : Prop where
  bcast_S_S8192x8192 : S_.BroadcastsInDim S8192x8192 (![] : Fin 0 → Fin S8192x8192.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S512x256_S512x256_0_0 : ∀ a, (![0, 0] : Fin 2 → Nat) a + S512x256.size a ≤ S512x256.size a
  h_S512x256 : 0 < S512x256.numel
  inb_S2048x256_S2048x256_0_0 : ∀ a, (![0, 0] : Fin 2 → Nat) a + S2048x256.size a ≤ S2048x256.size a
  h_S2048x256 : 0 < S2048x256.numel
  shapeCasts_S512x256_S512x256 : S512x256.ShapeCasts S512x256
  shapeCasts_S2048x256_S2048x256 : S2048x256.ShapeCasts S2048x256
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  concatenates_S256x64_S256x64_S256x128_d1 : Shape.Concatenates [S256x64, S256x64] S256x128 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2048x128_S2048x128_0_0 : ∀ a, (![0, 0] : Fin 2 → Nat) a + S2048x128.size a ≤ S2048x128.size a
  h_S2048x128 : 0 < S2048x128.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  shapeCasts_S2048x128_S2048x128 : S2048x128.ShapeCasts S2048x128
  shapeCasts_S64_S1x64 : S64.ShapeCasts S1x64
  shapeCasts_S512_S1x512 : S512.ShapeCasts S1x512
  slices_S2048x128_o0_0_S2048x64 : S2048x128.Slices ![0, 0] S2048x64
  slices_S2048x128_o0_64_S2048x64 : S2048x128.Slices ![0, 64] S2048x64
  inb_S2048x64_S2048x64_0_0 : ∀ a, (![0, 0] : Fin 2 → Nat) a + S2048x64.size a ≤ S2048x64.size a
  h_S2048x64 : 0 < S2048x64.numel
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S64x512_S64x512_0_0 : ∀ a, (![0, 0] : Fin 2 → Nat) a + S64x512.size a ≤ S64x512.size a
  h_S64x512 : 0 < S64x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  shapeCasts_S2048x64_S2048x64 : S2048x64.ShapeCasts S2048x64
  slices_S2048x64_o0_0_S2048x32 : S2048x64.Slices ![0, 0] S2048x32
  slices_S2048x64_o0_32_S2048x32 : S2048x64.Slices ![0, 32] S2048x32
  inb_S2048x2048_S2048x2048_0_0 : ∀ a, (![0, 0] : Fin 2 → Nat) a + S2048x2048.size a ≤ S2048x2048.size a
  h_S2048x2048 : 0 < S2048x2048.numel
  shapeCasts_S8192x8192_S67108864 : S8192x8192.ShapeCasts S67108864
  scatter_S8192x8192_S262144x2_S262144_n_01_01_1_wf : ScatterDims.WF S8192x8192 S262144x2 S262144 [] [0, 1] [0, 1] 1
  dot_S2048x512_S512x256_S2048x256_1_0_0_1_n_n_wf : DotDims.WF S2048x512 S512x256 S2048x256 [1] [0] [0] [1] [] []
  dot_S512x2048_S2048x256_S512x256_1_0_0_1_n_n_wf : DotDims.WF S512x2048 S2048x256 S512x256 [1] [0] [0] [1] [] []
  dot_S2048x256_S256x128_S2048x128_1_0_0_1_n_n_wf : DotDims.WF S2048x256 S256x128 S2048x128 [1] [0] [0] [1] [] []
  dot_S512x2048_S2048x128_S512x128_1_0_0_1_n_n_wf : DotDims.WF S512x2048 S2048x128 S512x128 [1] [0] [0] [1] [] []
  dot_S2048x64_S64x64_S2048x64_1_0_0_1_n_n_wf : DotDims.WF S2048x64 S64x64 S2048x64 [1] [0] [0] [1] [] []
  dot_S2048x64_S64x512_S2048x512_1_0_0_1_n_n_wf : DotDims.WF S2048x64 S64x512 S2048x512 [1] [0] [0] [1] [] []
  dot_S2048x32_S2048x32_S2048x2048_1_1_0_0_n_n_wf : DotDims.WF S2048x32 S2048x32 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .f32 = 32 ∨ (Rect.block (s := S8192x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x256.size a
  hwx0_2 : ∀ i : grid0.Coords, EltTy.bits .f32 = 32 ∨ (Rect.block (s := S8192x256) S2048x256.size (cc0_transform_2 i) (hinb0_2 i)).WholeWords (EltTy.packing .f32)
  hrank1 : 0 < grid1.rank
  k1_mult1_dvd : ∀ i : grid1.Coords, 2048 ∣ (k1_mult1 i).toNat
  k1_off1_inb : ∀ i : grid1.Coords, ∀ a, (k1_off1 i) a + S2048x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x8192.size a
  hwx1_0 : ∀ i : grid1.Coords, EltTy.bits .bf16 = 32 ∨ (Rect.block (s := S8192x8192) S512x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .f32 = 32 ∨ (Rect.block (s := S8192x256) S8192x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S8192x256.size a
  hwx1_2 : ∀ i : grid1.Coords, EltTy.bits .f32 = 32 ∨ (Rect.block (s := S8192x256) S512x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S8192x256.size a
  hwx2_0 : ∀ i : grid2.Coords, EltTy.bits .f32 = 32 ∨ (Rect.block (s := S8192x256) S2048x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x128.size a ≤ S8192x128.size a
  hwx2_2 : ∀ i : grid2.Coords, EltTy.bits .f32 = 32 ∨ (Rect.block (s := S8192x128) S2048x128.size (cc2_transform_2 i) (hinb2_2 i)).WholeWords (EltTy.packing .f32)
  hrank3 : 0 < grid3.rank
  k3_mult1_dvd : ∀ i : grid3.Coords, 2048 ∣ (k3_mult1 i).toNat
  k3_off1_inb : ∀ i : grid3.Coords, ∀ a, (k3_off1 i) a + S2048x128.size a ≤ S8192x128.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x2048.size a ≤ S8192x8192.size a
  hwx3_0 : ∀ i : grid3.Coords, EltTy.bits .bf16 = 32 ∨ (Rect.block (s := S8192x8192) S512x2048.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8192x128.size a ≤ S8192x128.size a
  hwx3_1 : ∀ i : grid3.Coords, EltTy.bits .f32 = 32 ∨ (Rect.block (s := S8192x128) S8192x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x128.size a ≤ S8192x128.size a
  hwx3_2 : ∀ i : grid3.Coords, EltTy.bits .f32 = 32 ∨ (Rect.block (s := S8192x128) S512x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x128.size a ≤ S8192x128.size a
  hwx4_0 : ∀ i : grid4.Coords, EltTy.bits .f32 = 32 ∨ (Rect.block (s := S8192x128) S2048x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x64.size a ≤ S8192x64.size a
  hwx4_1 : ∀ i : grid4.Coords, EltTy.bits .f32 = 32 ∨ (Rect.block (s := S8192x64) S2048x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x512.size a ≤ S64x512.size a
  hwx4_4 : ∀ i : grid4.Coords, EltTy.bits .f32 = 32 ∨ (Rect.block (s := S64x512) S64x512.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x512.size a ≤ S1x512.size a
  hwx4_5 : ∀ i : grid4.Coords, EltTy.bits .f32 = 32 ∨ (Rect.block (s := S1x512) S1x512.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2048x64.size a ≤ S8192x64.size a
  hwx4_6 : ∀ i : grid4.Coords, EltTy.bits .f32 = 32 ∨ (Rect.block (s := S8192x64) S2048x64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2048x64.size a ≤ S8192x64.size a
  hwx4_7 : ∀ i : grid4.Coords, EltTy.bits .f32 = 32 ∨ (Rect.block (s := S8192x64) S2048x64.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S2048x64.size a ≤ S8192x64.size a
  hwx4_8 : ∀ i : grid4.Coords, EltTy.bits .f32 = 32 ∨ (Rect.block (s := S8192x64) S2048x64.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S2048x512.size a ≤ S8192x512.size a
  hwx4_9 : ∀ i : grid4.Coords, EltTy.bits .f32 = 32 ∨ (Rect.block (s := S8192x512) S2048x512.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x64.size a ≤ S8192x64.size a
  hwx5_0 : ∀ i : grid5.Coords, EltTy.bits .f32 = 32 ∨ (Rect.block (s := S8192x64) S2048x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x64.size a ≤ S8192x64.size a
  hwx5_1 : ∀ i : grid5.Coords, EltTy.bits .f32 = 32 ∨ (Rect.block (s := S8192x64) S2048x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x2048.size a ≤ S8192x8192.size a
  hwx5_2 : ∀ i : grid5.Coords, EltTy.bits .f32 = 32 ∨ (Rect.block (s := S8192x8192) S2048x2048.size (cc5_transform_2 i) (hinb5_2 i)).WholeWords (EltTy.packing .f32)

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x512_S2048x512_1_0_0_1_n_n : DotDims S2048x64 S64x512 S2048x512 where
  lhsContracting := [1]
  rhsContracting := [0]
  lhsNonContracting := [0]
  rhsNonContracting := [1]
  lhsBatch := []
  rhsBatch := []
  wf := dot_S2048x64_S64x512_S2048x512_1_0_0_1_n_n_wf
def dot_S2048x32_S2048x32_S2048x2048_1_1_0_0_n_n : DotDims S2048x32 S2048x32 S2048x2048 where
  lhsContracting := [1]
  rhsContracting := [1]
  lhsNonContracting := [0]
  rhsNonContracting := [0]
  lhsBatch := []
  rhsBatch := []
  wf := dot_S2048x32_S2048x32_S2048x2048_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S512x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v17) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S2048x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v15) S512x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v19) S8192x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v20) S512x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v20) S2048x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg2) S2048x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg6) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v21) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg8) S64x512.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v22) S1x512.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v23_0) S2048x64.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v23_1) S2048x64.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v23_2) S2048x64.size cc4_transform_8 reads4_8 true false 2 stage4_8 sem4_8
    hrank4 hreads4_8 hinb4_8 nbuf4_8 (Memref.isWhole_whole _) hwx4_8 hstage4_8

abbrev win4_9 : Pipeline.Window sig grid4 :=
  Pipeline.Window.ofSpec (Memref.whole main_v23_3) S2048x512.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v23_2) S2048x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v23_2) S2048x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v24) S2048x2048.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S8192x512 : Shape := ⟨2, ![8192, 512]⟩
abbrev S262144 : Shape := ⟨1, ![262144]⟩
abbrev S8192x64 : Shape := ⟨2, ![8192, 64]⟩
abbrev S512x256 : Shape := ⟨2, ![512, 256]⟩
abbrev S256x64 : Shape := ⟨2, ![256, 64]⟩
abbrev S64x64 : Shape := ⟨2, ![64, 64]⟩
abbrev S64 : Shape := ⟨1, ![64]⟩
abbrev S64x512 : Shape := ⟨2, ![64, 512]⟩
abbrev S512 : Shape := ⟨1, ![512]⟩
abbrev S8192x256 : Shape := ⟨2, ![8192, 256]⟩
abbrev S262144x1 : Shape := ⟨2, ![262144, 1]⟩
abbrev S_ : Shape := ⟨0, ![]⟩
abbrev S262144x256 : Shape := ⟨2, ![262144, 256]⟩
abbrev S262144x64 : Shape := ⟨2, ![262144, 64]⟩
abbrev S8192x32 : Shape := ⟨2, ![8192, 32]⟩
abbrev S32x8192 : Shape := ⟨2, ![32, 8192]⟩
abbrev S8192x8192 : Shape := ⟨2, ![8192, 8192]⟩
abbrev S67108864 : Shape := ⟨1, ![67108864]⟩
abbrev S1x64 : Shape := ⟨2, ![1, 64]⟩
abbrev S1x512 : Shape := ⟨2, ![1, 512]⟩

abbrev nBuf : Space → Nat
  | .hbm => 88
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S262144, .f32⟩
  | .hbm, ⟨2, _⟩ => ⟨S8192x64, .f32⟩
  | .hbm, ⟨3, _⟩ => ⟨S512x256, .f32⟩
  | .hbm, ⟨4, _⟩ => ⟨S256x64, .f32⟩
  | .hbm, ⟨5, _⟩ => ⟨S256x64, .f32⟩
  | .hbm, ⟨6, _⟩ => ⟨S64x64, .f32⟩
  | .hbm, ⟨7, _⟩ => ⟨S64, .f32⟩
  | .hbm, ⟨8, _⟩ => ⟨S64x512, .f32⟩
  | .hbm, ⟨9, _⟩ => ⟨S512, .f32⟩
  | .hbm, ⟨10, _⟩ => ⟨S262144, .i32⟩
  | .hbm, ⟨11, _⟩ => ⟨S262144, .i32⟩
  | .hbm, ⟨12, _⟩ => ⟨S8192x256, .f32⟩
  | .hbm, ⟨13, _⟩ => ⟨S262144x1, .f32⟩
  | .hbm, ⟨14, _⟩ => ⟨S_, .i32⟩
  | .hbm, ⟨15, _⟩ => ⟨S262144, .i32⟩
  | .hbm, ⟨16, _⟩ => ⟨S262144, .i1⟩
  | .hbm, ⟨17, _⟩ => ⟨S_, .i32⟩
  | .hbm, ⟨18, _⟩ => ⟨S262144, .i32⟩
  | .hbm, ⟨19, _⟩ => ⟨S262144, .i32⟩
  | .hbm, ⟨20, _⟩ => ⟨S262144, .i32⟩
  | .hbm, ⟨21, _⟩ => ⟨S262144x1, .i32⟩
  | .hbm, ⟨22, _⟩ => ⟨S262144x256, .f32⟩
  | .hbm, ⟨23, _⟩ => ⟨S262144x256, .f32⟩
  | .hbm, ⟨24, _⟩ => ⟨S262144x256, .f32⟩
  | .hbm, ⟨25, _⟩ => ⟨S_, .f32⟩
  | .hbm, ⟨26, _⟩ => ⟨S8192x256, .f32⟩
  | .hbm, ⟨27, _⟩ => ⟨S262144x1, .i32⟩
  | .hbm, ⟨28, _⟩ => ⟨S8192x256, .f32⟩
  | .hbm, ⟨29, _⟩ => ⟨S_, .f32⟩
  | .hbm, ⟨30, _⟩ => ⟨S8192x256, .f32⟩
  | .hbm, ⟨31, _⟩ => ⟨S8192x256, .f32⟩
  | .hbm, ⟨32, _⟩ => ⟨S8192x64, .f32⟩
  | .hbm, ⟨33, _⟩ => ⟨S262144x1, .f32⟩
  | .hbm, ⟨34, _⟩ => ⟨S_, .i32⟩
  | .hbm, ⟨35, _⟩ => ⟨S262144, .i32⟩
  | .hbm, ⟨36, _⟩ => ⟨S262144, .i1⟩
  | .hbm, ⟨37, _⟩ => ⟨S_, .i32⟩
  | .hbm, ⟨38, _⟩ => ⟨S262144, .i32⟩
  | .hbm, ⟨39, _⟩ => ⟨S262144, .i32⟩
  | .hbm, ⟨40, _⟩ => ⟨S262144, .i32⟩
  | .hbm, ⟨41, _⟩ => ⟨S262144x1, .i32⟩
  | .hbm, ⟨42, _⟩ => ⟨S262144x64, .f32⟩
  | .hbm, ⟨43, _⟩ => ⟨S262144x64, .f32⟩
  | .hbm, ⟨44, _⟩ => ⟨S262144x64, .f32⟩
  | .hbm, ⟨45, _⟩ => ⟨S_, .f32⟩
  | .hbm, ⟨46, _⟩ => ⟨S8192x64, .f32⟩
  | .hbm, ⟨47, _⟩ => ⟨S262144x1, .i32⟩
  | .hbm, ⟨48, _⟩ => ⟨S8192x64, .f32⟩
  | .hbm, ⟨49, _⟩ => ⟨S8192x64, .f32⟩
  | .hbm, ⟨50, _⟩ => ⟨S262144x1, .f32⟩
  | .hbm, ⟨51, _⟩ => ⟨S_, .i32⟩
  | .hbm, ⟨52, _⟩ => ⟨S262144, .i32⟩
  | .hbm, ⟨53, _⟩ => ⟨S262144, .i1⟩
  | .hbm, ⟨54, _⟩ => ⟨S_, .i32⟩
  | .hbm, ⟨55, _⟩ => ⟨S262144, .i32⟩
  | .hbm, ⟨56, _⟩ => ⟨S262144, .i32⟩
  | .hbm, ⟨57, _⟩ => ⟨S262144, .i32⟩
  | .hbm, ⟨58, _⟩ => ⟨S262144x1, .i32⟩
  | .hbm, ⟨59, _⟩ => ⟨S262144x64, .f32⟩
  | .hbm, ⟨60, _⟩ => ⟨S262144x64, .f32⟩
  | .hbm, ⟨61, _⟩ => ⟨S262144x64, .f32⟩
  | .hbm, ⟨62, _⟩ => ⟨S_, .f32⟩
  | .hbm, ⟨63, _⟩ => ⟨S8192x64, .f32⟩
  | .hbm, ⟨64, _⟩ => ⟨S262144x1, .i32⟩
  | .hbm, ⟨65, _⟩ => ⟨S8192x64, .f32⟩
  | .hbm, ⟨66, _⟩ => ⟨S8192x64, .f32⟩
  | .hbm, ⟨67, _⟩ => ⟨S8192x64, .f32⟩
  | .hbm, ⟨68, _⟩ => ⟨S8192x64, .f32⟩
  | .hbm, ⟨69, _⟩ => ⟨S8192x32, .f32⟩
  | .hbm, ⟨70, _⟩ => ⟨S8192x32, .f32⟩
  | .hbm, ⟨71, _⟩ => ⟨S32x8192, .f32⟩
  | .hbm, ⟨72, _⟩ => ⟨S8192x8192, .f32⟩
  | .hbm, ⟨73, _⟩ => ⟨S67108864, .f32⟩
  | .hbm, ⟨74, _⟩ => ⟨S8192x64, .f32⟩
  | .hbm, ⟨75, _⟩ => ⟨S1x64, .f32⟩
  | .hbm, ⟨76, _⟩ => ⟨S8192x64, .f32⟩
  | .hbm, ⟨77, _⟩ => ⟨S8192x64, .f32⟩
  | .hbm, ⟨78, _⟩ => ⟨S_, .f32⟩
  | .hbm, ⟨79, _⟩ => ⟨S8192x64, .f32⟩
  | .hbm, ⟨80, _⟩ => ⟨S8192x64, .f32⟩
  | .hbm, ⟨81, _⟩ => ⟨S8192x512, .f32⟩
  | .hbm, ⟨82, _⟩ => ⟨S1x512, .f32⟩
  | .hbm, ⟨83, _⟩ => ⟨S8192x512, .f32⟩
  | .hbm, ⟨84, _⟩ => ⟨S8192x512, .f32⟩
  | .hbm, ⟨85, _⟩ => ⟨S_, .f32⟩
  | .hbm, ⟨86, _⟩ => ⟨S8192x512, .f32⟩
  | .hbm, ⟨87, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call0_cst : Ref sig .tc := ⟨.hbm, 29, rfl⟩
abbrev main_call0_v0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_1 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_4 : Ref sig .tc := ⟨.hbm, 51, rfl⟩
abbrev main_v31 : Ref sig .tc := ⟨.hbm, 52, rfl⟩
abbrev main_v32 : Ref sig .tc := ⟨.hbm, 53, rfl⟩
abbrev main_c_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_6 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_call1_cst : Ref sig .tc := ⟨.hbm, 78, rfl⟩
abbrev main_call1_v0 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_call2_cst : Ref sig .tc := ⟨.hbm, 85, rfl⟩
abbrev main_call2_v0 : Ref sig .tc := ⟨.hbm, 86, rfl⟩
abbrev main_v60 : Ref sig .tc := ⟨.hbm, 87, rfl⟩

abbrev nD : Nat := 1
abbrev τ : Topo := Topo.v7x

variable {F : FTy → Type} [FloatOps F]

class Facts₀ : Prop where
  bcast_S262144_S262144x1_0 : S262144.BroadcastsInDim S262144x1 (![0] : Fin 1 → Fin S262144x1.rank)
  bcast_S_S262144 : S_.BroadcastsInDim S262144 (![] : Fin 0 → Fin S262144.rank)
  bcast_S262144x1_S262144x256_0_1 : S262144x1.BroadcastsInDim S262144x256 (![0, 1] : Fin 2 → Fin S262144x256.rank)
  bcast_S_S8192x256 : S_.BroadcastsInDim S8192x256 (![] : Fin 0 → Fin S8192x256.rank)
  bcast_S262144x1_S262144x64_0_1 : S262144x1.BroadcastsInDim S262144x64 (![0, 1] : Fin 2 → Fin S262144x64.rank)
  bcast_S_S8192x64 : S_.BroadcastsInDim S8192x64 (![] : Fin 0 → Fin S8192x64.rank)
  slices_S8192x64_S8192x32_0_0 : S8192x64.Slices ![0, 0] S8192x32
  slices_S8192x64_S8192x32_0_32 : S8192x64.Slices ![0, 32] S8192x32
  transposes_S8192x32_S32x8192_1_0 : S8192x32.Transposes [1, 0] S32x8192
  shapeCasts_S8192x8192_S67108864 : S8192x8192.ShapeCasts S67108864
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  dot_S8192x512_S512x256_S8192x256_1_0_0_1_n_n_wf : DotDims.WF S8192x512 S512x256 S8192x256 [1] [0] [0] [1] [] []
  gather_S8192x256_S262144x1_S262144x256_1_0_n_n_0_1_1256_wf : GatherDims.WF S8192x256 S262144x1 S262144x256 [1] [0] [] [0] [] 1 ![1, 256]
  scatter_S8192x256_S262144x1_S262144x256_1_0_0_1_wf : ScatterDims.WF S8192x256 S262144x1 S262144x256 [1] [0] [0] 1
  dot_S8192x256_S256x64_S8192x64_1_0_0_1_n_n_wf : DotDims.WF S8192x256 S256x64 S8192x64 [1] [0] [0] [1] [] []
  gather_S8192x64_S262144x1_S262144x64_1_0_n_n_0_1_164_wf : GatherDims.WF S8192x64 S262144x1 S262144x64 [1] [0] [] [0] [] 1 ![1, 64]
  scatter_S8192x64_S262144x1_S262144x64_1_0_0_1_wf : ScatterDims.WF S8192x64 S262144x1 S262144x64 [1] [0] [0] 1
  dot_S8192x32_S32x8192_S8192x8192_1_0_0_1_n_n_wf : DotDims.WF S8192x32 S32x8192 S8192x8192 [1] [0] [0] [1] [] []
  dot_S8192x64_S64x64_S8192x64_1_0_0_1_n_n_wf : DotDims.WF S8192x64 S64x64 S8192x64 [1] [0] [0] [1] [] []
  dot_S8192x64_S64x512_S8192x512_1_0_0_1_n_n_wf : DotDims.WF S8192x64 S64x512 S8192x512 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def gather_S8192x64_S262144x1_S262144x64_1_0_n_n_0_1_164 : GatherDims S8192x64 S262144x1 S262144x64 where
  offsetDims := [1]
  collapsedSliceDims := [0]
  operandBatchingDims := []
  startIndicesBatchingDims := []
  startIndexMap := [0]
  indexVectorDim := 1
  sliceSizes := ![1, 64]
  wf := gather_S8192x64_S262144x1_S262144x64_1_0_n_n_0_1_164_wf
def scatter_S8192x64_S262144x1_S262144x64_1_0_0_1 : ScatterDims S8192x64 S262144x1 S262144x64 where
  updateWindowDims := [1]
  insertedWindowDims := [0]
  scatterDimsToOperandDims := [0]
  indexVectorDim := 1
  wf := scatter_S8192x64_S262144x1_S262144x64_1_0_0_1_wf
def dot_S8192x32_S32x8192_S8192x8192_1_0_0_1_n_n : DotDims S8192x32 S32x8192 S8192x8192 where
  lhsContracting := [1]
  rhsContracting := [0]
  lhsNonContracting := [0]
  rhsNonContracting := [1]
  lhsBatch := []
  rhsBatch := []
  wf := dot_S8192x32_S32x8192_S8192x8192_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x512_S8192x512_1_0_0_1_n_n : DotDims S8192x64 S64x512 S8192x512 where
  lhsContracting := [1]
  rhsContracting := [0]
  lhsNonContracting := [0]
  rhsNonContracting := [1]
  lhsBatch := []
  rhsBatch := []
  wf := dot_S8192x64_S64x512_S8192x512_1_0_0_1_n_n_wf

class Facts : Prop extends Facts₀ where

variable [Facts]
-- ==== Proof.K.Reg0.lean ====
/-
  Region 0: the first dense projection. Grid point t takes rows [2048 t, 2048 t + 2048) of the feature
  matrix (window 0), the whole weight matrix W1 (window 1, fetched once) and leaves in the output block
  (window 2) the product of the two, both rounded to bf16 on the way in, accumulated from zero. Stated at
  a parameter V: the TensorCore's buffer contents when the region is entered.
-/
import proofs.«128750_j2551210574751_2_alg».proof.Proof.Gen.Kernel.Launch
import proofs.«128750_j2551210574751_2_alg».proof.Proof.Gen.Kernel.Skeleton
import proofs.«128750_j2551210574751_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds its row block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the whole weight matrix at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_x : Rect S2048x512 := Rect.unit (s := S2048x512) ![0, 0] S2048x512.size inb_S2048x512_S2048x512_0_0
abbrev r0_w : Rect S512x256 := Rect.unit (s := S512x256) ![0, 0] S512x256.size inb_S512x256_S512x256_0_0
abbrev r0_o : Rect S2048x256 := Rect.unit (s := S2048x256) ![0, 0] S2048x256.size inb_S2048x256_S2048x256_0_0

/-- What the body leaves in the output block: its one whole store, the product of the two loaded blocks. -/
def out0_2 (x : Vec F S2048x512 .f32) (w : Vec F S512x256 .f32) : Vec F S2048x256 .f32 :=
  View.canon [⟨r0_o, k0_pay1 (View.ld x r0_x) (View.ld w r0_w)⟩]

/-- The one store covers the block. -/
theorem cover0_2 (p0 : Vec F S2048x256 .f32) (y : S2048x256.Idx) :
    ∃ pc ∈ ([⟨r0_o, p0⟩] : List (View.Piece (Elt F) S2048x256 .f32)), y ∈ pc.1.set :=
  View.cover_of_tiled [⟨r0_o, p0⟩] S2048x256.size (by rfl) y

/-! ## The body's triple -/

set_option maxHeartbeats 1000000 in
/-- The body on whole staging memrefs: the inputs' at contents x and w, the output's at anything; it ends with
    the inputs as they were and the output at the product. -/
theorem sound_kernel0 (c : Dev nD) (E : Set ℕ) (i : grid0.Coords)
    (arg1 : Memref sig .tc .vmem S2048x512 .f32) (harg1 : arg1.IsWhole)
    (arg2 : Memref sig .tc .vmem S512x256 .f32) (harg2 : arg2.IsWhole)
    (arg3 : Memref sig .tc .vmem S2048x256 .f32) (harg3 : arg3.IsWhole)
    (x : Vec F S2048x512 .f32) (w : Vec F S512x256 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (out0_2 x w)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_2 _)

/-! ## The proof data -/

/-- Region 0's proof data on core c: the arrays as the region finds them; after the body at point t each input's buffer
    at its block and the output's at the product of the two input blocks; the class invariant; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1Body.lean ====
import proofs.«128750_j2551210574751_2_alg».proof.Proof.Gen.Kernel.Launch
import proofs.«128750_j2551210574751_2_alg».proof.Proof.Gen.Kernel.Skeleton
import proofs.«128750_j2551210574751_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The reduction kernel of pallas_call 1 on whole staging memrefs

The kernel accumulates, over the four reduction coordinates `k` of one row block, the products of the
row block's `k`-th column block of the left factor with rows `[2048 k, 2048 k + 2048)` of the right
factor, in a scratch accumulator it zeroes at `k = 0` and copies to the output block at `k = 3`.
Here: one reduction step as a function of the contents read, and the body's triple in each of the three
cases of its two conditions. -/

/-! ## The body's accesses -/

/-- The whole accumulator block (also the whole output block). -/
abbrev rS1 : Rect S512x256 := Rect.unit (s := S512x256) ![0, 0] S512x256.size inb_S512x256_S512x256_0_0
/-- The whole block of the left factor. -/
abbrev rA1 : Rect S512x2048 := Rect.unit (s := S512x2048) ![0, 0] S512x2048.size inb_S512x2048_S512x2048_0_0
/-- The rows of the right factor the point's reduction step reads: 2048 rows from row `2048 k` on. -/
abbrev rH1 (i : grid1.Coords) : Rect S8192x256 := Rect.unit (s := S8192x256) (k1_off1 i) S2048x256.size (k1_off1_inb i)

/-- The zero offsets are zero at each axis. -/
theorem offs_zero1 : (![0, 0] : Fin 2 → Nat) = fun _ => 0 := funext fun a => by fin_cases a <;> rfl

/-- One reduction step at grid point `i`: the accumulator `s` plus the product of the left block `a` with the
    rows of the right factor `h` that the point reads (each factor rounded to bf16 first, the product and the sum
    in f32: the payload of the accumulator's store). -/
def step1 (i : grid1.Coords) (a : Vec F S512x2048 .bf16) (h : Vec F S8192x256 .f32) (s : Vec F S512x256 .f32) : Vec F S512x256 .f32 :=
  k1_pay2 (View.ld h (rH1 i)) s a

theorem step1_eq (i : grid1.Coords) (a : Vec F S512x2048 .bf16) (h : Vec F S8192x256 .f32) (s : Vec F S512x256 .f32) :
    step1 i a h s = k1_pay2 (View.ld h (rH1 i)) s a := rfl

/-! ## The body's branch conditions -/

/-- The reset's condition (the reduction coordinate is 0), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 4) — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The write-out's condition (the reduction coordinate is 3). -/
abbrev cond1_1 (i : grid1.Coords) : Prop := k1_cond2 i = 1#1
/-- It holds at the points ≡ 3 (mod 4) — decided over the grid. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The two inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
/-- Where the write-out's condition fails the output block is idle and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- Where it holds the output block is live. -/
theorem liveAt1_2 : ∀ t : Fin cfg1.N, cond1_1 (grid1.coords t) → cfg1.idle 2 (grid1.coords t) = false := by decide +kernel

/-! ## The body's triple, case by case

On whole staging memrefs — the two factors' at read contents `x0`, `x1` — the body runs to the continuation holding the
factors' as they were and the accumulator at one step from where it started: from zero where the reset's condition
holds (the accumulator's contents before do not matter), from its contents `xs` otherwise. The output block is handed
back as found (`xi`) unless the write-out's condition holds; then it is left at the accumulator's new contents. -/

set_option maxHeartbeats 1000000 in
theorem kernel1_A (c : Dev nD) (i : grid1.Coords) (arg2 : Memref sig .tc .vmem S512x2048 .bf16) (harg2 : arg2.IsWhole) (arg3 : Memref sig .tc .vmem S8192x256 .f32) (harg3 : arg3.IsWhole) (arg4 : Memref sig .tc .vmem S512x256 .f32) (harg4 : arg4.IsWhole) (arg5 : Memref sig .tc .vmem S512x256 .f32) (harg5 : arg5.IsWhole)
    (hc0 : cond1_0 i) (hc1 : ¬cond1_1 i)
    (x0 : Vec F S512x2048 .bf16) (x1 : Vec F S8192x256 .f32) (xi : Vec F S512x256 .f32) (E : Set ℕ) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
        ∗ (iprop(owns (c : Thread nD τ) arg2 fullShare x0 ∗ owns (c : Thread nD τ) arg3 fullShare x1 ∗ owns (c : Thread nD τ) arg4 fullShare xi ∗ owns (c : Thread nD τ) arg5 fullShare (step1 i x0 x1 (k1_pay1 (F := F)))) -∗ K ⟨⟩))
      ⊢ wp frame (wpE (defs₀ (F := F)) Variants.none c none) E (cc1__spmm_dense_kernel i arg2 harg2 arg3 harg3 arg4 harg4 arg5 harg5) K := by
  simp only [cc1__spmm_dense_kernel_eq_skeleton]; unfold cc1__spmm_dense_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [View.read_writes_eq_canon _ _ _ (fun y => ⟨_, List.mem_cons_self, View.mem_set_unit_zero offs_zero1 inb_S512x256_S512x256_0_0 y⟩), View.canon_cons_unit_zero (S := S512x256) offs_zero1, View.readCov_unit_zero (S := S512x256) _ offs_zero1]
  unfold step1
  simp only [View.readAt_eq_ld, View.ld_unit_zero (S := S512x256) offs_zero1, View.ld_unit_zero (S := S512x2048) offs_zero1]

set_option maxHeartbeats 1000000 in
theorem kernel1_B (c : Dev nD) (i : grid1.Coords) (arg2 : Memref sig .tc .vmem S512x2048 .bf16) (harg2 : arg2.IsWhole) (arg3 : Memref sig .tc .vmem S8192x256 .f32) (harg3 : arg3.IsWhole) (arg4 : Memref sig .tc .vmem S512x256 .f32) (harg4 : arg4.IsWhole) (arg5 : Memref sig .tc .vmem S512x256 .f32) (harg5 : arg5.IsWhole)
    (hc0 : ¬cond1_0 i) (hc1 : ¬cond1_1 i)
    (x0 : Vec F S512x2048 .bf16) (x1 : Vec F S8192x256 .f32) (xi : Vec F S512x256 .f32) (xs : Vec F S512x256 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (step1 i x0 x1 xs)) -∗ K ⟨⟩))
      ⊢ wp frame (wpE (defs₀ (F := F)) Variants.none c none) E (cc1__spmm_dense_kernel i arg2 harg2 arg3 harg3 arg4 harg4 arg5 harg5) K := by
  simp only [cc1__spmm_dense_kernel_eq_skeleton]; unfold cc1__spmm_dense_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  rw [View.read_writes_eq_canon _ _ _ (fun y => ⟨_, List.mem_singleton_self _, View.mem_set_unit_zero offs_zero1 inb_S512x256_S512x256_0_0 y⟩), View.canon_unit_zero offs_zero1]
  unfold step1
  simp only [View.readAt_eq_ld, View.ld_unit_zero (S := S512x256) offs_zero1, View.ld_unit_zero (S := S512x2048) offs_zero1]

set_option maxHeartbeats 1000000 in
theorem kernel1_C (c : Dev nD) (i : grid1.Coords) (arg2 : Memref sig .tc .vmem S512x2048 .bf16) (harg2 : arg2.IsWhole) (arg3 : Memref sig .tc .vmem S8192x256 .f32) (harg3 : arg3.IsWhole) (arg4 : Memref sig .tc .vmem S512x256 .f32) (harg4 : arg4.IsWhole) (arg5 : Memref sig .tc .vmem S512x256 .f32) (harg5 : arg5.IsWhole)
    (hc0 : ¬cond1_0 i) (hc1 : cond1_1 i)
    (x0 : Vec F S512x2048 .bf16) (x1 : Vec F S8192x256 .f32) (xs : Vec F S512x256 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (step1 i x0 x1 xs) ∗ owns (c : Thread nD τ) arg5 fullShare (step1 i x0 x1 xs)) -∗ K ⟨⟩))
      ⊢ wp frame (wpE (defs₀ (F := F)) Variants.none c none) E (cc1__spmm_dense_kernel i arg2 harg2 arg3 harg3 arg4 harg4 arg5 harg5) K := by
  simp only [cc1__spmm_dense_kernel_eq_skeleton]; unfold cc1__spmm_dense_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (fun y => ⟨_, List.mem_singleton_self _, View.mem_set_unit_zero offs_zero1 inb_S512x256_S512x256_0_0 y⟩), View.canon_unit_zero offs_zero1, View.readCov_unit_zero (S := S512x256) _ offs_zero1]
    unfold step1
    simp only [View.readAt_eq_ld, View.ld_unit_zero (S := S512x256) offs_zero1, View.ld_unit_zero (S := S512x2048) offs_zero1]
  iexists _; isplitr
  swap; · iexact HS
  ipureintro
  sl_unfold_run_names
  rw [View.read_writes_eq_canon _ _ _ (fun y => ⟨_, List.mem_singleton_self _, View.mem_set_unit_zero offs_zero1 inb_S512x256_S512x256_0_0 y⟩), View.canon_unit_zero offs_zero1]
  unfold step1
  simp only [View.readAt_eq_ld, View.ld_unit_zero (S := S512x256) offs_zero1, View.ld_unit_zero (S := S512x2048) offs_zero1]

end Cert.Kernel.Hand

end
-- ==== Proof.K.Reg1.lean ====
import proofs.«128750_j2551210574751_2_alg».proof.Proof.K.Reg1Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The frame of pallas_call 1 (the reduction over four column blocks), at the entry contents `V`

The proof data of the pipeline at a PARAMETER `V` (the TensorCore's buffer contents when the region is
entered): each window's block at a point, the accumulator's contents after each point (a recursion over the
points: from zero at the first of every four, one step further at each), the invariant that carries the
accumulator between points, the body obligation, and the invariant's two ends. -/

section Region1
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (not fetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator after each point -/

/-- The accumulator's contents after the first `n` points (`n = 0`: nothing has run, the value is not used): one
    step from zero at a point whose reduction coordinate is 0, one step from the contents before otherwise. -/
def acc1 (c : Dev nD) : (n : ℕ) → Vec F S512x256 .f32
  | 0 => k1_pay1
  | n + 1 =>
    if h : n < cfg1.N then
      step1 (grid1.coords ⟨n, h⟩) (iblk1 V c 0 ⟨n, h⟩) (iblk1 V c 1 ⟨n, h⟩) (if n % 4 = 0 then k1_pay1 else acc1 c n)
    else k1_pay1

/-- After a point whose reduction coordinate is 0: one step from zero. -/
theorem acc1_succ_reset (c : Dev nD) (t : Fin cfg1.N) (h : t.val % 4 = 0) :
    acc1 V c (t.val + 1) = step1 (grid1.coords t) (iblk1 V c 0 t) (iblk1 V c 1 t) (k1_pay1 (F := F)) := by
  obtain ⟨n, hn⟩ := t
  rw [acc1, dif_pos hn, if_pos h]

/-- After any other point: one step from the contents before it. -/
theorem acc1_succ_add (c : Dev nD) (t : Fin cfg1.N) (h : ¬t.val % 4 = 0) :
    acc1 V c (t.val + 1) = step1 (grid1.coords t) (iblk1 V c 0 t) (iblk1 V c 1 t) (acc1 V c t.val) := by
  obtain ⟨n, hn⟩ := t
  rw [acc1, dif_pos hn, if_neg h]

/-! ## The invariant: the accumulator carried between points -/

/-- The kernel's scratch operand: a whole scoped buffer of its own. -/
abbrev scM1 : Memref sig .tc .vmem S512x256 .f32 := Memref.whole cc1_scratch0

/-- Before position `n`: the accumulator at what the points before left (before the first point: at anything), the
    rest of the scoped buffers that are no staging buffer, and the generator register at some state. -/
def Phi1 (c : Dev nD) : ℕ → sProp 𝕄
  | 0 => iprop(iprop(∃ d, owns (c : Thread nD τ) scM1 fullShare d) ∗ Pipeline.scopedRestBut spec1 c [cc1_scratch0] ∗ (∃ r, prngReg c r))
  | n + 1 => iprop(owns (c : Thread nD τ) scM1 fullShare (acc1 V c (n + 1)) ∗ Pipeline.scopedRestBut spec1 c [cc1_scratch0] ∗ (∃ r, prngReg c r))

theorem Phi1_zero (c : Dev nD) (n : ℕ) (hz : n = 0) :
    Phi1 V c n = iprop(iprop(∃ d, owns (c : Thread nD τ) scM1 fullShare d) ∗ Pipeline.scopedRestBut spec1 c [cc1_scratch0] ∗ (∃ r, prngReg c r)) := by
  subst hz; rfl
theorem Phi1_succ (c : Dev nD) (n : ℕ) :
    Phi1 V c (n + 1) = iprop(owns (c : Thread nD τ) scM1 fullShare (acc1 V c (n + 1)) ∗ Pipeline.scopedRestBut spec1 c [cc1_scratch0] ∗ (∃ r, prngReg c r)) := rfl
theorem Phi1_pos (c : Dev nD) (n : ℕ) (hz : n ≠ 0) :
    Phi1 V c n = iprop(owns (c : Thread nD τ) scM1 fullShare (acc1 V c n) ∗ Pipeline.scopedRestBut spec1 c [cc1_scratch0] ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and the output's at the accumulator after `t` (consulted only where the output is
    stored: elsewhere the window is idle and not written back); the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c (t.val + 1)
  Φ t := Phi1 V c t.val
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem Phi1_castSucc (c : Dev nD) (t : Fin cfg1.N) : (dat1 V c).Φ t.castSucc = Phi1 V c t.val := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c (t.val + 1) := by dsimp only [dat1]

/-- Where the output block is written back it holds the accumulator after the point. -/
theorem after1_2_flush (c : Dev nD) (t : Fin cfg1.N) (h : t.val % 4 = 3) : (dat1 V c).after 2 t = acc1 V c (t.val + 1) :=
  after1_2 V c t

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' memrefs hold their blocks; the point's position mod 4 says which case of the two
    conditions it is in. The invariant hands the body the accumulator at what the points before left (where the reset's
    condition holds its contents do not matter) and takes it back one step further; the output block is handed back as
    found except where it is stored; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) from rfl, Phi1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [Phi1_castSucc V c t]
  have hN : t.val < 64 := lt_of_lt_of_eq t.isLt (show cfg1.N = 64 from N_1)
  by_cases h0 : t.val % 4 = 0
  · have h1 : ¬t.val % 4 = 3 := by omega
    have hc0 : cond1_0 (grid1.coords t) := (hcond1_0 t).mpr h0
    have hc1 : ¬cond1_1 (grid1.coords t) := fun h => h1 ((hcond1_1 t).mp h)
    rw [Dat.leavesExact_idle (dat1 V c) 2 t (idleAt1_2 t hc1) (noFlush1_2 t hc1)]
    rw [acc1_succ_reset V c t h0]
    by_cases hz : t.val = 0
    · rw [Phi1_zero V c _ hz]
      iintro ⟨⟨HS, HR, Hg⟩, Ho, ⟨%d0, H0⟩, ⟨%d1, H1⟩, ⟨%d2, H2⟩⟩
      iapply (kernel1_A c (grid1.coords t) _ _ _ _ _ _ _ _ hc0 hc1 (iblk1 V c 0 t) (iblk1 V c 1 t) _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
    · rw [Phi1_pos V c _ hz]
      iintro ⟨⟨HS, HR, Hg⟩, Ho, ⟨%d0, H0⟩, ⟨%d1, H1⟩, ⟨%d2, H2⟩⟩
      iapply (kernel1_A c (grid1.coords t) _ _ _ _ _ _ _ _ hc0 hc1 (iblk1 V c 0 t) (iblk1 V c 1 t) _ Set.univ _)
      isplitl [H0]; · iexact H0
      isplitl [H1]; · iexact H1
      isplitl [H2]; · iexact H2
      isplitl [HS]; · iexists _; iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
  · have hz : t.val ≠ 0 := fun h => h0 (by rw [h])
    have hc0 : ¬cond1_0 (grid1.coords t) := fun h => h0 ((hcond1_0 t).mp h)
    rw [acc1_succ_add V c t h0, Phi1_pos V c _ hz]
    by_cases h1 : t.val % 4 = 3
    · have hc1 : cond1_1 (grid1.coords t) := (hcond1_1 t).mpr h1
      rw [show (dat1 V c).leavesExact 2 t = owns (c : Thread nD τ) (st1_2 t) fullShare ((dat1 V c).after 2 t) from by
        unfold Dat.leavesExact; rw [liveAt1_2 t hc1], after1_2, acc1_succ_add V c t h0]
      iintro ⟨⟨HS, HR, Hg⟩, Ho, ⟨%d0, H0⟩, ⟨%d1, H1⟩, ⟨%d2, H2⟩⟩
      iapply (kernel1_C c (grid1.coords t) _ _ _ _ _ _ _ _ hc0 hc1 (iblk1 V c 0 t) (iblk1 V c 1 t) _ Set.univ _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 t hc1) (noFlush1_2 t hc1)]
      iintro ⟨⟨HS, HR, Hg⟩, Ho, ⟨%d0, H0⟩, ⟨%d1, H1⟩, ⟨%d2, H2⟩⟩
      iapply (kernel1_B c (grid1.coords t) _ _ _ _ _ _ _ _ hc0 hc1 (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/

/-- The generator register and the scoped buffers that are no staging buffer make the invariant before the first
    point: the scratch is among them, at some contents. -/
theorem Phi1_in (c : Dev nD) : (iprop((∃ r, prngReg c r) ∗ Pipeline.scopedRest spec1 c) : sProp 𝕄) ⊢ (dat1 V c).Φ 0 := by
  rw [show (dat1 V c).Φ 0 = Phi1 V c 0 from rfl, Phi1_zero V c 0 rfl, scopedRest1_split]
  simp only [scM1, owns_whole]
  iintro ⟨Hg, HS, HR⟩
  isplitl [HS]; · iexact HS
  isplitl [HR]; · iexact HR
  iexact Hg

/-- After the last point the invariant gives them back: the accumulator's contents are forgotten. -/
theorem Phi1_out (c : Dev nD) : (dat1 V c).Φ (Fin.last cfg1.N) ⊢ (iprop((∃ r, prngReg c r) ∗ Pipeline.scopedRest spec1 c) : sProp 𝕄) := by
  rw [show (dat1 V c).Φ (Fin.last cfg1.N) = Phi1 V c (Fin.last cfg1.N).val from rfl,
    Phi1_pos V c _ (by rw [Fin.val_last]; have : cfg1.N = 64 := N_1; omega), scopedRest1_split]
  simp only [scM1, owns_whole]
  iintro ⟨HS, HR, Hg⟩
  isplitl [Hg]; · iexact Hg
  isplitl [HS]; · iexists _; iexact HS
  iexact HR

end Region1

end Cert.Kernel.Hand

end
-- ==== Proof.K.Reg2.lean ====
/-
  Region 2: the second dense projection. Grid point t takes rows [2048 t, 2048 t + 2048) of the aggregated
  hidden features (window 0), the whole combined weight matrix (window 1, fetched once) and leaves in the
  output block (window 2) the product of the positive part of the row block and the weights, both rounded
  to bf16 on the way in, accumulated from zero. Stated at a parameter V: the TensorCore's buffer contents
  when the region is entered.
-/
import proofs.«128750_j2551210574751_2_alg».proof.Proof.Gen.Kernel.Launch
import proofs.«128750_j2551210574751_2_alg».proof.Proof.Gen.Kernel.Skeleton
import proofs.«128750_j2551210574751_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The hidden-feature window's staging buffer holds its row block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight window's staging buffer holds the whole weight matrix at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_x : Rect S2048x256 := Rect.unit (s := S2048x256) ![0, 0] S2048x256.size inb_S2048x256_S2048x256_0_0
abbrev r2_w : Rect S256x128 := Rect.unit (s := S256x128) ![0, 0] S256x128.size inb_S256x128_S256x128_0_0
abbrev r2_o : Rect S2048x128 := Rect.unit (s := S2048x128) ![0, 0] S2048x128.size inb_S2048x128_S2048x128_0_0

/-- What the body leaves in the output block: its one whole store, the product of the
    positive part of the loaded row block and the loaded weights. -/
def out2_2 (x : Vec F S2048x256 .f32) (w : Vec F S256x128 .f32) : Vec F S2048x128 .f32 :=
  View.canon [⟨r2_o, k2_pay1 (View.ld x r2_x) (View.ld w r2_w)⟩]

/-- The one store covers the block. -/
theorem cover2_2 (p0 : Vec F S2048x128 .f32) (y : S2048x128.Idx) :
    ∃ pc ∈ ([⟨r2_o, p0⟩] : List (View.Piece (Elt F) S2048x128 .f32)), y ∈ pc.1.set :=
  View.cover_of_tiled [⟨r2_o, p0⟩] S2048x128.size (by rfl) y

/-! ## The body's triple -/

set_option maxHeartbeats 1000000 in
/-- The body on whole staging memrefs: the inputs' at contents x and w, the output's at anything; it ends with
    the inputs as they were and the output at the product. -/
theorem sound_kernel2 (c : Dev nD) (E : Set ℕ) (i : grid2.Coords)
    (arg1 : Memref sig .tc .vmem S2048x256 .f32) (harg1 : arg1.IsWhole)
    (arg2 : Memref sig .tc .vmem S256x128 .f32) (harg2 : arg2.IsWhole)
    (arg3 : Memref sig .tc .vmem S2048x128 .f32) (harg3 : arg3.IsWhole)
    (x : Vec F S2048x256 .f32) (w : Vec F S256x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (out2_2 x w)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_2 _)

/-! ## The proof data -/

/-- Region 2's proof data on core c: the arrays as the region finds them; after the body at point t each input's buffer
    at its block and the output's at the product of the two input blocks; the class invariant; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3Body.lean ====
import proofs.«128750_j2551210574751_2_alg».proof.Proof.Gen.Kernel.Launch
import proofs.«128750_j2551210574751_2_alg».proof.Proof.Gen.Kernel.Skeleton
import proofs.«128750_j2551210574751_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The reduction kernel of pallas_call 3 on whole staging memrefs

The kernel accumulates, over the four reduction coordinates `k` of one row block, the products of the
row block's `k`-th column block of the left factor with rows `[2048 k, 2048 k + 2048)` of the right
factor, in a scratch accumulator it zeroes at `k = 0` and copies to the output block at `k = 3`.
Here: one reduction step as a function of the contents read, and the body's triple in each of the three
cases of its two conditions. -/

/-! ## The body's accesses -/

/-- The whole accumulator block (also the whole output block). -/
abbrev rS3 : Rect S512x128 := Rect.unit (s := S512x128) ![0, 0] S512x128.size inb_S512x128_S512x128_0_0
/-- The whole block of the left factor. -/
abbrev rA3 : Rect S512x2048 := Rect.unit (s := S512x2048) ![0, 0] S512x2048.size inb_S512x2048_S512x2048_0_0
/-- The rows of the right factor the point's reduction step reads: 2048 rows from row `2048 k` on. -/
abbrev rH3 (i : grid3.Coords) : Rect S8192x128 := Rect.unit (s := S8192x128) (k3_off1 i) S2048x128.size (k3_off1_inb i)

/-- The zero offsets are zero at each axis. -/
theorem offs_zero3 : (![0, 0] : Fin 2 → Nat) = fun _ => 0 := funext fun a => by fin_cases a <;> rfl

/-- One reduction step at grid point `i`: the accumulator `s` plus the product of the left block `a` with the
    rows of the right factor `h` that the point reads (each factor rounded to bf16 first, the product and the sum
    in f32: the payload of the accumulator's store). -/
def step3 (i : grid3.Coords) (a : Vec F S512x2048 .bf16) (h : Vec F S8192x128 .f32) (s : Vec F S512x128 .f32) : Vec F S512x128 .f32 :=
  k3_pay2 (View.ld h (rH3 i)) s a

theorem step3_eq (i : grid3.Coords) (a : Vec F S512x2048 .bf16) (h : Vec F S8192x128 .f32) (s : Vec F S512x128 .f32) :
    step3 i a h s = k3_pay2 (View.ld h (rH3 i)) s a := rfl

/-! ## The body's branch conditions -/

/-- The reset's condition (the reduction coordinate is 0), from the grid coordinates. -/
abbrev cond3_0 (i : grid3.Coords) : Prop := (Scalar.cmpi .ne (Scalar.extui (Scalar.cmpi .eq (BitVec.ofNat 32 (i 1).val) 0#32)) 0#32) = 1#1
/-- It holds at the points ≡ 0 (mod 4) — decided over the grid. -/
theorem hcond3_0 : ∀ t : Fin cfg3.N, cond3_0 (grid3.coords t) ↔ t.val % 4 = 0 :=
  (by decide +kernel : ∀ t : Fin grid3.N, cond3_0 (grid3.coords t) ↔ t.val % 4 = 0)

/-- The write-out's condition (the reduction coordinate is 3). -/
abbrev cond3_1 (i : grid3.Coords) : Prop := k3_cond2 i = 1#1
/-- It holds at the points ≡ 3 (mod 4) — decided over the grid. -/
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

/-- The two inputs are never idle. -/
theorem liveAt3_0 : ∀ t : Fin cfg3.N, cfg3.idle 0 (grid3.coords t) = false := fun _ => rfl
theorem liveAt3_1 : ∀ t : Fin cfg3.N, cfg3.idle 1 (grid3.coords t) = false := fun _ => rfl
/-- Where the write-out's condition fails the output block is idle and is not written back. -/
theorem idleAt3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel
/-- Where it holds the output block is live. -/
theorem liveAt3_2 : ∀ t : Fin cfg3.N, cond3_1 (grid3.coords t) → cfg3.idle 2 (grid3.coords t) = false := by decide +kernel

/-! ## The body's triple, case by case

On whole staging memrefs — the two factors' at read contents `x0`, `x1` — the body runs to the continuation holding the
factors' as they were and the accumulator at one step from where it started: from zero where the reset's condition
holds (the accumulator's contents before do not matter), from its contents `xs` otherwise. The output block is handed
back as found (`xi`) unless the write-out's condition holds; then it is left at the accumulator's new contents. -/

set_option maxHeartbeats 1000000 in
theorem kernel3_A (c : Dev nD) (i : grid3.Coords) (arg2 : Memref sig .tc .vmem S512x2048 .bf16) (harg2 : arg2.IsWhole) (arg3 : Memref sig .tc .vmem S8192x128 .f32) (harg3 : arg3.IsWhole) (arg4 : Memref sig .tc .vmem S512x128 .f32) (harg4 : arg4.IsWhole) (arg5 : Memref sig .tc .vmem S512x128 .f32) (harg5 : arg5.IsWhole)
    (hc0 : cond3_0 i) (hc1 : ¬cond3_1 i)
    (x0 : Vec F S512x2048 .bf16) (x1 : Vec F S8192x128 .f32) (xi : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
        ∗ (iprop(owns (c : Thread nD τ) arg2 fullShare x0 ∗ owns (c : Thread nD τ) arg3 fullShare x1 ∗ owns (c : Thread nD τ) arg4 fullShare xi ∗ owns (c : Thread nD τ) arg5 fullShare (step3 i x0 x1 (k3_pay1 (F := F)))) -∗ K ⟨⟩))
      ⊢ wp frame (wpE (defs₀ (F := F)) Variants.none c none) E (cc3__spmm_dense_kernel i arg2 harg2 arg3 harg3 arg4 harg4 arg5 harg5) K := by
  simp only [cc3__spmm_dense_kernel_eq_skeleton]; unfold cc3__spmm_dense_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [View.read_writes_eq_canon _ _ _ (fun y => ⟨_, List.mem_cons_self, View.mem_set_unit_zero offs_zero3 inb_S512x128_S512x128_0_0 y⟩), View.canon_cons_unit_zero (S := S512x128) offs_zero3, View.readCov_unit_zero (S := S512x128) _ offs_zero3]
  unfold step3
  simp only [View.readAt_eq_ld, View.ld_unit_zero (S := S512x128) offs_zero3, View.ld_unit_zero (S := S512x2048) offs_zero3]

set_option maxHeartbeats 1000000 in
theorem kernel3_B (c : Dev nD) (i : grid3.Coords) (arg2 : Memref sig .tc .vmem S512x2048 .bf16) (harg2 : arg2.IsWhole) (arg3 : Memref sig .tc .vmem S8192x128 .f32) (harg3 : arg3.IsWhole) (arg4 : Memref sig .tc .vmem S512x128 .f32) (harg4 : arg4.IsWhole) (arg5 : Memref sig .tc .vmem S512x128 .f32) (harg5 : arg5.IsWhole)
    (hc0 : ¬cond3_0 i) (hc1 : ¬cond3_1 i)
    (x0 : Vec F S512x2048 .bf16) (x1 : Vec F S8192x128 .f32) (xi : Vec F S512x128 .f32) (xs : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (step3 i x0 x1 xs)) -∗ K ⟨⟩))
      ⊢ wp frame (wpE (defs₀ (F := F)) Variants.none c none) E (cc3__spmm_dense_kernel i arg2 harg2 arg3 harg3 arg4 harg4 arg5 harg5) K := by
  simp only [cc3__spmm_dense_kernel_eq_skeleton]; unfold cc3__spmm_dense_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  rw [View.read_writes_eq_canon _ _ _ (fun y => ⟨_, List.mem_singleton_self _, View.mem_set_unit_zero offs_zero3 inb_S512x128_S512x128_0_0 y⟩), View.canon_unit_zero offs_zero3]
  unfold step3
  simp only [View.readAt_eq_ld, View.ld_unit_zero (S := S512x128) offs_zero3, View.ld_unit_zero (S := S512x2048) offs_zero3]

set_option maxHeartbeats 1000000 in
theorem kernel3_C (c : Dev nD) (i : grid3.Coords) (arg2 : Memref sig .tc .vmem S512x2048 .bf16) (harg2 : arg2.IsWhole) (arg3 : Memref sig .tc .vmem S8192x128 .f32) (harg3 : arg3.IsWhole) (arg4 : Memref sig .tc .vmem S512x128 .f32) (harg4 : arg4.IsWhole) (arg5 : Memref sig .tc .vmem S512x128 .f32) (harg5 : arg5.IsWhole)
    (hc0 : ¬cond3_0 i) (hc1 : cond3_1 i)
    (x0 : Vec F S512x2048 .bf16) (x1 : Vec F S8192x128 .f32) (xs : Vec F S512x128 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (step3 i x0 x1 xs) ∗ owns (c : Thread nD τ) arg5 fullShare (step3 i x0 x1 xs)) -∗ K ⟨⟩))
      ⊢ wp frame (wpE (defs₀ (F := F)) Variants.none c none) E (cc3__spmm_dense_kernel i arg2 harg2 arg3 harg3 arg4 harg4 arg5 harg5) K := by
  simp only [cc3__spmm_dense_kernel_eq_skeleton]; unfold cc3__spmm_dense_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (fun y => ⟨_, List.mem_singleton_self _, View.mem_set_unit_zero offs_zero3 inb_S512x128_S512x128_0_0 y⟩), View.canon_unit_zero offs_zero3, View.readCov_unit_zero (S := S512x128) _ offs_zero3]
    unfold step3
    simp only [View.readAt_eq_ld, View.ld_unit_zero (S := S512x128) offs_zero3, View.ld_unit_zero (S := S512x2048) offs_zero3]
  iexists _; isplitr
  swap; · iexact HS
  ipureintro
  sl_unfold_run_names
  rw [View.read_writes_eq_canon _ _ _ (fun y => ⟨_, List.mem_singleton_self _, View.mem_set_unit_zero offs_zero3 inb_S512x128_S512x128_0_0 y⟩), View.canon_unit_zero offs_zero3]
  unfold step3
  simp only [View.readAt_eq_ld, View.ld_unit_zero (S := S512x128) offs_zero3, View.ld_unit_zero (S := S512x2048) offs_zero3]

end Cert.Kernel.Hand

end
-- ==== Proof.K.Reg3.lean ====
import proofs.«128750_j2551210574751_2_alg».proof.Proof.K.Reg3Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The frame of pallas_call 3 (the reduction over four column blocks), at the entry contents `V`

The proof data of the pipeline at a PARAMETER `V` (the TensorCore's buffer contents when the region is
entered): each window's block at a point, the accumulator's contents after each point (a recursion over the
points: from zero at the first of every four, one step further at each), the invariant that carries the
accumulator between points, the body obligation, and the invariant's two ends. -/

section Region3
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (not fetched, the
    block index has not moved), for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The accumulator after each point -/

/-- The accumulator's contents after the first `n` points (`n = 0`: nothing has run, the value is not used): one
    step from zero at a point whose reduction coordinate is 0, one step from the contents before otherwise. -/
def acc3 (c : Dev nD) : (n : ℕ) → Vec F S512x128 .f32
  | 0 => k3_pay1
  | n + 1 =>
    if h : n < cfg3.N then
      step3 (grid3.coords ⟨n, h⟩) (iblk3 V c 0 ⟨n, h⟩) (iblk3 V c 1 ⟨n, h⟩) (if n % 4 = 0 then k3_pay1 else acc3 c n)
    else k3_pay1

/-- After a point whose reduction coordinate is 0: one step from zero. -/
theorem acc3_succ_reset (c : Dev nD) (t : Fin cfg3.N) (h : t.val % 4 = 0) :
    acc3 V c (t.val + 1) = step3 (grid3.coords t) (iblk3 V c 0 t) (iblk3 V c 1 t) (k3_pay1 (F := F)) := by
  obtain ⟨n, hn⟩ := t
  rw [acc3, dif_pos hn, if_pos h]

/-- After any other point: one step from the contents before it. -/
theorem acc3_succ_add (c : Dev nD) (t : Fin cfg3.N) (h : ¬t.val % 4 = 0) :
    acc3 V c (t.val + 1) = step3 (grid3.coords t) (iblk3 V c 0 t) (iblk3 V c 1 t) (acc3 V c t.val) := by
  obtain ⟨n, hn⟩ := t
  rw [acc3, dif_pos hn, if_neg h]

/-! ## The invariant: the accumulator carried between points -/

/-- The kernel's scratch operand: a whole scoped buffer of its own. -/
abbrev scM3 : Memref sig .tc .vmem S512x128 .f32 := Memref.whole cc3_scratch0

/-- Before position `n`: the accumulator at what the points before left (before the first point: at anything), the
    rest of the scoped buffers that are no staging buffer, and the generator register at some state. -/
def Phi3 (c : Dev nD) : ℕ → sProp 𝕄
  | 0 => iprop(iprop(∃ d, owns (c : Thread nD τ) scM3 fullShare d) ∗ Pipeline.scopedRestBut spec3 c [cc3_scratch0] ∗ (∃ r, prngReg c r))
  | n + 1 => iprop(owns (c : Thread nD τ) scM3 fullShare (acc3 V c (n + 1)) ∗ Pipeline.scopedRestBut spec3 c [cc3_scratch0] ∗ (∃ r, prngReg c r))

theorem Phi3_zero (c : Dev nD) (n : ℕ) (hz : n = 0) :
    Phi3 V c n = iprop(iprop(∃ d, owns (c : Thread nD τ) scM3 fullShare d) ∗ Pipeline.scopedRestBut spec3 c [cc3_scratch0] ∗ (∃ r, prngReg c r)) := by
  subst hz; rfl
theorem Phi3_succ (c : Dev nD) (n : ℕ) :
    Phi3 V c (n + 1) = iprop(owns (c : Thread nD τ) scM3 fullShare (acc3 V c (n + 1)) ∗ Pipeline.scopedRestBut spec3 c [cc3_scratch0] ∗ (∃ r, prngReg c r)) := rfl
theorem Phi3_pos (c : Dev nD) (n : ℕ) (hz : n ≠ 0) :
    Phi3 V c n = iprop(owns (c : Thread nD τ) scM3 fullShare (acc3 V c n) ∗ Pipeline.scopedRestBut spec3 c [cc3_scratch0] ∗ (∃ r, prngReg c r)) := by
  cases n with
  | zero => exact absurd rfl hz
  | succ n => rfl

/-! ## The pipeline's proof data -/

/-- The proof data of pipeline 3 on core `c`: the arrays as the region finds them (`V`); after the body at point `t`
    each input's buffer at its block and the output's at the accumulator after `t` (consulted only where the output is
    stored: elsewhere the window is idle and not written back); the invariant `Phi3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c (t.val + 1)
  Φ t := Phi3 V c t.val
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at the point's position. -/
theorem Phi3_castSucc (c : Dev nD) (t : Fin cfg3.N) : (dat3 V c).Φ t.castSucc = Phi3 V c t.val := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = acc3 V c (t.val + 1) := by dsimp only [dat3]

/-- Where the output block is written back it holds the accumulator after the point. -/
theorem after3_2_flush (c : Dev nD) (t : Fin cfg3.N) (h : t.val % 4 = 3) : (dat3 V c).after 2 t = acc3 V c (t.val + 1) :=
  after3_2 V c t

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point. The inputs' memrefs hold their blocks; the point's position mod 4 says which case of the two
    conditions it is in. The invariant hands the body the accumulator at what the points before left (where the reset's
    condition holds its contents do not matter) and takes it back one step further; the output block is handed back as
    found except where it is stored; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = Phi3 V c (t.val + 1) from rfl, Phi3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [Phi3_castSucc V c t]
  have hN : t.val < 64 := lt_of_lt_of_eq t.isLt (show cfg3.N = 64 from N_3)
  by_cases h0 : t.val % 4 = 0
  · have h1 : ¬t.val % 4 = 3 := by omega
    have hc0 : cond3_0 (grid3.coords t) := (hcond3_0 t).mpr h0
    have hc1 : ¬cond3_1 (grid3.coords t) := fun h => h1 ((hcond3_1 t).mp h)
    rw [Dat.leavesExact_idle (dat3 V c) 2 t (idleAt3_2 t hc1) (noFlush3_2 t hc1)]
    rw [acc3_succ_reset V c t h0]
    by_cases hz : t.val = 0
    · rw [Phi3_zero V c _ hz]
      iintro ⟨⟨HS, HR, Hg⟩, Ho, ⟨%d0, H0⟩, ⟨%d1, H1⟩, ⟨%d2, H2⟩⟩
      iapply (kernel3_A c (grid3.coords t) _ _ _ _ _ _ _ _ hc0 hc1 (iblk3 V c 0 t) (iblk3 V c 1 t) _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
    · rw [Phi3_pos V c _ hz]
      iintro ⟨⟨HS, HR, Hg⟩, Ho, ⟨%d0, H0⟩, ⟨%d1, H1⟩, ⟨%d2, H2⟩⟩
      iapply (kernel3_A c (grid3.coords t) _ _ _ _ _ _ _ _ hc0 hc1 (iblk3 V c 0 t) (iblk3 V c 1 t) _ Set.univ _)
      isplitl [H0]; · iexact H0
      isplitl [H1]; · iexact H1
      isplitl [H2]; · iexact H2
      isplitl [HS]; · iexists _; iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
  · have hz : t.val ≠ 0 := fun h => h0 (by rw [h])
    have hc0 : ¬cond3_0 (grid3.coords t) := fun h => h0 ((hcond3_0 t).mp h)
    rw [acc3_succ_add V c t h0, Phi3_pos V c _ hz]
    by_cases h1 : t.val % 4 = 3
    · have hc1 : cond3_1 (grid3.coords t) := (hcond3_1 t).mpr h1
      rw [show (dat3 V c).leavesExact 2 t = owns (c : Thread nD τ) (st3_2 t) fullShare ((dat3 V c).after 2 t) from by
        unfold Dat.leavesExact; rw [liveAt3_2 t hc1], after3_2, acc3_succ_add V c t h0]
      iintro ⟨⟨HS, HR, Hg⟩, Ho, ⟨%d0, H0⟩, ⟨%d1, H1⟩, ⟨%d2, H2⟩⟩
      iapply (kernel3_C c (grid3.coords t) _ _ _ _ _ _ _ _ hc0 hc1 (iblk3 V c 0 t) (iblk3 V c 1 t) _ Set.univ _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · have hc1 : ¬cond3_1 (grid3.coords t) := fun h => h1 ((hcond3_1 t).mp h)
      rw [Dat.leavesExact_idle (dat3 V c) 2 t (idleAt3_2 t hc1) (noFlush3_2 t hc1)]
      iintro ⟨⟨HS, HR, Hg⟩, Ho, ⟨%d0, H0⟩, ⟨%d1, H1⟩, ⟨%d2, H2⟩⟩
      iapply (kernel3_B c (grid3.coords t) _ _ _ _ _ _ _ _ hc0 hc1 (iblk3 V c 0 t) (iblk3 V c 1 t) _ _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant's two ends -/

/-- The generator register and the scoped buffers that are no staging buffer make the invariant before the first
    point: the scratch is among them, at some contents. -/
theorem Phi3_in (c : Dev nD) : (iprop((∃ r, prngReg c r) ∗ Pipeline.scopedRest spec3 c) : sProp 𝕄) ⊢ (dat3 V c).Φ 0 := by
  rw [show (dat3 V c).Φ 0 = Phi3 V c 0 from rfl, Phi3_zero V c 0 rfl, scopedRest3_split]
  simp only [scM3, owns_whole]
  iintro ⟨Hg, HS, HR⟩
  isplitl [HS]; · iexact HS
  isplitl [HR]; · iexact HR
  iexact Hg

/-- After the last point the invariant gives them back: the accumulator's contents are forgotten. -/
theorem Phi3_out (c : Dev nD) : (dat3 V c).Φ (Fin.last cfg3.N) ⊢ (iprop((∃ r, prngReg c r) ∗ Pipeline.scopedRest spec3 c) : sProp 𝕄) := by
  rw [show (dat3 V c).Φ (Fin.last cfg3.N) = Phi3 V c (Fin.last cfg3.N).val from rfl,
    Phi3_pos V c _ (by rw [Fin.val_last]; have : cfg3.N = 64 := N_3; omega), scopedRest3_split]
  simp only [scM3, owns_whole]
  iintro ⟨HS, HR, Hg⟩
  isplitl [Hg]; · iexact Hg
  isplitl [HS]; · iexists _; iexact HS
  iexact HR

end Region3

end Cert.Kernel.Hand

end
-- ==== Proof.K.Reg4.lean ====
/-
  Region 4: the reparametrisation and the decoder. Grid point t takes rows [2048 t, 2048 t + 2048) of the
  combined projection (window 0: mean in the left 64 columns, log-deviation in the right 64) and of the noise
  (window 1), and the whole decoder weights and biases (windows 2–5, fetched once). It leaves the mean block
  (window 6), the log-deviation block (window 7), the sample z = mean + noise · exp(log-deviation) (window 8) and
  the decoder applied to z (window 9). Stated at a parameter V: the TensorCore's buffer contents when the region
  is entered.
-/
import proofs.«128750_j2551210574751_2_alg».proof.Proof.Gen.Kernel.Launch
import proofs.«128750_j2551210574751_2_alg».proof.Proof.Gen.Kernel.Skeleton
import proofs.«128750_j2551210574751_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The combined-projection window's staging buffer holds its row block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The noise window's staging buffer holds its row block at every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The first decoder weight window's staging buffer holds the whole matrix at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The first decoder bias window's staging buffer holds the whole row at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The second decoder weight window's staging buffer holds the whole matrix at every point, fetched there or not. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- The second decoder bias window's staging buffer holds the whole row at every point, fetched there or not. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_x : Rect S2048x128 := Rect.unit (s := S2048x128) ![0, 0] S2048x128.size inb_S2048x128_S2048x128_0_0
abbrev r4_e : Rect S2048x64 := Rect.unit (s := S2048x64) ![0, 0] S2048x64.size inb_S2048x64_S2048x64_0_0
abbrev r4_w1 : Rect S64x64 := Rect.unit (s := S64x64) ![0, 0] S64x64.size inb_S64x64_S64x64_0_0
abbrev r4_b1 : Rect S1x64 := Rect.unit (s := S1x64) ![0, 0] S1x64.size inb_S1x64_S1x64_0_0
abbrev r4_w2 : Rect S64x512 := Rect.unit (s := S64x512) ![0, 0] S64x512.size inb_S64x512_S64x512_0_0
abbrev r4_b2 : Rect S1x512 := Rect.unit (s := S1x512) ![0, 0] S1x512.size inb_S1x512_S1x512_0_0
abbrev r4_z : Rect S2048x64 := Rect.unit (s := S2048x64) ![0, 0] S2048x64.size inb_S2048x64_S2048x64_0_0
abbrev r4_o : Rect S2048x512 := Rect.unit (s := S2048x512) ![0, 0] S2048x512.size inb_S2048x512_S2048x512_0_0

/-- What the body leaves in the mean block: its one whole store, the left 64 columns of the loaded row block. -/
def out4_6 (x : Vec F S2048x128 .f32) : Vec F S2048x64 .f32 :=
  View.canon [⟨r4_z, k4_pay2 (View.ld x r4_x)⟩]

/-- What the body leaves in the log-deviation block: its one whole store, the right 64 columns of the loaded row block. -/
def out4_7 (x : Vec F S2048x128 .f32) : Vec F S2048x64 .f32 :=
  View.canon [⟨r4_z, k4_pay3 (View.ld x r4_x)⟩]

/-- What the body leaves in the sample block: its one whole store, mean + noise · exp(log-deviation). -/
def out4_8 (x : Vec F S2048x128 .f32) (e : Vec F S2048x64 .f32) : Vec F S2048x64 .f32 :=
  View.canon [⟨r4_z, k4_pay4 (View.ld x r4_x) (View.ld e r4_e)⟩]

/-- What the body leaves in the decoded block: its one whole store, the two-layer decoder on the sample
    (each layer a bf16-rounded product plus a broadcast bias, then the positive part). -/
def out4_9 (x : Vec F S2048x128 .f32) (e : Vec F S2048x64 .f32) (w1 : Vec F S64x64 .f32) (b1 : Vec F S1x64 .f32) (w2 : Vec F S64x512 .f32) (b2 : Vec F S1x512 .f32) : Vec F S2048x512 .f32 :=
  View.canon [⟨r4_o, k4_pay5 (View.ld x r4_x) (View.ld e r4_e) (View.ld w1 r4_w1) (View.ld b1 r4_b1) (View.ld w2 r4_w2) (View.ld b2 r4_b2)⟩]

/-- The one store covers the block. -/
theorem cover4_6 (p0 : Vec F S2048x64 .f32) (y : S2048x64.Idx) :
    ∃ pc ∈ ([⟨r4_z, p0⟩] : List (View.Piece (Elt F) S2048x64 .f32)), y ∈ pc.1.set :=
  View.cover_of_tiled [⟨r4_z, p0⟩] S2048x64.size (by rfl) y

/-- The one store covers the block. -/
theorem cover4_7 (p0 : Vec F S2048x64 .f32) (y : S2048x64.Idx) :
    ∃ pc ∈ ([⟨r4_z, p0⟩] : List (View.Piece (Elt F) S2048x64 .f32)), y ∈ pc.1.set :=
  View.cover_of_tiled [⟨r4_z, p0⟩] S2048x64.size (by rfl) y

/-- The one store covers the block. -/
theorem cover4_8 (p0 : Vec F S2048x64 .f32) (y : S2048x64.Idx) :
    ∃ pc ∈ ([⟨r4_z, p0⟩] : List (View.Piece (Elt F) S2048x64 .f32)), y ∈ pc.1.set :=
  View.cover_of_tiled [⟨r4_z, p0⟩] S2048x64.size (by rfl) y

/-- The one store covers the block. -/
theorem cover4_9 (p0 : Vec F S2048x512 .f32) (y : S2048x512.Idx) :
    ∃ pc ∈ ([⟨r4_o, p0⟩] : List (View.Piece (Elt F) S2048x512 .f32)), y ∈ pc.1.set :=
  View.cover_of_tiled [⟨r4_o, p0⟩] S2048x512.size (by rfl) y

/-! ## The body's triple -/

set_option maxHeartbeats 4000000 in
/-- The body on whole staging memrefs: the inputs' at contents x, e, w1, b1, w2, b2, the outputs' at anything; it
    ends with the inputs as they were and each output at its one store. -/
theorem sound_kernel4 (c : Dev nD) (E : Set ℕ) (i : grid4.Coords)
    (arg1 : Memref sig .tc .vmem S2048x128 .f32) (harg1 : arg1.IsWhole)
    (arg2 : Memref sig .tc .vmem S2048x64 .f32) (harg2 : arg2.IsWhole)
    (arg3 : Memref sig .tc .vmem S64x64 .f32) (harg3 : arg3.IsWhole)
    (arg4 : Memref sig .tc .vmem S1x64 .f32) (harg4 : arg4.IsWhole)
    (arg5 : Memref sig .tc .vmem S64x512 .f32) (harg5 : arg5.IsWhole)
    (arg6 : Memref sig .tc .vmem S1x512 .f32) (harg6 : arg6.IsWhole)
    (arg7 : Memref sig .tc .vmem S2048x64 .f32) (harg7 : arg7.IsWhole)
    (arg8 : Memref sig .tc .vmem S2048x64 .f32) (harg8 : arg8.IsWhole)
    (arg9 : Memref sig .tc .vmem S2048x64 .f32) (harg9 : arg9.IsWhole)
    (arg10 : Memref sig .tc .vmem S2048x512 .f32) (harg10 : arg10.IsWhole)
    (x : Vec F S2048x128 .f32) (e : Vec F S2048x64 .f32) (w1 : Vec F S64x64 .f32) (b1 : Vec F S1x64 .f32) (w2 : Vec F S64x512 .f32) (b2 : Vec F S1x512 .f32) (K : PUnit → sProp 𝕄) :
    iprop(owns (c : Thread nD τ) arg1 fullShare x ∗ owns (c : Thread nD τ) arg2 fullShare e ∗ owns (c : Thread nD τ) arg3 fullShare w1 ∗ owns (c : Thread nD τ) arg4 fullShare b1 ∗ owns (c : Thread nD τ) arg5 fullShare w2 ∗ owns (c : Thread nD τ) arg6 fullShare b2
        ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x ∗ owns (c : Thread nD τ) arg2 fullShare e ∗ owns (c : Thread nD τ) arg3 fullShare w1 ∗ owns (c : Thread nD τ) arg4 fullShare b1 ∗ owns (c : Thread nD τ) arg5 fullShare w2 ∗ owns (c : Thread nD τ) arg6 fullShare b2
            ∗ owns (c : Thread nD τ) arg7 fullShare (out4_6 x)
            ∗ owns (c : Thread nD τ) arg8 fullShare (out4_7 x)
            ∗ owns (c : Thread nD τ) arg9 fullShare (out4_8 x e)
            ∗ owns (c : Thread nD τ) arg10 fullShare (out4_9 x e w1 b1 w2 b2)) -∗ K ⟨⟩))
      ⊢ wp frame (wpE (defs₀ (F := F)) Variants.none c none) E (cc4__reparam_mlp_kernel i arg1 harg1 arg2 harg2 arg3 harg3 arg4 harg4 arg5 harg5 arg6 harg6 arg7 harg7 arg8 harg8 arg9 harg9 arg10 harg10) K := by
  simp only [cc4__reparam_mlp_kernel_eq_skeleton]; unfold cc4__reparam_mlp_kernel_skel
  simp only [k4_part1_eq_skeleton]; unfold k4_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover4_6 _)
  isplitl [H8]
  · iexists _; isplitr
    swap; · iexact H8
    ipureintro
    exact View.read_writes_eq_canon _ _ _ (cover4_7 _)
  isplitl [H9]
  · iexists _; isplitr
    swap; · iexact H9
    ipureintro
    exact View.read_writes_eq_canon _ _ _ (cover4_8 _)
  iexists _; isplitr
  swap; · iexact H10
  ipureintro
  exact View.read_writes_eq_canon _ _ _ (cover4_9 _)

/-! ## The proof data -/

/-- Region 4's proof data on core c: the arrays as the region finds them; after the body at point t each input's buffer
    at its block and each output's at its store over the input blocks; the class invariant; full shares; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t)
    | ⟨7, _⟩ => out4_7 (iblk4 V c 0 t)
    | ⟨8, _⟩ => out4_8 (iblk4 V c 0 t) (iblk4 V c 1 t)
    | ⟨9, _⟩ => out4_9 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 (iblk4 V c 0 t) := by dsimp only [dat4]
theorem after4_7 (c : Dev nD) (t : Fin cfg4.N) : (dat4 V c).after 7 t = out4_7 (iblk4 V c 0 t) := by dsimp only [dat4]
theorem after4_8 (c : Dev nD) (t : Fin cfg4.N) : (dat4 V c).after 8 t = out4_8 (iblk4 V c 0 t) (iblk4 V c 1 t) := by dsimp only [dat4]
theorem after4_9 (c : Dev nD) (t : Fin cfg4.N) : (dat4 V c).after 9 t = out4_9 (iblk4 V c 0 t) (iblk4 V c 1 t) (iblk4 V c 2 t) (iblk4 V c 3 t) (iblk4 V c 4 t) (iblk4 V c 5 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel4 c Set.univ _ _ _ _ _ _ _ _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Reg5.lean ====
/-
  Region 5: the reconstruction. The grid is 4 x 4; at point (i, j) the body takes row block i of the latent
  matrix z (window 0) and row block j of THE SAME matrix (window 1), multiplies the first 32 columns of the one
  by the transpose of the last 32 columns of the other, both rounded to bf16 on the way in, accumulated from
  zero, and leaves the product in block (i, j) of the output (window 2). The two input windows read one array:
  each holds half of its share. Stated at a parameter V: the TensorCore's buffer contents when the region is
  entered.
-/
import proofs.«128750_j2551210574751_2_alg».proof.Proof.Gen.Kernel.Launch
import proofs.«128750_j2551210574751_2_alg».proof.Proof.Gen.Kernel.Skeleton
import proofs.«128750_j2551210574751_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The left factor's staging buffer holds row block i of z at every point (i, j), fetched there (j = 0) or not:
    between fetches the block index does not move. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The right factor's staging buffer holds row block j of z at every point (i, j). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_z : Rect S2048x64 := Rect.unit (s := S2048x64) ![0, 0] S2048x64.size inb_S2048x64_S2048x64_0_0
abbrev r5_o : Rect S2048x2048 := Rect.unit (s := S2048x2048) ![0, 0] S2048x2048.size inb_S2048x2048_S2048x2048_0_0

/-- What the body leaves in the output block: its one whole store, the product of the two loaded row blocks. -/
def out5_2 (x : Vec F S2048x64 .f32) (y : Vec F S2048x64 .f32) : Vec F S2048x2048 .f32 :=
  View.canon [⟨r5_o, k5_pay1 (View.ld x r5_z) (View.ld y r5_z)⟩]

/-- The one store covers the block. -/
theorem cover5_2 (p0 : Vec F S2048x2048 .f32) (y : S2048x2048.Idx) :
    ∃ pc ∈ ([⟨r5_o, p0⟩] : List (View.Piece (Elt F) S2048x2048 .f32)), y ∈ pc.1.set :=
  View.cover_of_tiled [⟨r5_o, p0⟩] S2048x2048.size (by rfl) y

/-! ## The body's triple -/

set_option maxHeartbeats 1000000 in
/-- The body on whole staging memrefs: the inputs' at contents x and y, the output's at anything; it ends with
    the inputs as they were and the output at the product. -/
theorem sound_kernel5 (c : Dev nD) (E : Set ℕ) (i : grid5.Coords)
    (arg2 : Memref sig .tc .vmem S2048x64 .f32) (harg2 : arg2.IsWhole)
    (arg3 : Memref sig .tc .vmem S2048x64 .f32) (harg3 : arg3.IsWhole)
    (arg4 : Memref sig .tc .vmem S2048x2048 .f32) (harg4 : arg4.IsWhole)
    (x : Vec F S2048x64 .f32) (y : Vec F S2048x64 .f32) (K : PUnit → sProp 𝕄) :
    iprop(owns (c : Thread nD τ) arg2 fullShare x ∗ owns (c : Thread nD τ) arg3 fullShare y ∗ (∃ d, owns (c : Thread nD τ) arg4 fullShare d)
        ∗ (iprop(owns (c : Thread nD τ) arg2 fullShare x ∗ owns (c : Thread nD τ) arg3 fullShare y ∗ owns (c : Thread nD τ) arg4 fullShare (out5_2 x y)) -∗ K ⟨⟩))
      ⊢ wp frame (wpE (defs₀ (F := F)) Variants.none c none) E (cc5__recon_kernel i arg2 harg2 arg3 harg3 arg4 harg4) K := by
  simp only [cc5__recon_kernel_eq_skeleton]; unfold cc5__recon_kernel_skel
  unfold owns
  iintro ⟨⟨%f2, %hf2, H2⟩, ⟨%f3, %hf3, H3⟩, ⟨%d4, %f4, -, H4⟩, Hk⟩
  subst hf2; subst hf3
  sl_exec
  sl_step
  iapply Hk
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_2 _)

/-! ## The proof data -/

/-- Region 5's proof data on core c: the arrays as the region finds them; after the body at point t each input's buffer
    at its block and the output's at the product of the two input blocks; the class invariant; nothing owed. The two
    input windows read ONE array: window 0 holds the left half of its share and window 1 the right half (the
    output's array is held whole, whatever is written here for it). -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q w := match w with
    | ⟨0, _⟩ => fullShare.left
    | ⟨1, _⟩ => fullShare.right
    | ⟨2, _⟩ => fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation5 (c : Dev nD) : BodyObligation (dat5 (F := F) V c) (defs₀ (F := F)) Variants.none () Set.univ := fun t => by
  rw [bigSep_W5, bigSep_W5]
  exact sound_body5 V c t

/-! ## The region's arrays among the core's unscoped buffers

The two input windows read one buffer. At entry that buffer, held whole at the full share, is split into its two
halves, one per window; at exit the halves are joined back. The output's buffer is held at the full share throughout. -/

/-- The buffers behind the three windows: the latent matrix twice, the output once. -/
theorem arr5_0 : Pipeline.arrRef spec5 0 = main_v23_2 := rfl
theorem arr5_1 : Pipeline.arrRef spec5 1 = main_v23_2 := rfl
theorem arr5_2 : Pipeline.arrRef spec5 2 = main_v24 := rfl
/-- So the distinct buffers behind the windows are two. -/
theorem image_arrRef5 : Finset.univ.image (Pipeline.arrRef spec5) = {main_v23_2, main_v24} := by decide
theorem v23_ne_v24 : (main_v23_2 : Ref sig .tc) ∉ ({main_v24} : Finset (Ref sig .tc)) := by decide

/-- The share each window's array is held at: a half each for the two readers of the latent matrix, all of the output. -/
theorem share5_0 (c : Dev nD) : (dat5 V c).share 0 = fullShare.left := rfl
theorem share5_1 (c : Dev nD) : (dat5 V c).share 1 = fullShare.right := rfl
theorem share5_2 (c : Dev nD) : (dat5 V c).share 2 = fullShare := rfl

/-- The region's arrays, window by window: the latent matrix's buffer at its left half share and at its right half share,
    the output's buffer at the full share. -/
theorem arrays5_eq (c : Dev nD) (G : (w : Fin cfg5.W) → Buf (Elt F) ((cfg5.win w).arr.view.loc (c : Thread nD τ))) :
    ((dat5 V c).arrays G : sProp 𝕄)
      = iprop((((c : Thread nD τ).loc main_v23_2) ↦{fullShare.left} G 0) ∗ (((c : Thread nD τ).loc main_v23_2) ↦{fullShare.right} G 1)
          ∗ (((c : Thread nD τ).loc main_v24) ↦{fullShare} G 2)) := by
  unfold Dat.arrays
  rw [bigSep_W5, share5_0, share5_1, share5_2, (arr_whole5 0).set_eq_univ, (arr_whole5 2).set_eq_univ]

/-- The same with the contents named: both input windows' at X, the output's at Y. -/
theorem arrays5_at (c : Dev nD) (G : (w : Fin cfg5.W) → Buf (Elt F) ((cfg5.win w).arr.view.loc (c : Thread nD τ)))
    (X : Buf (Elt F) ((c : Thread nD τ).loc main_v23_2)) (Y : Buf (Elt F) ((c : Thread nD τ).loc main_v24))
    (h0 : G 0 = X) (h1 : G 1 = X) (h2 : G 2 = Y) :
    ((dat5 V c).arrays G : sProp 𝕄)
      = iprop((((c : Thread nD τ).loc main_v23_2) ↦{fullShare.left} X) ∗ (((c : Thread nD τ).loc main_v23_2) ↦{fullShare.right} X)
          ∗ (((c : Thread nD τ).loc main_v24) ↦{fullShare} Y)) := by
  rw [arrays5_eq, h0, h1, h2]

/-- The buffers behind the windows are among the core's unscoped buffers. -/
theorem arrSub5 : Finset.univ.image (Pipeline.arrRef spec5) ⊆ Finset.univ.filter fun b : Ref sig .tc => ¬ b.isScoped := fun b hb => by
  obtain ⟨w, -, rfl⟩ := Finset.mem_image.mp hb
  exact Finset.mem_filter.mpr ⟨Finset.mem_univ _, by simp [winFacts₀5.arr_unscoped w]⟩

/-- One conjunct of a framed pair split in two, -/
theorem split_framed {P Pl Pr Q R : sProp 𝕄} (h : P ⊢ iprop(Pl ∗ Pr)) : iprop((P ∗ Q) ∗ R) ⊢ iprop((Pl ∗ Pr ∗ Q) ∗ R) := by
  iintro ⟨⟨HP, HQ⟩, HR⟩
  ihave H := h $$ HP
  icases H with ⟨Hl, Hr⟩
  isplitr [HR]
  swap; · iexact HR
  isplitl [Hl]; · iexact Hl
  isplitl [Hr]; · iexact Hr
  iexact HQ

/-- and two joined in one, the frame moved along an entailment. -/
theorem join_framed {P Pl Pr Q R R' : sProp 𝕄} (h : iprop(Pl ∗ Pr) ⊢ P) (hR : R ⊢ R') : iprop((Pl ∗ Pr ∗ Q) ∗ R) ⊢ iprop((P ∗ Q) ∗ R') := by
  iintro ⟨⟨Hl, Hr, HQ⟩, HR⟩
  isplitr [HR]
  swap; · iapply hR; iexact HR
  isplitr [HQ]
  swap; · iexact HQ
  iapply h
  isplitl [Hl]; · iexact Hl
  iexact Hr

/-- ENTRY: the core's unscoped buffers at the entry contents are the region's arrays, window by window at its share,
    and the unscoped rest. -/
theorem arrays5_of_unscopedBufs (c : Dev nD) (Vc : (b : Ref sig .tc) → Buf (Elt F) ((c : Thread nD τ).loc b)) (hV : Vc = V c) :
    (unscopedBufs c Vc : sProp 𝕄) ⊢ iprop((dat5 V c).arrays ((dat5 V c).arrAt · 0) ∗ Pipeline.unscopedRest spec5 c Vc) := by
  subst hV
  unfold unscopedBufs Pipeline.unscopedRest
  rw [bigSep_sdiff_split arrSub5,
    arrays5_at V c (fun w => (dat5 V c).arrAt w 0) (V c main_v23_2) (V c main_v24) (A_eq5 V c 0) (A_eq5 V c 1) (A_eq5 V c 2),
    image_arrRef5, bigSep_insert v23_ne_v24, bigSep_singleton]
  exact split_framed (pointsTo_share (PosShare.mem_left_op_right fullShare)).1

/-- EXIT: the region's arrays at what the write-backs leave and the unscoped rest as entered are the core's unscoped
    buffers at any contents that have the arrays so and agree with the entry contents elsewhere. -/
theorem unscopedBufs_of_arrays5 (c : Dev nD) (V' : (b : Ref sig .tc) → Buf (Elt F) ((c : Thread nD τ).loc b))
    (hF : ∀ w, (dat5 V c).arrAt w cfg5.N = V' (Pipeline.arrRef spec5 w))
    (hrest : ∀ b, b ∉ Finset.univ.image (Pipeline.arrRef spec5) → V' b = V c b) :
    iprop((dat5 V c).arrays ((dat5 V c).arrAt · cfg5.N) ∗ Pipeline.unscopedRest spec5 c (V c)) ⊢ (unscopedBufs c V' : sProp 𝕄) := by
  have hR : (Pipeline.unscopedRest spec5 c (V c) : sProp 𝕄) ⊢ Pipeline.unscopedRest spec5 c V' := by
    unfold Pipeline.unscopedRest
    exact Entails.of_eq (bigSep_congr fun b hb => by rw [hrest b (Finset.mem_sdiff.mp hb).2])
  unfold Pipeline.unscopedRest at hR
  unfold unscopedBufs Pipeline.unscopedRest
  rw [bigSep_sdiff_split arrSub5,
    arrays5_at V c (fun w => (dat5 V c).arrAt w cfg5.N) (V' main_v23_2) (V' main_v24) (hF 0) (hF 1) (hF 2),
    image_arrRef5, bigSep_insert v23_ne_v24, bigSep_singleton]
  rw [image_arrRef5] at hR
  exact join_framed (pointsTo_share (PosShare.mem_left_op_right fullShare)).2 hR

end Cert.Kernel.Hand

end
-- ==== Proof.K.Fold.lean ====
/-
  The TensorCore's buffer contents at each boundary of the program — before and after each of its ten items —
  written as a fold from the launch memory: a host stretch applies its operations, a kernel region replaces
  its windows' arrays by what its write-backs leave and touches nothing else. And the first consequence: no
  item writes an argument array, so each argument's buffer at the last boundary is its launch contents.
-/
import proofs.«128750_j2551210574751_2_alg».proof.Proof.K.Reg0
import proofs.«128750_j2551210574751_2_alg».proof.Proof.K.Reg1
import proofs.«128750_j2551210574751_2_alg».proof.Proof.K.Reg2
import proofs.«128750_j2551210574751_2_alg».proof.Proof.K.Reg3
import proofs.«128750_j2551210574751_2_alg».proof.Proof.K.Reg4
import proofs.«128750_j2551210574751_2_alg».proof.Proof.K.Reg5
import proofs.«128750_j2551210574751_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)

/-- After the host stretch `hostOps0` (the dense adjacency is built: region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: the first projection X·W1 in its output array; every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: the first aggregation A·(X·W1) in its output array; every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the host stretch `hostOps2` (the two second-layer weight matrices side by side: region 2's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- At region 2's exit: the second projection in its output array; every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- At region 3's exit: the second aggregation in its output array; every other buffer as entered. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
abbrev V6 : (c : Dev nD) → (b : Ref sig .tc) → Buf (Elt F) ((c : Thread nD τ).loc b) := fun c b => W6 m ρ c b
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-- After the host stretch `hostOps4` (the two bias vectors as rows: region 4's entry). -/
abbrev W7 : Dev nD → Valuation τ sig (Elt F) := fun c => StableHlo.after hostOps4 (W6 m ρ c)
abbrev V7 : (c : Dev nD) → (b : Ref sig .tc) → Buf (Elt F) ((c : Thread nD τ).loc b) := fun c b => W7 m ρ c b

/-- At region 4's exit: the mean, the log-deviation, the sample z and the decoded features in their four output arrays; every other buffer as entered. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
abbrev V8 : (c : Dev nD) → (b : Ref sig .tc) → Buf (Elt F) ((c : Thread nD τ).loc b) := fun c b => W8 m ρ c b
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)

/-- At region 5's exit: the inner-product block matrix in its output array; every other buffer as entered (the
    sample z, which two of its windows read, among them). -/
def W9 (c : Dev nD) : Valuation τ sig (Elt F) :=
  Function.update (W8 m ρ c) (Proc.devRef .tc main_v24) ((dat5 (V8 m ρ) c).arrAt 2 cfg5.N)
abbrev V9 : (c : Dev nD) → (b : Ref sig .tc) → Buf (Elt F) ((c : Thread nD τ).loc b) := fun c b => W9 m ρ c b
theorem W9_out (c : Dev nD) : W9 m ρ c (Proc.devRef .tc main_v24) = (dat5 (V8 m ρ) c).arrAt 2 cfg5.N := by
  unfold W9; exact Function.update_self _ _ _
theorem W9_of_ne (c : Dev nD) (b : Ref sig .tc) (hb : b ≠ main_v24) :
    W9 m ρ c (Proc.devRef .tc b) = W8 m ρ c (Proc.devRef .tc b) := by
  unfold W9; exact Function.update_of_ne (StableHlo.devRef_ne_of_ne hb) _ _

/-- At region 5's exit each of its windows' arrays holds what the region leaves: the two input windows' (one array) as
    entered, the output's its write-backs. -/
theorem hF5 (c : Dev nD) : ∀ w : Fin cfg5.W, (dat5 (V8 m ρ) c).arrAt w cfg5.N = V9 m ρ c (Pipeline.arrRef spec5 w)
  | ⟨0, _⟩ => ((dat5 (V8 m ρ) c).arrAt_in 0 rfl _).trans ((A_eq5 (V8 m ρ) c 0).trans (W9_of_ne m ρ c _ (by decide)).symm)
  | ⟨1, _⟩ => ((dat5 (V8 m ρ) c).arrAt_in 1 rfl _).trans ((A_eq5 (V8 m ρ) c 1).trans (W9_of_ne m ρ c _ (by decide)).symm)
  | ⟨2, _⟩ => (W9_out m ρ c).symm
theorem hrest5 (c : Dev nD) : ∀ b, b ∉ Finset.univ.image (Pipeline.arrRef spec5) → V9 m ρ c b = V8 m ρ c b :=
  fun b hb => W9_of_ne m ρ c b fun e => hb (Finset.mem_image.mpr ⟨2, Finset.mem_univ _, (show Pipeline.arrRef spec5 2 = main_v24 from rfl).trans e.symm⟩)

/-- After the host stretch `hostOps6` (the inner products flattened: the program's end). -/
abbrev W10 : Dev nD → Valuation τ sig (Elt F) := fun c => StableHlo.after hostOps6 (W9 m ρ c)
abbrev V10 : (c : Dev nD) → (b : Ref sig .tc) → Buf (Elt F) ((c : Thread nD τ).loc b) := fun c b => W10 m ρ c b

/-! ## The arguments end as launched

No host operation writes an argument, and a region reads one only through an input window, whose array it leaves
as it found it: each argument's buffer at the last boundary is its launch contents. -/
theorem W10_main_arg0 (c : Dev nD) : W10 m ρ c (Proc.devRef .tc main_arg0) = m ((c : Thread nD τ).loc main_arg0) :=
  calc W10 m ρ c (Proc.devRef .tc main_arg0)
    _ = W9 m ρ c (Proc.devRef .tc main_arg0) := StableHlo.after_of_writes_sub hostOps6 _ hostOps6_writes (by decide)
    _ = W8 m ρ c (Proc.devRef .tc main_arg0) := W9_of_ne m ρ c main_arg0 (by decide)
    _ = W7 m ρ c (Proc.devRef .tc main_arg0) := W8_of_ne m ρ c main_arg0 (by decide)
    _ = W6 m ρ c (Proc.devRef .tc main_arg0) := StableHlo.after_of_writes_sub hostOps4 _ hostOps4_writes (by decide)
    _ = W5 m ρ c (Proc.devRef .tc main_arg0) := W6_of_ne m ρ c main_arg0 (by decide)
    _ = W4 m ρ c (Proc.devRef .tc main_arg0) := W5_of_ne m ρ c main_arg0 (by decide)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
theorem W10_main_arg1 (c : Dev nD) : W10 m ρ c (Proc.devRef .tc main_arg1) = m ((c : Thread nD τ).loc main_arg1) :=
  calc W10 m ρ c (Proc.devRef .tc main_arg1)
    _ = W9 m ρ c (Proc.devRef .tc main_arg1) := StableHlo.after_of_writes_sub hostOps6 _ hostOps6_writes (by decide)
    _ = W8 m ρ c (Proc.devRef .tc main_arg1) := W9_of_ne m ρ c main_arg1 (by decide)
    _ = W7 m ρ c (Proc.devRef .tc main_arg1) := W8_of_ne m ρ c main_arg1 (by decide)
    _ = W6 m ρ c (Proc.devRef .tc main_arg1) := StableHlo.after_of_writes_sub hostOps4 _ hostOps4_writes (by decide)
    _ = W5 m ρ c (Proc.devRef .tc main_arg1) := W6_of_ne m ρ c main_arg1 (by decide)
    _ = W4 m ρ c (Proc.devRef .tc main_arg1) := W5_of_ne m ρ c main_arg1 (by decide)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W10_main_arg2 (c : Dev nD) : W10 m ρ c (Proc.devRef .tc main_arg2) = m ((c : Thread nD τ).loc main_arg2) :=
  calc W10 m ρ c (Proc.devRef .tc main_arg2)
    _ = W9 m ρ c (Proc.devRef .tc main_arg2) := StableHlo.after_of_writes_sub hostOps6 _ hostOps6_writes (by decide)
    _ = W8 m ρ c (Proc.devRef .tc main_arg2) := W9_of_ne m ρ c main_arg2 (by decide)
    _ = W7 m ρ c (Proc.devRef .tc main_arg2) := (W8_arr m ρ c 1).trans (((dat4 (V7 m ρ) c).arrAt_in 1 rfl _).trans (A_eq4 (V7 m ρ) c 1))
    _ = W6 m ρ c (Proc.devRef .tc main_arg2) := StableHlo.after_of_writes_sub hostOps4 _ hostOps4_writes (by decide)
    _ = W5 m ρ c (Proc.devRef .tc main_arg2) := W6_of_ne m ρ c main_arg2 (by decide)
    _ = W4 m ρ c (Proc.devRef .tc main_arg2) := W5_of_ne m ρ c main_arg2 (by decide)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W10_main_arg3 (c : Dev nD) : W10 m ρ c (Proc.devRef .tc main_arg3) = m ((c : Thread nD τ).loc main_arg3) :=
  calc W10 m ρ c (Proc.devRef .tc main_arg3)
    _ = W9 m ρ c (Proc.devRef .tc main_arg3) := StableHlo.after_of_writes_sub hostOps6 _ hostOps6_writes (by decide)
    _ = W8 m ρ c (Proc.devRef .tc main_arg3) := W9_of_ne m ρ c main_arg3 (by decide)
    _ = W7 m ρ c (Proc.devRef .tc main_arg3) := W8_of_ne m ρ c main_arg3 (by decide)
    _ = W6 m ρ c (Proc.devRef .tc main_arg3) := StableHlo.after_of_writes_sub hostOps4 _ hostOps4_writes (by decide)
    _ = W5 m ρ c (Proc.devRef .tc main_arg3) := W6_of_ne m ρ c main_arg3 (by decide)
    _ = W4 m ρ c (Proc.devRef .tc main_arg3) := W5_of_ne m ρ c main_arg3 (by decide)
    _ = W3 m ρ c (Proc.devRef .tc main_arg3) := StableHlo.after_of_writes_sub hostOps2 _ hostOps2_writes (by decide)
    _ = W2 m ρ c (Proc.devRef .tc main_arg3) := W3_of_ne m ρ c main_arg3 (by decide)
    _ = W1 m ρ c (Proc.devRef .tc main_arg3) := (W2_arr m ρ c 1).trans (((dat0 (V1 m ρ) c).arrAt_in 1 rfl _).trans (A_eq0 (V1 m ρ) c 1))
    _ = W0 m ρ c (Proc.devRef .tc main_arg3) := StableHlo.after_of_writes_sub hostOps0 _ hostOps0_writes (by decide)
    _ = m ((c : Thread nD τ).loc main_arg3) := rfl
theorem W10_main_arg4 (c : Dev nD) : W10 m ρ c (Proc.devRef .tc main_arg4) = m ((c : Thread nD τ).loc main_arg4) :=
  calc W10 m ρ c (Proc.devRef .tc main_arg4)
    _ = W9 m ρ c (Proc.devRef .tc main_arg4) := StableHlo.after_of_writes_sub hostOps6 _ hostOps6_writes (by decide)
    _ = W8 m ρ c (Proc.devRef .tc main_arg4) := W9_of_ne m ρ c main_arg4 (by decide)
    _ = W7 m ρ c (Proc.devRef .tc main_arg4) := W8_of_ne m ρ c main_arg4 (by decide)
    _ = W6 m ρ c (Proc.devRef .tc main_arg4) := StableHlo.after_of_writes_sub hostOps4 _ hostOps4_writes (by decide)
    _ = W5 m ρ c (Proc.devRef .tc main_arg4) := W6_of_ne m ρ c main_arg4 (by decide)
    _ = W4 m ρ c (Proc.devRef .tc main_arg4) := W5_of_ne m ρ c main_arg4 (by decide)
    _ = W3 m ρ c (Proc.devRef .tc main_arg4) := StableHlo.after_of_writes_sub hostOps2 _ hostOps2_writes (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W10_main_arg5 (c : Dev nD) : W10 m ρ c (Proc.devRef .tc main_arg5) = m ((c : Thread nD τ).loc main_arg5) :=
  calc W10 m ρ c (Proc.devRef .tc main_arg5)
    _ = W9 m ρ c (Proc.devRef .tc main_arg5) := StableHlo.after_of_writes_sub hostOps6 _ hostOps6_writes (by decide)
    _ = W8 m ρ c (Proc.devRef .tc main_arg5) := W9_of_ne m ρ c main_arg5 (by decide)
    _ = W7 m ρ c (Proc.devRef .tc main_arg5) := W8_of_ne m ρ c main_arg5 (by decide)
    _ = W6 m ρ c (Proc.devRef .tc main_arg5) := StableHlo.after_of_writes_sub hostOps4 _ hostOps4_writes (by decide)
    _ = W5 m ρ c (Proc.devRef .tc main_arg5) := W6_of_ne m ρ c main_arg5 (by decide)
    _ = W4 m ρ c (Proc.devRef .tc main_arg5) := W5_of_ne m ρ c main_arg5 (by decide)
    _ = W3 m ρ c (Proc.devRef .tc main_arg5) := StableHlo.after_of_writes_sub hostOps2 _ hostOps2_writes (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W10_main_arg6 (c : Dev nD) : W10 m ρ c (Proc.devRef .tc main_arg6) = m ((c : Thread nD τ).loc main_arg6) :=
  calc W10 m ρ c (Proc.devRef .tc main_arg6)
    _ = W9 m ρ c (Proc.devRef .tc main_arg6) := StableHlo.after_of_writes_sub hostOps6 _ hostOps6_writes (by decide)
    _ = W8 m ρ c (Proc.devRef .tc main_arg6) := W9_of_ne m ρ c main_arg6 (by decide)
    _ = W7 m ρ c (Proc.devRef .tc main_arg6) := (W8_arr m ρ c 2).trans (((dat4 (V7 m ρ) c).arrAt_in 2 rfl _).trans (A_eq4 (V7 m ρ) c 2))
    _ = W6 m ρ c (Proc.devRef .tc main_arg6) := StableHlo.after_of_writes_sub hostOps4 _ hostOps4_writes (by decide)
    _ = W5 m ρ c (Proc.devRef .tc main_arg6) := W6_of_ne m ρ c main_arg6 (by decide)
    _ = W4 m ρ c (Proc.devRef .tc main_arg6) := W5_of_ne m ρ c main_arg6 (by decide)
    _ = W3 m ρ c (Proc.devRef .tc main_arg6) := StableHlo.after_of_writes_sub hostOps2 _ hostOps2_writes (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W10_main_arg7 (c : Dev nD) : W10 m ρ c (Proc.devRef .tc main_arg7) = m ((c : Thread nD τ).loc main_arg7) :=
  calc W10 m ρ c (Proc.devRef .tc main_arg7)
    _ = W9 m ρ c (Proc.devRef .tc main_arg7) := StableHlo.after_of_writes_sub hostOps6 _ hostOps6_writes (by decide)
    _ = W8 m ρ c (Proc.devRef .tc main_arg7) := W9_of_ne m ρ c main_arg7 (by decide)
    _ = W7 m ρ c (Proc.devRef .tc main_arg7) := W8_of_ne m ρ c main_arg7 (by decide)
    _ = W6 m ρ c (Proc.devRef .tc main_arg7) := StableHlo.after_of_writes_sub hostOps4 _ hostOps4_writes (by decide)
    _ = W5 m ρ c (Proc.devRef .tc main_arg7) := W6_of_ne m ρ c main_arg7 (by decide)
    _ = W4 m ρ c (Proc.devRef .tc main_arg7) := W5_of_ne m ρ c main_arg7 (by decide)
    _ = W3 m ρ c (Proc.devRef .tc main_arg7) := StableHlo.after_of_writes_sub hostOps2 _ hostOps2_writes (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W10_main_arg8 (c : Dev nD) : W10 m ρ c (Proc.devRef .tc main_arg8) = m ((c : Thread nD τ).loc main_arg8) :=
  calc W10 m ρ c (Proc.devRef .tc main_arg8)
    _ = W9 m ρ c (Proc.devRef .tc main_arg8) := StableHlo.after_of_writes_sub hostOps6 _ hostOps6_writes (by decide)
    _ = W8 m ρ c (Proc.devRef .tc main_arg8) := W9_of_ne m ρ c main_arg8 (by decide)
    _ = W7 m ρ c (Proc.devRef .tc main_arg8) := (W8_arr m ρ c 4).trans (((dat4 (V7 m ρ) c).arrAt_in 4 rfl _).trans (A_eq4 (V7 m ρ) c 4))
    _ = W6 m ρ c (Proc.devRef .tc main_arg8) := StableHlo.after_of_writes_sub hostOps4 _ hostOps4_writes (by decide)
    _ = W5 m ρ c (Proc.devRef .tc main_arg8) := W6_of_ne m ρ c main_arg8 (by decide)
    _ = W4 m ρ c (Proc.devRef .tc main_arg8) := W5_of_ne m ρ c main_arg8 (by decide)
    _ = W3 m ρ c (Proc.devRef .tc main_arg8) := StableHlo.after_of_writes_sub hostOps2 _ hostOps2_writes (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W10_main_arg9 (c : Dev nD) : W10 m ρ c (Proc.devRef .tc main_arg9) = m ((c : Thread nD τ).loc main_arg9) :=
  calc W10 m ρ c (Proc.devRef .tc main_arg9)
    _ = W9 m ρ c (Proc.devRef .tc main_arg9) := StableHlo.after_of_writes_sub hostOps6 _ hostOps6_writes (by decide)
    _ = W8 m ρ c (Proc.devRef .tc main_arg9) := W9_of_ne m ρ c main_arg9 (by decide)
    _ = W7 m ρ c (Proc.devRef .tc main_arg9) := W8_of_ne m ρ c main_arg9 (by decide)
    _ = W6 m ρ c (Proc.devRef .tc main_arg9) := StableHlo.after_of_writes_sub hostOps4 _ hostOps4_writes (by decide)
    _ = W5 m ρ c (Proc.devRef .tc main_arg9) := W6_of_ne m ρ c main_arg9 (by decide)
    _ = W4 m ρ c (Proc.devRef .tc main_arg9) := W5_of_ne m ρ c main_arg9 (by decide)
    _ = W3 m ρ c (Proc.devRef .tc main_arg9) := StableHlo.after_of_writes_sub hostOps2 _ hostOps2_writes (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W10_main_arg10 (c : Dev nD) : W10 m ρ c (Proc.devRef .tc main_arg10) = m ((c : Thread nD τ).loc main_arg10) :=
  calc W10 m ρ c (Proc.devRef .tc main_arg10)
    _ = W9 m ρ c (Proc.devRef .tc main_arg10) := StableHlo.after_of_writes_sub hostOps6 _ hostOps6_writes (by decide)
    _ = W8 m ρ c (Proc.devRef .tc main_arg10) := W9_of_ne m ρ c main_arg10 (by decide)
    _ = W7 m ρ c (Proc.devRef .tc main_arg10) := W8_of_ne m ρ c main_arg10 (by decide)
    _ = W6 m ρ c (Proc.devRef .tc main_arg10) := StableHlo.after_of_writes_sub hostOps4 _ hostOps4_writes (by decide)
    _ = W5 m ρ c (Proc.devRef .tc main_arg10) := W6_of_ne m ρ c main_arg10 (by decide)
    _ = W4 m ρ c (Proc.devRef .tc main_arg10) := W5_of_ne m ρ c main_arg10 (by decide)
    _ = W3 m ρ c (Proc.devRef .tc main_arg10) := StableHlo.after_of_writes_sub hostOps2 _ hostOps2_writes (by decide)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl
theorem W10_main_arg11 (c : Dev nD) : W10 m ρ c (Proc.devRef .tc main_arg11) = m ((c : Thread nD τ).loc main_arg11) :=
  calc W10 m ρ c (Proc.devRef .tc main_arg11)
    _ = W9 m ρ c (Proc.devRef .tc main_arg11) := StableHlo.after_of_writes_sub hostOps6 _ hostOps6_writes (by decide)
    _ = W8 m ρ c (Proc.devRef .tc main_arg11) := W9_of_ne m ρ c main_arg11 (by decide)
    _ = W7 m ρ c (Proc.devRef .tc main_arg11) := W8_of_ne m ρ c main_arg11 (by decide)
    _ = W6 m ρ c (Proc.devRef .tc main_arg11) := StableHlo.after_of_writes_sub hostOps4 _ hostOps4_writes (by decide)
    _ = W5 m ρ c (Proc.devRef .tc main_arg11) := W6_of_ne m ρ c main_arg11 (by decide)
    _ = W4 m ρ c (Proc.devRef .tc main_arg11) := W5_of_ne m ρ c main_arg11 (by decide)
    _ = W3 m ρ c (Proc.devRef .tc main_arg11) := StableHlo.after_of_writes_sub hostOps2 _ hostOps2_writes (by decide)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

end Cert.Kernel.Hand

end
-- ==== Proof.K.Run.lean ====
/-
  The whole run of the program: its ten items as segments — a host segment per stretch of host operations, a
  region segment per kernel call, each entered from the boundary contents before it and left at those after
  it — and the launch over them: every weakly fair execution terminates, nothing faulting, and in the final
  state every unscoped buffer holds the last boundary's contents. The frame claim is read off that.
-/
import proofs.«128750_j2551210574751_2_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No region has a prefetched table. -/
abbrev adm : (p : Fin 6) → (pcfgs (F := F) p).Adm := fun p => (cfgs p).toPCfg_adm
/-- Every region's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V5 m ρ) c
  | ⟨4, _⟩ => fun c => dat4 (V7 m ρ) c
  | ⟨5, _⟩ => fun c => dat5 (V8 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- Region 0 over the thread state: its arrays split out of the unscoped buffers and put back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: as region 0, and the scratch accumulator enters and leaves the invariant at some contents. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    refine .trans ?_ (Phi1_in (V2 m ρ) c)
    iintro ⟨Hp, -, Hr⟩
    isplitl [Hp]; · iexact Hp
    iexact Hr
  hout c := by
    rw [Pipeline.ownSems0_none, show (pdats m ρ 1 c).Φ (Fin.last _) = (dat1 (V2 m ρ) c).Φ (Fin.last _) from rfl]
    refine (Phi1_out (V2 m ρ) c).trans ?_
    iintro ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: as region 1. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (V5 m ρ) c).Φ 0 from rfl]
    refine .trans ?_ (Phi3_in (V5 m ρ) c)
    iintro ⟨Hp, -, Hr⟩
    isplitl [Hp]; · iexact Hp
    iexact Hr
  hout c := by
    rw [Pipeline.ownSems0_none, show (pdats m ρ 3 c).Φ (Fin.last _) = (dat3 (V5 m ρ) c).Φ (Fin.last _) from rfl]
    refine (Phi3_out (V5 m ρ) c).trans ?_
    iintro ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: two of its windows read one array, so the arrays are split out of the unscoped buffers by shares and
    joined back; only the output's array changes. -/
def reg5 : Pipeline.RegionSeg (pcfgs (F := F)) adm (pdats m ρ) () defs₀ 𝒱₀ L lv 5 where
  win := winFacts₀5
  block_pos := block_pos5
  stage_whole := stage_whole5
  K := PEmpty
  osem k := k.elim
  ho := Pipeline.OwnSemFacts.none _
  hbody c := (body_obligation5 (V8 m ρ) c).loose
  hwaits := Pipeline.hwaits_of_owed_zero _ _ _ _ L lv 5 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec5 c (V8 m ρ c)
  hentry c := by
    rw [Pipeline.ownSems0_none]
    have hsplit := arrays5_of_unscopedBufs (V8 m ρ) c (V8 m ρ c) rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := unscopedBufs_of_arrays5 (V8 m ρ) c (V9 m ρ c) (hF5 m ρ c) (hrest5 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .region (reg3 m ρ),
    .host (hseg hostOps4 hostOps4_sub hostOps4_fresh (W6 m ρ)),
    .region (reg4 m ρ),
    .region (reg5 m ρ),
    .host (hseg hostOps6 hostOps6_sub hostOps6_fresh (W9 m ρ)) ]

/-- The program is the run of its segments. -/
theorem main_run (c : Dev nD) : main (F := F) c = Pipeline.Seg.run (segs m ρ) := (main_chain c).trans (by chain_rfl)

set_option backward.isDefEq.respectTransparency.types false in
/-- Every weakly fair execution from memory m terminates, nothing faulting, and in every final state each unscoped
    buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W10 m ρ c) ∗ R c) : sProp 𝕄)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- The frame: every weakly fair execution terminates, nothing faulting, and each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W10_main_arg0 m ρ c),
    (h c _ (mem_uc main_arg1 (by decide))).trans (W10_main_arg1 m ρ c),
    (h c _ (mem_uc main_arg2 (by decide))).trans (W10_main_arg2 m ρ c),
    (h c _ (mem_uc main_arg3 (by decide))).trans (W10_main_arg3 m ρ c),
    (h c _ (mem_uc main_arg4 (by decide))).trans (W10_main_arg4 m ρ c),
    (h c _ (mem_uc main_arg5 (by decide))).trans (W10_main_arg5 m ρ c),
    (h c _ (mem_uc main_arg6 (by decide))).trans (W10_main_arg6 m ρ c),
    (h c _ (mem_uc main_arg7 (by decide))).trans (W10_main_arg7 m ρ c),
    (h c _ (mem_uc main_arg8 (by decide))).trans (W10_main_arg8 m ρ c),
    (h c _ (mem_uc main_arg9 (by decide))).trans (W10_main_arg9 m ρ c),
    (h c _ (mem_uc main_arg10 (by decide))).trans (W10_main_arg10 m ρ c),
    (h c _ (mem_uc main_arg11 (by decide))).trans (W10_main_arg11 m ρ c)⟩) (run_all m ρ)

end Cert.Kernel.Hand

end
-- ==== Proof.KI.Reg0.lean ====
/-
  Region 0: the first dense projection. Grid point t takes rows [2048 t, 2048 t + 2048) of the feature
  matrix (window 0), the whole weight matrix W1 (window 1, fetched once) and leaves in the output block
  (window 2) the product of the two, both rounded to bf16 on the way in, accumulated from zero. Stated at
  a parameter V: the TensorCore's buffer contents when the region is entered.
-/
import proofs.«128750_j2551210574751_2_alg».proof.Proof.Gen.KernelIdeal.Launch
import proofs.«128750_j2551210574751_2_alg».proof.Proof.Gen.KernelIdeal.Skeleton
import proofs.«128750_j2551210574751_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds its row block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the whole weight matrix at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_x : Rect S2048x512 := Rect.unit (s := S2048x512) ![0, 0] S2048x512.size inb_S2048x512_S2048x512_0_0
abbrev r0_w : Rect S512x256 := Rect.unit (s := S512x256) ![0, 0] S512x256.size inb_S512x256_S512x256_0_0
abbrev r0_o : Rect S2048x256 := Rect.unit (s := S2048x256) ![0, 0] S2048x256.size inb_S2048x256_S2048x256_0_0

/-- What the body leaves in the output block: its one whole store, the product of the two loaded blocks. -/
def out0_2 (x : Vec F S2048x512 .f32) (w : Vec F S512x256 .f32) : Vec F S2048x256 .f32 :=
  View.canon [⟨r0_o, k0_pay1 (View.ld x r0_x) (View.ld w r0_w)⟩]

/-- The one store covers the block. -/
theorem cover0_2 (p0 : Vec F S2048x256 .f32) (y : S2048x256.Idx) :
    ∃ pc ∈ ([⟨r0_o, p0⟩] : List (View.Piece (Elt F) S2048x256 .f32)), y ∈ pc.1.set :=
  View.cover_of_tiled [⟨r0_o, p0⟩] S2048x256.size (by rfl) y

/-! ## The body's triple -/

set_option maxHeartbeats 1000000 in
/-- The body on whole staging memrefs: the inputs' at contents x and w, the output's at anything; it ends with
    the inputs as they were and the output at the product. -/
theorem sound_kernel0 (c : Dev nD) (E : Set ℕ) (i : grid0.Coords)
    (arg1 : Memref sig .tc .vmem S2048x512 .f32) (harg1 : arg1.IsWhole)
    (arg2 : Memref sig .tc .vmem S512x256 .f32) (harg2 : arg2.IsWhole)
    (arg3 : Memref sig .tc .vmem S2048x256 .f32) (harg3 : arg3.IsWhole)
    (x : Vec F S2048x512 .f32) (w : Vec F S512x256 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (out0_2 x w)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_2 _)

/-! ## The proof data -/

/-- Region 0's proof data on core c: the arrays as the region finds them; after the body at point t each input's buffer
    at its block and the output's at the product of the two input blocks; the class invariant; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1Body.lean ====
import proofs.«128750_j2551210574751_2_alg».proof.Proof.Gen.KernelIdeal.Launch
import proofs.«128750_j2551210574751_2_alg».proof.Proof.Gen.KernelIdeal.Skeleton
import proofs.«128750_j2551210574751_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The reduction kernel of pallas_call 1 on whole staging memrefs

The kernel accumulates, over the four reduction coordinates `k` of one row block, the products of the
row block's `k`-th column block of the left factor with rows `[2048 k, 2048 k + 2048)` of the right
factor, in a scratch accumulator it zeroes at `k = 0` and copies to the output block at `k = 3`.
Here: one reduction step as a function of the contents read, and the body's triple in each of the three
cases of its two conditions. -/

/-! ## The body's accesses -/

/-- The whole accumulator block (also the whole output block). -/
abbrev rS1 : Rect S512x256 := Rect.unit (s := S512x256) ![0, 0] S512x256.size inb_S512x256_S512x256_0_0
/-- The whole block of the left factor. -/
abbrev rA1 : Rect S512x2048 := Rect.unit (s := S512x2048) ![0, 0] S512x2048.size inb_S512x2048_S512x2048_0_0
/-- The rows of the right factor the point's reduction step reads: 2048 rows from row `2048 k` on. -/
abbrev rH1 (i : grid1.Coords) : Rect S8192x256 := Rect.unit (s := S8192x256) (k1_off1 i) S2048x256.size (k1_off1_inb i)

/-- The zero offsets are zero at each axis. -/
theorem offs_zero1 : (![0, 0] : Fin 2 → Nat) = fun _ => 0 := funext fun a => by fin_cases a <;> rfl

/-- One reduction step at grid point `i`: the accumulator `s` plus the product of the left block `a` with the
    rows of the right factor `h` that the point reads (each factor rounded to bf16 first, the product and the sum
    in f32: the payload of the accumulator's store). -/
def step1 (i : grid1.Coords) (a : Vec F S512x2048 .bf16) (h : Vec F S8192x256 .f32) (s : Vec F S512x256 .f32) : Vec F S512x256 .f32 :=
  k1_pay2 (View.ld h (rH1 i)) s a

theorem step1_eq (i : grid1.Coords) (a : Vec F S512x2048 .bf16) (h : Vec F S8192x256 .f32) (s : Vec F S512x256 .f32) :
    step1 i a h s = k1_pay2 (View.ld h (rH1 i)) s a := rfl

/-! ## The body's branch conditions -/

/-- The reset's condition (the reduction coordinate is 0), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 4) — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The write-out's condition (the reduction coordinate is 3). -/
abbrev cond1_1 (i : grid1.Coords) : Prop := k1_cond2 i = 1#1
/-- It holds at the points ≡ 3 (mod 4) — decided over the grid. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The two inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
/-- Where the write-out's condition fails the output block is idle and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- Where it holds the output block is live. -/
theorem liveAt1_2 : ∀ t : Fin cfg1.N, cond1_1 (grid1.coords t) → cfg1.idle 2 (grid1.coords t) = false := by decide +kernel

/-! ## The body's triple, case by case

On whole staging memrefs — the two factors' at read contents `x0`, `x1` — the body runs to the continuation holding the
factors' as they were and the accumulator at one step from where it started: from zero where the reset's condition
holds (the accumulator's contents before do not matter), from its contents `xs` otherwise. The output block is handed
back as found (`xi`) unless the write-out's condition holds; then it is left at the accumulator's new contents. -/

set_option maxHeartbeats 1000000 in
theorem kernel1_A (c : Dev nD) (i : grid1.Coords) (arg2 : Memref sig .tc .vmem S512x2048 .bf16) (harg2 : arg2.IsWhole) (arg3 : Memref sig .tc .vmem S8192x256 .f32) (harg3 : arg3.IsWhole) (arg4 : Memref sig .tc .vmem S512x256 .f32) (harg4 : arg4.IsWhole) (arg5 : Memref sig .tc .vmem S512x256 .f32) (harg5 : arg5.IsWhole)
    (hc0 : cond1_0 i) (hc1 : ¬cond1_1 i)
    (x0 : Vec F S512x2048 .bf16) (x1 : Vec F S8192x256 .f32) (xi : Vec F S512x256 .f32) (E : Set ℕ) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
        ∗ (iprop(owns (c : Thread nD τ) arg2 fullShare x0 ∗ owns (c : Thread nD τ) arg3 fullShare x1 ∗ owns (c : Thread nD τ) arg4 fullShare xi ∗ owns (c : Thread nD τ) arg5 fullShare (step1 i x0 x1 (k1_pay1 (F := F)))) -∗ K ⟨⟩))
      ⊢ wp frame (wpE (defs₀ (F := F)) Variants.none c none) E (cc1__spmm_dense_kernel i arg2 harg2 arg3 harg3 arg4 harg4 arg5 harg5) K := by
  simp only [cc1__spmm_dense_kernel_eq_skeleton]; unfold cc1__spmm_dense_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [View.read_writes_eq_canon _ _ _ (fun y => ⟨_, List.mem_cons_self, View.mem_set_unit_zero offs_zero1 inb_S512x256_S512x256_0_0 y⟩), View.canon_cons_unit_zero (S := S512x256) offs_zero1, View.readCov_unit_zero (S := S512x256) _ offs_zero1]
  unfold step1
  simp only [View.readAt_eq_ld, View.ld_unit_zero (S := S512x256) offs_zero1, View.ld_unit_zero (S := S512x2048) offs_zero1]

set_option maxHeartbeats 1000000 in
theorem kernel1_B (c : Dev nD) (i : grid1.Coords) (arg2 : Memref sig .tc .vmem S512x2048 .bf16) (harg2 : arg2.IsWhole) (arg3 : Memref sig .tc .vmem S8192x256 .f32) (harg3 : arg3.IsWhole) (arg4 : Memref sig .tc .vmem S512x256 .f32) (harg4 : arg4.IsWhole) (arg5 : Memref sig .tc .vmem S512x256 .f32) (harg5 : arg5.IsWhole)
    (hc0 : ¬cond1_0 i) (hc1 : ¬cond1_1 i)
    (x0 : Vec F S512x2048 .bf16) (x1 : Vec F S8192x256 .f32) (xi : Vec F S512x256 .f32) (xs : Vec F S512x256 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (step1 i x0 x1 xs)) -∗ K ⟨⟩))
      ⊢ wp frame (wpE (defs₀ (F := F)) Variants.none c none) E (cc1__spmm_dense_kernel i arg2 harg2 arg3 harg3 arg4 harg4 arg5 harg5) K := by
  simp only [cc1__spmm_dense_kernel_eq_skeleton]; unfold cc1__spmm_dense_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  rw [View.read_writes_eq_canon _ _ _ (fun y => ⟨_, List.mem_singleton_self _, View.mem_set_unit_zero offs_zero1 inb_S512x256_S512x256_0_0 y⟩), View.canon_unit_zero offs_zero1]
  unfold step1
  simp only [View.readAt_eq_ld, View.ld_unit_zero (S := S512x256) offs_zero1, View.ld_unit_zero (S := S512x2048) offs_zero1]

set_option maxHeartbeats 1000000 in
theorem kernel1_C (c : Dev nD) (i : grid1.Coords) (arg2 : Memref sig .tc .vmem S512x2048 .bf16) (harg2 : arg2.IsWhole) (arg3 : Memref sig .tc .vmem S8192x256 .f32) (harg3 : arg3.IsWhole) (arg4 : Memref sig .tc .vmem S512x256 .f32) (harg4 : arg4.IsWhole) (arg5 : Memref sig .tc .vmem S512x256 .f32) (harg5 : arg5.IsWhole)
    (hc0 : ¬cond1_0 i) (hc1 : cond1_1 i)
    (x0 : Vec F S512x2048 .bf16) (x1 : Vec F S8192x256 .f32) (xs : Vec F S512x256 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (step1 i x0 x1 xs) ∗ owns (c : Thread nD τ) arg5 fullShare (step1 i x0 x1 xs)) -∗ K ⟨⟩))
      ⊢ wp frame (wpE (defs₀ (F := F)) Variants.none c none) E (cc1__spmm_dense_kernel i arg2 harg2 arg3 harg3 arg4 harg4 arg5 harg5) K := by
  simp only [cc1__spmm_dense_kernel_eq_skeleton]; unfold cc1__spmm_dense_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (fun y => ⟨_, List.mem_singleton_self _, View.mem_set_unit_zero offs_zero1 inb_S512x256_S512x256_0_0 y⟩), View.canon_unit_zero offs_zero1, View.readCov_unit_zero (S := S512x256) _ offs_zero1]
    unfold step1
    simp only [View.readAt_eq_ld, View.ld_unit_zero (S := S512x256) offs_zero1, View.ld_unit_zero (S := S512x2048) offs_zero1]
  iexists _; isplitr
  swap; · iexact HS
  ipureintro
  sl_unfold_run_names
  rw [View.read_writes_eq_canon _ _ _ (fun y => ⟨_, List.mem_singleton_self _, View.mem_set_unit_zero offs_zero1 inb_S512x256_S512x256_0_0 y⟩), View.canon_unit_zero offs_zero1]
  unfold step1
  simp only [View.readAt_eq_ld, View.ld_unit_zero (S := S512x256) offs_zero1, View.ld_unit_zero (S := S512x2048) offs_zero1]

end Cert.KernelIdeal.Hand

end
-- ==== Proof.KI.Reg1.lean ====
import proofs.«128750_j2551210574751_2_alg».proof.Proof.KI.Reg1Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The frame of pallas_call 1 (the reduction over four column blocks), at the entry contents `V`

The proof data of the pipeline at a PARAMETER `V` (the TensorCore's buffer contents when the region is
entered): each window's block at a point, the accumulator's contents after each point (a recursion over the
points: from zero at the first of every four, one step further at each), the invariant that carries the
accumulator between points, the body obligation, and the invariant's two ends. -/

section Region1
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (not fetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator after each point -/

/-- The accumulator's contents after the first `n` points (`n = 0`: nothing has run, the value is not used): one
    step from zero at a point whose reduction coordinate is 0, one step from the contents before otherwise. -/
def acc1 (c : Dev nD) : (n : ℕ) → Vec F S512x256 .f32
  | 0 => k1_pay1
  | n + 1 =>
    if h : n < cfg1.N then
      step1 (grid1.coords ⟨n, h⟩) (iblk1 V c 0 ⟨n, h⟩) (iblk1 V c 1 ⟨n, h⟩) (if n % 4 = 0 then k1_pay1 else acc1 c n)
    else k1_pay1

/-- After a point whose reduction coordinate is 0: one step from zero. -/
theorem acc1_succ_reset (c : Dev nD) (t : Fin cfg1.N) (h : t.val % 4 = 0) :
    acc1 V c (t.val + 1) = step1 (grid1.coords t) (iblk1 V c 0 t) (iblk1 V c 1 t) (k1_pay1 (F := F)) := by
  obtain ⟨n, hn⟩ := t
  rw [acc1, dif_pos hn, if_pos h]

/-- After any other point: one step from the contents before it. -/
theorem acc1_succ_add (c : Dev nD) (t : Fin cfg1.N) (h : ¬t.val % 4 = 0) :
    acc1 V c (t.val + 1) = step1 (grid1.coords t) (iblk1 V c 0 t) (iblk1 V c 1 t) (acc1 V c t.val) := by
  obtain ⟨n, hn⟩ := t
  rw [acc1, dif_pos hn, if_neg h]

/-! ## The invariant: the accumulator carried between points -/

/-- The kernel's scratch operand: a whole scoped buffer of its own. -/
abbrev scM1 : Memref sig .tc .vmem S512x256 .f32 := Memref.whole cc1_scratch0

/-- Before position `n`: the accumulator at what the points before left (before the first point: at anything), the
    rest of the scoped buffers that are no staging buffer, and the generator register at some state. -/
def Phi1 (c : Dev nD) : ℕ → sProp 𝕄
  | 0 => iprop(iprop(∃ d, owns (c : Thread nD τ) scM1 fullShare d) ∗ Pipeline.scopedRestBut spec1 c [cc1_scratch0] ∗ (∃ r, prngReg c r))
  | n + 1 => iprop(owns (c : Thread nD τ) scM1 fullShare (acc1 V c (n + 1)) ∗ Pipeline.scopedRestBut spec1 c [cc1_scratch0] ∗ (∃ r, prngReg c r))

theorem Phi1_zero (c : Dev nD) (n : ℕ) (hz : n = 0) :
    Phi1 V c n = iprop(iprop(∃ d, owns (c : Thread nD τ) scM1 fullShare d) ∗ Pipeline.scopedRestBut spec1 c [cc1_scratch0] ∗ (∃ r, prngReg c r)) := by
  subst hz; rfl
theorem Phi1_succ (c : Dev nD) (n : ℕ) :
    Phi1 V c (n + 1) = iprop(owns (c : Thread nD τ) scM1 fullShare (acc1 V c (n + 1)) ∗ Pipeline.scopedRestBut spec1 c [cc1_scratch0] ∗ (∃ r, prngReg c r)) := rfl
theorem Phi1_pos (c : Dev nD) (n : ℕ) (hz : n ≠ 0) :
    Phi1 V c n = iprop(owns (c : Thread nD τ) scM1 fullShare (acc1 V c n) ∗ Pipeline.scopedRestBut spec1 c [cc1_scratch0] ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and the output's at the accumulator after `t` (consulted only where the output is
    stored: elsewhere the window is idle and not written back); the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c (t.val + 1)
  Φ t := Phi1 V c t.val
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem Phi1_castSucc (c : Dev nD) (t : Fin cfg1.N) : (dat1 V c).Φ t.castSucc = Phi1 V c t.val := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c (t.val + 1) := by dsimp only [dat1]

/-- Where the output block is written back it holds the accumulator after the point. -/
theorem after1_2_flush (c : Dev nD) (t : Fin cfg1.N) (h : t.val % 4 = 3) : (dat1 V c).after 2 t = acc1 V c (t.val + 1) :=
  after1_2 V c t

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' memrefs hold their blocks; the point's position mod 4 says which case of the two
    conditions it is in. The invariant hands the body the accumulator at what the points before left (where the reset's
    condition holds its contents do not matter) and takes it back one step further; the output block is handed back as
    found except where it is stored; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) from rfl, Phi1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [Phi1_castSucc V c t]
  have hN : t.val < 64 := lt_of_lt_of_eq t.isLt (show cfg1.N = 64 from N_1)
  by_cases h0 : t.val % 4 = 0
  · have h1 : ¬t.val % 4 = 3 := by omega
    have hc0 : cond1_0 (grid1.coords t) := (hcond1_0 t).mpr h0
    have hc1 : ¬cond1_1 (grid1.coords t) := fun h => h1 ((hcond1_1 t).mp h)
    rw [Dat.leavesExact_idle (dat1 V c) 2 t (idleAt1_2 t hc1) (noFlush1_2 t hc1)]
    rw [acc1_succ_reset V c t h0]
    by_cases hz : t.val = 0
    · rw [Phi1_zero V c _ hz]
      iintro ⟨⟨HS, HR, Hg⟩, Ho, ⟨%d0, H0⟩, ⟨%d1, H1⟩, ⟨%d2, H2⟩⟩
      iapply (kernel1_A c (grid1.coords t) _ _ _ _ _ _ _ _ hc0 hc1 (iblk1 V c 0 t) (iblk1 V c 1 t) _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
    · rw [Phi1_pos V c _ hz]
      iintro ⟨⟨HS, HR, Hg⟩, Ho, ⟨%d0, H0⟩, ⟨%d1, H1⟩, ⟨%d2, H2⟩⟩
      iapply (kernel1_A c (grid1.coords t) _ _ _ _ _ _ _ _ hc0 hc1 (iblk1 V c 0 t) (iblk1 V c 1 t) _ Set.univ _)
      isplitl [H0]; · iexact H0
      isplitl [H1]; · iexact H1
      isplitl [H2]; · iexact H2
      isplitl [HS]; · iexists _; iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
  · have hz : t.val ≠ 0 := fun h => h0 (by rw [h])
    have hc0 : ¬cond1_0 (grid1.coords t) := fun h => h0 ((hcond1_0 t).mp h)
    rw [acc1_succ_add V c t h0, Phi1_pos V c _ hz]
    by_cases h1 : t.val % 4 = 3
    · have hc1 : cond1_1 (grid1.coords t) := (hcond1_1 t).mpr h1
      rw [show (dat1 V c).leavesExact 2 t = owns (c : Thread nD τ) (st1_2 t) fullShare ((dat1 V c).after 2 t) from by
        unfold Dat.leavesExact; rw [liveAt1_2 t hc1], after1_2, acc1_succ_add V c t h0]
      iintro ⟨⟨HS, HR, Hg⟩, Ho, ⟨%d0, H0⟩, ⟨%d1, H1⟩, ⟨%d2, H2⟩⟩
      iapply (kernel1_C c (grid1.coords t) _ _ _ _ _ _ _ _ hc0 hc1 (iblk1 V c 0 t) (iblk1 V c 1 t) _ Set.univ _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 t hc1) (noFlush1_2 t hc1)]
      iintro ⟨⟨HS, HR, Hg⟩, Ho, ⟨%d0, H0⟩, ⟨%d1, H1⟩, ⟨%d2, H2⟩⟩
      iapply (kernel1_B c (grid1.coords t) _ _ _ _ _ _ _ _ hc0 hc1 (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/

/-- The generator register and the scoped buffers that are no staging buffer make the invariant before the first
    point: the scratch is among them, at some contents. -/
theorem Phi1_in (c : Dev nD) : (iprop((∃ r, prngReg c r) ∗ Pipeline.scopedRest spec1 c) : sProp 𝕄) ⊢ (dat1 V c).Φ 0 := by
  rw [show (dat1 V c).Φ 0 = Phi1 V c 0 from rfl, Phi1_zero V c 0 rfl, scopedRest1_split]
  simp only [scM1, owns_whole]
  iintro ⟨Hg, HS, HR⟩
  isplitl [HS]; · iexact HS
  isplitl [HR]; · iexact HR
  iexact Hg

/-- After the last point the invariant gives them back: the accumulator's contents are forgotten. -/
theorem Phi1_out (c : Dev nD) : (dat1 V c).Φ (Fin.last cfg1.N) ⊢ (iprop((∃ r, prngReg c r) ∗ Pipeline.scopedRest spec1 c) : sProp 𝕄) := by
  rw [show (dat1 V c).Φ (Fin.last cfg1.N) = Phi1 V c (Fin.last cfg1.N).val from rfl,
    Phi1_pos V c _ (by rw [Fin.val_last]; have : cfg1.N = 64 := N_1; omega), scopedRest1_split]
  simp only [scM1, owns_whole]
  iintro ⟨HS, HR, Hg⟩
  isplitl [Hg]; · iexact Hg
  isplitl [HS]; · iexists _; iexact HS
  iexact HR

end Region1

end Cert.KernelIdeal.Hand

end
-- ==== Proof.KI.Reg2.lean ====
/-
  Region 2: the second dense projection. Grid point t takes rows [2048 t, 2048 t + 2048) of the aggregated
  hidden features (window 0), the whole combined weight matrix (window 1, fetched once) and leaves in the
  output block (window 2) the product of the positive part of the row block and the weights, both rounded
  to bf16 on the way in, accumulated from zero. Stated at a parameter V: the TensorCore's buffer contents
  when the region is entered.
-/
import proofs.«128750_j2551210574751_2_alg».proof.Proof.Gen.KernelIdeal.Launch
import proofs.«128750_j2551210574751_2_alg».proof.Proof.Gen.KernelIdeal.Skeleton
import proofs.«128750_j2551210574751_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The hidden-feature window's staging buffer holds its row block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight window's staging buffer holds the whole weight matrix at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_x : Rect S2048x256 := Rect.unit (s := S2048x256) ![0, 0] S2048x256.size inb_S2048x256_S2048x256_0_0
abbrev r2_w : Rect S256x128 := Rect.unit (s := S256x128) ![0, 0] S256x128.size inb_S256x128_S256x128_0_0
abbrev r2_o : Rect S2048x128 := Rect.unit (s := S2048x128) ![0, 0] S2048x128.size inb_S2048x128_S2048x128_0_0

/-- What the body leaves in the output block: its one whole store, the product of the
    positive part of the loaded row block and the loaded weights. -/
def out2_2 (x : Vec F S2048x256 .f32) (w : Vec F S256x128 .f32) : Vec F S2048x128 .f32 :=
  View.canon [⟨r2_o, k2_pay1 (View.ld x r2_x) (View.ld w r2_w)⟩]

/-- The one store covers the block. -/
theorem cover2_2 (p0 : Vec F S2048x128 .f32) (y : S2048x128.Idx) :
    ∃ pc ∈ ([⟨r2_o, p0⟩] : List (View.Piece (Elt F) S2048x128 .f32)), y ∈ pc.1.set :=
  View.cover_of_tiled [⟨r2_o, p0⟩] S2048x128.size (by rfl) y

/-! ## The body's triple -/

set_option maxHeartbeats 1000000 in
/-- The body on whole staging memrefs: the inputs' at contents x and w, the output's at anything; it ends with
    the inputs as they were and the output at the product. -/
theorem sound_kernel2 (c : Dev nD) (E : Set ℕ) (i : grid2.Coords)
    (arg1 : Memref sig .tc .vmem S2048x256 .f32) (harg1 : arg1.IsWhole)
    (arg2 : Memref sig .tc .vmem S256x128 .f32) (harg2 : arg2.IsWhole)
    (arg3 : Memref sig .tc .vmem S2048x128 .f32) (harg3 : arg3.IsWhole)
    (x : Vec F S2048x256 .f32) (w : Vec F S256x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (out2_2 x w)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_2 _)

/-! ## The proof data -/

/-- Region 2's proof data on core c: the arrays as the region finds them; after the body at point t each input's buffer
    at its block and the output's at the product of the two input blocks; the class invariant; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3Body.lean ====
import proofs.«128750_j2551210574751_2_alg».proof.Proof.Gen.KernelIdeal.Launch
import proofs.«128750_j2551210574751_2_alg».proof.Proof.Gen.KernelIdeal.Skeleton
import proofs.«128750_j2551210574751_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The reduction kernel of pallas_call 3 on whole staging memrefs

The kernel accumulates, over the four reduction coordinates `k` of one row block, the products of the
row block's `k`-th column block of the left factor with rows `[2048 k, 2048 k + 2048)` of the right
factor, in a scratch accumulator it zeroes at `k = 0` and copies to the output block at `k = 3`.
Here: one reduction step as a function of the contents read, and the body's triple in each of the three
cases of its two conditions. -/

/-! ## The body's accesses -/

/-- The whole accumulator block (also the whole output block). -/
abbrev rS3 : Rect S512x128 := Rect.unit (s := S512x128) ![0, 0] S512x128.size inb_S512x128_S512x128_0_0
/-- The whole block of the left factor. -/
abbrev rA3 : Rect S512x2048 := Rect.unit (s := S512x2048) ![0, 0] S512x2048.size inb_S512x2048_S512x2048_0_0
/-- The rows of the right factor the point's reduction step reads: 2048 rows from row `2048 k` on. -/
abbrev rH3 (i : grid3.Coords) : Rect S8192x128 := Rect.unit (s := S8192x128) (k3_off1 i) S2048x128.size (k3_off1_inb i)

/-- The zero offsets are zero at each axis. -/
theorem offs_zero3 : (![0, 0] : Fin 2 → Nat) = fun _ => 0 := funext fun a => by fin_cases a <;> rfl

/-- One reduction step at grid point `i`: the accumulator `s` plus the product of the left block `a` with the
    rows of the right factor `h` that the point reads (each factor rounded to bf16 first, the product and the sum
    in f32: the payload of the accumulator's store). -/
def step3 (i : grid3.Coords) (a : Vec F S512x2048 .bf16) (h : Vec F S8192x128 .f32) (s : Vec F S512x128 .f32) : Vec F S512x128 .f32 :=
  k3_pay2 (View.ld h (rH3 i)) s a

theorem step3_eq (i : grid3.Coords) (a : Vec F S512x2048 .bf16) (h : Vec F S8192x128 .f32) (s : Vec F S512x128 .f32) :
    step3 i a h s = k3_pay2 (View.ld h (rH3 i)) s a := rfl

/-! ## The body's branch conditions -/

/-- The reset's condition (the reduction coordinate is 0), from the grid coordinates. -/
abbrev cond3_0 (i : grid3.Coords) : Prop := (Scalar.cmpi .ne (Scalar.extui (Scalar.cmpi .eq (BitVec.ofNat 32 (i 1).val) 0#32)) 0#32) = 1#1
/-- It holds at the points ≡ 0 (mod 4) — decided over the grid. -/
theorem hcond3_0 : ∀ t : Fin cfg3.N, cond3_0 (grid3.coords t) ↔ t.val % 4 = 0 :=
  (by decide +kernel : ∀ t : Fin grid3.N, cond3_0 (grid3.coords t) ↔ t.val % 4 = 0)

/-- The write-out's condition (the reduction coordinate is 3). -/
abbrev cond3_1 (i : grid3.Coords) : Prop := k3_cond2 i = 1#1
/-- It holds at the points ≡ 3 (mod 4) — decided over the grid. -/
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

/-- The two inputs are never idle. -/
theorem liveAt3_0 : ∀ t : Fin cfg3.N, cfg3.idle 0 (grid3.coords t) = false := fun _ => rfl
theorem liveAt3_1 : ∀ t : Fin cfg3.N, cfg3.idle 1 (grid3.coords t) = false := fun _ => rfl
/-- Where the write-out's condition fails the output block is idle and is not written back. -/
theorem idleAt3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel
/-- Where it holds the output block is live. -/
theorem liveAt3_2 : ∀ t : Fin cfg3.N, cond3_1 (grid3.coords t) → cfg3.idle 2 (grid3.coords t) = false := by decide +kernel

/-! ## The body's triple, case by case

On whole staging memrefs — the two factors' at read contents `x0`, `x1` — the body runs to the continuation holding the
factors' as they were and the accumulator at one step from where it started: from zero where the reset's condition
holds (the accumulator's contents before do not matter), from its contents `xs` otherwise. The output block is handed
back as found (`xi`) unless the write-out's condition holds; then it is left at the accumulator's new contents. -/

set_option maxHeartbeats 1000000 in
theorem kernel3_A (c : Dev nD) (i : grid3.Coords) (arg2 : Memref sig .tc .vmem S512x2048 .bf16) (harg2 : arg2.IsWhole) (arg3 : Memref sig .tc .vmem S8192x128 .f32) (harg3 : arg3.IsWhole) (arg4 : Memref sig .tc .vmem S512x128 .f32) (harg4 : arg4.IsWhole) (arg5 : Memref sig .tc .vmem S512x128 .f32) (harg5 : arg5.IsWhole)
    (hc0 : cond3_0 i) (hc1 : ¬cond3_1 i)
    (x0 : Vec F S512x2048 .bf16) (x1 : Vec F S8192x128 .f32) (xi : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
        ∗ (iprop(owns (c : Thread nD τ) arg2 fullShare x0 ∗ owns (c : Thread nD τ) arg3 fullShare x1 ∗ owns (c : Thread nD τ) arg4 fullShare xi ∗ owns (c : Thread nD τ) arg5 fullShare (step3 i x0 x1 (k3_pay1 (F := F)))) -∗ K ⟨⟩))
      ⊢ wp frame (wpE (defs₀ (F := F)) Variants.none c none) E (cc3__spmm_dense_kernel i arg2 harg2 arg3 harg3 arg4 harg4 arg5 harg5) K := by
  simp only [cc3__spmm_dense_kernel_eq_skeleton]; unfold cc3__spmm_dense_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [View.read_writes_eq_canon _ _ _ (fun y => ⟨_, List.mem_cons_self, View.mem_set_unit_zero offs_zero3 inb_S512x128_S512x128_0_0 y⟩), View.canon_cons_unit_zero (S := S512x128) offs_zero3, View.readCov_unit_zero (S := S512x128) _ offs_zero3]
  unfold step3
  simp only [View.readAt_eq_ld, View.ld_unit_zero (S := S512x128) offs_zero3, View.ld_unit_zero (S := S512x2048) offs_zero3]

set_option maxHeartbeats 1000000 in
theorem kernel3_B (c : Dev nD) (i : grid3.Coords) (arg2 : Memref sig .tc .vmem S512x2048 .bf16) (harg2 : arg2.IsWhole) (arg3 : Memref sig .tc .vmem S8192x128 .f32) (harg3 : arg3.IsWhole) (arg4 : Memref sig .tc .vmem S512x128 .f32) (harg4 : arg4.IsWhole) (arg5 : Memref sig .tc .vmem S512x128 .f32) (harg5 : arg5.IsWhole)
    (hc0 : ¬cond3_0 i) (hc1 : ¬cond3_1 i)
    (x0 : Vec F S512x2048 .bf16) (x1 : Vec F S8192x128 .f32) (xi : Vec F S512x128 .f32) (xs : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (step3 i x0 x1 xs)) -∗ K ⟨⟩))
      ⊢ wp frame (wpE (defs₀ (F := F)) Variants.none c none) E (cc3__spmm_dense_kernel i arg2 harg2 arg3 harg3 arg4 harg4 arg5 harg5) K := by
  simp only [cc3__spmm_dense_kernel_eq_skeleton]; unfold cc3__spmm_dense_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  rw [View.read_writes_eq_canon _ _ _ (fun y => ⟨_, List.mem_singleton_self _, View.mem_set_unit_zero offs_zero3 inb_S512x128_S512x128_0_0 y⟩), View.canon_unit_zero offs_zero3]
  unfold step3
  simp only [View.readAt_eq_ld, View.ld_unit_zero (S := S512x128) offs_zero3, View.ld_unit_zero (S := S512x2048) offs_zero3]

set_option maxHeartbeats 1000000 in
theorem kernel3_C (c : Dev nD) (i : grid3.Coords) (arg2 : Memref sig .tc .vmem S512x2048 .bf16) (harg2 : arg2.IsWhole) (arg3 : Memref sig .tc .vmem S8192x128 .f32) (harg3 : arg3.IsWhole) (arg4 : Memref sig .tc .vmem S512x128 .f32) (harg4 : arg4.IsWhole) (arg5 : Memref sig .tc .vmem S512x128 .f32) (harg5 : arg5.IsWhole)
    (hc0 : ¬cond3_0 i) (hc1 : cond3_1 i)
    (x0 : Vec F S512x2048 .bf16) (x1 : Vec F S8192x128 .f32) (xs : Vec F S512x128 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (step3 i x0 x1 xs) ∗ owns (c : Thread nD τ) arg5 fullShare (step3 i x0 x1 xs)) -∗ K ⟨⟩))
      ⊢ wp frame (wpE (defs₀ (F := F)) Variants.none c none) E (cc3__spmm_dense_kernel i arg2 harg2 arg3 harg3 arg4 harg4 arg5 harg5) K := by
  simp only [cc3__spmm_dense_kernel_eq_skeleton]; unfold cc3__spmm_dense_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (fun y => ⟨_, List.mem_singleton_self _, View.mem_set_unit_zero offs_zero3 inb_S512x128_S512x128_0_0 y⟩), View.canon_unit_zero offs_zero3, View.readCov_unit_zero (S := S512x128) _ offs_zero3]
    unfold step3
    simp only [View.readAt_eq_ld, View.ld_unit_zero (S := S512x128) offs_zero3, View.ld_unit_zero (S := S512x2048) offs_zero3]
  iexists _; isplitr
  swap; · iexact HS
  ipureintro
  sl_unfold_run_names
  rw [View.read_writes_eq_canon _ _ _ (fun y => ⟨_, List.mem_singleton_self _, View.mem_set_unit_zero offs_zero3 inb_S512x128_S512x128_0_0 y⟩), View.canon_unit_zero offs_zero3]
  unfold step3
  simp only [View.readAt_eq_ld, View.ld_unit_zero (S := S512x128) offs_zero3, View.ld_unit_zero (S := S512x2048) offs_zero3]

end Cert.KernelIdeal.Hand

end
-- ==== Proof.KI.Reg3.lean ====
import proofs.«128750_j2551210574751_2_alg».proof.Proof.KI.Reg3Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The frame of pallas_call 3 (the reduction over four column blocks), at the entry contents `V`

The proof data of the pipeline at a PARAMETER `V` (the TensorCore's buffer contents when the region is
entered): each window's block at a point, the accumulator's contents after each point (a recursion over the
points: from zero at the first of every four, one step further at each), the invariant that carries the
accumulator between points, the body obligation, and the invariant's two ends. -/

section Region3
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (not fetched, the
    block index has not moved), for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The accumulator after each point -/

/-- The accumulator's contents after the first `n` points (`n = 0`: nothing has run, the value is not used): one
    step from zero at a point whose reduction coordinate is 0, one step from the contents before otherwise. -/
def acc3 (c : Dev nD) : (n : ℕ) → Vec F S512x128 .f32
  | 0 => k3_pay1
  | n + 1 =>
    if h : n < cfg3.N then
      step3 (grid3.coords ⟨n, h⟩) (iblk3 V c 0 ⟨n, h⟩) (iblk3 V c 1 ⟨n, h⟩) (if n % 4 = 0 then k3_pay1 else acc3 c n)
    else k3_pay1

/-- After a point whose reduction coordinate is 0: one step from zero. -/
theorem acc3_succ_reset (c : Dev nD) (t : Fin cfg3.N) (h : t.val % 4 = 0) :
    acc3 V c (t.val + 1) = step3 (grid3.coords t) (iblk3 V c 0 t) (iblk3 V c 1 t) (k3_pay1 (F := F)) := by
  obtain ⟨n, hn⟩ := t
  rw [acc3, dif_pos hn, if_pos h]

/-- After any other point: one step from the contents before it. -/
theorem acc3_succ_add (c : Dev nD) (t : Fin cfg3.N) (h : ¬t.val % 4 = 0) :
    acc3 V c (t.val + 1) = step3 (grid3.coords t) (iblk3 V c 0 t) (iblk3 V c 1 t) (acc3 V c t.val) := by
  obtain ⟨n, hn⟩ := t
  rw [acc3, dif_pos hn, if_neg h]

/-! ## The invariant: the accumulator carried between points -/

/-- The kernel's scratch operand: a whole scoped buffer of its own. -/
abbrev scM3 : Memref sig .tc .vmem S512x128 .f32 := Memref.whole cc3_scratch0

/-- Before position `n`: the accumulator at what the points before left (before the first point: at anything), the
    rest of the scoped buffers that are no staging buffer, and the generator register at some state. -/
def Phi3 (c : Dev nD) : ℕ → sProp 𝕄
  | 0 => iprop(iprop(∃ d, owns (c : Thread nD τ) scM3 fullShare d) ∗ Pipeline.scopedRestBut spec3 c [cc3_scratch0] ∗ (∃ r, prngReg c r))
  | n + 1 => iprop(owns (c : Thread nD τ) scM3 fullShare (acc3 V c (n + 1)) ∗ Pipeline.scopedRestBut spec3 c [cc3_scratch0] ∗ (∃ r, prngReg c r))

theorem Phi3_zero (c : Dev nD) (n : ℕ) (hz : n = 0) :
    Phi3 V c n = iprop(iprop(∃ d, owns (c : Thread nD τ) scM3 fullShare d) ∗ Pipeline.scopedRestBut spec3 c [cc3_scratch0] ∗ (∃ r, prngReg c r)) := by
  subst hz; rfl
theorem Phi3_succ (c : Dev nD) (n : ℕ) :
    Phi3 V c (n + 1) = iprop(owns (c : Thread nD τ) scM3 fullShare (acc3 V c (n + 1)) ∗ Pipeline.scopedRestBut spec3 c [cc3_scratch0] ∗ (∃ r, prngReg c r)) := rfl
theorem Phi3_pos (c : Dev nD) (n : ℕ) (hz : n ≠ 0) :
    Phi3 V c n = iprop(owns (c : Thread nD τ) scM3 fullShare (acc3 V c n) ∗ Pipeline.scopedRestBut spec3 c [cc3_scratch0] ∗ (∃ r, prngReg c r)) := by
  cases n with
  | zero => exact absurd rfl hz
  | succ n => rfl

/-! ## The pipeline's proof data -/

/-- The proof data of pipeline 3 on core `c`: the arrays as the region finds them (`V`); after the body at point `t`
    each input's buffer at its block and the output's at the accumulator after `t` (consulted only where the output is
    stored: elsewhere the window is idle and not written back); the invariant `Phi3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c (t.val + 1)
  Φ t := Phi3 V c t.val
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at the point's position. -/
theorem Phi3_castSucc (c : Dev nD) (t : Fin cfg3.N) : (dat3 V c).Φ t.castSucc = Phi3 V c t.val := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = acc3 V c (t.val + 1) := by dsimp only [dat3]

/-- Where the output block is written back it holds the accumulator after the point. -/
theorem after3_2_flush (c : Dev nD) (t : Fin cfg3.N) (h : t.val % 4 = 3) : (dat3 V c).after 2 t = acc3 V c (t.val + 1) :=
  after3_2 V c t

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point. The inputs' memrefs hold their blocks; the point's position mod 4 says which case of the two
    conditions it is in. The invariant hands the body the accumulator at what the points before left (where the reset's
    condition holds its contents do not matter) and takes it back one step further; the output block is handed back as
    found except where it is stored; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = Phi3 V c (t.val + 1) from rfl, Phi3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [Phi3_castSucc V c t]
  have hN : t.val < 64 := lt_of_lt_of_eq t.isLt (show cfg3.N = 64 from N_3)
  by_cases h0 : t.val % 4 = 0
  · have h1 : ¬t.val % 4 = 3 := by omega
    have hc0 : cond3_0 (grid3.coords t) := (hcond3_0 t).mpr h0
    have hc1 : ¬cond3_1 (grid3.coords t) := fun h => h1 ((hcond3_1 t).mp h)
    rw [Dat.leavesExact_idle (dat3 V c) 2 t (idleAt3_2 t hc1) (noFlush3_2 t hc1)]
    rw [acc3_succ_reset V c t h0]
    by_cases hz : t.val = 0
    · rw [Phi3_zero V c _ hz]
      iintro ⟨⟨HS, HR, Hg⟩, Ho, ⟨%d0, H0⟩, ⟨%d1, H1⟩, ⟨%d2, H2⟩⟩
      iapply (kernel3_A c (grid3.coords t) _ _ _ _ _ _ _ _ hc0 hc1 (iblk3 V c 0 t) (iblk3 V c 1 t) _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
    · rw [Phi3_pos V c _ hz]
      iintro ⟨⟨HS, HR, Hg⟩, Ho, ⟨%d0, H0⟩, ⟨%d1, H1⟩, ⟨%d2, H2⟩⟩
      iapply (kernel3_A c (grid3.coords t) _ _ _ _ _ _ _ _ hc0 hc1 (iblk3 V c 0 t) (iblk3 V c 1 t) _ Set.univ _)
      isplitl [H0]; · iexact H0
      isplitl [H1]; · iexact H1
      isplitl [H2]; · iexact H2
      isplitl [HS]; · iexists _; iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
  · have hz : t.val ≠ 0 := fun h => h0 (by rw [h])
    have hc0 : ¬cond3_0 (grid3.coords t) := fun h => h0 ((hcond3_0 t).mp h)
    rw [acc3_succ_add V c t h0, Phi3_pos V c _ hz]
    by_cases h1 : t.val % 4 = 3
    · have hc1 : cond3_1 (grid3.coords t) := (hcond3_1 t).mpr h1
      rw [show (dat3 V c).leavesExact 2 t = owns (c : Thread nD τ) (st3_2 t) fullShare ((dat3 V c).after 2 t) from by
        unfold Dat.leavesExact; rw [liveAt3_2 t hc1], after3_2, acc3_succ_add V c t h0]
      iintro ⟨⟨HS, HR, Hg⟩, Ho, ⟨%d0, H0⟩, ⟨%d1, H1⟩, ⟨%d2, H2⟩⟩
      iapply (kernel3_C c (grid3.coords t) _ _ _ _ _ _ _ _ hc0 hc1 (iblk3 V c 0 t) (iblk3 V c 1 t) _ Set.univ _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · have hc1 : ¬cond3_1 (grid3.coords t) := fun h => h1 ((hcond3_1 t).mp h)
      rw [Dat.leavesExact_idle (dat3 V c) 2 t (idleAt3_2 t hc1) (noFlush3_2 t hc1)]
      iintro ⟨⟨HS, HR, Hg⟩, Ho, ⟨%d0, H0⟩, ⟨%d1, H1⟩, ⟨%d2, H2⟩⟩
      iapply (kernel3_B c (grid3.coords t) _ _ _ _ _ _ _ _ hc0 hc1 (iblk3 V c 0 t) (iblk3 V c 1 t) _ _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant's two ends -/

/-- The generator register and the scoped buffers that are no staging buffer make the invariant before the first
    point: the scratch is among them, at some contents. -/
theorem Phi3_in (c : Dev nD) : (iprop((∃ r, prngReg c r) ∗ Pipeline.scopedRest spec3 c) : sProp 𝕄) ⊢ (dat3 V c).Φ 0 := by
  rw [show (dat3 V c).Φ 0 = Phi3 V c 0 from rfl, Phi3_zero V c 0 rfl, scopedRest3_split]
  simp only [scM3, owns_whole]
  iintro ⟨Hg, HS, HR⟩
  isplitl [HS]; · iexact HS
  isplitl [HR]; · iexact HR
  iexact Hg

/-- After the last point the invariant gives them back: the accumulator's contents are forgotten. -/
theorem Phi3_out (c : Dev nD) : (dat3 V c).Φ (Fin.last cfg3.N) ⊢ (iprop((∃ r, prngReg c r) ∗ Pipeline.scopedRest spec3 c) : sProp 𝕄) := by
  rw [show (dat3 V c).Φ (Fin.last cfg3.N) = Phi3 V c (Fin.last cfg3.N).val from rfl,
    Phi3_pos V c _ (by rw [Fin.val_last]; have : cfg3.N = 64 := N_3; omega), scopedRest3_split]
  simp only [scM3, owns_whole]
  iintro ⟨HS, HR, Hg⟩
  isplitl [Hg]; · iexact Hg
  isplitl [HS]; · iexists _; iexact HS
  iexact HR

end Region3

end Cert.KernelIdeal.Hand

end
-- ==== Proof.KI.Reg4.lean ====
/-
  Region 4: the reparametrisation and the decoder. Grid point t takes rows [2048 t, 2048 t + 2048) of the
  combined projection (window 0: mean in the left 64 columns, log-deviation in the right 64) and of the noise
  (window 1), and the whole decoder weights and biases (windows 2–5, fetched once). It leaves the mean block
  (window 6), the log-deviation block (window 7), the sample z = mean + noise · exp(log-deviation) (window 8) and
  the decoder applied to z (window 9). Stated at a parameter V: the TensorCore's buffer contents when the region
  is entered.
-/
import proofs.«128750_j2551210574751_2_alg».proof.Proof.Gen.KernelIdeal.Launch
import proofs.«128750_j2551210574751_2_alg».proof.Proof.Gen.KernelIdeal.Skeleton
import proofs.«128750_j2551210574751_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The combined-projection window's staging buffer holds its row block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The noise window's staging buffer holds its row block at every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The first decoder weight window's staging buffer holds the whole matrix at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The first decoder bias window's staging buffer holds the whole row at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The second decoder weight window's staging buffer holds the whole matrix at every point, fetched there or not. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- The second decoder bias window's staging buffer holds the whole row at every point, fetched there or not. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_x : Rect S2048x128 := Rect.unit (s := S2048x128) ![0, 0] S2048x128.size inb_S2048x128_S2048x128_0_0
abbrev r4_e : Rect S2048x64 := Rect.unit (s := S2048x64) ![0, 0] S2048x64.size inb_S2048x64_S2048x64_0_0
abbrev r4_w1 : Rect S64x64 := Rect.unit (s := S64x64) ![0, 0] S64x64.size inb_S64x64_S64x64_0_0
abbrev r4_b1 : Rect S1x64 := Rect.unit (s := S1x64) ![0, 0] S1x64.size inb_S1x64_S1x64_0_0
abbrev r4_w2 : Rect S64x512 := Rect.unit (s := S64x512) ![0, 0] S64x512.size inb_S64x512_S64x512_0_0
abbrev r4_b2 : Rect S1x512 := Rect.unit (s := S1x512) ![0, 0] S1x512.size inb_S1x512_S1x512_0_0
abbrev r4_z : Rect S2048x64 := Rect.unit (s := S2048x64) ![0, 0] S2048x64.size inb_S2048x64_S2048x64_0_0
abbrev r4_o : Rect S2048x512 := Rect.unit (s := S2048x512) ![0, 0] S2048x512.size inb_S2048x512_S2048x512_0_0

/-- What the body leaves in the mean block: its one whole store, the left 64 columns of the loaded row block. -/
def out4_6 (x : Vec F S2048x128 .f32) : Vec F S2048x64 .f32 :=
  View.canon [⟨r4_z, k4_pay2 (View.ld x r4_x)⟩]

/-- What the body leaves in the log-deviation block: its one whole store, the right 64 columns of the loaded row block. -/
def out4_7 (x : Vec F S2048x128 .f32) : Vec F S2048x64 .f32 :=
  View.canon [⟨r4_z, k4_pay3 (View.ld x r4_x)⟩]

/-- What the body leaves in the sample block: its one whole store, mean + noise · exp(log-deviation). -/
def out4_8 (x : Vec F S2048x128 .f32) (e : Vec F S2048x64 .f32) : Vec F S2048x64 .f32 :=
  View.canon [⟨r4_z, k4_pay4 (View.ld x r4_x) (View.ld e r4_e)⟩]

/-- What the body leaves in the decoded block: its one whole store, the two-layer decoder on the sample
    (each layer a bf16-rounded product plus a broadcast bias, then the positive part). -/
def out4_9 (x : Vec F S2048x128 .f32) (e : Vec F S2048x64 .f32) (w1 : Vec F S64x64 .f32) (b1 : Vec F S1x64 .f32) (w2 : Vec F S64x512 .f32) (b2 : Vec F S1x512 .f32) : Vec F S2048x512 .f32 :=
  View.canon [⟨r4_o, k4_pay5 (View.ld x r4_x) (View.ld e r4_e) (View.ld w1 r4_w1) (View.ld b1 r4_b1) (View.ld w2 r4_w2) (View.ld b2 r4_b2)⟩]

/-- The one store covers the block. -/
theorem cover4_6 (p0 : Vec F S2048x64 .f32) (y : S2048x64.Idx) :
    ∃ pc ∈ ([⟨r4_z, p0⟩] : List (View.Piece (Elt F) S2048x64 .f32)), y ∈ pc.1.set :=
  View.cover_of_tiled [⟨r4_z, p0⟩] S2048x64.size (by rfl) y

/-- The one store covers the block. -/
theorem cover4_7 (p0 : Vec F S2048x64 .f32) (y : S2048x64.Idx) :
    ∃ pc ∈ ([⟨r4_z, p0⟩] : List (View.Piece (Elt F) S2048x64 .f32)), y ∈ pc.1.set :=
  View.cover_of_tiled [⟨r4_z, p0⟩] S2048x64.size (by rfl) y

/-- The one store covers the block. -/
theorem cover4_8 (p0 : Vec F S2048x64 .f32) (y : S2048x64.Idx) :
    ∃ pc ∈ ([⟨r4_z, p0⟩] : List (View.Piece (Elt F) S2048x64 .f32)), y ∈ pc.1.set :=
  View.cover_of_tiled [⟨r4_z, p0⟩] S2048x64.size (by rfl) y

/-- The one store covers the block. -/
theorem cover4_9 (p0 : Vec F S2048x512 .f32) (y : S2048x512.Idx) :
    ∃ pc ∈ ([⟨r4_o, p0⟩] : List (View.Piece (Elt F) S2048x512 .f32)), y ∈ pc.1.set :=
  View.cover_of_tiled [⟨r4_o, p0⟩] S2048x512.size (by rfl) y

/-! ## The body's triple -/

set_option maxHeartbeats 4000000 in
/-- The body on whole staging memrefs: the inputs' at contents x, e, w1, b1, w2, b2, the outputs' at anything; it
    ends with the inputs as they were and each output at its one store. -/
theorem sound_kernel4 (c : Dev nD) (E : Set ℕ) (i : grid4.Coords)
    (arg1 : Memref sig .tc .vmem S2048x128 .f32) (harg1 : arg1.IsWhole)
    (arg2 : Memref sig .tc .vmem S2048x64 .f32) (harg2 : arg2.IsWhole)
    (arg3 : Memref sig .tc .vmem S64x64 .f32) (harg3 : arg3.IsWhole)
    (arg4 : Memref sig .tc .vmem S1x64 .f32) (harg4 : arg4.IsWhole)
    (arg5 : Memref sig .tc .vmem S64x512 .f32) (harg5 : arg5.IsWhole)
    (arg6 : Memref sig .tc .vmem S1x512 .f32) (harg6 : arg6.IsWhole)
    (arg7 : Memref sig .tc .vmem S2048x64 .f32) (harg7 : arg7.IsWhole)
    (arg8 : Memref sig .tc .vmem S2048x64 .f32) (harg8 : arg8.IsWhole)
    (arg9 : Memref sig .tc .vmem S2048x64 .f32) (harg9 : arg9.IsWhole)
    (arg10 : Memref sig .tc .vmem S2048x512 .f32) (harg10 : arg10.IsWhole)
    (x : Vec F S2048x128 .f32) (e : Vec F S2048x64 .f32) (w1 : Vec F S64x64 .f32) (b1 : Vec F S1x64 .f32) (w2 : Vec F S64x512 .f32) (b2 : Vec F S1x512 .f32) (K : PUnit → sProp 𝕄) :
    iprop(owns (c : Thread nD τ) arg1 fullShare x ∗ owns (c : Thread nD τ) arg2 fullShare e ∗ owns (c : Thread nD τ) arg3 fullShare w1 ∗ owns (c : Thread nD τ) arg4 fullShare b1 ∗ owns (c : Thread nD τ) arg5 fullShare w2 ∗ owns (c : Thread nD τ) arg6 fullShare b2
        ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x ∗ owns (c : Thread nD τ) arg2 fullShare e ∗ owns (c : Thread nD τ) arg3 fullShare w1 ∗ owns (c : Thread nD τ) arg4 fullShare b1 ∗ owns (c : Thread nD τ) arg5 fullShare w2 ∗ owns (c : Thread nD τ) arg6 fullShare b2
            ∗ owns (c : Thread nD τ) arg7 fullShare (out4_6 x)
            ∗ owns (c : Thread nD τ) arg8 fullShare (out4_7 x)
            ∗ owns (c : Thread nD τ) arg9 fullShare (out4_8 x e)
            ∗ owns (c : Thread nD τ) arg10 fullShare (out4_9 x e w1 b1 w2 b2)) -∗ K ⟨⟩))
      ⊢ wp frame (wpE (defs₀ (F := F)) Variants.none c none) E (cc4__reparam_mlp_kernel i arg1 harg1 arg2 harg2 arg3 harg3 arg4 harg4 arg5 harg5 arg6 harg6 arg7 harg7 arg8 harg8 arg9 harg9 arg10 harg10) K := by
  simp only [cc4__reparam_mlp_kernel_eq_skeleton]; unfold cc4__reparam_mlp_kernel_skel
  simp only [k4_part1_eq_skeleton]; unfold k4_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover4_6 _)
  isplitl [H8]
  · iexists _; isplitr
    swap; · iexact H8
    ipureintro
    exact View.read_writes_eq_canon _ _ _ (cover4_7 _)
  isplitl [H9]
  · iexists _; isplitr
    swap; · iexact H9
    ipureintro
    exact View.read_writes_eq_canon _ _ _ (cover4_8 _)
  iexists _; isplitr
  swap; · iexact H10
  ipureintro
  exact View.read_writes_eq_canon _ _ _ (cover4_9 _)

/-! ## The proof data -/

/-- Region 4's proof data on core c: the arrays as the region finds them; after the body at point t each input's buffer
    at its block and each output's at its store over the input blocks; the class invariant; full shares; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t)
    | ⟨7, _⟩ => out4_7 (iblk4 V c 0 t)
    | ⟨8, _⟩ => out4_8 (iblk4 V c 0 t) (iblk4 V c 1 t)
    | ⟨9, _⟩ => out4_9 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 (iblk4 V c 0 t) := by dsimp only [dat4]
theorem after4_7 (c : Dev nD) (t : Fin cfg4.N) : (dat4 V c).after 7 t = out4_7 (iblk4 V c 0 t) := by dsimp only [dat4]
theorem after4_8 (c : Dev nD) (t : Fin cfg4.N) : (dat4 V c).after 8 t = out4_8 (iblk4 V c 0 t) (iblk4 V c 1 t) := by dsimp only [dat4]
theorem after4_9 (c : Dev nD) (t : Fin cfg4.N) : (dat4 V c).after 9 t = out4_9 (iblk4 V c 0 t) (iblk4 V c 1 t) (iblk4 V c 2 t) (iblk4 V c 3 t) (iblk4 V c 4 t) (iblk4 V c 5 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel4 c Set.univ _ _ _ _ _ _ _ _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Reg5.lean ====
/-
  Region 5: the reconstruction. The grid is 4 x 4; at point (i, j) the body takes row block i of the latent
  matrix z (window 0) and row block j of THE SAME matrix (window 1), multiplies the first 32 columns of the one
  by the transpose of the last 32 columns of the other, both rounded to bf16 on the way in, accumulated from
  zero, and leaves the product in block (i, j) of the output (window 2). The two input windows read one array:
  each holds half of its share. Stated at a parameter V: the TensorCore's buffer contents when the region is
  entered.
-/
import proofs.«128750_j2551210574751_2_alg».proof.Proof.Gen.KernelIdeal.Launch
import proofs.«128750_j2551210574751_2_alg».proof.Proof.Gen.KernelIdeal.Skeleton
import proofs.«128750_j2551210574751_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The left factor's staging buffer holds row block i of z at every point (i, j), fetched there (j = 0) or not:
    between fetches the block index does not move. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The right factor's staging buffer holds row block j of z at every point (i, j). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_z : Rect S2048x64 := Rect.unit (s := S2048x64) ![0, 0] S2048x64.size inb_S2048x64_S2048x64_0_0
abbrev r5_o : Rect S2048x2048 := Rect.unit (s := S2048x2048) ![0, 0] S2048x2048.size inb_S2048x2048_S2048x2048_0_0

/-- What the body leaves in the output block: its one whole store, the product of the two loaded row blocks. -/
def out5_2 (x : Vec F S2048x64 .f32) (y : Vec F S2048x64 .f32) : Vec F S2048x2048 .f32 :=
  View.canon [⟨r5_o, k5_pay1 (View.ld x r5_z) (View.ld y r5_z)⟩]

/-- The one store covers the block. -/
theorem cover5_2 (p0 : Vec F S2048x2048 .f32) (y : S2048x2048.Idx) :
    ∃ pc ∈ ([⟨r5_o, p0⟩] : List (View.Piece (Elt F) S2048x2048 .f32)), y ∈ pc.1.set :=
  View.cover_of_tiled [⟨r5_o, p0⟩] S2048x2048.size (by rfl) y

/-! ## The body's triple -/

set_option maxHeartbeats 1000000 in
/-- The body on whole staging memrefs: the inputs' at contents x and y, the output's at anything; it ends with
    the inputs as they were and the output at the product. -/
theorem sound_kernel5 (c : Dev nD) (E : Set ℕ) (i : grid5.Coords)
    (arg2 : Memref sig .tc .vmem S2048x64 .f32) (harg2 : arg2.IsWhole)
    (arg3 : Memref sig .tc .vmem S2048x64 .f32) (harg3 : arg3.IsWhole)
    (arg4 : Memref sig .tc .vmem S2048x2048 .f32) (harg4 : arg4.IsWhole)
    (x : Vec F S2048x64 .f32) (y : Vec F S2048x64 .f32) (K : PUnit → sProp 𝕄) :
    iprop(owns (c : Thread nD τ) arg2 fullShare x ∗ owns (c : Thread nD τ) arg3 fullShare y ∗ (∃ d, owns (c : Thread nD τ) arg4 fullShare d)
        ∗ (iprop(owns (c : Thread nD τ) arg2 fullShare x ∗ owns (c : Thread nD τ) arg3 fullShare y ∗ owns (c : Thread nD τ) arg4 fullShare (out5_2 x y)) -∗ K ⟨⟩))
      ⊢ wp frame (wpE (defs₀ (F := F)) Variants.none c none) E (cc5__recon_kernel i arg2 harg2 arg3 harg3 arg4 harg4) K := by
  simp only [cc5__recon_kernel_eq_skeleton]; unfold cc5__recon_kernel_skel
  unfold owns
  iintro ⟨⟨%f2, %hf2, H2⟩, ⟨%f3, %hf3, H3⟩, ⟨%d4, %f4, -, H4⟩, Hk⟩
  subst hf2; subst hf3
  sl_exec
  sl_step
  iapply Hk
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_2 _)

/-! ## The proof data -/

/-- Region 5's proof data on core c: the arrays as the region finds them; after the body at point t each input's buffer
    at its block and the output's at the product of the two input blocks; the class invariant; nothing owed. The two
    input windows read ONE array: window 0 holds the left half of its share and window 1 the right half (the
    output's array is held whole, whatever is written here for it). -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q w := match w with
    | ⟨0, _⟩ => fullShare.left
    | ⟨1, _⟩ => fullShare.right
    | ⟨2, _⟩ => fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation5 (c : Dev nD) : BodyObligation (dat5 (F := F) V c) (defs₀ (F := F)) Variants.none () Set.univ := fun t => by
  rw [bigSep_W5, bigSep_W5]
  exact sound_body5 V c t

/-! ## The region's arrays among the core's unscoped buffers

The two input windows read one buffer. At entry that buffer, held whole at the full share, is split into its two
halves, one per window; at exit the halves are joined back. The output's buffer is held at the full share throughout. -/

/-- The buffers behind the three windows: the latent matrix twice, the output once. -/
theorem arr5_0 : Pipeline.arrRef spec5 0 = main_v23_2 := rfl
theorem arr5_1 : Pipeline.arrRef spec5 1 = main_v23_2 := rfl
theorem arr5_2 : Pipeline.arrRef spec5 2 = main_v24 := rfl
/-- So the distinct buffers behind the windows are two. -/
theorem image_arrRef5 : Finset.univ.image (Pipeline.arrRef spec5) = {main_v23_2, main_v24} := by decide
theorem v23_ne_v24 : (main_v23_2 : Ref sig .tc) ∉ ({main_v24} : Finset (Ref sig .tc)) := by decide

/-- The share each window's array is held at: a half each for the two readers of the latent matrix, all of the output. -/
theorem share5_0 (c : Dev nD) : (dat5 V c).share 0 = fullShare.left := rfl
theorem share5_1 (c : Dev nD) : (dat5 V c).share 1 = fullShare.right := rfl
theorem share5_2 (c : Dev nD) : (dat5 V c).share 2 = fullShare := rfl

/-- The region's arrays, window by window: the latent matrix's buffer at its left half share and at its right half share,
    the output's buffer at the full share. -/
theorem arrays5_eq (c : Dev nD) (G : (w : Fin cfg5.W) → Buf (Elt F) ((cfg5.win w).arr.view.loc (c : Thread nD τ))) :
    ((dat5 V c).arrays G : sProp 𝕄)
      = iprop((((c : Thread nD τ).loc main_v23_2) ↦{fullShare.left} G 0) ∗ (((c : Thread nD τ).loc main_v23_2) ↦{fullShare.right} G 1)
          ∗ (((c : Thread nD τ).loc main_v24) ↦{fullShare} G 2)) := by
  unfold Dat.arrays
  rw [bigSep_W5, share5_0, share5_1, share5_2, (arr_whole5 0).set_eq_univ, (arr_whole5 2).set_eq_univ]

/-- The same with the contents named: both input windows' at X, the output's at Y. -/
theorem arrays5_at (c : Dev nD) (G : (w : Fin cfg5.W) → Buf (Elt F) ((cfg5.win w).arr.view.loc (c : Thread nD τ)))
    (X : Buf (Elt F) ((c : Thread nD τ).loc main_v23_2)) (Y : Buf (Elt F) ((c : Thread nD τ).loc main_v24))
    (h0 : G 0 = X) (h1 : G 1 = X) (h2 : G 2 = Y) :
    ((dat5 V c).arrays G : sProp 𝕄)
      = iprop((((c : Thread nD τ).loc main_v23_2) ↦{fullShare.left} X) ∗ (((c : Thread nD τ).loc main_v23_2) ↦{fullShare.right} X)
          ∗ (((c : Thread nD τ).loc main_v24) ↦{fullShare} Y)) := by
  rw [arrays5_eq, h0, h1, h2]

/-- The buffers behind the windows are among the core's unscoped buffers. -/
theorem arrSub5 : Finset.univ.image (Pipeline.arrRef spec5) ⊆ Finset.univ.filter fun b : Ref sig .tc => ¬ b.isScoped := fun b hb => by
  obtain ⟨w, -, rfl⟩ := Finset.mem_image.mp hb
  exact Finset.mem_filter.mpr ⟨Finset.mem_univ _, by simp [winFacts₀5.arr_unscoped w]⟩

/-- One conjunct of a framed pair split in two, -/
theorem split_framed {P Pl Pr Q R : sProp 𝕄} (h : P ⊢ iprop(Pl ∗ Pr)) : iprop((P ∗ Q) ∗ R) ⊢ iprop((Pl ∗ Pr ∗ Q) ∗ R) := by
  iintro ⟨⟨HP, HQ⟩, HR⟩
  ihave H := h $$ HP
  icases H with ⟨Hl, Hr⟩
  isplitr [HR]
  swap; · iexact HR
  isplitl [Hl]; · iexact Hl
  isplitl [Hr]; · iexact Hr
  iexact HQ

/-- and two joined in one, the frame moved along an entailment. -/
theorem join_framed {P Pl Pr Q R R' : sProp 𝕄} (h : iprop(Pl ∗ Pr) ⊢ P) (hR : R ⊢ R') : iprop((Pl ∗ Pr ∗ Q) ∗ R) ⊢ iprop((P ∗ Q) ∗ R') := by
  iintro ⟨⟨Hl, Hr, HQ⟩, HR⟩
  isplitr [HR]
  swap; · iapply hR; iexact HR
  isplitr [HQ]
  swap; · iexact HQ
  iapply h
  isplitl [Hl]; · iexact Hl
  iexact Hr

/-- ENTRY: the core's unscoped buffers at the entry contents are the region's arrays, window by window at its share,
    and the unscoped rest. -/
theorem arrays5_of_unscopedBufs (c : Dev nD) (Vc : (b : Ref sig .tc) → Buf (Elt F) ((c : Thread nD τ).loc b)) (hV : Vc = V c) :
    (unscopedBufs c Vc : sProp 𝕄) ⊢ iprop((dat5 V c).arrays ((dat5 V c).arrAt · 0) ∗ Pipeline.unscopedRest spec5 c Vc) := by
  subst hV
  unfold unscopedBufs Pipeline.unscopedRest
  rw [bigSep_sdiff_split arrSub5,
    arrays5_at V c (fun w => (dat5 V c).arrAt w 0) (V c main_v23_2) (V c main_v24) (A_eq5 V c 0) (A_eq5 V c 1) (A_eq5 V c 2),
    image_arrRef5, bigSep_insert v23_ne_v24, bigSep_singleton]
  exact split_framed (pointsTo_share (PosShare.mem_left_op_right fullShare)).1

/-- EXIT: the region's arrays at what the write-backs leave and the unscoped rest as entered are the core's unscoped
    buffers at any contents that have the arrays so and agree with the entry contents elsewhere. -/
theorem unscopedBufs_of_arrays5 (c : Dev nD) (V' : (b : Ref sig .tc) → Buf (Elt F) ((c : Thread nD τ).loc b))
    (hF : ∀ w, (dat5 V c).arrAt w cfg5.N = V' (Pipeline.arrRef spec5 w))
    (hrest : ∀ b, b ∉ Finset.univ.image (Pipeline.arrRef spec5) → V' b = V c b) :
    iprop((dat5 V c).arrays ((dat5 V c).arrAt · cfg5.N) ∗ Pipeline.unscopedRest spec5 c (V c)) ⊢ (unscopedBufs c V' : sProp 𝕄) := by
  have hR : (Pipeline.unscopedRest spec5 c (V c) : sProp 𝕄) ⊢ Pipeline.unscopedRest spec5 c V' := by
    unfold Pipeline.unscopedRest
    exact Entails.of_eq (bigSep_congr fun b hb => by rw [hrest b (Finset.mem_sdiff.mp hb).2])
  unfold Pipeline.unscopedRest at hR
  unfold unscopedBufs Pipeline.unscopedRest
  rw [bigSep_sdiff_split arrSub5,
    arrays5_at V c (fun w => (dat5 V c).arrAt w cfg5.N) (V' main_v23_2) (V' main_v24) (hF 0) (hF 1) (hF 2),
    image_arrRef5, bigSep_insert v23_ne_v24, bigSep_singleton]
  rw [image_arrRef5] at hR
  exact join_framed (pointsTo_share (PosShare.mem_left_op_right fullShare)).2 hR

end Cert.KernelIdeal.Hand

end
-- ==== Proof.KI.Fold.lean ====
/-
  The TensorCore's buffer contents at each boundary of the program — before and after each of its ten items —
  written as a fold from the launch memory: a host stretch applies its operations, a kernel region replaces
  its windows' arrays by what its write-backs leave and touches nothing else. And the first consequence: no
  item writes an argument array, so each argument's buffer at the last boundary is its launch contents.
-/
import proofs.«128750_j2551210574751_2_alg».proof.Proof.KI.Reg0
import proofs.«128750_j2551210574751_2_alg».proof.Proof.KI.Reg1
import proofs.«128750_j2551210574751_2_alg».proof.Proof.KI.Reg2
import proofs.«128750_j2551210574751_2_alg».proof.Proof.KI.Reg3
import proofs.«128750_j2551210574751_2_alg».proof.Proof.KI.Reg4
import proofs.«128750_j2551210574751_2_alg».proof.Proof.KI.Reg5
import proofs.«128750_j2551210574751_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)

/-- After the host stretch `hostOps0` (the dense adjacency is built: region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: the first projection X·W1 in its output array; every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: the first aggregation A·(X·W1) in its output array; every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the host stretch `hostOps2` (the two second-layer weight matrices side by side: region 2's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- At region 2's exit: the second projection in its output array; every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- At region 3's exit: the second aggregation in its output array; every other buffer as entered. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
abbrev V6 : (c : Dev nD) → (b : Ref sig .tc) → Buf (Elt F) ((c : Thread nD τ).loc b) := fun c b => W6 m ρ c b
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-- After the host stretch `hostOps4` (the two bias vectors as rows: region 4's entry). -/
abbrev W7 : Dev nD → Valuation τ sig (Elt F) := fun c => StableHlo.after hostOps4 (W6 m ρ c)
abbrev V7 : (c : Dev nD) → (b : Ref sig .tc) → Buf (Elt F) ((c : Thread nD τ).loc b) := fun c b => W7 m ρ c b

/-- At region 4's exit: the mean, the log-deviation, the sample z and the decoded features in their four output arrays; every other buffer as entered. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
abbrev V8 : (c : Dev nD) → (b : Ref sig .tc) → Buf (Elt F) ((c : Thread nD τ).loc b) := fun c b => W8 m ρ c b
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)

/-- At region 5's exit: the inner-product block matrix in its output array; every other buffer as entered (the
    sample z, which two of its windows read, among them). -/
def W9 (c : Dev nD) : Valuation τ sig (Elt F) :=
  Function.update (W8 m ρ c) (Proc.devRef .tc main_v24) ((dat5 (V8 m ρ) c).arrAt 2 cfg5.N)
abbrev V9 : (c : Dev nD) → (b : Ref sig .tc) → Buf (Elt F) ((c : Thread nD τ).loc b) := fun c b => W9 m ρ c b
theorem W9_out (c : Dev nD) : W9 m ρ c (Proc.devRef .tc main_v24) = (dat5 (V8 m ρ) c).arrAt 2 cfg5.N := by
  unfold W9; exact Function.update_self _ _ _
theorem W9_of_ne (c : Dev nD) (b : Ref sig .tc) (hb : b ≠ main_v24) :
    W9 m ρ c (Proc.devRef .tc b) = W8 m ρ c (Proc.devRef .tc b) := by
  unfold W9; exact Function.update_of_ne (StableHlo.devRef_ne_of_ne hb) _ _

/-- At region 5's exit each of its windows' arrays holds what the region leaves: the two input windows' (one array) as
    entered, the output's its write-backs. -/
theorem hF5 (c : Dev nD) : ∀ w : Fin cfg5.W, (dat5 (V8 m ρ) c).arrAt w cfg5.N = V9 m ρ c (Pipeline.arrRef spec5 w)
  | ⟨0, _⟩ => ((dat5 (V8 m ρ) c).arrAt_in 0 rfl _).trans ((A_eq5 (V8 m ρ) c 0).trans (W9_of_ne m ρ c _ (by decide)).symm)
  | ⟨1, _⟩ => ((dat5 (V8 m ρ) c).arrAt_in 1 rfl _).trans ((A_eq5 (V8 m ρ) c 1).trans (W9_of_ne m ρ c _ (by decide)).symm)
  | ⟨2, _⟩ => (W9_out m ρ c).symm
theorem hrest5 (c : Dev nD) : ∀ b, b ∉ Finset.univ.image (Pipeline.arrRef spec5) → V9 m ρ c b = V8 m ρ c b :=
  fun b hb => W9_of_ne m ρ c b fun e => hb (Finset.mem_image.mpr ⟨2, Finset.mem_univ _, (show Pipeline.arrRef spec5 2 = main_v24 from rfl).trans e.symm⟩)

/-- After the host stretch `hostOps6` (the inner products flattened: the program's end). -/
abbrev W10 : Dev nD → Valuation τ sig (Elt F) := fun c => StableHlo.after hostOps6 (W9 m ρ c)
abbrev V10 : (c : Dev nD) → (b : Ref sig .tc) → Buf (Elt F) ((c : Thread nD τ).loc b) := fun c b => W10 m ρ c b

/-! ## The arguments end as launched

No host operation writes an argument, and a region reads one only through an input window, whose array it leaves
as it found it: each argument's buffer at the last boundary is its launch contents. -/
theorem W10_main_arg0 (c : Dev nD) : W10 m ρ c (Proc.devRef .tc main_arg0) = m ((c : Thread nD τ).loc main_arg0) :=
  calc W10 m ρ c (Proc.devRef .tc main_arg0)
    _ = W9 m ρ c (Proc.devRef .tc main_arg0) := StableHlo.after_of_writes_sub hostOps6 _ hostOps6_writes (by decide)
    _ = W8 m ρ c (Proc.devRef .tc main_arg0) := W9_of_ne m ρ c main_arg0 (by decide)
    _ = W7 m ρ c (Proc.devRef .tc main_arg0) := W8_of_ne m ρ c main_arg0 (by decide)
    _ = W6 m ρ c (Proc.devRef .tc main_arg0) := StableHlo.after_of_writes_sub hostOps4 _ hostOps4_writes (by decide)
    _ = W5 m ρ c (Proc.devRef .tc main_arg0) := W6_of_ne m ρ c main_arg0 (by decide)
    _ = W4 m ρ c (Proc.devRef .tc main_arg0) := W5_of_ne m ρ c main_arg0 (by decide)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
theorem W10_main_arg1 (c : Dev nD) : W10 m ρ c (Proc.devRef .tc main_arg1) = m ((c : Thread nD τ).loc main_arg1) :=
  calc W10 m ρ c (Proc.devRef .tc main_arg1)
    _ = W9 m ρ c (Proc.devRef .tc main_arg1) := StableHlo.after_of_writes_sub hostOps6 _ hostOps6_writes (by decide)
    _ = W8 m ρ c (Proc.devRef .tc main_arg1) := W9_of_ne m ρ c main_arg1 (by decide)
    _ = W7 m ρ c (Proc.devRef .tc main_arg1) := W8_of_ne m ρ c main_arg1 (by decide)
    _ = W6 m ρ c (Proc.devRef .tc main_arg1) := StableHlo.after_of_writes_sub hostOps4 _ hostOps4_writes (by decide)
    _ = W5 m ρ c (Proc.devRef .tc main_arg1) := W6_of_ne m ρ c main_arg1 (by decide)
    _ = W4 m ρ c (Proc.devRef .tc main_arg1) := W5_of_ne m ρ c main_arg1 (by decide)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W10_main_arg2 (c : Dev nD) : W10 m ρ c (Proc.devRef .tc main_arg2) = m ((c : Thread nD τ).loc main_arg2) :=
  calc W10 m ρ c (Proc.devRef .tc main_arg2)
    _ = W9 m ρ c (Proc.devRef .tc main_arg2) := StableHlo.after_of_writes_sub hostOps6 _ hostOps6_writes (by decide)
    _ = W8 m ρ c (Proc.devRef .tc main_arg2) := W9_of_ne m ρ c main_arg2 (by decide)
    _ = W7 m ρ c (Proc.devRef .tc main_arg2) := (W8_arr m ρ c 1).trans (((dat4 (V7 m ρ) c).arrAt_in 1 rfl _).trans (A_eq4 (V7 m ρ) c 1))
    _ = W6 m ρ c (Proc.devRef .tc main_arg2) := StableHlo.after_of_writes_sub hostOps4 _ hostOps4_writes (by decide)
    _ = W5 m ρ c (Proc.devRef .tc main_arg2) := W6_of_ne m ρ c main_arg2 (by decide)
    _ = W4 m ρ c (Proc.devRef .tc main_arg2) := W5_of_ne m ρ c main_arg2 (by decide)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W10_main_arg3 (c : Dev nD) : W10 m ρ c (Proc.devRef .tc main_arg3) = m ((c : Thread nD τ).loc main_arg3) :=
  calc W10 m ρ c (Proc.devRef .tc main_arg3)
    _ = W9 m ρ c (Proc.devRef .tc main_arg3) := StableHlo.after_of_writes_sub hostOps6 _ hostOps6_writes (by decide)
    _ = W8 m ρ c (Proc.devRef .tc main_arg3) := W9_of_ne m ρ c main_arg3 (by decide)
    _ = W7 m ρ c (Proc.devRef .tc main_arg3) := W8_of_ne m ρ c main_arg3 (by decide)
    _ = W6 m ρ c (Proc.devRef .tc main_arg3) := StableHlo.after_of_writes_sub hostOps4 _ hostOps4_writes (by decide)
    _ = W5 m ρ c (Proc.devRef .tc main_arg3) := W6_of_ne m ρ c main_arg3 (by decide)
    _ = W4 m ρ c (Proc.devRef .tc main_arg3) := W5_of_ne m ρ c main_arg3 (by decide)
    _ = W3 m ρ c (Proc.devRef .tc main_arg3) := StableHlo.after_of_writes_sub hostOps2 _ hostOps2_writes (by decide)
    _ = W2 m ρ c (Proc.devRef .tc main_arg3) := W3_of_ne m ρ c main_arg3 (by decide)
    _ = W1 m ρ c (Proc.devRef .tc main_arg3) := (W2_arr m ρ c 1).trans (((dat0 (V1 m ρ) c).arrAt_in 1 rfl _).trans (A_eq0 (V1 m ρ) c 1))
    _ = W0 m ρ c (Proc.devRef .tc main_arg3) := StableHlo.after_of_writes_sub hostOps0 _ hostOps0_writes (by decide)
    _ = m ((c : Thread nD τ).loc main_arg3) := rfl
theorem W10_main_arg4 (c : Dev nD) : W10 m ρ c (Proc.devRef .tc main_arg4) = m ((c : Thread nD τ).loc main_arg4) :=
  calc W10 m ρ c (Proc.devRef .tc main_arg4)
    _ = W9 m ρ c (Proc.devRef .tc main_arg4) := StableHlo.after_of_writes_sub hostOps6 _ hostOps6_writes (by decide)
    _ = W8 m ρ c (Proc.devRef .tc main_arg4) := W9_of_ne m ρ c main_arg4 (by decide)
    _ = W7 m ρ c (Proc.devRef .tc main_arg4) := W8_of_ne m ρ c main_arg4 (by decide)
    _ = W6 m ρ c (Proc.devRef .tc main_arg4) := StableHlo.after_of_writes_sub hostOps4 _ hostOps4_writes (by decide)
    _ = W5 m ρ c (Proc.devRef .tc main_arg4) := W6_of_ne m ρ c main_arg4 (by decide)
    _ = W4 m ρ c (Proc.devRef .tc main_arg4) := W5_of_ne m ρ c main_arg4 (by decide)
    _ = W3 m ρ c (Proc.devRef .tc main_arg4) := StableHlo.after_of_writes_sub hostOps2 _ hostOps2_writes (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W10_main_arg5 (c : Dev nD) : W10 m ρ c (Proc.devRef .tc main_arg5) = m ((c : Thread nD τ).loc main_arg5) :=
  calc W10 m ρ c (Proc.devRef .tc main_arg5)
    _ = W9 m ρ c (Proc.devRef .tc main_arg5) := StableHlo.after_of_writes_sub hostOps6 _ hostOps6_writes (by decide)
    _ = W8 m ρ c (Proc.devRef .tc main_arg5) := W9_of_ne m ρ c main_arg5 (by decide)
    _ = W7 m ρ c (Proc.devRef .tc main_arg5) := W8_of_ne m ρ c main_arg5 (by decide)
    _ = W6 m ρ c (Proc.devRef .tc main_arg5) := StableHlo.after_of_writes_sub hostOps4 _ hostOps4_writes (by decide)
    _ = W5 m ρ c (Proc.devRef .tc main_arg5) := W6_of_ne m ρ c main_arg5 (by decide)
    _ = W4 m ρ c (Proc.devRef .tc main_arg5) := W5_of_ne m ρ c main_arg5 (by decide)
    _ = W3 m ρ c (Proc.devRef .tc main_arg5) := StableHlo.after_of_writes_sub hostOps2 _ hostOps2_writes (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W10_main_arg6 (c : Dev nD) : W10 m ρ c (Proc.devRef .tc main_arg6) = m ((c : Thread nD τ).loc main_arg6) :=
  calc W10 m ρ c (Proc.devRef .tc main_arg6)
    _ = W9 m ρ c (Proc.devRef .tc main_arg6) := StableHlo.after_of_writes_sub hostOps6 _ hostOps6_writes (by decide)
    _ = W8 m ρ c (Proc.devRef .tc main_arg6) := W9_of_ne m ρ c main_arg6 (by decide)
    _ = W7 m ρ c (Proc.devRef .tc main_arg6) := (W8_arr m ρ c 2).trans (((dat4 (V7 m ρ) c).arrAt_in 2 rfl _).trans (A_eq4 (V7 m ρ) c 2))
    _ = W6 m ρ c (Proc.devRef .tc main_arg6) := StableHlo.after_of_writes_sub hostOps4 _ hostOps4_writes (by decide)
    _ = W5 m ρ c (Proc.devRef .tc main_arg6) := W6_of_ne m ρ c main_arg6 (by decide)
    _ = W4 m ρ c (Proc.devRef .tc main_arg6) := W5_of_ne m ρ c main_arg6 (by decide)
    _ = W3 m ρ c (Proc.devRef .tc main_arg6) := StableHlo.after_of_writes_sub hostOps2 _ hostOps2_writes (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W10_main_arg7 (c : Dev nD) : W10 m ρ c (Proc.devRef .tc main_arg7) = m ((c : Thread nD τ).loc main_arg7) :=
  calc W10 m ρ c (Proc.devRef .tc main_arg7)
    _ = W9 m ρ c (Proc.devRef .tc main_arg7) := StableHlo.after_of_writes_sub hostOps6 _ hostOps6_writes (by decide)
    _ = W8 m ρ c (Proc.devRef .tc main_arg7) := W9_of_ne m ρ c main_arg7 (by decide)
    _ = W7 m ρ c (Proc.devRef .tc main_arg7) := W8_of_ne m ρ c main_arg7 (by decide)
    _ = W6 m ρ c (Proc.devRef .tc main_arg7) := StableHlo.after_of_writes_sub hostOps4 _ hostOps4_writes (by decide)
    _ = W5 m ρ c (Proc.devRef .tc main_arg7) := W6_of_ne m ρ c main_arg7 (by decide)
    _ = W4 m ρ c (Proc.devRef .tc main_arg7) := W5_of_ne m ρ c main_arg7 (by decide)
    _ = W3 m ρ c (Proc.devRef .tc main_arg7) := StableHlo.after_of_writes_sub hostOps2 _ hostOps2_writes (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W10_main_arg8 (c : Dev nD) : W10 m ρ c (Proc.devRef .tc main_arg8) = m ((c : Thread nD τ).loc main_arg8) :=
  calc W10 m ρ c (Proc.devRef .tc main_arg8)
    _ = W9 m ρ c (Proc.devRef .tc main_arg8) := StableHlo.after_of_writes_sub hostOps6 _ hostOps6_writes (by decide)
    _ = W8 m ρ c (Proc.devRef .tc main_arg8) := W9_of_ne m ρ c main_arg8 (by decide)
    _ = W7 m ρ c (Proc.devRef .tc main_arg8) := (W8_arr m ρ c 4).trans (((dat4 (V7 m ρ) c).arrAt_in 4 rfl _).trans (A_eq4 (V7 m ρ) c 4))
    _ = W6 m ρ c (Proc.devRef .tc main_arg8) := StableHlo.after_of_writes_sub hostOps4 _ hostOps4_writes (by decide)
    _ = W5 m ρ c (Proc.devRef .tc main_arg8) := W6_of_ne m ρ c main_arg8 (by decide)
    _ = W4 m ρ c (Proc.devRef .tc main_arg8) := W5_of_ne m ρ c main_arg8 (by decide)
    _ = W3 m ρ c (Proc.devRef .tc main_arg8) := StableHlo.after_of_writes_sub hostOps2 _ hostOps2_writes (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W10_main_arg9 (c : Dev nD) : W10 m ρ c (Proc.devRef .tc main_arg9) = m ((c : Thread nD τ).loc main_arg9) :=
  calc W10 m ρ c (Proc.devRef .tc main_arg9)
    _ = W9 m ρ c (Proc.devRef .tc main_arg9) := StableHlo.after_of_writes_sub hostOps6 _ hostOps6_writes (by decide)
    _ = W8 m ρ c (Proc.devRef .tc main_arg9) := W9_of_ne m ρ c main_arg9 (by decide)
    _ = W7 m ρ c (Proc.devRef .tc main_arg9) := W8_of_ne m ρ c main_arg9 (by decide)
    _ = W6 m ρ c (Proc.devRef .tc main_arg9) := StableHlo.after_of_writes_sub hostOps4 _ hostOps4_writes (by decide)
    _ = W5 m ρ c (Proc.devRef .tc main_arg9) := W6_of_ne m ρ c main_arg9 (by decide)
    _ = W4 m ρ c (Proc.devRef .tc main_arg9) := W5_of_ne m ρ c main_arg9 (by decide)
    _ = W3 m ρ c (Proc.devRef .tc main_arg9) := StableHlo.after_of_writes_sub hostOps2 _ hostOps2_writes (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W10_main_arg10 (c : Dev nD) : W10 m ρ c (Proc.devRef .tc main_arg10) = m ((c : Thread nD τ).loc main_arg10) :=
  calc W10 m ρ c (Proc.devRef .tc main_arg10)
    _ = W9 m ρ c (Proc.devRef .tc main_arg10) := StableHlo.after_of_writes_sub hostOps6 _ hostOps6_writes (by decide)
    _ = W8 m ρ c (Proc.devRef .tc main_arg10) := W9_of_ne m ρ c main_arg10 (by decide)
    _ = W7 m ρ c (Proc.devRef .tc main_arg10) := W8_of_ne m ρ c main_arg10 (by decide)
    _ = W6 m ρ c (Proc.devRef .tc main_arg10) := StableHlo.after_of_writes_sub hostOps4 _ hostOps4_writes (by decide)
    _ = W5 m ρ c (Proc.devRef .tc main_arg10) := W6_of_ne m ρ c main_arg10 (by decide)
    _ = W4 m ρ c (Proc.devRef .tc main_arg10) := W5_of_ne m ρ c main_arg10 (by decide)
    _ = W3 m ρ c (Proc.devRef .tc main_arg10) := StableHlo.after_of_writes_sub hostOps2 _ hostOps2_writes (by decide)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl
theorem W10_main_arg11 (c : Dev nD) : W10 m ρ c (Proc.devRef .tc main_arg11) = m ((c : Thread nD τ).loc main_arg11) :=
  calc W10 m ρ c (Proc.devRef .tc main_arg11)
    _ = W9 m ρ c (Proc.devRef .tc main_arg11) := StableHlo.after_of_writes_sub hostOps6 _ hostOps6_writes (by decide)
    _ = W8 m ρ c (Proc.devRef .tc main_arg11) := W9_of_ne m ρ c main_arg11 (by decide)
    _ = W7 m ρ c (Proc.devRef .tc main_arg11) := W8_of_ne m ρ c main_arg11 (by decide)
    _ = W6 m ρ c (Proc.devRef .tc main_arg11) := StableHlo.after_of_writes_sub hostOps4 _ hostOps4_writes (by decide)
    _ = W5 m ρ c (Proc.devRef .tc main_arg11) := W6_of_ne m ρ c main_arg11 (by decide)
    _ = W4 m ρ c (Proc.devRef .tc main_arg11) := W5_of_ne m ρ c main_arg11 (by decide)
    _ = W3 m ρ c (Proc.devRef .tc main_arg11) := StableHlo.after_of_writes_sub hostOps2 _ hostOps2_writes (by decide)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

end Cert.KernelIdeal.Hand

end
-- ==== Proof.KI.Run.lean ====
/-
  The whole run of the program: its ten items as segments — a host segment per stretch of host operations, a
  region segment per kernel call, each entered from the boundary contents before it and left at those after
  it — and the launch over them: every weakly fair execution terminates, nothing faulting, and in the final
  state every unscoped buffer holds the last boundary's contents. The frame claim is read off that.
-/
import proofs.«128750_j2551210574751_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No region has a prefetched table. -/
abbrev adm : (p : Fin 6) → (pcfgs (F := F) p).Adm := fun p => (cfgs p).toPCfg_adm
/-- Every region's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V5 m ρ) c
  | ⟨4, _⟩ => fun c => dat4 (V7 m ρ) c
  | ⟨5, _⟩ => fun c => dat5 (V8 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- Region 0 over the thread state: its arrays split out of the unscoped buffers and put back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: as region 0, and the scratch accumulator enters and leaves the invariant at some contents. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    refine .trans ?_ (Phi1_in (V2 m ρ) c)
    iintro ⟨Hp, -, Hr⟩
    isplitl [Hp]; · iexact Hp
    iexact Hr
  hout c := by
    rw [Pipeline.ownSems0_none, show (pdats m ρ 1 c).Φ (Fin.last _) = (dat1 (V2 m ρ) c).Φ (Fin.last _) from rfl]
    refine (Phi1_out (V2 m ρ) c).trans ?_
    iintro ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: as region 1. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (V5 m ρ) c).Φ 0 from rfl]
    refine .trans ?_ (Phi3_in (V5 m ρ) c)
    iintro ⟨Hp, -, Hr⟩
    isplitl [Hp]; · iexact Hp
    iexact Hr
  hout c := by
    rw [Pipeline.ownSems0_none, show (pdats m ρ 3 c).Φ (Fin.last _) = (dat3 (V5 m ρ) c).Φ (Fin.last _) from rfl]
    refine (Phi3_out (V5 m ρ) c).trans ?_
    iintro ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: two of its windows read one array, so the arrays are split out of the unscoped buffers by shares and
    joined back; only the output's array changes. -/
def reg5 : Pipeline.RegionSeg (pcfgs (F := F)) adm (pdats m ρ) () defs₀ 𝒱₀ L lv 5 where
  win := winFacts₀5
  block_pos := block_pos5
  stage_whole := stage_whole5
  K := PEmpty
  osem k := k.elim
  ho := Pipeline.OwnSemFacts.none _
  hbody c := (body_obligation5 (V8 m ρ) c).loose
  hwaits := Pipeline.hwaits_of_owed_zero _ _ _ _ L lv 5 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec5 c (V8 m ρ c)
  hentry c := by
    rw [Pipeline.ownSems0_none]
    have hsplit := arrays5_of_unscopedBufs (V8 m ρ) c (V8 m ρ c) rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := unscopedBufs_of_arrays5 (V8 m ρ) c (V9 m ρ c) (hF5 m ρ c) (hrest5 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .region (reg3 m ρ),
    .host (hseg hostOps4 hostOps4_sub hostOps4_fresh (W6 m ρ)),
    .region (reg4 m ρ),
    .region (reg5 m ρ),
    .host (hseg hostOps6 hostOps6_sub hostOps6_fresh (W9 m ρ)) ]

/-- The program is the run of its segments. -/
theorem main_run (c : Dev nD) : main (F := F) c = Pipeline.Seg.run (segs m ρ) := (main_chain c).trans (by chain_rfl)

set_option backward.isDefEq.respectTransparency.types false in
/-- Every weakly fair execution from memory m terminates, nothing faulting, and in every final state each unscoped
    buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W10 m ρ c) ∗ R c) : sProp 𝕄)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- The frame: every weakly fair execution terminates, nothing faulting, and each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W10_main_arg0 m ρ c),
    (h c _ (mem_uc main_arg1 (by decide))).trans (W10_main_arg1 m ρ c),
    (h c _ (mem_uc main_arg2 (by decide))).trans (W10_main_arg2 m ρ c),
    (h c _ (mem_uc main_arg3 (by decide))).trans (W10_main_arg3 m ρ c),
    (h c _ (mem_uc main_arg4 (by decide))).trans (W10_main_arg4 m ρ c),
    (h c _ (mem_uc main_arg5 (by decide))).trans (W10_main_arg5 m ρ c),
    (h c _ (mem_uc main_arg6 (by decide))).trans (W10_main_arg6 m ρ c),
    (h c _ (mem_uc main_arg7 (by decide))).trans (W10_main_arg7 m ρ c),
    (h c _ (mem_uc main_arg8 (by decide))).trans (W10_main_arg8 m ρ c),
    (h c _ (mem_uc main_arg9 (by decide))).trans (W10_main_arg9 m ρ c),
    (h c _ (mem_uc main_arg10 (by decide))).trans (W10_main_arg10 m ρ c),
    (h c _ (mem_uc main_arg11 (by decide))).trans (W10_main_arg11 m ρ c)⟩) (run_all m ρ)

end Cert.KernelIdeal.Hand

end
-- ==== Proof.KI.Boundary.lean ====
/-
  Where each value the program's results depend on sits at the boundaries: every result buffer at the end, and
  every input array of every region at its entry, walked back through the items that do not write it to the
  item that did — a region's output window, a host stretch's operation, or the launch memory.
-/
import proofs.«128750_j2551210574751_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The results at the end, and the regions' inputs at their entries -/

/-- The mean result at the end is what region 4 leaves in its first output array. -/
theorem res_zmean (c : Dev nD) : W10 m ρ c (Proc.devRef .tc main_v23_0) = (dat4 (V7 m ρ) c).arrAt 6 cfg4.N :=
  calc W10 m ρ c (Proc.devRef .tc main_v23_0)
    _ = W9 m ρ c (Proc.devRef .tc main_v23_0) := StableHlo.after_of_writes_sub hostOps6 _ hostOps6_writes (by decide)
    _ = W8 m ρ c (Proc.devRef .tc main_v23_0) := W9_of_ne m ρ c main_v23_0 (by decide)
    _ = (dat4 (V7 m ρ) c).arrAt 6 cfg4.N := W8_arr m ρ c 6

/-- The log-deviation result at the end is what region 4 leaves in its second output array. -/
theorem res_zlogstd (c : Dev nD) : W10 m ρ c (Proc.devRef .tc main_v23_1) = (dat4 (V7 m ρ) c).arrAt 7 cfg4.N :=
  calc W10 m ρ c (Proc.devRef .tc main_v23_1)
    _ = W9 m ρ c (Proc.devRef .tc main_v23_1) := StableHlo.after_of_writes_sub hostOps6 _ hostOps6_writes (by decide)
    _ = W8 m ρ c (Proc.devRef .tc main_v23_1) := W9_of_ne m ρ c main_v23_1 (by decide)
    _ = (dat4 (V7 m ρ) c).arrAt 7 cfg4.N := W8_arr m ρ c 7

/-- The decoded-features result at the end is what region 4 leaves in its fourth output array. -/
theorem res_exprec (c : Dev nD) : W10 m ρ c (Proc.devRef .tc main_v23_3) = (dat4 (V7 m ρ) c).arrAt 9 cfg4.N :=
  calc W10 m ρ c (Proc.devRef .tc main_v23_3)
    _ = W9 m ρ c (Proc.devRef .tc main_v23_3) := StableHlo.after_of_writes_sub hostOps6 _ hostOps6_writes (by decide)
    _ = W8 m ρ c (Proc.devRef .tc main_v23_3) := W9_of_ne m ρ c main_v23_3 (by decide)
    _ = (dat4 (V7 m ρ) c).arrAt 9 cfg4.N := W8_arr m ρ c 9

/-- Region 5 reads the sample z that region 4 left in its third output array. -/
theorem in5_z (c : Dev nD) : W8 m ρ c (Proc.devRef .tc main_v23_2) = (dat4 (V7 m ρ) c).arrAt 8 cfg4.N := W8_arr m ρ c 8

/-- Region 4 reads the second aggregation as region 3 left it. -/
theorem in4_comb (c : Dev nD) : W7 m ρ c (Proc.devRef .tc main_v20) = (dat3 (V5 m ρ) c).arrAt 2 cfg3.N :=
  calc W7 m ρ c (Proc.devRef .tc main_v20)
    _ = W6 m ρ c (Proc.devRef .tc main_v20) := StableHlo.after_of_writes_sub hostOps4 _ hostOps4_writes (by decide)
    _ = (dat3 (V5 m ρ) c).arrAt 2 cfg3.N := W6_arr m ρ c 2

/-- Region 4 reads the noise argument as launched. -/
theorem in4_eps (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps4 _ hostOps4_writes (by decide)
    _ = W5 m ρ c (Proc.devRef .tc main_arg2) := W6_of_ne m ρ c main_arg2 (by decide)
    _ = W4 m ρ c (Proc.devRef .tc main_arg2) := W5_of_ne m ρ c main_arg2 (by decide)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- Region 4 reads the first decoder weight argument as launched. -/
theorem in4_d1w (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_writes_sub hostOps4 _ hostOps4_writes (by decide)
    _ = W5 m ρ c (Proc.devRef .tc main_arg6) := W6_of_ne m ρ c main_arg6 (by decide)
    _ = W4 m ρ c (Proc.devRef .tc main_arg6) := W5_of_ne m ρ c main_arg6 (by decide)
    _ = W3 m ρ c (Proc.devRef .tc main_arg6) := StableHlo.after_of_writes_sub hostOps2 _ hostOps2_writes (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

/-- Region 4 reads the second decoder weight argument as launched. -/
theorem in4_d2w (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_writes_sub hostOps4 _ hostOps4_writes (by decide)
    _ = W5 m ρ c (Proc.devRef .tc main_arg8) := W6_of_ne m ρ c main_arg8 (by decide)
    _ = W4 m ρ c (Proc.devRef .tc main_arg8) := W5_of_ne m ρ c main_arg8 (by decide)
    _ = W3 m ρ c (Proc.devRef .tc main_arg8) := StableHlo.after_of_writes_sub hostOps2 _ hostOps2_writes (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

/-- The first decoder bias is as launched when the reshaping stretch before region 4 reads it. -/
theorem pre4_d1b (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := W5_of_ne m ρ c main_arg7 (by decide)
    _ = W3 m ρ c (Proc.devRef .tc main_arg7) := StableHlo.after_of_writes_sub hostOps2 _ hostOps2_writes (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

/-- The second decoder bias is as launched when the reshaping stretch before region 4 reads it. -/
theorem pre4_d2b (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := W5_of_ne m ρ c main_arg9 (by decide)
    _ = W3 m ρ c (Proc.devRef .tc main_arg9) := StableHlo.after_of_writes_sub hostOps2 _ hostOps2_writes (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

/-- Region 3 reads the dense adjacency as the first host stretch built it. -/
theorem in3_adj (c : Dev nD) : W5 m ρ c (Proc.devRef .tc main_v15) = W1 m ρ c (Proc.devRef .tc main_v15) :=
  calc W5 m ρ c (Proc.devRef .tc main_v15)
    _ = W4 m ρ c (Proc.devRef .tc main_v15) := W5_of_ne m ρ c main_v15 (by decide)
    _ = W3 m ρ c (Proc.devRef .tc main_v15) := StableHlo.after_of_writes_sub hostOps2 _ hostOps2_writes (by decide)
    _ = W2 m ρ c (Proc.devRef .tc main_v15) := (W3_arr m ρ c 0).trans (((dat1 (V2 m ρ) c).arrAt_in 0 rfl _).trans (A_eq1 (V2 m ρ) c 0))
    _ = W1 m ρ c (Proc.devRef .tc main_v15) := W2_of_ne m ρ c main_v15 (by decide)

/-- Region 3 reads the second projection as region 2 left it. -/
theorem in3_m2 (c : Dev nD) : W5 m ρ c (Proc.devRef .tc main_v19) = (dat2 (V4 m ρ) c).arrAt 2 cfg2.N := W5_arr m ρ c 2

/-- Region 2 reads the first aggregation as region 1 left it. -/
theorem in2_h (c : Dev nD) : W4 m ρ c (Proc.devRef .tc main_v17) = (dat1 (V2 m ρ) c).arrAt 2 cfg1.N :=
  calc W4 m ρ c (Proc.devRef .tc main_v17)
    _ = W3 m ρ c (Proc.devRef .tc main_v17) := StableHlo.after_of_writes_sub hostOps2 _ hostOps2_writes (by decide)
    _ = (dat1 (V2 m ρ) c).arrAt 2 cfg1.N := W3_arr m ρ c 2

/-- The mean weight argument is as launched when the concatenating stretch before region 2 reads it. -/
theorem pre2_w2mu (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-- The log-deviation weight argument is as launched when the concatenating stretch before region 2 reads it. -/
theorem pre2_w2ls (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-- Region 1 reads the dense adjacency as the first host stretch built it. -/
theorem in1_adj (c : Dev nD) : W2 m ρ c (Proc.devRef .tc main_v15) = W1 m ρ c (Proc.devRef .tc main_v15) :=
  calc W2 m ρ c (Proc.devRef .tc main_v15)
    _ = W1 m ρ c (Proc.devRef .tc main_v15) := W2_of_ne m ρ c main_v15 (by decide)

/-- Region 1 reads the first projection as region 0 left it. -/
theorem in1_m1 (c : Dev nD) : W2 m ρ c (Proc.devRef .tc main_v16) = (dat0 (V1 m ρ) c).arrAt 2 cfg0.N := W2_arr m ρ c 2

/-- Region 0 reads the feature argument as launched. -/
theorem in0_x (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_writes_sub hostOps0 _ hostOps0_writes (by decide)
    _ = m ((c : Thread nD τ).loc main_arg0) := rfl

/-- Region 0 reads the first weight argument as launched. -/
theorem in0_w1 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_writes_sub hostOps0 _ hostOps0_writes (by decide)
    _ = m ((c : Thread nD τ).loc main_arg3) := rfl

/-- The edge weights are as launched when the first host stretch reads them. -/
theorem pre0_w (c : Dev nD) : W0 m ρ c (Proc.devRef .tc main_arg1) = m ((c : Thread nD τ).loc main_arg1) := rfl

/-- The edge rows are as launched when the first host stretch reads them. -/
theorem pre0_row (c : Dev nD) : W0 m ρ c (Proc.devRef .tc main_arg10) = m ((c : Thread nD τ).loc main_arg10) := rfl

/-- The edge columns are as launched when the first host stretch reads them. -/
theorem pre0_col (c : Dev nD) : W0 m ρ c (Proc.devRef .tc main_arg11) = m ((c : Thread nD τ).loc main_arg11) := rfl

/-! ## What the host stretches write -/

/-- The flattened inner products at the end: the last stretch's reshape of what region 5 leaves. -/
theorem res_recon (c : Dev nD) : W10 m ρ c (Proc.devRef .tc main_v25)
    = shapeCast S67108864 (W9 m ρ c (Proc.devRef .tc main_v24)) shapeCasts_S8192x8192_S67108864 := by
  show StableHlo.after hostOps6 (W9 m ρ c) (Proc.devRef .tc main_v25) = _
  after_results
  rfl

end Cert.KernelIdeal.Hand

end
-- ==== Proof.KI.Val0.lean ====
/-
  Region 0 at the ideal values: the array the region leaves is the matrix product of the feature matrix and
  the first weight matrix, entry by entry — entry (r, c) is the sum over k of X(r, k) · W(k, c). Each grid point
  writes rows [2048 t, 2048 t + 2048) of that product, and the four points cover every row.
-/
import proofs.«128750_j2551210574751_2_alg».proof.Proof.KI.Reg0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- The zero offsets of a whole-block access. -/
theorem hz0 : (![0, 0] : Fin 2 → Nat) = fun _ => 0 := funext fun a => by fin_cases a <;> rfl

/-- The product of an [8192,512] matrix and a [512,256] matrix, entry by entry. -/
def G0 (X : S8192x512.Idx → EReal) (W : S512x256.Idx → EReal) : S8192x256.Idx → EReal :=
  fun i => ∑ k : Fin 512, X (ix2 (⟨(i 0).val, (i 0).isLt⟩ : Fin 8192) k) * W (ix2 k (⟨(i 1).val, (i 1).isLt⟩ : Fin 256))

/-! ## The block product read at an entry -/

theorem lhs0_0 (j : S2048x256.Idx) (q : dot_S2048x512_S512x256_S2048x256_1_0_0_1_n_n.contr.Idx) : (dot_S2048x512_S512x256_S2048x256_1_0_0_1_n_n.lhsIdx j q 0).val = (j 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
theorem lhs0_1 (j : S2048x256.Idx) (q : dot_S2048x512_S512x256_S2048x256_1_0_0_1_n_n.contr.Idx) : (dot_S2048x512_S512x256_S2048x256_1_0_0_1_n_n.lhsIdx j q 1).val = (q ⟨0, by decide⟩).val :=
  dot_S2048x512_S512x256_S2048x256_1_0_0_1_n_n.lhsIdx_val_of_single rfl j q
theorem rhs0_0 (j : S2048x256.Idx) (q : dot_S2048x512_S512x256_S2048x256_1_0_0_1_n_n.contr.Idx) : (dot_S2048x512_S512x256_S2048x256_1_0_0_1_n_n.rhsIdx j q 0).val = (q ⟨0, by decide⟩).val :=
  dot_S2048x512_S512x256_S2048x256_1_0_0_1_n_n.rhsIdx_val_of_single rfl j q
theorem rhs0_1 (j : S2048x256.Idx) (q : dot_S2048x512_S512x256_S2048x256_1_0_0_1_n_n.contr.Idx) : (dot_S2048x512_S512x256_S2048x256_1_0_0_1_n_n.rhsIdx j q 1).val = (j 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl

/-- At the ideal values the body's payload at entry j of the block is the sum over k of x(j₀, k) · w(k, j₁): the
    roundings to bf16 are the identity and the accumulator starts at zero. -/
theorem pay0_apply (x : Vec Ideal S2048x512 .f32) (w : Vec Ideal S512x256 .f32) (j : S2048x256.Idx) :
    k0_pay1 (F := Ideal) x w j = ∑ k : Fin 512, x (ix2 (⟨(j 0).val, (j 0).isLt⟩ : Fin 2048) k) * w (ix2 k (⟨(j 1).val, (j 1).isLt⟩ : Fin 256)) := by
  unfold k0_pay1
  refine (Ideal.matmul_constant_zero_apply dot_S2048x512_S512x256_S2048x256_1_0_0_1_n_n none _ _ j).trans ?_
  rw [← Equiv.sum_comp (ValueIdx.contrEquiv1 dot_S2048x512_S512x256_S2048x256_1_0_0_1_n_n 512 rfl rfl).symm]
  refine Finset.sum_congr rfl fun k _ => ?_
  have hk := ValueIdx.contrEquiv1_symm_val dot_S2048x512_S512x256_S2048x256_1_0_0_1_n_n 512 rfl rfl k
  have el : dot_S2048x512_S512x256_S2048x256_1_0_0_1_n_n.lhsIdx j ((ValueIdx.contrEquiv1 dot_S2048x512_S512x256_S2048x256_1_0_0_1_n_n 512 rfl rfl).symm k) = ix2 (⟨(j 0).val, (j 0).isLt⟩ : Fin 2048) k := funext fun a => Fin.ext (by
    match a with
    | ⟨0, _⟩ => exact lhs0_0 _ _
    | ⟨1, _⟩ => exact (lhs0_1 _ _).trans hk)
  have er : dot_S2048x512_S512x256_S2048x256_1_0_0_1_n_n.rhsIdx j ((ValueIdx.contrEquiv1 dot_S2048x512_S512x256_S2048x256_1_0_0_1_n_n 512 rfl rfl).symm k) = ix2 k (⟨(j 1).val, (j 1).isLt⟩ : Fin 256) := funext fun a => Fin.ext (by
    match a with
    | ⟨0, _⟩ => exact (rhs0_0 _ _).trans hk
    | ⟨1, _⟩ => exact rhs0_1 _ _)
  rw [el, er]
  rfl

/-! ## The windows over the grid -/

/-- The printed index maps over the four points: the feature window and the output window move down the rows with
    the point; the weight window stays on the whole matrix. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block at point t is rows 2048 t … 2048 t + 2047 of the feature matrix. -/
theorem iblk0_0_apply (c : Dev nD) (t : Fin cfg0.N) (y : S2048x512.Idx) (k : S8192x512.Idx)
    (hk0 : (k 0).val = 2048 * t.val + (y 0).val) (hk1 : (k 1).val = (y 1).val) :
    (iblk0 V c 0 t : Vec Ideal S2048x512 .f32) y = (V c (Pipeline.arrRef spec0 0) : S8192x512.Idx → EReal) k := by
  obtain ⟨e0, e1, -⟩ := idx_facts0 t
  unfold iblk0
  rw [View.read_apply]
  show V c (Pipeline.arrRef spec0 0) _ = V c (Pipeline.arrRef spec0 0) _
  refine congrArg _ (funext fun a => Fin.ext ?_)
  match a with
  | ⟨0, _⟩ => show win0_0.index t (0 : Fin 2) * 2048 + 1 * (y 0).val = (k 0).val; rw [e0, hk0]; omega
  | ⟨1, _⟩ => show win0_0.index t (1 : Fin 2) * 512 + 1 * (y 1).val = (k 1).val; rw [e1, hk1]; omega

/-- The weight block at every point is the whole weight matrix. -/
theorem iblk0_1_apply (c : Dev nD) (t : Fin cfg0.N) (y : S512x256.Idx) (k : S512x256.Idx)
    (hk0 : (k 0).val = (y 0).val) (hk1 : (k 1).val = (y 1).val) :
    (iblk0 V c 1 t : Vec Ideal S512x256 .f32) y = (V c (Pipeline.arrRef spec0 1) : S512x256.Idx → EReal) k := by
  obtain ⟨-, -, e0, e1, -⟩ := idx_facts0 t
  unfold iblk0
  rw [View.read_apply]
  show V c (Pipeline.arrRef spec0 1) _ = V c (Pipeline.arrRef spec0 1) _
  refine congrArg _ (funext fun a => Fin.ext ?_)
  match a with
  | ⟨0, _⟩ => show win0_1.index t (0 : Fin 2) * 512 + 1 * (y 0).val = (k 0).val; rw [e0, hk0]; omega
  | ⟨1, _⟩ => show win0_1.index t (1 : Fin 2) * 256 + 1 * (y 1).val = (k 1).val; rw [e1, hk1]; omega

/-- What point t writes back is block t of the product. -/
theorem flushed0_2_eq (c : Dev nD) (t : Fin cfg0.N) :
    (dat0 V c).flushed 2 t = ((cfg0.win 2).blk t).view.read (Elt Ideal) (G0 (V c (Pipeline.arrRef spec0 0)) (V c (Pipeline.arrRef spec0 1))) := by
  show (cfg0.win 2).cut (grid0.coords t) ((dat0 V c).after 2 t) = _
  rw [after0_2]
  unfold out0_2
  rw [View.canon_unit_zero hz0]
  simp only [View.ld_unit_zero (S := S2048x512) hz0, View.ld_unit_zero (S := S512x256) hz0]
  obtain ⟨-, -, -, -, e0, e1⟩ := idx_facts0 t
  funext j
  show k0_pay1 (F := Ideal) (iblk0 V c 0 t) (iblk0 V c 1 t) j = G0 (V c (Pipeline.arrRef spec0 0)) (V c (Pipeline.arrRef spec0 1)) (((cfg0.win 2).blk t).view.emb j)
  refine (pay0_apply (iblk0 V c 0 t) (iblk0 V c 1 t) j).trans ?_
  unfold G0
  refine Finset.sum_congr rfl fun k _ => ?_
  have h0 : ((((cfg0.win 2).blk t).view.emb j) 0).val = 2048 * t.val + (j 0).val := by
    show win0_2.index t (0 : Fin 2) * 2048 + 1 * (j 0).val = _; rw [e0]; omega
  have h1 : ((((cfg0.win 2).blk t).view.emb j) 1).val = (j 1).val := by
    show win0_2.index t (1 : Fin 2) * 256 + 1 * (j 1).val = _; rw [e1]; omega
  refine congrArg₂ (· * ·) ?_ ?_
  · exact iblk0_0_apply V c t _ _ h0 rfl
  · exact iblk0_1_apply V c t _ _ rfl h1

/-- An index of the array is in point t's block iff each coordinate is in the block's range on its axis. -/
theorem mem_blk0_2 (t : Fin cfg0.N) (i : S8192x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole (Pipeline.arrRef spec0 2)).slice (win0_2.rect t)).set ↔ _
  rw [View.set_slice_whole, Rect.mem_set_unit]
  exact Iff.rfl

/-- Every row of the array is in the block of the point its row block names, and every point writes back. -/
theorem cover0_2_arr (i : S8192x256.Idx) : ∃ t : Fin cfg0.N, (cfg0.win 2).flush t = true ∧ i ∈ ((cfg0.win 2).blk t).view.set := by
  have hi0 : (i 0).val < 8192 := (i 0).isLt
  have hi1 : (i 1).val < 256 := (i 1).isLt
  have hN : cfg0.N = 4 := N_0
  let t : Fin cfg0.N := ⟨(i 0).val / 2048, by rw [hN]; omega⟩
  obtain ⟨-, -, -, -, e0, e1⟩ := idx_facts0 t
  have ht : t.val = (i 0).val / 2048 := rfl
  refine ⟨t, flush0_2 t, ?_⟩
  rw [mem_blk0_2]
  intro a
  match a with
  | ⟨0, _⟩ => show win0_2.index t (0 : Fin 2) * 2048 ≤ (i 0).val ∧ (i 0).val < win0_2.index t (0 : Fin 2) * 2048 + 2048; rw [e0, ht]; omega
  | ⟨1, _⟩ => show win0_2.index t (1 : Fin 2) * 256 ≤ (i 1).val ∧ (i 1).val < win0_2.index t (1 : Fin 2) * 256 + 256; rw [e1]; omega

/-- The array the region leaves: the product of the feature matrix and the weight matrix as the region finds them. -/
theorem final0_2 (c : Dev nD) :
    (dat0 (F := Ideal) V c).arrAt 2 cfg0.N = G0 (V c (Pipeline.arrRef spec0 0)) (V c (Pipeline.arrRef spec0 1)) :=
  (dat0 V c).arrAt_eq_of_cover 2 (G0 (V c (Pipeline.arrRef spec0 0)) (V c (Pipeline.arrRef spec0 1))) (fun t _ => flushed0_2_eq V c t) cover0_2_arr

end Cert.KernelIdeal.Hand

end
-- ==== Proof.KI.Val1.lean ====
import proofs.«128750_j2551210574751_2_alg».proof.Proof.KI.Reg1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-! # Pallas_call 1 at the ideal values: the array it leaves is a matrix product

Entry `(row, q)` of the array is the sum over all 8192 columns `col` of the left factor's `(row, col)` times the right
factor's `(col, q)`. Each row block's four points add the four column blocks' parts of that sum to an accumulator
that starts from zero, the last of them writes the accumulator to the row block's rows of the array, and the
sixteen row blocks cover every row. -/

variable (V : (c : Dev nD) → (b : Ref sig .tc) → Buf (Elt Ideal) ((c : Thread nD τ).loc b))

/-! ## The product, entry by entry -/

/-- The product of an [8192,8192] matrix and an [8192,256] matrix, entry by entry: ONE sum over all 8192 columns. -/
def G1 (A : S8192x8192.Idx → EReal) (M : S8192x256.Idx → EReal) : S8192x256.Idx → EReal :=
  fun i => ∑ j : Fin 8192, A (ix2 (⟨(i 0).val, (i 0).isLt⟩ : Fin 8192) j) * M (ix2 j (⟨(i 1).val, (i 1).isLt⟩ : Fin 256))

/-- Row `y` of row block `r`. -/
def rowOf1 (r : Fin 16) (y : Fin 512) : Fin 8192 := ⟨512 * r.val + y.val, by omega⟩
/-- Column `x` of column block `k`. -/
def colOf1 (k : Fin 4) (x : Fin 2048) : Fin 8192 := ⟨2048 * k.val + x.val, by omega⟩

/-- A sum over the 8192 columns is the sum over the four column blocks of the sums within each. -/
theorem sum_cols1 {M : Type} [AddCommMonoid M] (f : Fin 8192 → M) :
    ∑ j : Fin 8192, f j = ∑ k : Fin 4, ∑ x : Fin 2048, f (colOf1 k x) := by
  rw [← Equiv.sum_comp (finProdFinEquiv (m := 4) (n := 2048)) f, Fintype.sum_prod_type]
  refine Finset.sum_congr rfl fun k _ => Finset.sum_congr rfl fun x _ => congrArg f (Fin.ext ?_)
  show x.val + 2048 * k.val = 2048 * k.val + x.val
  omega

/-! ## One step read at an entry -/

theorem lhs1_0 (j : S512x256.Idx) (q : dot_S512x2048_S2048x256_S512x256_1_0_0_1_n_n.contr.Idx) : (dot_S512x2048_S2048x256_S512x256_1_0_0_1_n_n.lhsIdx j q 0).val = (j 0).val := by
  unfold DotDims.lhsIdx
  rw [dif_neg (show ¬(0 : Fin S512x2048.rank) ∈ dot_S512x2048_S2048x256_S512x256_1_0_0_1_n_n.lhsBatch by decide), dif_pos (show (0 : Fin S512x2048.rank) ∈ dot_S512x2048_S2048x256_S512x256_1_0_0_1_n_n.lhsNonContracting by decide)]
  rfl
theorem lhs1_1 (j : S512x256.Idx) (q : dot_S512x2048_S2048x256_S512x256_1_0_0_1_n_n.contr.Idx) : (dot_S512x2048_S2048x256_S512x256_1_0_0_1_n_n.lhsIdx j q 1).val = (q ⟨0, by decide⟩).val :=
  dot_S512x2048_S2048x256_S512x256_1_0_0_1_n_n.lhsIdx_val_of_single rfl j q
theorem rhs1_0 (j : S512x256.Idx) (q : dot_S512x2048_S2048x256_S512x256_1_0_0_1_n_n.contr.Idx) : (dot_S512x2048_S2048x256_S512x256_1_0_0_1_n_n.rhsIdx j q 0).val = (q ⟨0, by decide⟩).val :=
  dot_S512x2048_S2048x256_S512x256_1_0_0_1_n_n.rhsIdx_val_of_single rfl j q
theorem rhs1_1 (j : S512x256.Idx) (q : dot_S512x2048_S2048x256_S512x256_1_0_0_1_n_n.contr.Idx) : (dot_S512x2048_S2048x256_S512x256_1_0_0_1_n_n.rhsIdx j q 1).val = (j 1).val := by
  unfold DotDims.rhsIdx
  rw [dif_neg (show ¬(1 : Fin S2048x256.rank) ∈ dot_S512x2048_S2048x256_S512x256_1_0_0_1_n_n.rhsBatch by decide), dif_pos (show (1 : Fin S2048x256.rank) ∈ dot_S512x2048_S2048x256_S512x256_1_0_0_1_n_n.rhsNonContracting by decide)]
  rfl

/-- At the ideal values one step at a point of reduction coordinate `k`, at entry `j` of the block: the accumulator
    there plus the sum over the 2048 columns `x` of the left block's `(j₀, x)` times the right factor's
    `(2048 k + x, j₁)` — the roundings to bf16 are the identity and the product starts from zero. -/
theorem step1_apply (i : grid1.Coords) (k : Fin 4) (hk : (i 1).val = k.val)
    (a : Vec Ideal S512x2048 .bf16) (h : Vec Ideal S8192x256 .f32) (s : Vec Ideal S512x256 .f32) (j : S512x256.Idx) :
    step1 (F := Ideal) i a h s j
      = s j + ∑ x : Fin 2048, a (ix2 (⟨(j 0).val, (j 0).isLt⟩ : Fin 512) x) * h (ix2 (colOf1 k x) (⟨(j 1).val, (j 1).isLt⟩ : Fin 256)) := by
  unfold step1 k1_pay2
  simp only [shapeCast_self]
  refine congrArg (s j + ·) ((Ideal.matmul_constant_zero_apply dot_S512x2048_S2048x256_S512x256_1_0_0_1_n_n none _ _ j).trans ?_)
  rw [← Equiv.sum_comp (ValueIdx.contrEquiv1 dot_S512x2048_S2048x256_S512x256_1_0_0_1_n_n 2048 rfl rfl).symm]
  refine Finset.sum_congr rfl fun x _ => ?_
  have hx := ValueIdx.contrEquiv1_symm_val dot_S512x2048_S2048x256_S512x256_1_0_0_1_n_n 2048 rfl rfl x
  have el : dot_S512x2048_S2048x256_S512x256_1_0_0_1_n_n.lhsIdx j ((ValueIdx.contrEquiv1 dot_S512x2048_S2048x256_S512x256_1_0_0_1_n_n 2048 rfl rfl).symm x) = ix2 (⟨(j 0).val, (j 0).isLt⟩ : Fin 512) x := funext fun b => Fin.ext (by
    match b with
    | ⟨0, _⟩ => exact lhs1_0 _ _
    | ⟨1, _⟩ => exact (lhs1_1 _ _).trans hx)
  have er : dot_S512x2048_S2048x256_S512x256_1_0_0_1_n_n.rhsIdx j ((ValueIdx.contrEquiv1 dot_S512x2048_S2048x256_S512x256_1_0_0_1_n_n 2048 rfl rfl).symm x) = ix2 x (⟨(j 1).val, (j 1).isLt⟩ : Fin 256) := funext fun b => Fin.ext (by
    match b with
    | ⟨0, _⟩ => exact (rhs1_0 _ _).trans hx
    | ⟨1, _⟩ => exact rhs1_1 _ _)
  rw [el, er]
  refine congrArg (a (ix2 (⟨(j 0).val, (j 0).isLt⟩ : Fin 512) x) * ·) ?_
  show h ((rH1 i).idx (ix2 x (⟨(j 1).val, (j 1).isLt⟩ : Fin 256))) = h (ix2 (colOf1 k x) (⟨(j 1).val, (j 1).isLt⟩ : Fin 256))
  refine congrArg h (funext fun b => Fin.ext ?_)
  match b with
  | ⟨0, _⟩ =>
    show (k1_off1 i) (0 : Fin 2) + 1 * x.val = 2048 * k.val + x.val
    rw [k1_off1_eq i]
    show 2048 * (i 1).val + 1 * x.val = 2048 * k.val + x.val
    rw [hk]; omega
  | ⟨1, _⟩ =>
    show (k1_off1 i) (1 : Fin 2) + 1 * (j 1).val = (j 1).val
    rw [k1_off1_eq i]
    show 0 + 1 * (j 1).val = (j 1).val
    omega

/-- The zero block the reset stores is zero at every entry. -/
theorem pay1_zero_apply (j : S512x256.Idx) : k1_pay1 (F := Ideal) j = 0 := by
  unfold k1_pay1
  simp only [shapeCast_self]
  exact Ideal.ofBits_zero_f32

/-! ## The windows over the grid -/

/-- The printed index maps over the 64 points: point `t` is row block `t / 4` at reduction coordinate `t % 4`; the
    left factor's window moves with both, the right factor's stays on the whole matrix, the output's moves with the
    row block. -/
theorem idx_facts1 : ∀ t : Fin cfg1.N, win1_0.index t (0 : Fin 2) = t.val / 4 ∧ win1_0.index t (1 : Fin 2) = t.val % 4
    ∧ win1_1.index t (0 : Fin 2) = 0 ∧ win1_1.index t (1 : Fin 2) = 0
    ∧ win1_2.index t (0 : Fin 2) = t.val / 4 ∧ win1_2.index t (1 : Fin 2) = 0
    ∧ ((grid1.coords t) 1).val = t.val % 4 :=
  (by decide +kernel : ∀ t : Fin grid1.N, _)

/-- The left factor's block at point `t` is rows `512 (t / 4) …`, columns `2048 (t % 4) …` of the matrix. -/
theorem iblk1_0_apply (c : Dev nD) (t : Fin cfg1.N) (y : S512x2048.Idx) (k : S8192x8192.Idx)
    (hk0 : (k 0).val = 512 * (t.val / 4) + (y 0).val) (hk1 : (k 1).val = 2048 * (t.val % 4) + (y 1).val) :
    (iblk1 V c 0 t : Vec Ideal S512x2048 .bf16) y = (V c (Pipeline.arrRef spec1 0) : S8192x8192.Idx → EReal) k := by
  obtain ⟨e0, e1, -⟩ := idx_facts1 t
  unfold iblk1
  rw [View.read_apply]
  show V c (Pipeline.arrRef spec1 0) _ = V c (Pipeline.arrRef spec1 0) _
  refine congrArg _ (funext fun a => Fin.ext ?_)
  match a with
  | ⟨0, _⟩ => show win1_0.index t (0 : Fin 2) * 512 + 1 * (y 0).val = (k 0).val; rw [e0, hk0]; omega
  | ⟨1, _⟩ => show win1_0.index t (1 : Fin 2) * 2048 + 1 * (y 1).val = (k 1).val; rw [e1, hk1]; omega

/-- The right factor's block at every point is the whole matrix. -/
theorem iblk1_1_apply (c : Dev nD) (t : Fin cfg1.N) (y : S8192x256.Idx) (k : S8192x256.Idx)
    (hk0 : (k 0).val = (y 0).val) (hk1 : (k 1).val = (y 1).val) :
    (iblk1 V c 1 t : Vec Ideal S8192x256 .f32) y = (V c (Pipeline.arrRef spec1 1) : S8192x256.Idx → EReal) k := by
  obtain ⟨-, -, e0, e1, -⟩ := idx_facts1 t
  unfold iblk1
  rw [View.read_apply]
  show V c (Pipeline.arrRef spec1 1) _ = V c (Pipeline.arrRef spec1 1) _
  refine congrArg _ (funext fun a => Fin.ext ?_)
  match a with
  | ⟨0, _⟩ => show win1_1.index t (0 : Fin 2) * 8192 + 1 * (y 0).val = (k 0).val; rw [e0, hk0]; omega
  | ⟨1, _⟩ => show win1_1.index t (1 : Fin 2) * 256 + 1 * (y 1).val = (k 1).val; rw [e1, hk1]; omega

/-- The left factor and the right factor as the region finds them, read as matrices of extended reals. -/
abbrev lhsArr1 (c : Dev nD) : S8192x8192.Idx → EReal := V c (Pipeline.arrRef spec1 0)
abbrev rhsArr1 (c : Dev nD) : S8192x256.Idx → EReal := V c (Pipeline.arrRef spec1 1)

/-! ## The accumulator over one row block -/

/-- Point `j` of row block `r`. -/
def pt1 (r : Fin 16) (k : Fin 4) : Fin cfg1.N :=
  ⟨4 * r.val + k.val, by have : cfg1.N = 64 := N_1; omega⟩

theorem pt1_val (r : Fin 16) (k : Fin 4) : (pt1 r k).val = 4 * r.val + k.val := rfl

/-- One step at the region's blocks of point `(r, k)`, read at an entry: the accumulator there plus the part of the
    product's sum over column block `k`. -/
theorem stepAt1_apply (c : Dev nD) (r : Fin 16) (k : Fin 4) (s : Vec Ideal S512x256 .f32) (j : S512x256.Idx) :
    step1 (F := Ideal) (grid1.coords (pt1 r k)) (iblk1 V c 0 (pt1 r k)) (iblk1 V c 1 (pt1 r k)) s j
      = s j + ∑ x : Fin 2048,
          lhsArr1 V c (ix2 (rowOf1 r (⟨(j 0).val, (j 0).isLt⟩ : Fin 512)) (colOf1 k x))
            * rhsArr1 V c (ix2 (colOf1 k x) (⟨(j 1).val, (j 1).isLt⟩ : Fin 256)) := by
  obtain ⟨-, -, -, -, -, -, ec⟩ := idx_facts1 (pt1 r k)
  have hdiv : (pt1 r k).val / 4 = r.val := by rw [pt1_val]; omega
  have hmod : (pt1 r k).val % 4 = k.val := by rw [pt1_val]; omega
  refine (step1_apply (grid1.coords (pt1 r k)) k (ec.trans hmod) (iblk1 V c 0 (pt1 r k)) (iblk1 V c 1 (pt1 r k)) s j).trans ?_
  refine congrArg (s j + ·) (Finset.sum_congr rfl fun x _ => congrArg₂ (· * ·) ?_ ?_)
  · refine iblk1_0_apply V c (pt1 r k) _ _ ?_ ?_
    · show 512 * r.val + (j 0).val = 512 * ((pt1 r k).val / 4) + (j 0).val; rw [hdiv]
    · show 2048 * k.val + x.val = 2048 * ((pt1 r k).val % 4) + x.val; rw [hmod]
  · exact iblk1_1_apply V c (pt1 r k) _ _ rfl rfl

/-- After the four points of row block `r` the accumulator holds, at entry `j`, row `512 r + j₀` of the left factor
    times column `j₁` of the right factor: four steps from zero, each adding one column block's part of the sum. -/
theorem acc1_row_apply (c : Dev nD) (r : Fin 16) (j : S512x256.Idx) :
    acc1 V c (4 * r.val + 4) j
      = ∑ col : Fin 8192,
          lhsArr1 V c (ix2 (rowOf1 r (⟨(j 0).val, (j 0).isLt⟩ : Fin 512)) col)
            * rhsArr1 V c (ix2 col (⟨(j 1).val, (j 1).isLt⟩ : Fin 256)) := by
  have e3 := acc1_succ_add V c (pt1 r 3) (by rw [pt1_val]; show ¬(4 * r.val + 3) % 4 = 0; omega)
  have e2 := acc1_succ_add V c (pt1 r 2) (by rw [pt1_val]; show ¬(4 * r.val + 2) % 4 = 0; omega)
  have e1 := acc1_succ_add V c (pt1 r 1) (by rw [pt1_val]; show ¬(4 * r.val + 1) % 4 = 0; omega)
  have e0 := acc1_succ_reset V c (pt1 r 0) (by rw [pt1_val]; show (4 * r.val + 0) % 4 = 0; omega)
  rw [show 4 * r.val + 4 = (pt1 r 3).val + 1 from rfl, e3, stepAt1_apply,
    show (pt1 r 3).val = (pt1 r 2).val + 1 from rfl, e2, stepAt1_apply,
    show (pt1 r 2).val = (pt1 r 1).val + 1 from rfl, e1, stepAt1_apply,
    show (pt1 r 1).val = (pt1 r 0).val + 1 from rfl, e0, stepAt1_apply, pay1_zero_apply, zero_add]
  rw [sum_cols1, Fin.sum_univ_four]

/-! ## From the blocks to the array -/

/-- What a point that writes back (reduction coordinate 3) writes is its block of the product. -/
theorem flushed1_2_eq (c : Dev nD) (t : Fin cfg1.N) (hf : (cfg1.win 2).flush t = true) :
    (dat1 V c).flushed 2 t = ((cfg1.win 2).blk t).view.read (Elt Ideal) (G1 (V c (Pipeline.arrRef spec1 0)) (V c (Pipeline.arrRef spec1 1))) := by
  have h3 : t.val % 4 = 3 := (flush1_2 t).mp hf
  have hN : t.val < 64 := lt_of_lt_of_eq t.isLt (show cfg1.N = 64 from N_1)
  obtain ⟨r, hr⟩ : ∃ r : Fin 16, t.val = 4 * r.val + 3 := ⟨⟨t.val / 4, by omega⟩, by show t.val = 4 * (t.val / 4) + 3; omega⟩
  obtain ⟨-, -, -, -, e0, e1, -⟩ := idx_facts1 t
  show (cfg1.win 2).cut (grid1.coords t) ((dat1 V c).after 2 t) = _
  rw [after1_2]
  funext j
  show acc1 V c (t.val + 1) j = G1 (V c (Pipeline.arrRef spec1 0)) (V c (Pipeline.arrRef spec1 1)) (((cfg1.win 2).blk t).view.emb j)
  rw [show t.val + 1 = 4 * r.val + 4 by omega, acc1_row_apply]
  unfold G1
  have h0 : ((((cfg1.win 2).blk t).view.emb j) 0).val = 512 * r.val + (j 0).val := by
    show win1_2.index t (0 : Fin 2) * 512 + 1 * (j 0).val = _; rw [e0]; omega
  have h1 : ((((cfg1.win 2).blk t).view.emb j) 1).val = (j 1).val := by
    show win1_2.index t (1 : Fin 2) * 256 + 1 * (j 1).val = _; rw [e1]; omega
  refine Finset.sum_congr rfl fun col _ => congrArg₂ (· * ·) (congrArg _ ?_) (congrArg _ ?_)
  · refine congrArg (fun a => ix2 a col) (Fin.ext ?_)
    show 512 * r.val + (j 0).val = _; rw [h0]
  · refine congrArg (fun b => ix2 col b) (Fin.ext ?_)
    show (j 1).val = _; rw [h1]

/-- An index of the array is in point `t`'s block iff each coordinate is in the block's range on its axis. -/
theorem mem_blk1_2 (t : Fin cfg1.N) (i : S8192x256.Idx) :
    i ∈ ((cfg1.win 2).blk t).view.set ↔ ∀ a : Fin 2, win1_2.index t a * S512x256.size a ≤ (i a).val ∧ (i a).val < win1_2.index t a * S512x256.size a + S512x256.size a := by
  show i ∈ ((View.whole (Pipeline.arrRef spec1 2)).slice (win1_2.rect t)).set ↔ _
  rw [View.set_slice_whole, Rect.mem_set_unit]
  exact Iff.rfl

/-- Every row of the array is in the block of the last point of its row block, which writes back. -/
theorem cover1_2_arr (i : S8192x256.Idx) : ∃ t : Fin cfg1.N, (cfg1.win 2).flush t = true ∧ i ∈ ((cfg1.win 2).blk t).view.set := by
  have hi0 : (i 0).val < 8192 := (i 0).isLt
  have hi1 : (i 1).val < 256 := (i 1).isLt
  have hN : cfg1.N = 64 := N_1
  let t : Fin cfg1.N := ⟨4 * ((i 0).val / 512) + 3, by rw [hN]; omega⟩
  obtain ⟨-, -, -, -, e0, e1, -⟩ := idx_facts1 t
  have ht : t.val = 4 * ((i 0).val / 512) + 3 := rfl
  refine ⟨t, (flush1_2 t).mpr (by rw [ht]; omega), ?_⟩
  rw [mem_blk1_2]
  intro a
  match a with
  | ⟨0, _⟩ => show win1_2.index t (0 : Fin 2) * 512 ≤ (i 0).val ∧ (i 0).val < win1_2.index t (0 : Fin 2) * 512 + 512; rw [e0, ht]; omega
  | ⟨1, _⟩ => show win1_2.index t (1 : Fin 2) * 256 ≤ (i 1).val ∧ (i 1).val < win1_2.index t (1 : Fin 2) * 256 + 256; rw [e1]; omega

/-- The array the region leaves: the product of the two matrices as the region finds them. -/
theorem final1_2 (c : Dev nD) :
    (dat1 (F := Ideal) V c).arrAt 2 cfg1.N = G1 (V c (Pipeline.arrRef spec1 0)) (V c (Pipeline.arrRef spec1 1)) :=
  (dat1 V c).arrAt_eq_of_cover 2 (G1 (V c (Pipeline.arrRef spec1 0)) (V c (Pipeline.arrRef spec1 1))) (fun t hf => flushed1_2_eq V c t hf) cover1_2_arr

end Cert.KernelIdeal.Hand

end
-- ==== Proof.KI.Val2.lean ====
/-
  Region 2 at the ideal values: the array the region leaves is the matrix product of the positive part of the
  aggregated hidden features and the combined weight matrix, entry by entry — entry (r, c) is the sum over k of
  max(H(r, k), 0) · W(k, c). Each grid point writes rows [2048 t, 2048 t + 2048) of that product, and the four
  points cover every row.
-/
import proofs.«128750_j2551210574751_2_alg».proof.Proof.KI.Reg2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- The zero offsets of a whole-block access. -/
theorem hz2 : (![0, 0] : Fin 2 → Nat) = fun _ => 0 := funext fun a => by fin_cases a <;> rfl

/-- The product of the positive part of an [8192,256] matrix and a [256,128] matrix, entry by entry. -/
def G2 (X : S8192x256.Idx → EReal) (W : S256x128.Idx → EReal) : S8192x128.Idx → EReal :=
  fun i => ∑ k : Fin 256, max (X (ix2 (⟨(i 0).val, (i 0).isLt⟩ : Fin 8192) k)) 0 * W (ix2 k (⟨(i 1).val, (i 1).isLt⟩ : Fin 128))

/-! ## The block product read at an entry -/

theorem lhs2_0 (j : S2048x128.Idx) (q : dot_S2048x256_S256x128_S2048x128_1_0_0_1_n_n.contr.Idx) : (dot_S2048x256_S256x128_S2048x128_1_0_0_1_n_n.lhsIdx j q 0).val = (j 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
theorem lhs2_1 (j : S2048x128.Idx) (q : dot_S2048x256_S256x128_S2048x128_1_0_0_1_n_n.contr.Idx) : (dot_S2048x256_S256x128_S2048x128_1_0_0_1_n_n.lhsIdx j q 1).val = (q ⟨0, by decide⟩).val :=
  dot_S2048x256_S256x128_S2048x128_1_0_0_1_n_n.lhsIdx_val_of_single rfl j q
theorem rhs2_0 (j : S2048x128.Idx) (q : dot_S2048x256_S256x128_S2048x128_1_0_0_1_n_n.contr.Idx) : (dot_S2048x256_S256x128_S2048x128_1_0_0_1_n_n.rhsIdx j q 0).val = (q ⟨0, by decide⟩).val :=
  dot_S2048x256_S256x128_S2048x128_1_0_0_1_n_n.rhsIdx_val_of_single rfl j q
theorem rhs2_1 (j : S2048x128.Idx) (q : dot_S2048x256_S256x128_S2048x128_1_0_0_1_n_n.contr.Idx) : (dot_S2048x256_S256x128_S2048x128_1_0_0_1_n_n.rhsIdx j q 1).val = (j 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

/-- At the ideal values the body's payload at entry j of the block is the sum over k of max(x(j₀, k), 0) · w(k, j₁):
    the casts to the same shape and the roundings to bf16 are the identity, the zero word is 0, and the accumulator
    starts at zero. -/
theorem pay2_apply (x : Vec Ideal S2048x256 .f32) (w : Vec Ideal S256x128 .f32) (j : S2048x128.Idx) :
    k2_pay1 (F := Ideal) x w j = ∑ k : Fin 256, max (x (ix2 (⟨(j 0).val, (j 0).isLt⟩ : Fin 2048) k)) 0 * w (ix2 k (⟨(j 1).val, (j 1).isLt⟩ : Fin 128)) := by
  unfold k2_pay1
  refine (Ideal.matmul_constant_zero_apply dot_S2048x256_S256x128_S2048x128_1_0_0_1_n_n none _ _ j).trans ?_
  rw [← Equiv.sum_comp (ValueIdx.contrEquiv1 dot_S2048x256_S256x128_S2048x128_1_0_0_1_n_n 256 rfl rfl).symm]
  refine Finset.sum_congr rfl fun k _ => ?_
  have hk := ValueIdx.contrEquiv1_symm_val dot_S2048x256_S256x128_S2048x128_1_0_0_1_n_n 256 rfl rfl k
  have el : dot_S2048x256_S256x128_S2048x128_1_0_0_1_n_n.lhsIdx j ((ValueIdx.contrEquiv1 dot_S2048x256_S256x128_S2048x128_1_0_0_1_n_n 256 rfl rfl).symm k) = ix2 (⟨(j 0).val, (j 0).isLt⟩ : Fin 2048) k := funext fun a => Fin.ext (by
    match a with
    | ⟨0, _⟩ => exact lhs2_0 _ _
    | ⟨1, _⟩ => exact (lhs2_1 _ _).trans hk)
  have er : dot_S2048x256_S256x128_S2048x128_1_0_0_1_n_n.rhsIdx j ((ValueIdx.contrEquiv1 dot_S2048x256_S256x128_S2048x128_1_0_0_1_n_n 256 rfl rfl).symm k) = ix2 k (⟨(j 1).val, (j 1).isLt⟩ : Fin 128) := funext fun a => Fin.ext (by
    match a with
    | ⟨0, _⟩ => exact (rhs2_0 _ _).trans hk
    | ⟨1, _⟩ => exact rhs2_1 _ _)
  rw [el, er]
  show max (shapeCast S2048x256 x shapeCasts_S2048x256_S2048x256 _) (Ideal.ofBits .f32 0x00000000#32) * shapeCast S256x128 w shapeCasts_S256x128_S256x128 _ = _
  rw [shapeCast_self, shapeCast_self, Ideal.ofBits_zero_f32]

/-! ## The windows over the grid -/

/-- The printed index maps over the four points: the hidden-feature window and the output window move down the
    rows with the point; the weight window stays on the whole matrix. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The hidden-feature block at point t is rows 2048 t … 2048 t + 2047 of the hidden-feature matrix. -/
theorem iblk2_0_apply (c : Dev nD) (t : Fin cfg2.N) (y : S2048x256.Idx) (k : S8192x256.Idx)
    (hk0 : (k 0).val = 2048 * t.val + (y 0).val) (hk1 : (k 1).val = (y 1).val) :
    (iblk2 V c 0 t : Vec Ideal S2048x256 .f32) y = (V c (Pipeline.arrRef spec2 0) : S8192x256.Idx → EReal) k := by
  obtain ⟨e0, e1, -⟩ := idx_facts2 t
  unfold iblk2
  rw [View.read_apply]
  show V c (Pipeline.arrRef spec2 0) _ = V c (Pipeline.arrRef spec2 0) _
  refine congrArg _ (funext fun a => Fin.ext ?_)
  match a with
  | ⟨0, _⟩ => show win2_0.index t (0 : Fin 2) * 2048 + 1 * (y 0).val = (k 0).val; rw [e0, hk0]; omega
  | ⟨1, _⟩ => show win2_0.index t (1 : Fin 2) * 256 + 1 * (y 1).val = (k 1).val; rw [e1, hk1]; omega

/-- The weight block at every point is the whole weight matrix. -/
theorem iblk2_1_apply (c : Dev nD) (t : Fin cfg2.N) (y : S256x128.Idx) (k : S256x128.Idx)
    (hk0 : (k 0).val = (y 0).val) (hk1 : (k 1).val = (y 1).val) :
    (iblk2 V c 1 t : Vec Ideal S256x128 .f32) y = (V c (Pipeline.arrRef spec2 1) : S256x128.Idx → EReal) k := by
  obtain ⟨-, -, e0, e1, -⟩ := idx_facts2 t
  unfold iblk2
  rw [View.read_apply]
  show V c (Pipeline.arrRef spec2 1) _ = V c (Pipeline.arrRef spec2 1) _
  refine congrArg _ (funext fun a => Fin.ext ?_)
  match a with
  | ⟨0, _⟩ => show win2_1.index t (0 : Fin 2) * 256 + 1 * (y 0).val = (k 0).val; rw [e0, hk0]; omega
  | ⟨1, _⟩ => show win2_1.index t (1 : Fin 2) * 128 + 1 * (y 1).val = (k 1).val; rw [e1, hk1]; omega

/-- What point t writes back is block t of the product. -/
theorem flushed2_2_eq (c : Dev nD) (t : Fin cfg2.N) :
    (dat2 V c).flushed 2 t = ((cfg2.win 2).blk t).view.read (Elt Ideal) (G2 (V c (Pipeline.arrRef spec2 0)) (V c (Pipeline.arrRef spec2 1))) := by
  show (cfg2.win 2).cut (grid2.coords t) ((dat2 V c).after 2 t) = _
  rw [after2_2]
  unfold out2_2
  rw [View.canon_unit_zero hz2]
  simp only [View.ld_unit_zero (S := S2048x256) hz2, View.ld_unit_zero (S := S256x128) hz2]
  obtain ⟨-, -, -, -, e0, e1⟩ := idx_facts2 t
  funext j
  show k2_pay1 (F := Ideal) (iblk2 V c 0 t) (iblk2 V c 1 t) j = G2 (V c (Pipeline.arrRef spec2 0)) (V c (Pipeline.arrRef spec2 1)) (((cfg2.win 2).blk t).view.emb j)
  refine (pay2_apply (iblk2 V c 0 t) (iblk2 V c 1 t) j).trans ?_
  unfold G2
  refine Finset.sum_congr rfl fun k _ => ?_
  have h0 : ((((cfg2.win 2).blk t).view.emb j) 0).val = 2048 * t.val + (j 0).val := by
    show win2_2.index t (0 : Fin 2) * 2048 + 1 * (j 0).val = _; rw [e0]; omega
  have h1 : ((((cfg2.win 2).blk t).view.emb j) 1).val = (j 1).val := by
    show win2_2.index t (1 : Fin 2) * 128 + 1 * (j 1).val = _; rw [e1]; omega
  refine congrArg₂ (· * ·) ?_ ?_
  · exact congrArg (max · 0) (iblk2_0_apply V c t _ _ h0 rfl)
  · exact iblk2_1_apply V c t _ _ rfl h1

/-- An index of the array is in point t's block iff each coordinate is in the block's range on its axis. -/
theorem mem_blk2_2 (t : Fin cfg2.N) (i : S8192x128.Idx) :
    i ∈ ((cfg2.win 2).blk t).view.set ↔ ∀ a : Fin 2, win2_2.index t a * S2048x128.size a ≤ (i a).val ∧ (i a).val < win2_2.index t a * S2048x128.size a + S2048x128.size a := by
  show i ∈ ((View.whole (Pipeline.arrRef spec2 2)).slice (win2_2.rect t)).set ↔ _
  rw [View.set_slice_whole, Rect.mem_set_unit]
  exact Iff.rfl

/-- Every row of the array is in the block of the point its row block names, and every point writes back. -/
theorem cover2_2_arr (i : S8192x128.Idx) : ∃ t : Fin cfg2.N, (cfg2.win 2).flush t = true ∧ i ∈ ((cfg2.win 2).blk t).view.set := by
  have hi0 : (i 0).val < 8192 := (i 0).isLt
  have hi1 : (i 1).val < 128 := (i 1).isLt
  have hN : cfg2.N = 4 := N_2
  let t : Fin cfg2.N := ⟨(i 0).val / 2048, by rw [hN]; omega⟩
  obtain ⟨-, -, -, -, e0, e1⟩ := idx_facts2 t
  have ht : t.val = (i 0).val / 2048 := rfl
  refine ⟨t, flush2_2 t, ?_⟩
  rw [mem_blk2_2]
  intro a
  match a with
  | ⟨0, _⟩ => show win2_2.index t (0 : Fin 2) * 2048 ≤ (i 0).val ∧ (i 0).val < win2_2.index t (0 : Fin 2) * 2048 + 2048; rw [e0, ht]; omega
  | ⟨1, _⟩ => show win2_2.index t (1 : Fin 2) * 128 ≤ (i 1).val ∧ (i 1).val < win2_2.index t (1 : Fin 2) * 128 + 128; rw [e1]; omega

/-- The array the region leaves: the product of the positive part of the hidden features and the weight matrix as
    the region finds them. -/
theorem final2_2 (c : Dev nD) :
    (dat2 (F := Ideal) V c).arrAt 2 cfg2.N = G2 (V c (Pipeline.arrRef spec2 0)) (V c (Pipeline.arrRef spec2 1)) :=
  (dat2 V c).arrAt_eq_of_cover 2 (G2 (V c (Pipeline.arrRef spec2 0)) (V c (Pipeline.arrRef spec2 1))) (fun t _ => flushed2_2_eq V c t) cover2_2_arr

end Cert.KernelIdeal.Hand

end
-- ==== Proof.KI.Val3.lean ====
import proofs.«128750_j2551210574751_2_alg».proof.Proof.KI.Reg3
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-! # Pallas_call 3 at the ideal values: the array it leaves is a matrix product

Entry `(row, q)` of the array is the sum over all 8192 columns `col` of the left factor's `(row, col)` times the right
factor's `(col, q)`. Each row block's four points add the four column blocks' parts of that sum to an accumulator
that starts from zero, the last of them writes the accumulator to the row block's rows of the array, and the
sixteen row blocks cover every row. -/

variable (V : (c : Dev nD) → (b : Ref sig .tc) → Buf (Elt Ideal) ((c : Thread nD τ).loc b))

/-! ## The product, entry by entry -/

/-- The product of an [8192,8192] matrix and an [8192,128] matrix, entry by entry: ONE sum over all 8192 columns. -/
def G3 (A : S8192x8192.Idx → EReal) (M : S8192x128.Idx → EReal) : S8192x128.Idx → EReal :=
  fun i => ∑ j : Fin 8192, A (ix2 (⟨(i 0).val, (i 0).isLt⟩ : Fin 8192) j) * M (ix2 j (⟨(i 1).val, (i 1).isLt⟩ : Fin 128))

/-- Row `y` of row block `r`. -/
def rowOf3 (r : Fin 16) (y : Fin 512) : Fin 8192 := ⟨512 * r.val + y.val, by omega⟩
/-- Column `x` of column block `k`. -/
def colOf3 (k : Fin 4) (x : Fin 2048) : Fin 8192 := ⟨2048 * k.val + x.val, by omega⟩

/-- A sum over the 8192 columns is the sum over the four column blocks of the sums within each. -/
theorem sum_cols3 {M : Type} [AddCommMonoid M] (f : Fin 8192 → M) :
    ∑ j : Fin 8192, f j = ∑ k : Fin 4, ∑ x : Fin 2048, f (colOf3 k x) := by
  rw [← Equiv.sum_comp (finProdFinEquiv (m := 4) (n := 2048)) f, Fintype.sum_prod_type]
  refine Finset.sum_congr rfl fun k _ => Finset.sum_congr rfl fun x _ => congrArg f (Fin.ext ?_)
  show x.val + 2048 * k.val = 2048 * k.val + x.val
  omega

/-! ## One step read at an entry -/

theorem lhs3_0 (j : S512x128.Idx) (q : dot_S512x2048_S2048x128_S512x128_1_0_0_1_n_n.contr.Idx) : (dot_S512x2048_S2048x128_S512x128_1_0_0_1_n_n.lhsIdx j q 0).val = (j 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
theorem lhs3_1 (j : S512x128.Idx) (q : dot_S512x2048_S2048x128_S512x128_1_0_0_1_n_n.contr.Idx) : (dot_S512x2048_S2048x128_S512x128_1_0_0_1_n_n.lhsIdx j q 1).val = (q ⟨0, by decide⟩).val :=
  dot_S512x2048_S2048x128_S512x128_1_0_0_1_n_n.lhsIdx_val_of_single rfl j q
theorem rhs3_0 (j : S512x128.Idx) (q : dot_S512x2048_S2048x128_S512x128_1_0_0_1_n_n.contr.Idx) : (dot_S512x2048_S2048x128_S512x128_1_0_0_1_n_n.rhsIdx j q 0).val = (q ⟨0, by decide⟩).val :=
  dot_S512x2048_S2048x128_S512x128_1_0_0_1_n_n.rhsIdx_val_of_single rfl j q
theorem rhs3_1 (j : S512x128.Idx) (q : dot_S512x2048_S2048x128_S512x128_1_0_0_1_n_n.contr.Idx) : (dot_S512x2048_S2048x128_S512x128_1_0_0_1_n_n.rhsIdx j q 1).val = (j 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl

/-- At the ideal values one step at a point of reduction coordinate `k`, at entry `j` of the block: the accumulator
    there plus the sum over the 2048 columns `x` of the left block's `(j₀, x)` times the right factor's
    `(2048 k + x, j₁)` — the roundings to bf16 are the identity and the product starts from zero. -/
theorem step3_apply (i : grid3.Coords) (k : Fin 4) (hk : (i 1).val = k.val)
    (a : Vec Ideal S512x2048 .bf16) (h : Vec Ideal S8192x128 .f32) (s : Vec Ideal S512x128 .f32) (j : S512x128.Idx) :
    step3 (F := Ideal) i a h s j
      = s j + ∑ x : Fin 2048, a (ix2 (⟨(j 0).val, (j 0).isLt⟩ : Fin 512) x) * h (ix2 (colOf3 k x) (⟨(j 1).val, (j 1).isLt⟩ : Fin 128)) := by
  unfold step3 k3_pay2
  simp only [shapeCast_self]
  refine congrArg (s j + ·) ((Ideal.matmul_constant_zero_apply dot_S512x2048_S2048x128_S512x128_1_0_0_1_n_n none _ _ j).trans ?_)
  rw [← Equiv.sum_comp (ValueIdx.contrEquiv1 dot_S512x2048_S2048x128_S512x128_1_0_0_1_n_n 2048 rfl rfl).symm]
  refine Finset.sum_congr rfl fun x _ => ?_
  have hx := ValueIdx.contrEquiv1_symm_val dot_S512x2048_S2048x128_S512x128_1_0_0_1_n_n 2048 rfl rfl x
  have el : dot_S512x2048_S2048x128_S512x128_1_0_0_1_n_n.lhsIdx j ((ValueIdx.contrEquiv1 dot_S512x2048_S2048x128_S512x128_1_0_0_1_n_n 2048 rfl rfl).symm x) = ix2 (⟨(j 0).val, (j 0).isLt⟩ : Fin 512) x := funext fun b => Fin.ext (by
    match b with
    | ⟨0, _⟩ => exact lhs3_0 _ _
    | ⟨1, _⟩ => exact (lhs3_1 _ _).trans hx)
  have er : dot_S512x2048_S2048x128_S512x128_1_0_0_1_n_n.rhsIdx j ((ValueIdx.contrEquiv1 dot_S512x2048_S2048x128_S512x128_1_0_0_1_n_n 2048 rfl rfl).symm x) = ix2 x (⟨(j 1).val, (j 1).isLt⟩ : Fin 128) := funext fun b => Fin.ext (by
    match b with
    | ⟨0, _⟩ => exact (rhs3_0 _ _).trans hx
    | ⟨1, _⟩ => exact rhs3_1 _ _)
  rw [el, er]
  refine congrArg (a (ix2 (⟨(j 0).val, (j 0).isLt⟩ : Fin 512) x) * ·) ?_
  show h ((rH3 i).idx (ix2 x (⟨(j 1).val, (j 1).isLt⟩ : Fin 128))) = h (ix2 (colOf3 k x) (⟨(j 1).val, (j 1).isLt⟩ : Fin 128))
  refine congrArg h (funext fun b => Fin.ext ?_)
  match b with
  | ⟨0, _⟩ =>
    show (k3_off1 i) (0 : Fin 2) + 1 * x.val = 2048 * k.val + x.val
    rw [k3_off1_eq i]
    show 2048 * (i 1).val + 1 * x.val = 2048 * k.val + x.val
    rw [hk]; omega
  | ⟨1, _⟩ =>
    show (k3_off1 i) (1 : Fin 2) + 1 * (j 1).val = (j 1).val
    rw [k3_off1_eq i]
    show 0 + 1 * (j 1).val = (j 1).val
    omega

/-- The zero block the reset stores is zero at every entry. -/
theorem pay3_zero_apply (j : S512x128.Idx) : k3_pay1 (F := Ideal) j = 0 := by
  unfold k3_pay1
  simp only [shapeCast_self]
  exact Ideal.ofBits_zero_f32

/-! ## The windows over the grid -/

/-- The printed index maps over the 64 points: point `t` is row block `t / 4` at reduction coordinate `t % 4`; the
    left factor's window moves with both, the right factor's stays on the whole matrix, the output's moves with the
    row block. -/
theorem idx_facts3 : ∀ t : Fin cfg3.N, win3_0.index t (0 : Fin 2) = t.val / 4 ∧ win3_0.index t (1 : Fin 2) = t.val % 4
    ∧ win3_1.index t (0 : Fin 2) = 0 ∧ win3_1.index t (1 : Fin 2) = 0
    ∧ win3_2.index t (0 : Fin 2) = t.val / 4 ∧ win3_2.index t (1 : Fin 2) = 0
    ∧ ((grid3.coords t) 1).val = t.val % 4 :=
  (by decide +kernel : ∀ t : Fin grid3.N, _)

/-- The left factor's block at point `t` is rows `512 (t / 4) …`, columns `2048 (t % 4) …` of the matrix. -/
theorem iblk3_0_apply (c : Dev nD) (t : Fin cfg3.N) (y : S512x2048.Idx) (k : S8192x8192.Idx)
    (hk0 : (k 0).val = 512 * (t.val / 4) + (y 0).val) (hk1 : (k 1).val = 2048 * (t.val % 4) + (y 1).val) :
    (iblk3 V c 0 t : Vec Ideal S512x2048 .bf16) y = (V c (Pipeline.arrRef spec3 0) : S8192x8192.Idx → EReal) k := by
  obtain ⟨e0, e1, -⟩ := idx_facts3 t
  unfold iblk3
  rw [View.read_apply]
  show V c (Pipeline.arrRef spec3 0) _ = V c (Pipeline.arrRef spec3 0) _
  refine congrArg _ (funext fun a => Fin.ext ?_)
  match a with
  | ⟨0, _⟩ => show win3_0.index t (0 : Fin 2) * 512 + 1 * (y 0).val = (k 0).val; rw [e0, hk0]; omega
  | ⟨1, _⟩ => show win3_0.index t (1 : Fin 2) * 2048 + 1 * (y 1).val = (k 1).val; rw [e1, hk1]; omega

/-- The right factor's block at every point is the whole matrix. -/
theorem iblk3_1_apply (c : Dev nD) (t : Fin cfg3.N) (y : S8192x128.Idx) (k : S8192x128.Idx)
    (hk0 : (k 0).val = (y 0).val) (hk1 : (k 1).val = (y 1).val) :
    (iblk3 V c 1 t : Vec Ideal S8192x128 .f32) y = (V c (Pipeline.arrRef spec3 1) : S8192x128.Idx → EReal) k := by
  obtain ⟨-, -, e0, e1, -⟩ := idx_facts3 t
  unfold iblk3
  rw [View.read_apply]
  show V c (Pipeline.arrRef spec3 1) _ = V c (Pipeline.arrRef spec3 1) _
  refine congrArg _ (funext fun a => Fin.ext ?_)
  match a with
  | ⟨0, _⟩ => show win3_1.index t (0 : Fin 2) * 8192 + 1 * (y 0).val = (k 0).val; rw [e0, hk0]; omega
  | ⟨1, _⟩ => show win3_1.index t (1 : Fin 2) * 128 + 1 * (y 1).val = (k 1).val; rw [e1, hk1]; omega

/-- The left factor and the right factor as the region finds them, read as matrices of extended reals. -/
abbrev lhsArr3 (c : Dev nD) : S8192x8192.Idx → EReal := V c (Pipeline.arrRef spec3 0)
abbrev rhsArr3 (c : Dev nD) : S8192x128.Idx → EReal := V c (Pipeline.arrRef spec3 1)

/-! ## The accumulator over one row block -/

/-- Point `j` of row block `r`. -/
def pt3 (r : Fin 16) (k : Fin 4) : Fin cfg3.N :=
  ⟨4 * r.val + k.val, by have : cfg3.N = 64 := N_3; omega⟩

theorem pt3_val (r : Fin 16) (k : Fin 4) : (pt3 r k).val = 4 * r.val + k.val := rfl

/-- One step at the region's blocks of point `(r, k)`, read at an entry: the accumulator there plus the part of the
    product's sum over column block `k`. -/
theorem stepAt3_apply (c : Dev nD) (r : Fin 16) (k : Fin 4) (s : Vec Ideal S512x128 .f32) (j : S512x128.Idx) :
    step3 (F := Ideal) (grid3.coords (pt3 r k)) (iblk3 V c 0 (pt3 r k)) (iblk3 V c 1 (pt3 r k)) s j
      = s j + ∑ x : Fin 2048,
          lhsArr3 V c (ix2 (rowOf3 r (⟨(j 0).val, (j 0).isLt⟩ : Fin 512)) (colOf3 k x))
            * rhsArr3 V c (ix2 (colOf3 k x) (⟨(j 1).val, (j 1).isLt⟩ : Fin 128)) := by
  obtain ⟨-, -, -, -, -, -, ec⟩ := idx_facts3 (pt3 r k)
  have hdiv : (pt3 r k).val / 4 = r.val := by rw [pt3_val]; omega
  have hmod : (pt3 r k).val % 4 = k.val := by rw [pt3_val]; omega
  refine (step3_apply (grid3.coords (pt3 r k)) k (ec.trans hmod) (iblk3 V c 0 (pt3 r k)) (iblk3 V c 1 (pt3 r k)) s j).trans ?_
  refine congrArg (s j + ·) (Finset.sum_congr rfl fun x _ => congrArg₂ (· * ·) ?_ ?_)
  · refine iblk3_0_apply V c (pt3 r k) _ _ ?_ ?_
    · show 512 * r.val + (j 0).val = 512 * ((pt3 r k).val / 4) + (j 0).val; rw [hdiv]
    · show 2048 * k.val + x.val = 2048 * ((pt3 r k).val % 4) + x.val; rw [hmod]
  · exact iblk3_1_apply V c (pt3 r k) _ _ rfl rfl

/-- After the four points of row block `r` the accumulator holds, at entry `j`, row `512 r + j₀` of the left factor
    times column `j₁` of the right factor: four steps from zero, each adding one column block's part of the sum. -/
theorem acc3_row_apply (c : Dev nD) (r : Fin 16) (j : S512x128.Idx) :
    acc3 V c (4 * r.val + 4) j
      = ∑ col : Fin 8192,
          lhsArr3 V c (ix2 (rowOf3 r (⟨(j 0).val, (j 0).isLt⟩ : Fin 512)) col)
            * rhsArr3 V c (ix2 col (⟨(j 1).val, (j 1).isLt⟩ : Fin 128)) := by
  have e3 := acc3_succ_add V c (pt3 r 3) (by rw [pt3_val]; show ¬(4 * r.val + 3) % 4 = 0; omega)
  have e2 := acc3_succ_add V c (pt3 r 2) (by rw [pt3_val]; show ¬(4 * r.val + 2) % 4 = 0; omega)
  have e1 := acc3_succ_add V c (pt3 r 1) (by rw [pt3_val]; show ¬(4 * r.val + 1) % 4 = 0; omega)
  have e0 := acc3_succ_reset V c (pt3 r 0) (by rw [pt3_val]; show (4 * r.val + 0) % 4 = 0; omega)
  rw [show 4 * r.val + 4 = (pt3 r 3).val + 1 from rfl, e3, stepAt3_apply,
    show (pt3 r 3).val = (pt3 r 2).val + 1 from rfl, e2, stepAt3_apply,
    show (pt3 r 2).val = (pt3 r 1).val + 1 from rfl, e1, stepAt3_apply,
    show (pt3 r 1).val = (pt3 r 0).val + 1 from rfl, e0, stepAt3_apply, pay3_zero_apply, zero_add]
  rw [sum_cols3, Fin.sum_univ_four]

/-! ## From the blocks to the array -/

/-- What a point that writes back (reduction coordinate 3) writes is its block of the product. -/
theorem flushed3_2_eq (c : Dev nD) (t : Fin cfg3.N) (hf : (cfg3.win 2).flush t = true) :
    (dat3 V c).flushed 2 t = ((cfg3.win 2).blk t).view.read (Elt Ideal) (G3 (V c (Pipeline.arrRef spec3 0)) (V c (Pipeline.arrRef spec3 1))) := by
  have h3 : t.val % 4 = 3 := (flush3_2 t).mp hf
  have hN : t.val < 64 := lt_of_lt_of_eq t.isLt (show cfg3.N = 64 from N_3)
  obtain ⟨r, hr⟩ : ∃ r : Fin 16, t.val = 4 * r.val + 3 := ⟨⟨t.val / 4, by omega⟩, by show t.val = 4 * (t.val / 4) + 3; omega⟩
  obtain ⟨-, -, -, -, e0, e1, -⟩ := idx_facts3 t
  show (cfg3.win 2).cut (grid3.coords t) ((dat3 V c).after 2 t) = _
  rw [after3_2]
  funext j
  show acc3 V c (t.val + 1) j = G3 (V c (Pipeline.arrRef spec3 0)) (V c (Pipeline.arrRef spec3 1)) (((cfg3.win 2).blk t).view.emb j)
  rw [show t.val + 1 = 4 * r.val + 4 by omega, acc3_row_apply]
  unfold G3
  have h0 : ((((cfg3.win 2).blk t).view.emb j) 0).val = 512 * r.val + (j 0).val := by
    show win3_2.index t (0 : Fin 2) * 512 + 1 * (j 0).val = _; rw [e0]; omega
  have h1 : ((((cfg3.win 2).blk t).view.emb j) 1).val = (j 1).val := by
    show win3_2.index t (1 : Fin 2) * 128 + 1 * (j 1).val = _; rw [e1]; omega
  refine Finset.sum_congr rfl fun col _ => congrArg₂ (· * ·) (congrArg _ ?_) (congrArg _ ?_)
  · refine congrArg (fun a => ix2 a col) (Fin.ext ?_)
    show 512 * r.val + (j 0).val = _; rw [h0]
  · refine congrArg (fun b => ix2 col b) (Fin.ext ?_)
    show (j 1).val = _; rw [h1]

/-- An index of the array is in point `t`'s block iff each coordinate is in the block's range on its axis. -/
theorem mem_blk3_2 (t : Fin cfg3.N) (i : S8192x128.Idx) :
    i ∈ ((cfg3.win 2).blk t).view.set ↔ ∀ a : Fin 2, win3_2.index t a * S512x128.size a ≤ (i a).val ∧ (i a).val < win3_2.index t a * S512x128.size a + S512x128.size a := by
  show i ∈ ((View.whole (Pipeline.arrRef spec3 2)).slice (win3_2.rect t)).set ↔ _
  rw [View.set_slice_whole, Rect.mem_set_unit]
  exact Iff.rfl

/-- Every row of the array is in the block of the last point of its row block, which writes back. -/
theorem cover3_2_arr (i : S8192x128.Idx) : ∃ t : Fin cfg3.N, (cfg3.win 2).flush t = true ∧ i ∈ ((cfg3.win 2).blk t).view.set := by
  have hi0 : (i 0).val < 8192 := (i 0).isLt
  have hi1 : (i 1).val < 128 := (i 1).isLt
  have hN : cfg3.N = 64 := N_3
  let t : Fin cfg3.N := ⟨4 * ((i 0).val / 512) + 3, by rw [hN]; omega⟩
  obtain ⟨-, -, -, -, e0, e1, -⟩ := idx_facts3 t
  have ht : t.val = 4 * ((i 0).val / 512) + 3 := rfl
  refine ⟨t, (flush3_2 t).mpr (by rw [ht]; omega), ?_⟩
  rw [mem_blk3_2]
  intro a
  match a with
  | ⟨0, _⟩ => show win3_2.index t (0 : Fin 2) * 512 ≤ (i 0).val ∧ (i 0).val < win3_2.index t (0 : Fin 2) * 512 + 512; rw [e0, ht]; omega
  | ⟨1, _⟩ => show win3_2.index t (1 : Fin 2) * 128 ≤ (i 1).val ∧ (i 1).val < win3_2.index t (1 : Fin 2) * 128 + 128; rw [e1]; omega

/-- The array the region leaves: the product of the two matrices as the region finds them. -/
theorem final3_2 (c : Dev nD) :
    (dat3 (F := Ideal) V c).arrAt 2 cfg3.N = G3 (V c (Pipeline.arrRef spec3 0)) (V c (Pipeline.arrRef spec3 1)) :=
  (dat3 V c).arrAt_eq_of_cover 2 (G3 (V c (Pipeline.arrRef spec3 0)) (V c (Pipeline.arrRef spec3 1))) (fun t hf => flushed3_2_eq V c t hf) cover3_2_arr

end Cert.KernelIdeal.Hand

end
-- ==== Proof.KI.Val4.lean ====
/-
  Region 4 at the ideal values: the four arrays the region leaves, each as one function of the region's input
  arrays, entry by entry. With C the combined projection [8192,128], E the noise [8192,64], and the decoder's
  weights and biases D1w [64,64], D1b [1,64], D2w [64,512], D2b [1,512]:
    mean(r, c)      = C(r, c)                              (the left 64 columns)
    logdev(r, c)    = C(r, 64 + c)                         (the right 64 columns)
    z(r, c)         = mean(r, c) + E(r, c) · exp(logdev(r, c))
    hidden(r, k)    = max(Σ_l z(r, l) · D1w(l, k) + D1b(0, k), 0)
    decoded(r, c)   = max(Σ_k hidden(r, k) · D2w(k, c) + D2b(0, c), 0)
  Each grid point writes rows [2048 t, 2048 t + 2048) of each of the four, and the four points cover every row.
-/
import proofs.«128750_j2551210574751_2_alg».proof.Proof.KI.Reg4
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- The zero offsets of a whole-block access. -/
theorem hz4 : (![0, 0] : Fin 2 → Nat) = fun _ => 0 := funext fun a => by fin_cases a <;> rfl

/-! ## The four arrays as functions of the inputs -/

/-- The mean: the left 64 columns of the combined projection. -/
def G4_6 (C : S8192x128.Idx → EReal) : S8192x64.Idx → EReal :=
  fun i => C (ix2 (⟨(i 0).val, (i 0).isLt⟩ : Fin 8192) (⟨(i 1).val, Nat.lt_of_lt_of_le (i 1).isLt (by decide)⟩ : Fin 128))

/-- The log-deviation: the right 64 columns of the combined projection. -/
def G4_7 (C : S8192x128.Idx → EReal) : S8192x64.Idx → EReal :=
  fun i => C (ix2 (⟨(i 0).val, (i 0).isLt⟩ : Fin 8192) (⟨64 + (i 1).val, Nat.add_lt_add_left (i 1).isLt 64⟩ : Fin 128))

/-- The sample: mean + noise · exp(log-deviation). -/
def G4_8 (C : S8192x128.Idx → EReal) (E : S8192x64.Idx → EReal) : S8192x64.Idx → EReal :=
  fun i => G4_6 C i + E i * Ideal.exp (G4_7 C i)

/-- The decoder on the sample: two layers, each a product plus a bias row, then the positive part. -/
def G4_9 (C : S8192x128.Idx → EReal) (E : S8192x64.Idx → EReal) (D1w : S64x64.Idx → EReal) (D1b : S1x64.Idx → EReal)
    (D2w : S64x512.Idx → EReal) (D2b : S1x512.Idx → EReal) : S8192x512.Idx → EReal :=
  fun i => max ((∑ k : Fin 64, max ((∑ l : Fin 64, G4_8 C E (ix2 (⟨(i 0).val, (i 0).isLt⟩ : Fin 8192) l) * D1w (ix2 l k)) + D1b (ix2 (0 : Fin 1) k)) 0
      * D2w (ix2 k (⟨(i 1).val, (i 1).isLt⟩ : Fin 512))) + D2b (ix2 (0 : Fin 1) (⟨(i 1).val, (i 1).isLt⟩ : Fin 512))) 0

/-! ## The payloads read at an entry -/

/-- The stored mean block at entry j is the loaded block at (j₀, j₁). -/
theorem pay4_2_apply (x : Vec Ideal S2048x128 .f32) (j : S2048x64.Idx) :
    k4_pay2 (F := Ideal) x j = x (ix2 (⟨(j 0).val, (j 0).isLt⟩ : Fin 2048) (⟨(j 1).val, Nat.lt_of_lt_of_le (j 1).isLt (by decide)⟩ : Fin 128)) := by
  unfold k4_pay2 k4_pay1
  show extractStridedSlice S2048x64 ![0, 0] (shapeCast S2048x128 x shapeCasts_S2048x128_S2048x128) slices_S2048x128_o0_0_S2048x64 j = _
  rw [shapeCast_self]
  exact extractStridedSlice_apply _ x _ j _ (fun a => by
    match a with
    | ⟨0, _⟩ => exact (Nat.zero_add _).symm
    | ⟨1, _⟩ => exact (Nat.zero_add _).symm)

/-- The stored log-deviation block at entry j is the loaded block at (j₀, 64 + j₁). -/
theorem pay4_3_apply (x : Vec Ideal S2048x128 .f32) (j : S2048x64.Idx) :
    k4_pay3 (F := Ideal) x j = x (ix2 (⟨(j 0).val, (j 0).isLt⟩ : Fin 2048) (⟨64 + (j 1).val, Nat.add_lt_add_left (j 1).isLt 64⟩ : Fin 128)) := by
  unfold k4_pay3 k4_pay1
  show extractStridedSlice S2048x64 ![0, 64] (shapeCast S2048x128 x shapeCasts_S2048x128_S2048x128) slices_S2048x128_o0_64_S2048x64 j = _
  rw [shapeCast_self]
  exact extractStridedSlice_apply _ x _ j _ (fun a => by
    match a with
    | ⟨0, _⟩ => exact (Nat.zero_add _).symm
    | ⟨1, _⟩ => rfl)

/-- The stored sample block at entry j: mean + noise · exp(log-deviation), each at entry j. -/
theorem pay4_4_apply (x : Vec Ideal S2048x128 .f32) (e : Vec Ideal S2048x64 .f32) (j : S2048x64.Idx) :
    k4_pay4 (F := Ideal) x e j = k4_pay2 (F := Ideal) x j + e j * Ideal.exp (k4_pay3 (F := Ideal) x j) := rfl

theorem lhs4a_0 (j : S2048x64.Idx) (q : dot_S2048x64_S64x64_S2048x64_1_0_0_1_n_n.contr.Idx) : (dot_S2048x64_S64x64_S2048x64_1_0_0_1_n_n.lhsIdx j q 0).val = (j 0).val := by
  unfold DotDims.lhsIdx
  rw [dif_neg (show ¬(0 : Fin S2048x64.rank) ∈ dot_S2048x64_S64x64_S2048x64_1_0_0_1_n_n.lhsBatch by decide), dif_pos (show (0 : Fin S2048x64.rank) ∈ dot_S2048x64_S64x64_S2048x64_1_0_0_1_n_n.lhsNonContracting by decide)]
  rfl
theorem lhs4a_1 (j : S2048x64.Idx) (q : dot_S2048x64_S64x64_S2048x64_1_0_0_1_n_n.contr.Idx) : (dot_S2048x64_S64x64_S2048x64_1_0_0_1_n_n.lhsIdx j q 1).val = (q ⟨0, by decide⟩).val :=
  dot_S2048x64_S64x64_S2048x64_1_0_0_1_n_n.lhsIdx_val_of_single rfl j q
theorem rhs4a_0 (j : S2048x64.Idx) (q : dot_S2048x64_S64x64_S2048x64_1_0_0_1_n_n.contr.Idx) : (dot_S2048x64_S64x64_S2048x64_1_0_0_1_n_n.rhsIdx j q 0).val = (q ⟨0, by decide⟩).val :=
  dot_S2048x64_S64x64_S2048x64_1_0_0_1_n_n.rhsIdx_val_of_single rfl j q
theorem rhs4a_1 (j : S2048x64.Idx) (q : dot_S2048x64_S64x64_S2048x64_1_0_0_1_n_n.contr.Idx) : (dot_S2048x64_S64x64_S2048x64_1_0_0_1_n_n.rhsIdx j q 1).val = (j 1).val := by
  unfold DotDims.rhsIdx
  rw [dif_neg (show ¬(1 : Fin S64x64.rank) ∈ dot_S2048x64_S64x64_S2048x64_1_0_0_1_n_n.rhsBatch by decide), dif_pos (show (1 : Fin S64x64.rank) ∈ dot_S2048x64_S64x64_S2048x64_1_0_0_1_n_n.rhsNonContracting by decide)]
  rfl

/-- At the ideal values a block product accumulated from zero, read at entry j, is the sum over k of a(j₀, k) · b(k, j₁). -/
theorem mm4a_apply (a : FVec Ideal S2048x64 .bf16) (b : FVec Ideal S64x64 .bf16) (j : S2048x64.Idx) :
    matmul dot_S2048x64_S64x64_S2048x64_1_0_0_1_n_n none a b (constant S2048x64 .f32 0x00000000#32) j
      = ∑ k : Fin 64, a (ix2 (⟨(j 0).val, (j 0).isLt⟩ : Fin 2048) k) * b (ix2 k (⟨(j 1).val, (j 1).isLt⟩ : Fin 64)) := by
  refine (Ideal.matmul_constant_zero_apply dot_S2048x64_S64x64_S2048x64_1_0_0_1_n_n none a b j).trans ?_
  rw [← Equiv.sum_comp (ValueIdx.contrEquiv1 dot_S2048x64_S64x64_S2048x64_1_0_0_1_n_n 64 rfl rfl).symm]
  refine Finset.sum_congr rfl fun k _ => ?_
  have hk := ValueIdx.contrEquiv1_symm_val dot_S2048x64_S64x64_S2048x64_1_0_0_1_n_n 64 rfl rfl k
  have el : dot_S2048x64_S64x64_S2048x64_1_0_0_1_n_n.lhsIdx j ((ValueIdx.contrEquiv1 dot_S2048x64_S64x64_S2048x64_1_0_0_1_n_n 64 rfl rfl).symm k) = ix2 (⟨(j 0).val, (j 0).isLt⟩ : Fin 2048) k := funext fun a => Fin.ext (by
    match a with
    | ⟨0, _⟩ => exact lhs4a_0 _ _
    | ⟨1, _⟩ => exact (lhs4a_1 _ _).trans hk)
  have er : dot_S2048x64_S64x64_S2048x64_1_0_0_1_n_n.rhsIdx j ((ValueIdx.contrEquiv1 dot_S2048x64_S64x64_S2048x64_1_0_0_1_n_n 64 rfl rfl).symm k) = ix2 k (⟨(j 1).val, (j 1).isLt⟩ : Fin 64) := funext fun a => Fin.ext (by
    match a with
    | ⟨0, _⟩ => exact (rhs4a_0 _ _).trans hk
    | ⟨1, _⟩ => exact rhs4a_1 _ _)
  rw [el, er]

theorem lhs4b_0 (j : S2048x512.Idx) (q : dot_S2048x64_S64x512_S2048x512_1_0_0_1_n_n.contr.Idx) : (dot_S2048x64_S64x512_S2048x512_1_0_0_1_n_n.lhsIdx j q 0).val = (j 0).val := by
  unfold DotDims.lhsIdx
  rw [dif_neg (show ¬(0 : Fin S2048x64.rank) ∈ dot_S2048x64_S64x512_S2048x512_1_0_0_1_n_n.lhsBatch by decide), dif_pos (show (0 : Fin S2048x64.rank) ∈ dot_S2048x64_S64x512_S2048x512_1_0_0_1_n_n.lhsNonContracting by decide)]
  rfl
theorem lhs4b_1 (j : S2048x512.Idx) (q : dot_S2048x64_S64x512_S2048x512_1_0_0_1_n_n.contr.Idx) : (dot_S2048x64_S64x512_S2048x512_1_0_0_1_n_n.lhsIdx j q 1).val = (q ⟨0, by decide⟩).val :=
  dot_S2048x64_S64x512_S2048x512_1_0_0_1_n_n.lhsIdx_val_of_single rfl j q
theorem rhs4b_0 (j : S2048x512.Idx) (q : dot_S2048x64_S64x512_S2048x512_1_0_0_1_n_n.contr.Idx) : (dot_S2048x64_S64x512_S2048x512_1_0_0_1_n_n.rhsIdx j q 0).val = (q ⟨0, by decide⟩).val :=
  dot_S2048x64_S64x512_S2048x512_1_0_0_1_n_n.rhsIdx_val_of_single rfl j q
theorem rhs4b_1 (j : S2048x512.Idx) (q : dot_S2048x64_S64x512_S2048x512_1_0_0_1_n_n.contr.Idx) : (dot_S2048x64_S64x512_S2048x512_1_0_0_1_n_n.rhsIdx j q 1).val = (j 1).val := by
  unfold DotDims.rhsIdx
  rw [dif_neg (show ¬(1 : Fin S64x512.rank) ∈ dot_S2048x64_S64x512_S2048x512_1_0_0_1_n_n.rhsBatch by decide), dif_pos (show (1 : Fin S64x512.rank) ∈ dot_S2048x64_S64x512_S2048x512_1_0_0_1_n_n.rhsNonContracting by decide)]
  rfl

/-- At the ideal values a block product accumulated from zero, read at entry j, is the sum over k of a(j₀, k) · b(k, j₁). -/
theorem mm4b_apply (a : FVec Ideal S2048x64 .bf16) (b : FVec Ideal S64x512 .bf16) (j : S2048x512.Idx) :
    matmul dot_S2048x64_S64x512_S2048x512_1_0_0_1_n_n none a b (constant S2048x512 .f32 0x00000000#32) j
      = ∑ k : Fin 64, a (ix2 (⟨(j 0).val, (j 0).isLt⟩ : Fin 2048) k) * b (ix2 k (⟨(j 1).val, (j 1).isLt⟩ : Fin 512)) := by
  refine (Ideal.matmul_constant_zero_apply dot_S2048x64_S64x512_S2048x512_1_0_0_1_n_n none a b j).trans ?_
  rw [← Equiv.sum_comp (ValueIdx.contrEquiv1 dot_S2048x64_S64x512_S2048x512_1_0_0_1_n_n 64 rfl rfl).symm]
  refine Finset.sum_congr rfl fun k _ => ?_
  have hk := ValueIdx.contrEquiv1_symm_val dot_S2048x64_S64x512_S2048x512_1_0_0_1_n_n 64 rfl rfl k
  have el : dot_S2048x64_S64x512_S2048x512_1_0_0_1_n_n.lhsIdx j ((ValueIdx.contrEquiv1 dot_S2048x64_S64x512_S2048x512_1_0_0_1_n_n 64 rfl rfl).symm k) = ix2 (⟨(j 0).val, (j 0).isLt⟩ : Fin 2048) k := funext fun a => Fin.ext (by
    match a with
    | ⟨0, _⟩ => exact lhs4b_0 _ _
    | ⟨1, _⟩ => exact (lhs4b_1 _ _).trans hk)
  have er : dot_S2048x64_S64x512_S2048x512_1_0_0_1_n_n.rhsIdx j ((ValueIdx.contrEquiv1 dot_S2048x64_S64x512_S2048x512_1_0_0_1_n_n 64 rfl rfl).symm k) = ix2 k (⟨(j 1).val, (j 1).isLt⟩ : Fin 512) := funext fun a => Fin.ext (by
    match a with
    | ⟨0, _⟩ => exact (rhs4b_0 _ _).trans hk
    | ⟨1, _⟩ => exact rhs4b_1 _ _)
  rw [el, er]

/-- The first bias row broadcast down the block, read at entry j, is the bias at column j₁. -/
theorem bias4a_apply (b1 : Vec Ideal S1x64 .f32) (j : S2048x64.Idx) :
    broadcastTo S2048x64 (shapeCast S1x64 b1 shapeCasts_S1x64_S1x64) broadcasts_S1x64_S2048x64 j = b1 (ix2 (0 : Fin 1) (⟨(j 1).val, (j 1).isLt⟩ : Fin 64)) := by
  rw [shapeCast_self]
  exact broadcastTo_apply b1 _ j _ (fun a => by
    match a with
    | ⟨0, _⟩ => rfl
    | ⟨1, _⟩ => show (j 1).val = if (64 : ℕ) = 1 then 0 else (j 1).val; rw [if_neg (by decide)])

/-- The second bias row broadcast down the block, read at entry j, is the bias at column j₁. -/
theorem bias4b_apply (b2 : Vec Ideal S1x512 .f32) (j : S2048x512.Idx) :
    broadcastTo S2048x512 (shapeCast S1x512 b2 shapeCasts_S1x512_S1x512) broadcasts_S1x512_S2048x512 j = b2 (ix2 (0 : Fin 1) (⟨(j 1).val, (j 1).isLt⟩ : Fin 512)) := by
  rw [shapeCast_self]
  exact broadcastTo_apply b2 _ j _ (fun a => by
    match a with
    | ⟨0, _⟩ => rfl
    | ⟨1, _⟩ => show (j 1).val = if (512 : ℕ) = 1 then 0 else (j 1).val; rw [if_neg (by decide)])

/-- The stored decoded block at entry j: the two layers over the sample block's row j₀. -/
theorem pay4_5_apply (x : Vec Ideal S2048x128 .f32) (e : Vec Ideal S2048x64 .f32) (w1 : Vec Ideal S64x64 .f32) (b1 : Vec Ideal S1x64 .f32)
    (w2 : Vec Ideal S64x512 .f32) (b2 : Vec Ideal S1x512 .f32) (j : S2048x512.Idx) :
    k4_pay5 (F := Ideal) x e w1 b1 w2 b2 j
      = max ((∑ k : Fin 64, max ((∑ l : Fin 64, k4_pay4 (F := Ideal) x e (ix2 (⟨(j 0).val, (j 0).isLt⟩ : Fin 2048) l) * w1 (ix2 l k)) + b1 (ix2 (0 : Fin 1) k)) 0
          * w2 (ix2 k (⟨(j 1).val, (j 1).isLt⟩ : Fin 512))) + b2 (ix2 (0 : Fin 1) (⟨(j 1).val, (j 1).isLt⟩ : Fin 512))) 0 := by
  unfold k4_pay5
  refine (congrArg₂ max (congrArg₂ (· + ·) (mm4b_apply _ _ j) (bias4b_apply b2 j)) Ideal.ofBits_zero_f32).trans ?_
  refine congrArg (max · 0) (congrArg (· + _) (Finset.sum_congr rfl fun k _ => congrArg (· * _) ?_))
  refine (congrArg₂ max (congrArg₂ (· + ·) (mm4a_apply _ _ (ix2 (⟨(j 0).val, (j 0).isLt⟩ : Fin 2048) k)) (bias4a_apply b1 (ix2 (⟨(j 0).val, (j 0).isLt⟩ : Fin 2048) k))) Ideal.ofBits_zero_f32).trans ?_
  rfl

/-! ## The windows over the grid -/

/-- The printed index maps over the four points: the two row-blocked inputs and the four outputs move down the
    rows with the point; the decoder's weights and biases stay whole. -/
theorem idx_facts4 : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = t.val ∧ win4_6.index t (1 : Fin 2) = 0)
    ∧ (win4_7.index t (0 : Fin 2) = t.val ∧ win4_7.index t (1 : Fin 2) = 0)
    ∧ (win4_8.index t (0 : Fin 2) = t.val ∧ win4_8.index t (1 : Fin 2) = 0)
    ∧ (win4_9.index t (0 : Fin 2) = t.val ∧ win4_9.index t (1 : Fin 2) = 0) :=
  (by decide +kernel : ∀ t : Fin grid4.N, _)

/-- The combined-projection block at point t is rows 2048 t … 2048 t + 2047 of its array. -/
theorem iblk4_0_apply (c : Dev nD) (t : Fin cfg4.N) (y : S2048x128.Idx) (k : S8192x128.Idx)
    (hk0 : (k 0).val = 2048 * t.val + (y 0).val) (hk1 : (k 1).val = (y 1).val) :
    (iblk4 V c 0 t : Vec Ideal S2048x128 .f32) y = (V c (Pipeline.arrRef spec4 0) : S8192x128.Idx → EReal) k := by
  obtain ⟨⟨e0, e1⟩, -, -, -, -, -, -, -, -, -⟩ := idx_facts4 t
  unfold iblk4
  rw [View.read_apply]
  show V c (Pipeline.arrRef spec4 0) _ = V c (Pipeline.arrRef spec4 0) _
  refine congrArg _ (funext fun a => Fin.ext ?_)
  match a with
  | ⟨0, _⟩ => show win4_0.index t (0 : Fin 2) * 2048 + 1 * (y 0).val = (k 0).val; rw [e0, hk0]; omega
  | ⟨1, _⟩ => show win4_0.index t (1 : Fin 2) * 128 + 1 * (y 1).val = (k 1).val; rw [e1, hk1]; omega

/-- The noise block at point t is rows 2048 t … 2048 t + 2047 of its array. -/
theorem iblk4_1_apply (c : Dev nD) (t : Fin cfg4.N) (y : S2048x64.Idx) (k : S8192x64.Idx)
    (hk0 : (k 0).val = 2048 * t.val + (y 0).val) (hk1 : (k 1).val = (y 1).val) :
    (iblk4 V c 1 t : Vec Ideal S2048x64 .f32) y = (V c (Pipeline.arrRef spec4 1) : S8192x64.Idx → EReal) k := by
  obtain ⟨-, ⟨e0, e1⟩, -, -, -, -, -, -, -, -⟩ := idx_facts4 t
  unfold iblk4
  rw [View.read_apply]
  show V c (Pipeline.arrRef spec4 1) _ = V c (Pipeline.arrRef spec4 1) _
  refine congrArg _ (funext fun a => Fin.ext ?_)
  match a with
  | ⟨0, _⟩ => show win4_1.index t (0 : Fin 2) * 2048 + 1 * (y 0).val = (k 0).val; rw [e0, hk0]; omega
  | ⟨1, _⟩ => show win4_1.index t (1 : Fin 2) * 64 + 1 * (y 1).val = (k 1).val; rw [e1, hk1]; omega

/-- The first weight block at point t is its whole array. -/
theorem iblk4_2_apply (c : Dev nD) (t : Fin cfg4.N) (y : S64x64.Idx) (k : S64x64.Idx)
    (hk0 : (k 0).val = (y 0).val) (hk1 : (k 1).val = (y 1).val) :
    (iblk4 V c 2 t : Vec Ideal S64x64 .f32) y = (V c (Pipeline.arrRef spec4 2) : S64x64.Idx → EReal) k := by
  obtain ⟨-, -, ⟨e0, e1⟩, -, -, -, -, -, -, -⟩ := idx_facts4 t
  unfold iblk4
  rw [View.read_apply]
  show V c (Pipeline.arrRef spec4 2) _ = V c (Pipeline.arrRef spec4 2) _
  refine congrArg _ (funext fun a => Fin.ext ?_)
  match a with
  | ⟨0, _⟩ => show win4_2.index t (0 : Fin 2) * 64 + 1 * (y 0).val = (k 0).val; rw [e0, hk0]; omega
  | ⟨1, _⟩ => show win4_2.index t (1 : Fin 2) * 64 + 1 * (y 1).val = (k 1).val; rw [e1, hk1]; omega

/-- The first bias block at point t is its whole array. -/
theorem iblk4_3_apply (c : Dev nD) (t : Fin cfg4.N) (y : S1x64.Idx) (k : S1x64.Idx)
    (hk0 : (k 0).val = (y 0).val) (hk1 : (k 1).val = (y 1).val) :
    (iblk4 V c 3 t : Vec Ideal S1x64 .f32) y = (V c (Pipeline.arrRef spec4 3) : S1x64.Idx → EReal) k := by
  obtain ⟨-, -, -, ⟨e0, e1⟩, -, -, -, -, -, -⟩ := idx_facts4 t
  unfold iblk4
  rw [View.read_apply]
  show V c (Pipeline.arrRef spec4 3) _ = V c (Pipeline.arrRef spec4 3) _
  refine congrArg _ (funext fun a => Fin.ext ?_)
  match a with
  | ⟨0, _⟩ => show win4_3.index t (0 : Fin 2) * 1 + 1 * (y 0).val = (k 0).val; rw [e0, hk0]; omega
  | ⟨1, _⟩ => show win4_3.index t (1 : Fin 2) * 64 + 1 * (y 1).val = (k 1).val; rw [e1, hk1]; omega

/-- The second weight block at point t is its whole array. -/
theorem iblk4_4_apply (c : Dev nD) (t : Fin cfg4.N) (y : S64x512.Idx) (k : S64x512.Idx)
    (hk0 : (k 0).val = (y 0).val) (hk1 : (k 1).val = (y 1).val) :
    (iblk4 V c 4 t : Vec Ideal S64x512 .f32) y = (V c (Pipeline.arrRef spec4 4) : S64x512.Idx → EReal) k := by
  obtain ⟨-, -, -, -, ⟨e0, e1⟩, -, -, -, -, -⟩ := idx_facts4 t
  unfold iblk4
  rw [View.read_apply]
  show V c (Pipeline.arrRef spec4 4) _ = V c (Pipeline.arrRef spec4 4) _
  refine congrArg _ (funext fun a => Fin.ext ?_)
  match a with
  | ⟨0, _⟩ => show win4_4.index t (0 : Fin 2) * 64 + 1 * (y 0).val = (k 0).val; rw [e0, hk0]; omega
  | ⟨1, _⟩ => show win4_4.index t (1 : Fin 2) * 512 + 1 * (y 1).val = (k 1).val; rw [e1, hk1]; omega

/-- The second bias block at point t is its whole array. -/
theorem iblk4_5_apply (c : Dev nD) (t : Fin cfg4.N) (y : S1x512.Idx) (k : S1x512.Idx)
    (hk0 : (k 0).val = (y 0).val) (hk1 : (k 1).val = (y 1).val) :
    (iblk4 V c 5 t : Vec Ideal S1x512 .f32) y = (V c (Pipeline.arrRef spec4 5) : S1x512.Idx → EReal) k := by
  obtain ⟨-, -, -, -, -, ⟨e0, e1⟩, -, -, -, -⟩ := idx_facts4 t
  unfold iblk4
  rw [View.read_apply]
  show V c (Pipeline.arrRef spec4 5) _ = V c (Pipeline.arrRef spec4 5) _
  refine congrArg _ (funext fun a => Fin.ext ?_)
  match a with
  | ⟨0, _⟩ => show win4_5.index t (0 : Fin 2) * 1 + 1 * (y 0).val = (k 0).val; rw [e0, hk0]; omega
  | ⟨1, _⟩ => show win4_5.index t (1 : Fin 2) * 512 + 1 * (y 1).val = (k 1).val; rw [e1, hk1]; omega

/-! ## Each payload over the point's blocks is the array function at the block's place -/

/-- The mean block at point t, entry y, is the mean array at row 2048 t + y₀. -/
theorem mean_at (c : Dev nD) (t : Fin cfg4.N) (y : S2048x64.Idx) (i : S8192x64.Idx)
    (h0 : (i 0).val = 2048 * t.val + (y 0).val) (h1 : (i 1).val = (y 1).val) :
    k4_pay2 (F := Ideal) (iblk4 V c 0 t) y = G4_6 (V c (Pipeline.arrRef spec4 0)) i := by
  refine (pay4_2_apply (iblk4 V c 0 t) y).trans ?_
  unfold G4_6
  exact iblk4_0_apply V c t _ _ h0 h1

/-- The log-deviation block at point t, entry y, is the log-deviation array at row 2048 t + y₀. -/
theorem logdev_at (c : Dev nD) (t : Fin cfg4.N) (y : S2048x64.Idx) (i : S8192x64.Idx)
    (h0 : (i 0).val = 2048 * t.val + (y 0).val) (h1 : (i 1).val = (y 1).val) :
    k4_pay3 (F := Ideal) (iblk4 V c 0 t) y = G4_7 (V c (Pipeline.arrRef spec4 0)) i := by
  refine (pay4_3_apply (iblk4 V c 0 t) y).trans ?_
  unfold G4_7
  exact iblk4_0_apply V c t _ _ h0 (by show 64 + (i 1).val = 64 + (y 1).val; rw [h1])

/-- The sample block at point t, entry y, is the sample array at row 2048 t + y₀. -/
theorem sample_at (c : Dev nD) (t : Fin cfg4.N) (y : S2048x64.Idx) (i : S8192x64.Idx)
    (h0 : (i 0).val = 2048 * t.val + (y 0).val) (h1 : (i 1).val = (y 1).val) :
    k4_pay4 (F := Ideal) (iblk4 V c 0 t) (iblk4 V c 1 t) y = G4_8 (V c (Pipeline.arrRef spec4 0)) (V c (Pipeline.arrRef spec4 1)) i := by
  refine (pay4_4_apply (iblk4 V c 0 t) (iblk4 V c 1 t) y).trans ?_
  unfold G4_8
  rw [mean_at V c t y i h0 h1, logdev_at V c t y i h0 h1, iblk4_1_apply V c t y i h0 h1]

/-- The decoded block at point t, entry y, is the decoded array at row 2048 t + y₀. -/
theorem decoded_at (c : Dev nD) (t : Fin cfg4.N) (y : S2048x512.Idx) (i : S8192x512.Idx)
    (h0 : (i 0).val = 2048 * t.val + (y 0).val) (h1 : (i 1).val = (y 1).val) :
    k4_pay5 (F := Ideal) (iblk4 V c 0 t) (iblk4 V c 1 t) (iblk4 V c 2 t) (iblk4 V c 3 t) (iblk4 V c 4 t) (iblk4 V c 5 t) y
      = G4_9 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) i := by
  refine (pay4_5_apply (iblk4 V c 0 t) (iblk4 V c 1 t) (iblk4 V c 2 t) (iblk4 V c 3 t) (iblk4 V c 4 t) (iblk4 V c 5 t) y).trans ?_
  unfold G4_9
  refine congrArg (max · 0) (congrArg₂ (· + ·) (Finset.sum_congr rfl fun k _ => congrArg₂ (· * ·)
    (congrArg (max · 0) (congrArg₂ (· + ·) (Finset.sum_congr rfl fun l _ => congrArg₂ (· * ·) ?_ ?_) ?_)) ?_) ?_)
  · exact sample_at V c t _ _ h0 rfl
  · exact iblk4_2_apply V c t _ _ rfl rfl
  · exact iblk4_3_apply V c t _ _ rfl rfl
  · exact iblk4_4_apply V c t _ _ rfl h1
  · exact iblk4_5_apply V c t _ _ rfl h1

/-! ## What each point writes back, the cover, and the arrays the region leaves -/

/-- What point t writes back to the mean array is block t of the mean function. -/
theorem flushed4_6_eq (c : Dev nD) (t : Fin cfg4.N) :
    (dat4 V c).flushed 6 t = ((cfg4.win 6).blk t).view.read (Elt Ideal) (G4_6 (V c (Pipeline.arrRef spec4 0))) := by
  show (cfg4.win 6).cut (grid4.coords t) ((dat4 V c).after 6 t) = _
  rw [after4_6]
  unfold out4_6
  rw [View.canon_unit_zero hz4]
  simp only [View.ld_unit_zero (S := S2048x128) hz4]
  obtain ⟨-, -, -, -, -, -, ⟨e0, e1⟩, -, -, -⟩ := idx_facts4 t
  funext j
  show k4_pay2 (F := Ideal) (iblk4 V c 0 t) j = (G4_6 (V c (Pipeline.arrRef spec4 0))) (((cfg4.win 6).blk t).view.emb j)
  refine mean_at V c t j _ ?_ ?_
  · show win4_6.index t (0 : Fin 2) * 2048 + 1 * (j 0).val = _; rw [e0]; omega
  · show win4_6.index t (1 : Fin 2) * 64 + 1 * (j 1).val = _; rw [e1]; omega

/-- An index of the mean array is in point t's block iff each coordinate is in the block's range on its axis. -/
theorem mem_blk4_6 (t : Fin cfg4.N) (i : S8192x64.Idx) :
    i ∈ ((cfg4.win 6).blk t).view.set ↔ ∀ a : Fin 2, win4_6.index t a * S2048x64.size a ≤ (i a).val ∧ (i a).val < win4_6.index t a * S2048x64.size a + S2048x64.size a := by
  show i ∈ ((View.whole (Pipeline.arrRef spec4 6)).slice (win4_6.rect t)).set ↔ _
  rw [View.set_slice_whole, Rect.mem_set_unit]
  exact Iff.rfl

/-- Every row of the mean array is in the block of the point its row block names, and every point writes back. -/
theorem cover4_6_arr (i : S8192x64.Idx) : ∃ t : Fin cfg4.N, (cfg4.win 6).flush t = true ∧ i ∈ ((cfg4.win 6).blk t).view.set := by
  have hi0 : (i 0).val < 8192 := (i 0).isLt
  have hi1 : (i 1).val < 64 := (i 1).isLt
  have hN : cfg4.N = 4 := N_4
  let t : Fin cfg4.N := ⟨(i 0).val / 2048, by rw [hN]; omega⟩
  obtain ⟨-, -, -, -, -, -, ⟨e0, e1⟩, -, -, -⟩ := idx_facts4 t
  have ht : t.val = (i 0).val / 2048 := rfl
  refine ⟨t, flush4_6 t, ?_⟩
  rw [mem_blk4_6]
  intro a
  match a with
  | ⟨0, _⟩ => show win4_6.index t (0 : Fin 2) * 2048 ≤ (i 0).val ∧ (i 0).val < win4_6.index t (0 : Fin 2) * 2048 + 2048; rw [e0, ht]; omega
  | ⟨1, _⟩ => show win4_6.index t (1 : Fin 2) * 64 ≤ (i 1).val ∧ (i 1).val < win4_6.index t (1 : Fin 2) * 64 + 64; rw [e1]; omega

/-- The mean array the region leaves, as a function of the input arrays as the region finds them. -/
theorem final4_6 (c : Dev nD) :
    (dat4 (F := Ideal) V c).arrAt 6 cfg4.N = G4_6 (V c (Pipeline.arrRef spec4 0)) :=
  (dat4 V c).arrAt_eq_of_cover 6 (G4_6 (V c (Pipeline.arrRef spec4 0))) (fun t _ => flushed4_6_eq V c t) cover4_6_arr

/-- What point t writes back to the log-deviation array is block t of the log-deviation function. -/
theorem flushed4_7_eq (c : Dev nD) (t : Fin cfg4.N) :
    (dat4 V c).flushed 7 t = ((cfg4.win 7).blk t).view.read (Elt Ideal) (G4_7 (V c (Pipeline.arrRef spec4 0))) := by
  show (cfg4.win 7).cut (grid4.coords t) ((dat4 V c).after 7 t) = _
  rw [after4_7]
  unfold out4_7
  rw [View.canon_unit_zero hz4]
  simp only [View.ld_unit_zero (S := S2048x128) hz4]
  obtain ⟨-, -, -, -, -, -, -, ⟨e0, e1⟩, -, -⟩ := idx_facts4 t
  funext j
  show k4_pay3 (F := Ideal) (iblk4 V c 0 t) j = (G4_7 (V c (Pipeline.arrRef spec4 0))) (((cfg4.win 7).blk t).view.emb j)
  refine logdev_at V c t j _ ?_ ?_
  · show win4_7.index t (0 : Fin 2) * 2048 + 1 * (j 0).val = _; rw [e0]; omega
  · show win4_7.index t (1 : Fin 2) * 64 + 1 * (j 1).val = _; rw [e1]; omega

/-- An index of the log-deviation array is in point t's block iff each coordinate is in the block's range on its axis. -/
theorem mem_blk4_7 (t : Fin cfg4.N) (i : S8192x64.Idx) :
    i ∈ ((cfg4.win 7).blk t).view.set ↔ ∀ a : Fin 2, win4_7.index t a * S2048x64.size a ≤ (i a).val ∧ (i a).val < win4_7.index t a * S2048x64.size a + S2048x64.size a := by
  show i ∈ ((View.whole (Pipeline.arrRef spec4 7)).slice (win4_7.rect t)).set ↔ _
  rw [View.set_slice_whole, Rect.mem_set_unit]
  exact Iff.rfl

/-- Every row of the log-deviation array is in the block of the point its row block names, and every point writes back. -/
theorem cover4_7_arr (i : S8192x64.Idx) : ∃ t : Fin cfg4.N, (cfg4.win 7).flush t = true ∧ i ∈ ((cfg4.win 7).blk t).view.set := by
  have hi0 : (i 0).val < 8192 := (i 0).isLt
  have hi1 : (i 1).val < 64 := (i 1).isLt
  have hN : cfg4.N = 4 := N_4
  let t : Fin cfg4.N := ⟨(i 0).val / 2048, by rw [hN]; omega⟩
  obtain ⟨-, -, -, -, -, -, -, ⟨e0, e1⟩, -, -⟩ := idx_facts4 t
  have ht : t.val = (i 0).val / 2048 := rfl
  refine ⟨t, flush4_7 t, ?_⟩
  rw [mem_blk4_7]
  intro a
  match a with
  | ⟨0, _⟩ => show win4_7.index t (0 : Fin 2) * 2048 ≤ (i 0).val ∧ (i 0).val < win4_7.index t (0 : Fin 2) * 2048 + 2048; rw [e0, ht]; omega
  | ⟨1, _⟩ => show win4_7.index t (1 : Fin 2) * 64 ≤ (i 1).val ∧ (i 1).val < win4_7.index t (1 : Fin 2) * 64 + 64; rw [e1]; omega

/-- The log-deviation array the region leaves, as a function of the input arrays as the region finds them. -/
theorem final4_7 (c : Dev nD) :
    (dat4 (F := Ideal) V c).arrAt 7 cfg4.N = G4_7 (V c (Pipeline.arrRef spec4 0)) :=
  (dat4 V c).arrAt_eq_of_cover 7 (G4_7 (V c (Pipeline.arrRef spec4 0))) (fun t _ => flushed4_7_eq V c t) cover4_7_arr

/-- What point t writes back to the sample array is block t of the sample function. -/
theorem flushed4_8_eq (c : Dev nD) (t : Fin cfg4.N) :
    (dat4 V c).flushed 8 t = ((cfg4.win 8).blk t).view.read (Elt Ideal) (G4_8 (V c (Pipeline.arrRef spec4 0)) (V c (Pipeline.arrRef spec4 1))) := by
  show (cfg4.win 8).cut (grid4.coords t) ((dat4 V c).after 8 t) = _
  rw [after4_8]
  unfold out4_8
  rw [View.canon_unit_zero hz4]
  simp only [View.ld_unit_zero (S := S2048x128) hz4, View.ld_unit_zero (S := S2048x64) hz4]
  obtain ⟨-, -, -, -, -, -, -, -, ⟨e0, e1⟩, -⟩ := idx_facts4 t
  funext j
  show k4_pay4 (F := Ideal) (iblk4 V c 0 t) (iblk4 V c 1 t) j = (G4_8 (V c (Pipeline.arrRef spec4 0)) (V c (Pipeline.arrRef spec4 1))) (((cfg4.win 8).blk t).view.emb j)
  refine sample_at V c t j _ ?_ ?_
  · show win4_8.index t (0 : Fin 2) * 2048 + 1 * (j 0).val = _; rw [e0]; omega
  · show win4_8.index t (1 : Fin 2) * 64 + 1 * (j 1).val = _; rw [e1]; omega

/-- An index of the sample array is in point t's block iff each coordinate is in the block's range on its axis. -/
theorem mem_blk4_8 (t : Fin cfg4.N) (i : S8192x64.Idx) :
    i ∈ ((cfg4.win 8).blk t).view.set ↔ ∀ a : Fin 2, win4_8.index t a * S2048x64.size a ≤ (i a).val ∧ (i a).val < win4_8.index t a * S2048x64.size a + S2048x64.size a := by
  show i ∈ ((View.whole (Pipeline.arrRef spec4 8)).slice (win4_8.rect t)).set ↔ _
  rw [View.set_slice_whole, Rect.mem_set_unit]
  exact Iff.rfl

/-- Every row of the sample array is in the block of the point its row block names, and every point writes back. -/
theorem cover4_8_arr (i : S8192x64.Idx) : ∃ t : Fin cfg4.N, (cfg4.win 8).flush t = true ∧ i ∈ ((cfg4.win 8).blk t).view.set := by
  have hi0 : (i 0).val < 8192 := (i 0).isLt
  have hi1 : (i 1).val < 64 := (i 1).isLt
  have hN : cfg4.N = 4 := N_4
  let t : Fin cfg4.N := ⟨(i 0).val / 2048, by rw [hN]; omega⟩
  obtain ⟨-, -, -, -, -, -, -, -, ⟨e0, e1⟩, -⟩ := idx_facts4 t
  have ht : t.val = (i 0).val / 2048 := rfl
  refine ⟨t, flush4_8 t, ?_⟩
  rw [mem_blk4_8]
  intro a
  match a with
  | ⟨0, _⟩ => show win4_8.index t (0 : Fin 2) * 2048 ≤ (i 0).val ∧ (i 0).val < win4_8.index t (0 : Fin 2) * 2048 + 2048; rw [e0, ht]; omega
  | ⟨1, _⟩ => show win4_8.index t (1 : Fin 2) * 64 ≤ (i 1).val ∧ (i 1).val < win4_8.index t (1 : Fin 2) * 64 + 64; rw [e1]; omega

/-- The sample array the region leaves, as a function of the input arrays as the region finds them. -/
theorem final4_8 (c : Dev nD) :
    (dat4 (F := Ideal) V c).arrAt 8 cfg4.N = G4_8 (V c (Pipeline.arrRef spec4 0)) (V c (Pipeline.arrRef spec4 1)) :=
  (dat4 V c).arrAt_eq_of_cover 8 (G4_8 (V c (Pipeline.arrRef spec4 0)) (V c (Pipeline.arrRef spec4 1))) (fun t _ => flushed4_8_eq V c t) cover4_8_arr

/-- What point t writes back to the decoded array is block t of the decoded function. -/
theorem flushed4_9_eq (c : Dev nD) (t : Fin cfg4.N) :
    (dat4 V c).flushed 9 t = ((cfg4.win 9).blk t).view.read (Elt Ideal) (G4_9 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))) := by
  show (cfg4.win 9).cut (grid4.coords t) ((dat4 V c).after 9 t) = _
  rw [after4_9]
  unfold out4_9
  rw [View.canon_unit_zero hz4]
  simp only [View.ld_unit_zero (S := S2048x128) hz4, View.ld_unit_zero (S := S2048x64) hz4, View.ld_unit_zero (S := S64x64) hz4, View.ld_unit_zero (S := S1x64) hz4, View.ld_unit_zero (S := S64x512) hz4, View.ld_unit_zero (S := S1x512) hz4]
  obtain ⟨-, -, -, -, -, -, -, -, -, ⟨e0, e1⟩⟩ := idx_facts4 t
  funext j
  show k4_pay5 (F := Ideal) (iblk4 V c 0 t) (iblk4 V c 1 t) (iblk4 V c 2 t) (iblk4 V c 3 t) (iblk4 V c 4 t) (iblk4 V c 5 t) j = (G4_9 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))) (((cfg4.win 9).blk t).view.emb j)
  refine decoded_at V c t j _ ?_ ?_
  · show win4_9.index t (0 : Fin 2) * 2048 + 1 * (j 0).val = _; rw [e0]; omega
  · show win4_9.index t (1 : Fin 2) * 512 + 1 * (j 1).val = _; rw [e1]; omega

/-- An index of the decoded array is in point t's block iff each coordinate is in the block's range on its axis. -/
theorem mem_blk4_9 (t : Fin cfg4.N) (i : S8192x512.Idx) :
    i ∈ ((cfg4.win 9).blk t).view.set ↔ ∀ a : Fin 2, win4_9.index t a * S2048x512.size a ≤ (i a).val ∧ (i a).val < win4_9.index t a * S2048x512.size a + S2048x512.size a := by
  show i ∈ ((View.whole (Pipeline.arrRef spec4 9)).slice (win4_9.rect t)).set ↔ _
  rw [View.set_slice_whole, Rect.mem_set_unit]
  exact Iff.rfl

/-- Every row of the decoded array is in the block of the point its row block names, and every point writes back. -/
theorem cover4_9_arr (i : S8192x512.Idx) : ∃ t : Fin cfg4.N, (cfg4.win 9).flush t = true ∧ i ∈ ((cfg4.win 9).blk t).view.set := by
  have hi0 : (i 0).val < 8192 := (i 0).isLt
  have hi1 : (i 1).val < 512 := (i 1).isLt
  have hN : cfg4.N = 4 := N_4
  let t : Fin cfg4.N := ⟨(i 0).val / 2048, by rw [hN]; omega⟩
  obtain ⟨-, -, -, -, -, -, -, -, -, ⟨e0, e1⟩⟩ := idx_facts4 t
  have ht : t.val = (i 0).val / 2048 := rfl
  refine ⟨t, flush4_9 t, ?_⟩
  rw [mem_blk4_9]
  intro a
  match a with
  | ⟨0, _⟩ => show win4_9.index t (0 : Fin 2) * 2048 ≤ (i 0).val ∧ (i 0).val < win4_9.index t (0 : Fin 2) * 2048 + 2048; rw [e0, ht]; omega
  | ⟨1, _⟩ => show win4_9.index t (1 : Fin 2) * 512 ≤ (i 1).val ∧ (i 1).val < win4_9.index t (1 : Fin 2) * 512 + 512; rw [e1]; omega

/-- The decoded array the region leaves, as a function of the input arrays as the region finds them. -/
theorem final4_9 (c : Dev nD) :
    (dat4 (F := Ideal) V c).arrAt 9 cfg4.N = G4_9 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) :=
  (dat4 V c).arrAt_eq_of_cover 9 (G4_9 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))) (fun t _ => flushed4_9_eq V c t) cover4_9_arr

end Cert.KernelIdeal.Hand

end
-- ==== Proof.KI.Val5.lean ====
/-
  Region 5 at the ideal values: the array the region leaves is the product of the first 32 columns of the latent
  matrix Z with the transpose of its last 32 columns, entry by entry — entry (r, s) is the sum over k < 32 of
  Z(r, k) · Z(s, 32 + k). Grid point (i, j) writes rows [2048 i, 2048 i + 2048), columns [2048 j, 2048 j + 2048) of
  that product, and the sixteen points cover every entry.
-/
import proofs.«128750_j2551210574751_2_alg».proof.Proof.KI.Reg5
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- The zero offsets of a whole-block access. -/
theorem hz5 : (![0, 0] : Fin 2 → Nat) = fun _ => 0 := funext fun a => by fin_cases a <;> rfl

/-- The product of the first 32 columns of an [8192,64] matrix with the transpose of its last 32 columns, entry by entry. -/
def G5 (Z : S8192x64.Idx → EReal) : S8192x8192.Idx → EReal :=
  fun i => ∑ k : Fin 32, Z (ix2 (⟨(i 0).val, (i 0).isLt⟩ : Fin 8192) (⟨k.val, Nat.lt_of_lt_of_le k.isLt (by decide)⟩ : Fin 64))
    * Z (ix2 (⟨(i 1).val, (i 1).isLt⟩ : Fin 8192) (⟨32 + k.val, Nat.lt_of_lt_of_le (Nat.add_lt_add_left k.isLt 32) (by decide)⟩ : Fin 64))

/-! ## The block product read at an entry -/

theorem lhs5_0 (j : S2048x2048.Idx) (q : dot_S2048x32_S2048x32_S2048x2048_1_1_0_0_n_n.contr.Idx) : (dot_S2048x32_S2048x32_S2048x2048_1_1_0_0_n_n.lhsIdx j q 0).val = (j 0).val := by
  unfold DotDims.lhsIdx
  rw [dif_neg (show ¬(0 : Fin S2048x32.rank) ∈ dot_S2048x32_S2048x32_S2048x2048_1_1_0_0_n_n.lhsBatch by decide), dif_pos (show (0 : Fin S2048x32.rank) ∈ dot_S2048x32_S2048x32_S2048x2048_1_1_0_0_n_n.lhsNonContracting by decide)]
  rfl
theorem lhs5_1 (j : S2048x2048.Idx) (q : dot_S2048x32_S2048x32_S2048x2048_1_1_0_0_n_n.contr.Idx) : (dot_S2048x32_S2048x32_S2048x2048_1_1_0_0_n_n.lhsIdx j q 1).val = (q ⟨0, by decide⟩).val :=
  dot_S2048x32_S2048x32_S2048x2048_1_1_0_0_n_n.lhsIdx_val_of_single rfl j q
theorem rhs5_0 (j : S2048x2048.Idx) (q : dot_S2048x32_S2048x32_S2048x2048_1_1_0_0_n_n.contr.Idx) : (dot_S2048x32_S2048x32_S2048x2048_1_1_0_0_n_n.rhsIdx j q 0).val = (j 1).val := by
  unfold DotDims.rhsIdx
  rw [dif_neg (show ¬(0 : Fin S2048x32.rank) ∈ dot_S2048x32_S2048x32_S2048x2048_1_1_0_0_n_n.rhsBatch by decide), dif_pos (show (0 : Fin S2048x32.rank) ∈ dot_S2048x32_S2048x32_S2048x2048_1_1_0_0_n_n.rhsNonContracting by decide)]
  rfl
theorem rhs5_1 (j : S2048x2048.Idx) (q : dot_S2048x32_S2048x32_S2048x2048_1_1_0_0_n_n.contr.Idx) : (dot_S2048x32_S2048x32_S2048x2048_1_1_0_0_n_n.rhsIdx j q 1).val = (q ⟨0, by decide⟩).val :=
  dot_S2048x32_S2048x32_S2048x2048_1_1_0_0_n_n.rhsIdx_val_of_single rfl j q

/-- At the ideal values the body's payload at entry j of the block is the sum over k < 32 of x(j₀, k) · y(j₁, 32 + k):
    the casts to the same shape and the roundings to bf16 are the identity, the two slices read columns k and 32 + k,
    and the accumulator starts at zero. -/
theorem pay5_apply (x : Vec Ideal S2048x64 .f32) (y : Vec Ideal S2048x64 .f32) (j : S2048x2048.Idx) :
    k5_pay1 (F := Ideal) x y j = ∑ k : Fin 32, x (ix2 (⟨(j 0).val, (j 0).isLt⟩ : Fin 2048) (⟨k.val, Nat.lt_of_lt_of_le k.isLt (by decide)⟩ : Fin 64))
      * y (ix2 (⟨(j 1).val, (j 1).isLt⟩ : Fin 2048) (⟨32 + k.val, Nat.lt_of_lt_of_le (Nat.add_lt_add_left k.isLt 32) (by decide)⟩ : Fin 64)) := by
  unfold k5_pay1
  refine (Ideal.matmul_constant_zero_apply dot_S2048x32_S2048x32_S2048x2048_1_1_0_0_n_n none _ _ j).trans ?_
  rw [← Equiv.sum_comp (ValueIdx.contrEquiv1 dot_S2048x32_S2048x32_S2048x2048_1_1_0_0_n_n 32 rfl rfl).symm]
  refine Finset.sum_congr rfl fun k _ => ?_
  have hk := ValueIdx.contrEquiv1_symm_val dot_S2048x32_S2048x32_S2048x2048_1_1_0_0_n_n 32 rfl rfl k
  have el : dot_S2048x32_S2048x32_S2048x2048_1_1_0_0_n_n.lhsIdx j ((ValueIdx.contrEquiv1 dot_S2048x32_S2048x32_S2048x2048_1_1_0_0_n_n 32 rfl rfl).symm k) = ix2 (⟨(j 0).val, (j 0).isLt⟩ : Fin 2048) k := funext fun a => Fin.ext (by
    match a with
    | ⟨0, _⟩ => exact lhs5_0 _ _
    | ⟨1, _⟩ => exact (lhs5_1 _ _).trans hk)
  have er : dot_S2048x32_S2048x32_S2048x2048_1_1_0_0_n_n.rhsIdx j ((ValueIdx.contrEquiv1 dot_S2048x32_S2048x32_S2048x2048_1_1_0_0_n_n 32 rfl rfl).symm k) = ix2 (⟨(j 1).val, (j 1).isLt⟩ : Fin 2048) k := funext fun a => Fin.ext (by
    match a with
    | ⟨0, _⟩ => exact rhs5_0 _ _
    | ⟨1, _⟩ => exact (rhs5_1 _ _).trans hk)
  rw [el, er]
  show extractStridedSlice S2048x32 ![0, 0] (shapeCast S2048x64 x shapeCasts_S2048x64_S2048x64) slices_S2048x64_o0_0_S2048x32 (ix2 (⟨(j 0).val, (j 0).isLt⟩ : Fin 2048) k)
      * extractStridedSlice S2048x32 ![0, 32] (shapeCast S2048x64 y shapeCasts_S2048x64_S2048x64) slices_S2048x64_o0_32_S2048x32 (ix2 (⟨(j 1).val, (j 1).isLt⟩ : Fin 2048) k) = _
  rw [slice2_axis1_apply 0 _ slices_S2048x64_o0_0_S2048x32 _ k (⟨k.val, Nat.lt_of_lt_of_le k.isLt (by decide)⟩ : Fin 64) (Nat.zero_add _).symm,
    slice2_axis1_apply 32 _ slices_S2048x64_o0_32_S2048x32 _ k (⟨32 + k.val, Nat.lt_of_lt_of_le (Nat.add_lt_add_left k.isLt 32) (by decide)⟩ : Fin 64) rfl,
    shapeCast_self, shapeCast_self]

/-! ## The windows over the grid -/

/-- The printed index maps over the sixteen points t = 4 i + j: the left factor's window moves down the rows with i, the
    right factor's with j, and the output window is block (i, j). -/
theorem idx_facts5 : ∀ t : Fin cfg5.N, win5_0.index t (0 : Fin 2) = t.val / 4 ∧ win5_0.index t (1 : Fin 2) = 0
    ∧ win5_1.index t (0 : Fin 2) = t.val % 4 ∧ win5_1.index t (1 : Fin 2) = 0
    ∧ win5_2.index t (0 : Fin 2) = t.val / 4 ∧ win5_2.index t (1 : Fin 2) = t.val % 4 :=
  (by decide +kernel : ∀ t : Fin grid5.N, _)

/-- The left factor's block at point t is rows 2048 (t / 4) … of the latent matrix. -/
theorem iblk5_0_apply (c : Dev nD) (t : Fin cfg5.N) (y : S2048x64.Idx) (k : S8192x64.Idx)
    (hk0 : (k 0).val = 2048 * (t.val / 4) + (y 0).val) (hk1 : (k 1).val = (y 1).val) :
    (iblk5 V c 0 t : Vec Ideal S2048x64 .f32) y = (V c (Pipeline.arrRef spec5 0) : S8192x64.Idx → EReal) k := by
  obtain ⟨e0, e1, -⟩ := idx_facts5 t
  unfold iblk5
  rw [View.read_apply]
  show V c (Pipeline.arrRef spec5 0) _ = V c (Pipeline.arrRef spec5 0) _
  refine congrArg _ (funext fun a => Fin.ext ?_)
  match a with
  | ⟨0, _⟩ => show win5_0.index t (0 : Fin 2) * 2048 + 1 * (y 0).val = (k 0).val; rw [e0, hk0]; omega
  | ⟨1, _⟩ => show win5_0.index t (1 : Fin 2) * 64 + 1 * (y 1).val = (k 1).val; rw [e1, hk1]; omega

/-- The right factor's block at point t is rows 2048 (t % 4) … of the same matrix. -/
theorem iblk5_1_apply (c : Dev nD) (t : Fin cfg5.N) (y : S2048x64.Idx) (k : S8192x64.Idx)
    (hk0 : (k 0).val = 2048 * (t.val % 4) + (y 0).val) (hk1 : (k 1).val = (y 1).val) :
    (iblk5 V c 1 t : Vec Ideal S2048x64 .f32) y = (V c (Pipeline.arrRef spec5 0) : S8192x64.Idx → EReal) k := by
  obtain ⟨-, -, e0, e1, -⟩ := idx_facts5 t
  unfold iblk5
  rw [View.read_apply]
  show V c (Pipeline.arrRef spec5 1) _ = V c (Pipeline.arrRef spec5 1) _
  refine congrArg _ (funext fun a => Fin.ext ?_)
  match a with
  | ⟨0, _⟩ => show win5_1.index t (0 : Fin 2) * 2048 + 1 * (y 0).val = (k 0).val; rw [e0, hk0]; omega
  | ⟨1, _⟩ => show win5_1.index t (1 : Fin 2) * 64 + 1 * (y 1).val = (k 1).val; rw [e1, hk1]; omega

/-- What point t writes back is block (t / 4, t % 4) of the product. -/
theorem flushed5_2_eq (c : Dev nD) (t : Fin cfg5.N) :
    (dat5 V c).flushed 2 t = ((cfg5.win 2).blk t).view.read (Elt Ideal) (G5 (V c (Pipeline.arrRef spec5 0))) := by
  show (cfg5.win 2).cut (grid5.coords t) ((dat5 V c).after 2 t) = _
  rw [after5_2]
  unfold out5_2
  rw [View.canon_unit_zero hz5]
  simp only [View.ld_unit_zero (S := S2048x64) hz5]
  obtain ⟨-, -, -, -, e0, e1⟩ := idx_facts5 t
  funext j
  show k5_pay1 (F := Ideal) (iblk5 V c 0 t) (iblk5 V c 1 t) j = G5 (V c (Pipeline.arrRef spec5 0)) (((cfg5.win 2).blk t).view.emb j)
  refine (pay5_apply (iblk5 V c 0 t) (iblk5 V c 1 t) j).trans ?_
  unfold G5
  refine Finset.sum_congr rfl fun k _ => ?_
  have h0 : ((((cfg5.win 2).blk t).view.emb j) 0).val = 2048 * (t.val / 4) + (j 0).val := by
    show win5_2.index t (0 : Fin 2) * 2048 + 1 * (j 0).val = _; rw [e0]; omega
  have h1 : ((((cfg5.win 2).blk t).view.emb j) 1).val = 2048 * (t.val % 4) + (j 1).val := by
    show win5_2.index t (1 : Fin 2) * 2048 + 1 * (j 1).val = _; rw [e1]; omega
  refine congrArg₂ (· * ·) ?_ ?_
  · exact iblk5_0_apply V c t _ _ h0 rfl
  · exact iblk5_1_apply V c t _ _ h1 rfl

/-- An index of the array is in point t's block iff each coordinate is in the block's range on its axis. -/
theorem mem_blk5_2 (t : Fin cfg5.N) (i : S8192x8192.Idx) :
    i ∈ ((cfg5.win 2).blk t).view.set ↔ ∀ a : Fin 2, win5_2.index t a * S2048x2048.size a ≤ (i a).val ∧ (i a).val < win5_2.index t a * S2048x2048.size a + S2048x2048.size a := by
  show i ∈ ((View.whole (Pipeline.arrRef spec5 2)).slice (win5_2.rect t)).set ↔ _
  rw [View.set_slice_whole, Rect.mem_set_unit]
  exact Iff.rfl

/-- Every entry of the array is in the block of the point its row block and column block name, and every point writes back. -/
theorem cover5_2_arr (i : S8192x8192.Idx) : ∃ t : Fin cfg5.N, (cfg5.win 2).flush t = true ∧ i ∈ ((cfg5.win 2).blk t).view.set := by
  have hi0 : (i 0).val < 8192 := (i 0).isLt
  have hi1 : (i 1).val < 8192 := (i 1).isLt
  have hN : cfg5.N = 16 := N_5
  let t : Fin cfg5.N := ⟨4 * ((i 0).val / 2048) + (i 1).val / 2048, by rw [hN]; omega⟩
  obtain ⟨-, -, -, -, e0, e1⟩ := idx_facts5 t
  have ht : t.val = 4 * ((i 0).val / 2048) + (i 1).val / 2048 := rfl
  refine ⟨t, flush5_2 t, ?_⟩
  rw [mem_blk5_2]
  intro a
  match a with
  | ⟨0, _⟩ => show win5_2.index t (0 : Fin 2) * 2048 ≤ (i 0).val ∧ (i 0).val < win5_2.index t (0 : Fin 2) * 2048 + 2048; rw [e0, ht]; omega
  | ⟨1, _⟩ => show win5_2.index t (1 : Fin 2) * 2048 ≤ (i 1).val ∧ (i 1).val < win5_2.index t (1 : Fin 2) * 2048 + 2048; rw [e1, ht]; omega

/-- The array the region leaves: the product of the latent matrix's first 32 columns with the transpose of its last 32,
    as the region finds the matrix. -/
theorem final5_2 (c : Dev nD) :
    (dat5 (F := Ideal) V c).arrAt 2 cfg5.N = G5 (V c (Pipeline.arrRef spec5 0)) :=
  (dat5 V c).arrAt_eq_of_cover 2 (G5 (V c (Pipeline.arrRef spec5 0))) (fun t _ => flushed5_2_eq V c t) cover5_2_arr

end Cert.KernelIdeal.Hand

end
-- ==== Proof.KI.KernelValue.lean ====
/-
  The kernel program's four results as functions of its twelve arguments: each region's output array is one
  whole-array function of its input arrays, and each input array is what the item before left — so the results
  are the composition, layer by layer: the first projection M1 = X·W1, the first aggregation A·M1, the second
  projection relu(A·M1)·[W2mu | W2ls], the second aggregation, the mean, log-deviation, sample and decoded
  features read off it, and the inner products of the sample's two halves.
-/
import proofs.«128750_j2551210574751_2_alg».proof.Proof.KI.Boundary
import proofs.«128750_j2551210574751_2_alg».proof.Proof.KI.Val0
import proofs.«128750_j2551210574751_2_alg».proof.Proof.KI.Val1
import proofs.«128750_j2551210574751_2_alg».proof.Proof.KI.Val2
import proofs.«128750_j2551210574751_2_alg».proof.Proof.KI.Val3
import proofs.«128750_j2551210574751_2_alg».proof.Proof.KI.Val4
import proofs.«128750_j2551210574751_2_alg».proof.Proof.KI.Val5

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The dense adjacency as the first host stretch leaves it. -/
abbrev kAdj (c : Dev nD) : S8192x8192.Idx → EReal := W1 m ρ c (Proc.devRef .tc main_v15)
/-- The first projection. -/
def kM1 (c : Dev nD) : S8192x256.Idx → EReal := G0 (m ((c : Thread nD τ).loc main_arg0)) (m ((c : Thread nD τ).loc main_arg3))

theorem val_m1 (c : Dev nD) : (dat0 (V1 m ρ) c).arrAt 2 cfg0.N = kM1 m c := by
  rw [final0_2]
  exact congrArg₂ G0 (in0_x m ρ c) (in0_w1 m ρ c)

/-- The first aggregation A·M1. -/
def kHpre (c : Dev nD) : S8192x256.Idx → EReal := G1 (kAdj m ρ c) (kM1 m c)

theorem val_hpre (c : Dev nD) : (dat1 (V2 m ρ) c).arrAt 2 cfg1.N = kHpre m ρ c := by
  rw [final1_2]
  exact congrArg₂ G1 (in1_adj m ρ c) ((in1_m1 m ρ c).trans (val_m1 m ρ c))

/-- The two second-layer weight matrices side by side, as the concatenating stretch leaves them. -/
abbrev kW2 (c : Dev nD) : S256x128.Idx → EReal := W4 m ρ c (Proc.devRef .tc main_v18)
/-- The second projection. -/
def kM2 (c : Dev nD) : S8192x128.Idx → EReal := G2 (kHpre m ρ c) (kW2 m ρ c)

theorem val_m2 (c : Dev nD) : (dat2 (V4 m ρ) c).arrAt 2 cfg2.N = kM2 m ρ c := by
  rw [final2_2]
  exact congrArg₂ G2 ((in2_h m ρ c).trans (val_hpre m ρ c)) rfl

/-- The second aggregation: the mean's and the log-deviation's columns side by side. -/
def kComb (c : Dev nD) : S8192x128.Idx → EReal := G3 (kAdj m ρ c) (kM2 m ρ c)

theorem val_comb (c : Dev nD) : (dat3 (V5 m ρ) c).arrAt 2 cfg3.N = kComb m ρ c := by
  rw [final3_2]
  exact congrArg₂ G3 (in3_adj m ρ c) ((in3_m2 m ρ c).trans (val_m2 m ρ c))

/-- The two decoder biases as rows, as the reshaping stretch leaves them. -/
abbrev kB1 (c : Dev nD) : S1x64.Idx → EReal := W7 m ρ c (Proc.devRef .tc main_v21)
abbrev kB2 (c : Dev nD) : S1x512.Idx → EReal := W7 m ρ c (Proc.devRef .tc main_v22)

/-- What region 4 reads of the second aggregation. -/
theorem in4_comb' (c : Dev nD) : W7 m ρ c (Proc.devRef .tc main_v20) = kComb m ρ c := (in4_comb m ρ c).trans (val_comb m ρ c)

/-- The mean result. -/
theorem k_zmean (c : Dev nD) : W10 m ρ c (Proc.devRef .tc main_v23_0) = G4_6 (kComb m ρ c) :=
  (res_zmean m ρ c).trans ((final4_6 (V7 m ρ) c).trans (congrArg G4_6 (in4_comb' m ρ c)))

/-- The log-deviation result. -/
theorem k_zlogstd (c : Dev nD) : W10 m ρ c (Proc.devRef .tc main_v23_1) = G4_7 (kComb m ρ c) :=
  (res_zlogstd m ρ c).trans ((final4_7 (V7 m ρ) c).trans (congrArg G4_7 (in4_comb' m ρ c)))

/-- The sample z. -/
def kZ (c : Dev nD) : S8192x64.Idx → EReal := G4_8 (kComb m ρ c) (m ((c : Thread nD τ).loc main_arg2))

theorem val_z (c : Dev nD) : (dat4 (V7 m ρ) c).arrAt 8 cfg4.N = kZ m ρ c :=
  (final4_8 (V7 m ρ) c).trans (congrArg₂ G4_8 (in4_comb' m ρ c) (in4_eps m ρ c))

theorem G4_9_congr {C C' : S8192x128.Idx → EReal} {E E' : S8192x64.Idx → EReal} {D1w D1w' : S64x64.Idx → EReal} {D1b D1b' : S1x64.Idx → EReal}
    {D2w D2w' : S64x512.Idx → EReal} {D2b D2b' : S1x512.Idx → EReal} (h0 : C = C') (h1 : E = E') (h2 : D1w = D1w') (h3 : D1b = D1b') (h4 : D2w = D2w') (h5 : D2b = D2b') :
    G4_9 C E D1w D1b D2w D2b = G4_9 C' E' D1w' D1b' D2w' D2b' := by
  subst h0 h1 h2 h3 h4 h5; rfl

/-- The decoded-features result. -/
theorem k_exprec (c : Dev nD) : W10 m ρ c (Proc.devRef .tc main_v23_3)
    = G4_9 (kComb m ρ c) (m ((c : Thread nD τ).loc main_arg2)) (m ((c : Thread nD τ).loc main_arg6)) (kB1 m ρ c) (m ((c : Thread nD τ).loc main_arg8)) (kB2 m ρ c) :=
  (res_exprec m ρ c).trans ((final4_9 (V7 m ρ) c).trans
    (G4_9_congr (in4_comb' m ρ c) (in4_eps m ρ c) (in4_d1w m ρ c) rfl (in4_d2w m ρ c) rfl))

/-- The flattened inner products. -/
theorem k_recon (c : Dev nD) : W10 m ρ c (Proc.devRef .tc main_v25)
    = shapeCast S67108864 (G5 (kZ m ρ c)) shapeCasts_S8192x8192_S67108864 :=
  (res_recon m ρ c).trans (congrArg (fun x => shapeCast S67108864 x shapeCasts_S8192x8192_S67108864)
    ((W9_out m ρ c).trans ((final5_2 (V8 m ρ) c).trans (congrArg G5 ((in5_z m ρ c).trans (val_z m ρ c))))))

end Cert.KernelIdeal.Hand

end
-- ==== Proof.KI.AdjOf.lean ====
/-
  The dense adjacency as one term of the edge arrays: the composition of the operations of the first host stretch.

  Negative index words are wrapped by adding N = 8192 (select (c < 0) (c + N) c); the row and column words are laid
  side by side as the [E, 2] array of index pairs; the E scalar weights are scatter-added into an all-zero [N, N] array at
  those pairs; the result is rounded to bf16.
-/
import proofs.«128750_j2551210574751_2_alg».proof.Proof.Gen.KernelIdeal

noncomputable section

namespace Cert.KernelIdeal.Hand

open Cert.KernelIdeal Cert.KernelIdeal.Gen
open Idealize.ShloMosaic

variable {F : FTy → Type} [FloatOps F]

/-- The dense [N, N] adjacency built from the edge weights w and the edge row and column words. -/
def adjOf (w : (⟨S262144, .f32⟩ : BufTy).Contents (Elt F)) (row col : (⟨S262144, .i32⟩ : BufTy).Contents (Elt F)) :
    (⟨S8192x8192, .bf16⟩ : BufTy).Contents (Elt F) :=
  let z : (⟨S8192x8192, .f32⟩ : BufTy).Contents (Elt F) :=
    broadcastInDim S8192x8192 ![] bcast_S_S8192x8192 (constant S_ .f32 0x00000000#32 : (⟨S_, .f32⟩ : BufTy).Contents (Elt F))
  let zi : (⟨S262144, .i32⟩ : BufTy).Contents (Elt F) :=
    broadcastInDim S262144 ![] bcast_S_S262144 (constantI S_ 32 0#32 : (⟨S_, .i32⟩ : BufTy).Contents (Elt F))
  let n : (⟨S262144, .i32⟩ : BufTy).Contents (Elt F) :=
    broadcastInDim S262144 ![] bcast_S_S262144 (constantI S_ 32 8192#32 : (⟨S_, .i32⟩ : BufTy).Contents (Elt F))
  let r' : (⟨S262144, .i32⟩ : BufTy).Contents (Elt F) := select (cmpi .slt row zi) (addi row n) row
  let c' : (⟨S262144, .i32⟩ : BufTy).Contents (Elt F) := select (cmpi .slt col zi) (addi col n) col
  let idx : (⟨S262144x2, .i32⟩ : BufTy).Contents (Elt F) :=
    concatenate S262144x2 1
      [⟨S262144x1, (broadcastInDim S262144x1 ![0] bcast_S262144_S262144x1_0 r' : (⟨S262144x1, .i32⟩ : BufTy).Contents (Elt F))⟩,
       ⟨S262144x1, (broadcastInDim S262144x1 ![0] bcast_S262144_S262144x1_0 c' : (⟨S262144x1, .i32⟩ : BufTy).Contents (Elt F))⟩]
      concatenates_S262144x1_S262144x1_S262144x2_d1
  truncf .bf16 (Host.scatterAdd scatter_S8192x8192_S262144x2_S262144_n_01_01_1 z idx w) bitsLt_bf16_f32

end Cert.KernelIdeal.Hand

end
-- ==== Proof.KI.HostVals.lean ====
/-
  What the host stretches of the program write, as terms of the buffers they read.

  The first stretch builds the dense adjacency from the edge arrays; the stretch before region 2 lays the two
  second-layer weight matrices side by side; the stretch before region 4 recasts the two bias vectors as one-row
  matrices.  Each written buffer, at the boundary after its stretch, is the composed term of the stretch's operations
  applied to the buffers at the boundary before it.
-/
import proofs.«128750_j2551210574751_2_alg».proof.Proof.KI.Fold
import proofs.«128750_j2551210574751_2_alg».proof.Proof.KI.AdjOf

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The dense adjacency at region 0's entry is the adjacency term of the launched edge weights, rows and columns. -/
theorem adj_term (c : Dev nD) : W1 m ρ c (Proc.devRef .tc main_v15)
    = adjOf (m ((c : Thread nD τ).loc main_arg1)) (m ((c : Thread nD τ).loc main_arg10)) (m ((c : Thread nD τ).loc main_arg11)) := by
  show StableHlo.after hostOps0 (W0 m ρ c) (Proc.devRef .tc main_v15) = _
  after_results_simp
  rfl

/-- The combined second-layer weight matrix at region 2's entry: the mean and the log-deviation matrices side by side. -/
theorem w2_term (c : Dev nD) : W4 m ρ c (Proc.devRef .tc main_v18)
    = concatenate S256x128 1 [⟨S256x64, W3 m ρ c (Proc.devRef .tc main_arg4)⟩, ⟨S256x64, W3 m ρ c (Proc.devRef .tc main_arg5)⟩]
        concatenates_S256x64_S256x64_S256x128_d1 := by
  show StableHlo.after hostOps2 (W3 m ρ c) (Proc.devRef .tc main_v18) = _
  after_results

/-- The first decoder bias at region 4's entry: the bias vector as a one-row matrix. -/
theorem b1_term (c : Dev nD) : W7 m ρ c (Proc.devRef .tc main_v21)
    = shapeCast S1x64 (W6 m ρ c (Proc.devRef .tc main_arg7)) shapeCasts_S64_S1x64 := by
  show StableHlo.after hostOps4 (W6 m ρ c) (Proc.devRef .tc main_v21) = _
  after_results
  rfl

/-- The second decoder bias at region 4's entry: the bias vector as a one-row matrix. -/
theorem b2_term (c : Dev nD) : W7 m ρ c (Proc.devRef .tc main_v22)
    = shapeCast S1x512 (W6 m ρ c (Proc.devRef .tc main_arg9)) shapeCasts_S512_S1x512 := by
  show StableHlo.after hostOps4 (W6 m ρ c) (Proc.devRef .tc main_v22) = _
  after_results
  rfl

end Cert.KernelIdeal.Hand

end
-- ==== Proof.Spec.lean ====
/-
  The function both programs compute, over the real numbers.

  A graph variational auto-encoder on N = 8192 nodes with E = 262144 weighted edges (row e, col e, w e):
    spmm h (i, k)  = Σ over the edges e with row e = i of  w e · h (col e, k)        (the sparse adjacency applied to h)
    hidden         = max (spmm (X · W1)) 0
    mu             = spmm (hidden · W2mu),      ls = spmm (hidden · W2ls)
    z              = mu + eps · exp ls
    recon (i, j)   = Σ_{k < 32} z (i, k) · z (j, 32 + k)
    exprec         = max (max (z · D1w + D1b) 0 · D2w + D2b) 0
  The dense form of the adjacency is A (i, j) = Σ over the edges e with (row e, col e) = (i, j) of w e, and
  Σ_j A (i, j) · h (j, k) = spmm h (i, k): both are the sum over the pairs (j, e) with row e = i, col e = j of
  w e · h (j, k)  (`spmm_law`).
-/
import Mathlib.Analysis.SpecialFunctions.Exp
import Mathlib.Algebra.BigOperators.Group.Finset.Basic
import Mathlib.Algebra.BigOperators.Ring.Finset

noncomputable section

namespace Cert.Bridge

open Finset

section Spmm
variable {N E : Nat}

/-- The sparse product: row i of the result collects, over the edges that end in i, the weight times the source row. -/
def spmmR {C : Nat} (w : Fin E → ℝ) (row col : Fin E → Fin N) (h : Fin N → Fin C → ℝ) (i : Fin N) (k : Fin C) : ℝ :=
  ∑ e : Fin E, if row e = i then w e * h (col e) k else 0

/-- The dense adjacency: entry (i, j) is the total weight of the edges from j to i. -/
def adjR (w : Fin E → ℝ) (row col : Fin E → Fin N) (i j : Fin N) : ℝ :=
  ∑ e : Fin E, if row e = i ∧ col e = j then w e else 0

/-- The dense adjacency times h is the sparse product. -/
theorem spmm_law {C : Nat} (w : Fin E → ℝ) (row col : Fin E → Fin N) (h : Fin N → Fin C → ℝ) (i : Fin N) (k : Fin C) :
    ∑ j : Fin N, adjR w row col i j * h j k = spmmR w row col h i k := by
  unfold adjR spmmR
  simp_rw [Finset.sum_mul]
  rw [Finset.sum_comm]
  refine Finset.sum_congr rfl fun e _ => ?_
  by_cases hr : row e = i
  · simp only [hr, true_and, if_true, ite_mul, zero_mul]
    rw [Finset.sum_ite_eq univ (col e) (fun j => w e * h j k)]
    simp
  · simp [hr]

end Spmm

/-- The product of an n × k by a k × c matrix. -/
def mmR {n k c : Nat} (a : Fin n → Fin k → ℝ) (b : Fin k → Fin c → ℝ) (i : Fin n) (j : Fin c) : ℝ := ∑ t : Fin k, a i t * b t j

/-- The twelve arguments, as real arrays. -/
structure Args where
  X : Fin 8192 → Fin 512 → ℝ
  w : Fin 262144 → ℝ
  eps : Fin 8192 → Fin 64 → ℝ
  W1 : Fin 512 → Fin 256 → ℝ
  W2mu : Fin 256 → Fin 64 → ℝ
  W2ls : Fin 256 → Fin 64 → ℝ
  D1w : Fin 64 → Fin 64 → ℝ
  D1b : Fin 64 → ℝ
  D2w : Fin 64 → Fin 512 → ℝ
  D2b : Fin 512 → ℝ
  row : Fin 262144 → Fin 8192
  col : Fin 262144 → Fin 8192

namespace Args
variable (a : Args)

def m1 : Fin 8192 → Fin 256 → ℝ := mmR a.X a.W1
def hpre : Fin 8192 → Fin 256 → ℝ := spmmR a.w a.row a.col a.m1
def hidden : Fin 8192 → Fin 256 → ℝ := fun i k => max (a.hpre i k) 0
def pmu : Fin 8192 → Fin 64 → ℝ := mmR a.hidden a.W2mu
def pls : Fin 8192 → Fin 64 → ℝ := mmR a.hidden a.W2ls
def mu : Fin 8192 → Fin 64 → ℝ := spmmR a.w a.row a.col a.pmu
def ls : Fin 8192 → Fin 64 → ℝ := spmmR a.w a.row a.col a.pls
def z : Fin 8192 → Fin 64 → ℝ := fun i k => a.mu i k + a.eps i k * Real.exp (a.ls i k)
def lo32 (k : Fin 32) : Fin 64 := ⟨k.val, by omega⟩
def hi32 (k : Fin 32) : Fin 64 := ⟨32 + k.val, by omega⟩
def recon (i j : Fin 8192) : ℝ := ∑ k : Fin 32, a.z i (lo32 k) * a.z j (hi32 k)
def d1 : Fin 8192 → Fin 64 → ℝ := fun i k => max (mmR a.z a.D1w i k + a.D1b k) 0
def exprec : Fin 8192 → Fin 512 → ℝ := fun i k => max (mmR a.d1 a.D2w i k + a.D2b k) 0

end Args

end Cert.Bridge

end
-- ==== Proof.LibGatherRows.lean ====
/-
  Row gathers and row scatters read at an index.

  `x[idx]` of a table `x : [N, C]` at `E` start indices (an `[E, 1]` array of signed words) is the gather whose result
  element `(e, f)` is `x (clamp idx[e], f)`, the start index read signed and clamped into `[0, N − 1]`; of a vector
  `x : [N]` it is `x (clamp idx[e])`.  The scatter with the same dimension numbers sends update element `(e, f)` to
  row `idx[e]` (read signed, NOT clamped), column `f`, and drops it when that row is outside `[0, N)`.  So whenever an
  update lands, the row it lands on is a natural number below `N`, and the clamped read of the same start index is
  that very row.
-/
import Idealize.ShloMosaic.Lib.ValueIdx

noncomputable section

namespace Cert.LibGather

open Idealize.ShloMosaic Idealize.ShloMosaic.ValueIdx

variable {α : Type}

/-! ## Gathering rows of a table -/

/-- The dimension numbers of `x[idx]` for `x : [N, C]`, `idx : [E, 1]`, result `[E, C]`. -/
abbrev rowsDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The clamped row a start index reads: signed, then into `[0, N − 1]`. -/
abbrev clampRow {w : Nat} (N : Nat) (hN : 0 < N) (i : BitVec w) : Fin N := ⟨min i.toInt.toNat (N - 1), by omega⟩

/-- The row gather at `(e, f)`: the table at the clamped start index, same column. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowsDims N E C wf) x idx (ix2 e f) = x (ix2 (clampRow N hN (idx (ix2 e 0))) f) := by
  unfold Host.gather
  congr 1
  funext a
  refine Fin.ext ?_
  match a with
  | ⟨0, _⟩ =>
    show (rowsDims N E C wf).start (ix2 e f) idx 0 + (rowsDims N E C wf).batchCoord (ix2 e f) 0
        + (rowsDims N E C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e f) ⟨List.idxOf (0 : Fin 2) (rowsDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsDims N E C wf).start (ix2 e f) idx 1 + (rowsDims N E C wf).batchCoord (ix2 e f) 1
        + (rowsDims N E C wf).offCoord (ix2 e f) 1 = f.val
    rw [GatherDims.batchCoord_eq_zero _ _ _ List.not_mem_nil]
    have hs : (rowsDims N E C wf).start (ix2 e f) idx 1 = 0 := by
      unfold GatherDims.start
      rw [dif_neg (show (1 : Fin 2) ∉ (rowsDims N E C wf).startIndexMap by simp [rowsDims])]
    rw [hs]
    simp only [Nat.add_zero, Nat.zero_add]
    rfl

/-! ## Gathering entries of a vector -/

/-- The dimension numbers of `x[idx]` for `x : [N]`, `idx : [E, 1]`, result `[E]`. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The vector gather at `e`: the vector at the clamped start index. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (clampRow N hN (idx (ix2 e 0)))) := by
  unfold Host.gather
  congr 1
  funext a
  obtain rfl : a = 0 := Subsingleton.elim _ _
  refine Fin.ext ?_
  show (vecDims N E wf).start (ix1 e) idx 0 + (vecDims N E wf).batchCoord (ix1 e) 0 + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Scattering rows into a table -/

/-- The dimension numbers of `x.at[idx].add(u)` for `x : [N, C]`, `idx : [E, 1]`, `u : [E, C]`. -/
abbrev rowsScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem rowsScatter_start0 {N E C w : Nat} (wf) (idx : IVec ⟨2, ![E, 1]⟩ w) (e : Fin E) (f : Fin C) :
    (rowsScatter N E C wf).start (ix2 e f) idx 0 = (idx (ix2 e 0)).toInt := by
  unfold ScatterDims.start
  rw [dif_pos (show (0 : Fin 2) ∈ (rowsScatter N E C wf).scatterDimsToOperandDims from List.mem_singleton.mpr rfl)]
  have hsi : (rowsScatter N E C wf).siIdx (ix2 e f) ⟨List.idxOf (0 : Fin 2) (rowsScatter N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem rowsScatter_window0 {N E C : Nat} (wf) (e : Fin E) (f : Fin C) :
    (rowsScatter N E C wf).window (ix2 e f) 0 = 0 := by
  unfold ScatterDims.window
  rw [dif_neg (show (0 : Fin 2) ∉ (rowsScatter N E C wf).sKept by simp [ScatterDims.sKept, Shape.kept])]

theorem rowsScatter_start1 {N E C w : Nat} (wf) (idx : IVec ⟨2, ![E, 1]⟩ w) (e : Fin E) (f : Fin C) :
    (rowsScatter N E C wf).start (ix2 e f) idx 1 = 0 := by
  unfold ScatterDims.start
  rw [dif_neg (show (1 : Fin 2) ∉ (rowsScatter N E C wf).scatterDimsToOperandDims by simp [rowsScatter])]

theorem rowsScatter_window1 {N E C : Nat} (wf) (e : Fin E) (f : Fin C) :
    (rowsScatter N E C wf).window (ix2 e f) 1 = f.val := by
  unfold ScatterDims.window
  rw [dif_pos (show (1 : Fin 2) ∈ (rowsScatter N E C wf).sKept by simp [ScatterDims.sKept, Shape.kept])]
  rfl

/-- Where a row update lands: on the row its start index names (a natural number below `N`), same column. -/
theorem rowsScatter_lands {N E C w : Nat} (wf) (idx : IVec ⟨2, ![E, 1]⟩ w) (e : Fin E) (f : Fin C)
    (i : (⟨2, ![N, C]⟩ : Shape).Idx) (h : (rowsScatter N E C wf).resultIdx? (ix2 e f) idx = some i) :
    (idx (ix2 e 0)).toInt = ((i 0).val : Int) ∧ (i 1).val = f.val := by
  unfold ScatterDims.resultIdx? at h
  split at h
  · rename_i hr
    have hi := Option.some.inj h
    have h0 := hr 0
    have e0 : ((rowsScatter N E C wf).start (ix2 e f) idx 0 + ((rowsScatter N E C wf).window (ix2 e f) 0 : Nat)).toNat = (i 0).val :=
      congrArg (fun g => (g 0).val) hi
    have e1 : ((rowsScatter N E C wf).start (ix2 e f) idx 1 + ((rowsScatter N E C wf).window (ix2 e f) 1 : Nat)).toNat = (i 1).val :=
      congrArg (fun g => (g 1).val) hi
    rw [rowsScatter_start0, rowsScatter_window0] at e0 h0
    rw [rowsScatter_start1, rowsScatter_window1] at e1
    refine ⟨by omega, by omega⟩
  · exact absurd h (by simp)

/-- When a row update lands on row `r`, the clamped read of the same start index is `r`. -/
theorem clampRow_of_lands {N w : Nat} (hN : 0 < N) (b : BitVec w) (r : Fin N) (h : b.toInt = (r.val : Int)) :
    clampRow N hN b = r := by
  refine Fin.ext ?_
  show min b.toInt.toNat (N - 1) = r.val
  rw [h]; have := r.isLt; omega

end Cert.LibGather
-- ==== Proof.LibERealSums.lean ====
/-
  Finite sums of extended reals.

  On the extended reals multiplication does not distribute over addition in general (⊤ + ⊥), but it does when the
  common factor is a finite nonnegative number: then `(∑ a j) * d = ∑ (a j * d)` for every finite family `a`.
  The coercion of a finite real sum is the sum of the coercions.
-/
import Mathlib.Data.EReal.Operations
import Mathlib.Algebra.BigOperators.Group.Finset.Basic

namespace Cert.LibEReal

open Finset

/-- The coercion ℝ → EReal commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A finite nonnegative factor distributes over any finite sum of extended reals (from the right). -/
theorem sum_mul_of_nonneg_ne_top {ι : Type*} (s : Finset ι) (a : ι → EReal) {d : EReal} (h0 : 0 ≤ d) (ht : d ≠ ⊤) :
    (∑ j ∈ s, a j) * d = ∑ j ∈ s, a j * d := by
  classical
  induction s using Finset.induction_on with
  | empty => simp
  | insert i s hi ih =>
    rw [Finset.sum_insert hi, Finset.sum_insert hi, EReal.right_distrib_of_nonneg_of_ne_top h0 ht, ih]

/-- The same from the left. -/
theorem mul_sum_of_nonneg_ne_top {ι : Type*} (s : Finset ι) (a : ι → EReal) {d : EReal} (h0 : 0 ≤ d) (ht : d ≠ ⊤) :
    d * (∑ j ∈ s, a j) = ∑ j ∈ s, d * a j := by
  rw [EReal.mul_comm, sum_mul_of_nonneg_ne_top s a h0 ht]
  exact Finset.sum_congr rfl fun j _ => EReal.mul_comm _ _

/-- A finite sum of real numbers, as an extended real, is a real number. -/
theorem sum_coe_eq_coe {ι : Type*} (s : Finset ι) (a : ι → EReal) (f : ι → ℝ) (h : ∀ j ∈ s, a j = (f j : EReal)) :
    ∑ j ∈ s, a j = ((∑ j ∈ s, f j : ℝ) : EReal) := by
  rw [coe_sum]; exact Finset.sum_congr rfl h

end Cert.LibEReal
-- ==== Proof.EdgeSum.lean ====
/-
  A row scatter-add as a sum over the edges.

  Scattering the rows of an update array u : [E, C] into x : [N, C] at the start indices idx : [E, 1] sends update
  element (e, f) to element (idx e, f) when 0 ≤ idx e < N and drops it otherwise.  So at (i, k) the scatter-add is
  x (i, k) plus the sum over the edges e with idx e = i of u (e, k).
-/
import Idealize.ShloMosaic.PureOps.Ideal
import proofs.«128750_j2551210574751_2_alg».proof.Proof.LibGatherRows
import proofs.«128750_j2551210574751_2_alg».proof.Proof.LibERealSums

noncomputable section

namespace Cert.Bridge

open Idealize.ShloMosaic Idealize.ShloMosaic.ValueIdx Cert.LibGather Finset

/-- Update element (e, f) lands on element i exactly when its start index names row i 0 and f is column i 1. -/
theorem rowsScatter_resultIdx_iff {N E C w : Nat} (wf) (idx : IVec ⟨2, ![E, 1]⟩ w) (e : Fin E) (f : Fin C)
    (i : (⟨2, ![N, C]⟩ : Shape).Idx) :
    (rowsScatter N E C wf).resultIdx? (ix2 e f) idx = some i
      ↔ (idx (ix2 e 0)).toInt = ((i 0).val : Int) ∧ (i 1).val = f.val := by
  refine ⟨rowsScatter_lands wf idx e f i, fun ⟨h0, h1⟩ => ?_⟩
  unfold ScatterDims.resultIdx?
  have hc : ∀ a, 0 ≤ (rowsScatter N E C wf).start (ix2 e f) idx a + ((rowsScatter N E C wf).window (ix2 e f) a : Nat)
      ∧ (rowsScatter N E C wf).start (ix2 e f) idx a + ((rowsScatter N E C wf).window (ix2 e f) a : Nat)
        < (⟨2, ![N, C]⟩ : Shape).size a := by
    have c0 : 0 ≤ (rowsScatter N E C wf).start (ix2 e f) idx 0 + ((rowsScatter N E C wf).window (ix2 e f) 0 : Nat)
        ∧ (rowsScatter N E C wf).start (ix2 e f) idx 0 + ((rowsScatter N E C wf).window (ix2 e f) 0 : Nat) < (N : Int) := by
      rw [rowsScatter_start0, rowsScatter_window0, h0]
      have h' : (i 0).val < N := (i 0).isLt
      omega
    have c1 : 0 ≤ (rowsScatter N E C wf).start (ix2 e f) idx 1 + ((rowsScatter N E C wf).window (ix2 e f) 1 : Nat)
        ∧ (rowsScatter N E C wf).start (ix2 e f) idx 1 + ((rowsScatter N E C wf).window (ix2 e f) 1 : Nat) < (C : Int) := by
      rw [rowsScatter_start1, rowsScatter_window1]
      have := f.isLt
      omega
    intro a
    match a with
    | ⟨0, _⟩ => exact c0
    | ⟨1, _⟩ => exact c1
  rw [dif_pos hc]
  refine congrArg some (funext fun a => Fin.ext ?_)
  match a with
  | ⟨0, _⟩ =>
    show ((rowsScatter N E C wf).start (ix2 e f) idx 0 + ((rowsScatter N E C wf).window (ix2 e f) 0 : Nat)).toNat = (i 0).val
    rw [rowsScatter_start0, rowsScatter_window0, h0]
    omega
  | ⟨1, _⟩ =>
    show ((rowsScatter N E C wf).start (ix2 e f) idx 1 + ((rowsScatter N E C wf).window (ix2 e f) 1 : Nat)).toNat = (i 1).val
    rw [rowsScatter_start1, rowsScatter_window1, h1]
    omega

/-- The row scatter-add at (i, k): the operand's element plus the sum over the edges whose start index is i of the
    update's element (e, k). -/
theorem rowsScatterAdd_apply {N E C w : Nat} (wf) (x : (⟨2, ![N, C]⟩ : Shape).Idx → EReal) (idx : IVec ⟨2, ![E, 1]⟩ w)
    (u : (⟨2, ![E, C]⟩ : Shape).Idx → EReal) (i : Fin N) (k : Fin C) :
    Ideal.hostScatterAdd (rowsScatter N E C wf) x idx u (ix2 i k)
      = x (ix2 i k) + ∑ e : Fin E, if (idx (ix2 e 0)).toInt = (i.val : Int) then u (ix2 e k) else 0 := by
  unfold Ideal.hostScatterAdd
  refine congrArg (x (ix2 i k) + ·) ?_
  rw [Finset.sum_filter, sum_idx2]
  refine Finset.sum_congr rfl fun e _ => ?_
  simp only [rowsScatter_resultIdx_iff]
  by_cases h : (idx (ix2 e 0)).toInt = (i.val : Int)
  · rw [if_pos h]
    have : ∀ f : Fin C, (if (idx (ix2 e 0)).toInt = (((ix2 i k : (⟨2, ![N, C]⟩ : Shape).Idx) 0).val : Int)
        ∧ ((ix2 i k : (⟨2, ![N, C]⟩ : Shape).Idx) 1).val = f.val then u (ix2 e f) else 0)
        = if k = f then u (ix2 e f) else 0 := by
      intro f
      by_cases hf : k = f
      · subst hf; rw [if_pos rfl, if_pos ⟨h, rfl⟩]
      · rw [if_neg hf, if_neg (fun hh => hf (Fin.ext hh.2))]
    rw [Finset.sum_congr rfl fun f _ => this f, Finset.sum_ite_eq univ k]
    simp
  · rw [if_neg h]
    refine Finset.sum_eq_zero fun f _ => if_neg (fun hh => h hh.1)

/-- The same when operand and updates are real numbers: a real number. -/
theorem rowsScatterAdd_coe {N E C w : Nat} (wf) (x : (⟨2, ![N, C]⟩ : Shape).Idx → EReal) (idx : IVec ⟨2, ![E, 1]⟩ w)
    (u : (⟨2, ![E, C]⟩ : Shape).Idx → EReal) (xr : Fin N → Fin C → ℝ) (ur : Fin E → Fin C → ℝ)
    (hx : ∀ i k, x (ix2 i k) = (xr i k : EReal)) (hu : ∀ e k, u (ix2 e k) = (ur e k : EReal)) (i : Fin N) (k : Fin C) :
    Ideal.hostScatterAdd (rowsScatter N E C wf) x idx u (ix2 i k)
      = ((xr i k + ∑ e : Fin E, if (idx (ix2 e 0)).toInt = (i.val : Int) then ur e k else 0 : ℝ) : EReal) := by
  rw [rowsScatterAdd_apply, EReal.coe_add, hx, Cert.LibEReal.coe_sum]
  refine congrArg _ (Finset.sum_congr rfl fun e _ => ?_)
  by_cases h : (idx (ix2 e 0)).toInt = (i.val : Int)
  · rw [if_pos h, if_pos h, hu]
  · rw [if_neg h, if_neg h, EReal.coe_zero]

end Cert.Bridge

end
-- ==== Proof.LibHostApply.lean ====
import Idealize.ShloMosaic.Lib.ValueIdx
import Idealize.ShloMosaic.Lib.IdealHost
import Idealize.ShloMosaic.Lib.StackMember
import Idealize.ShloMosaic.PureOps.Ideal.Laws
import Idealize.ShloMosaic.Lib.Pipeline.Value

/-!
Host operations over rank-2 arrays read at an index: the column sums of an `N × C` array, the product of an
`N × K` by a `K × C` matrix, and the reshapes and broadcasts that add or repeat an axis of extent one. Each
is stated over the literal shape `⟨2, ![_, _]⟩` with its side condition a parameter, so that a program's own
shape facts and dimension records apply as they stand.
-/

namespace Cert.LibHostApply

open Idealize.ShloMosaic Idealize.ShloMosaic.ValueIdx

/-! ### Column sums -/

/-- The host's sum over axis 0 of an `N × C` array, read at column `f`: the initial value plus the sum over
    the rows of the entries of that column. -/
theorem reduceAdd_cols_apply {N C : Nat} {φ : FTy} {u : Shape} (x : FVec Ideal ⟨2, ![N, C]⟩ φ) (init : u.Idx → Ideal φ)
    (h' : (⟨2, ![N, C]⟩ : Shape).ReducesTo [0] ⟨1, ![C]⟩) (hu : 0 < u.numel) (f : Fin C) :
    Host.reduceAdd x init h' hu (ix1 f) = init (Shape.Idx.first hu) + ∑ n : Fin N, x (ix2 n f) := by
  have h : (⟨2, ![N, C]⟩ : Shape).Reduces [0] ⟨1, ![C]⟩ := ⟨h'.1, Nat.one_pos, h'.2⟩
  show Ideal.hostReduceAdd h' x _ (ix1 f) = _
  rw [Ideal.hostReduceAdd_single h' h]
  refine congrArg (_ + ·) (Finset.sum_congr rfl fun n _ => ?_)
  refine congrArg x (funext fun a => Fin.ext ?_)
  match a with
  | ⟨0, _⟩ => rfl
  | ⟨1, _⟩ => rfl

/-- The same from an initial value that is zero: the column's sum alone. -/
theorem reduceAdd_cols_apply_zero {N C : Nat} {φ : FTy} {u : Shape} (x : FVec Ideal ⟨2, ![N, C]⟩ φ) (init : u.Idx → Ideal φ)
    (h' : (⟨2, ![N, C]⟩ : Shape).ReducesTo [0] ⟨1, ![C]⟩) (hu : 0 < u.numel) (h0 : init (Shape.Idx.first hu) = 0)
    (f : Fin C) :
    Host.reduceAdd x init h' hu (ix1 f) = ∑ n : Fin N, x (ix2 n f) := by
  rw [reduceAdd_cols_apply, h0, zero_add]

/-! ### A matrix product -/

/-- The dimension numbers of `N × K` by `K × C`: contract the left operand's axis 1 with the right operand's
    axis 0, no batch axes. -/
abbrev mmDims (N K C : Nat)
    (wf : DotDims.WF ⟨2, ![N, K]⟩ ⟨2, ![K, C]⟩ ⟨2, ![N, C]⟩ [1] [0] [0] [1] [] []) :
    DotDims ⟨2, ![N, K]⟩ ⟨2, ![K, C]⟩ ⟨2, ![N, C]⟩ where
  lhsContracting := [1]
  rhsContracting := [0]
  lhsNonContracting := [0]
  rhsNonContracting := [1]
  lhsBatch := []
  rhsBatch := []
  wf := wf

/-- The product read at `(n, f)`: the sum over the contracted coordinate of the products of the entries. -/
theorem dotGeneral_mm_apply {N K C : Nat} {φ₁ φ₂ : FTy}
    (wf : DotDims.WF ⟨2, ![N, K]⟩ ⟨2, ![K, C]⟩ ⟨2, ![N, C]⟩ [1] [0] [0] [1] [] [])
    (prec : Option ContractPrecision) (l : FVec Ideal ⟨2, ![N, K]⟩ φ₁) (r : FVec Ideal ⟨2, ![K, C]⟩ φ₂)
    (n : Fin N) (f : Fin C) :
    Host.dotGeneral (mmDims N K C wf) prec l r (ix2 n f) = ∑ k : Fin K, l (ix2 n k) * r (ix2 k f) :=
  StackMember.dotGeneral_plain_apply prec l r n f

/-! ### Reshapes and broadcasts that add or repeat a unit axis -/

section Moves
variable {α : Type}

/-- A vector reshaped to a column, at row `n`. -/
theorem shapeCast_col_apply {N : Nat} (v : (⟨1, ![N]⟩ : Shape).Idx → α)
    (h : (⟨1, ![N]⟩ : Shape).ShapeCasts ⟨2, ![N, 1]⟩) (n : Fin N) :
    shapeCast ⟨2, ![N, 1]⟩ v h (ix2 n (0 : Fin 1)) = v (ix1 n) :=
  shapeCast_apply v h (ix2 n (0 : Fin 1)) (ix1 n) (by
    rw [Shape.rowMajor_val_one, Shape.rowMajor_val_two]
    show n.val = n.val * 1 + 0
    omega)

/-- A vector reshaped to a row, at column `f`. -/
theorem shapeCast_row_apply {C : Nat} (v : (⟨1, ![C]⟩ : Shape).Idx → α)
    (h : (⟨1, ![C]⟩ : Shape).ShapeCasts ⟨2, ![1, C]⟩) (f : Fin C) :
    shapeCast ⟨2, ![1, C]⟩ v h (ix2 (0 : Fin 1) f) = v (ix1 f) :=
  shapeCast_apply v h (ix2 (0 : Fin 1) f) (ix1 f) (by
    rw [Shape.rowMajor_val_one, Shape.rowMajor_val_two]
    show f.val = 0 * C + f.val
    omega)

/-- A row repeated down `N` rows, at `(n, f)`: the row's entry `f`. -/
theorem broadcastInDim_rows_apply {N C : Nat} (v : (⟨2, ![1, C]⟩ : Shape).Idx → α)
    (h : (⟨2, ![1, C]⟩ : Shape).BroadcastsInDim ⟨2, ![N, C]⟩ (![0, 1] : Fin 2 → Fin 2)) (n : Fin N) (f : Fin C) :
    broadcastInDim ⟨2, ![N, C]⟩ ![0, 1] h v (ix2 n f) = v (ix2 (0 : Fin 1) f) :=
  broadcastInDim_apply _ h v (ix2 n f) (ix2 (0 : Fin 1) f) (fun a => by
    match a with
    | ⟨0, _⟩ => exact (if_pos rfl).symm
    | ⟨1, _⟩ =>
      show f.val = if C = 1 then 0 else f.val
      split_ifs with hC
      · have := f.isLt; omega
      · rfl)

/-- A vector placed as the one row of a `1 × C` array, at column `f`. -/
theorem broadcastInDim_row_apply {C : Nat} (v : (⟨1, ![C]⟩ : Shape).Idx → α)
    (h : (⟨1, ![C]⟩ : Shape).BroadcastsInDim ⟨2, ![1, C]⟩ (![1] : Fin 1 → Fin 2)) (f : Fin C) :
    broadcastInDim ⟨2, ![1, C]⟩ ![1] h v (ix2 (0 : Fin 1) f) = v (ix1 f) :=
  broadcastInDim_apply _ h v (ix2 (0 : Fin 1) f) (ix1 f) (fun a => by
    match a with
    | ⟨0, _⟩ =>
      show f.val = if C = 1 then 0 else f.val
      split_ifs with hC
      · have := f.isLt; omega
      · rfl)

/-- A vector placed as the one column of an `E × 1` array, at row `e`. -/
theorem broadcastInDim_col_apply {E : Nat} (v : (⟨1, ![E]⟩ : Shape).Idx → α)
    (h : (⟨1, ![E]⟩ : Shape).BroadcastsInDim ⟨2, ![E, 1]⟩ (![0] : Fin 1 → Fin 2)) (e : Fin E) :
    broadcastInDim ⟨2, ![E, 1]⟩ ![0] h v (ix2 e (0 : Fin 1)) = v (ix1 e) :=
  broadcastInDim_apply _ h v (ix2 e (0 : Fin 1)) (ix1 e) (fun a => by
    match a with
    | ⟨0, _⟩ =>
      show e.val = if E = 1 then 0 else e.val
      split_ifs with hE
      · have := e.isLt; omega
      · rfl)

/-- A column repeated across `C` columns, at `(e, f)`: the column's entry `e`. -/
theorem broadcastInDim_cols_apply {E C : Nat} (v : (⟨2, ![E, 1]⟩ : Shape).Idx → α)
    (h : (⟨2, ![E, 1]⟩ : Shape).BroadcastsInDim ⟨2, ![E, C]⟩ (![0, 1] : Fin 2 → Fin 2)) (e : Fin E) (f : Fin C) :
    broadcastInDim ⟨2, ![E, C]⟩ ![0, 1] h v (ix2 e f) = v (ix2 e (0 : Fin 1)) :=
  broadcastInDim_apply _ h v (ix2 e f) (ix2 e (0 : Fin 1)) (fun a => by
    match a with
    | ⟨0, _⟩ =>
      show e.val = if E = 1 then 0 else e.val
      split_ifs with hE
      · have := e.isLt; omega
      · rfl
    | ⟨1, _⟩ => exact (if_pos rfl).symm)

/-- A scalar repeated over any shape reads the scalar everywhere. -/
theorem broadcastInDim_scalar_apply {T : Shape} (h : (⟨0, ![]⟩ : Shape).BroadcastsInDim T ![])
    (x : (⟨0, ![]⟩ : Shape).Idx → α) (j : T.Idx) : broadcastInDim T ![] h x j = x ix0 :=
  ValueIdx.broadcastInDim_scalar_apply h x j

end Moves

end Cert.LibHostApply
-- ==== Proof.LibIndexNorm.lean ====
/-
  Sign normalization of an index word.

  Python-style indexing adds the extent to a negative index and leaves a nonnegative one alone:
  `select (c < 0) (c + N) c`.  On a word whose signed value is nonnegative this is the word itself.
-/
import Idealize.ShloMosaic.PureOps.Ideal

namespace Cert.LibIndexNorm

open Idealize.ShloMosaic

/-- A nonnegative index word is its own sign-normalized form. -/
theorem signNorm_of_nonneg (c z a : BitVec 32) (hz : z = 0#32) (h : 0 ≤ c.toInt) :
    Scalar.select (IntOp.cmpi .slt c z) a c = c := by
  subst hz
  have hs : c.slt 0#32 = false := by
    rw [BitVec.slt_eq_decide]
    simp only [BitVec.toInt_zero, decide_eq_false_iff_not, not_lt]
    exact h
  unfold Scalar.select IntOp.cmpi
  simp [hs]

end Cert.LibIndexNorm
-- ==== Proof.Layers.lean ====
/-
  Arrays of extended reals whose entries are real numbers, and the operations that keep them so.

  `IsR2 A a`: the rank-2 array A of extended reals has the real a i k at (i, k); `IsR1` the same at rank 1.  A matrix
  product, a row gather, a row scatter-add, a sum, a product, a maximum with zero and an exponential of such arrays
  are such arrays again, of the real matrix product, gather, edge sum, sum, product, maximum and exponential: a finite
  sum of products of real numbers is a real number, so nothing ever meets an infinity.
-/
import Idealize.ShloMosaic.PureOps.Ideal
import Idealize.ShloMosaic.PureOps.Ideal.Laws
import proofs.«128750_j2551210574751_2_alg».proof.Proof.Spec
import proofs.«128750_j2551210574751_2_alg».proof.Proof.EdgeSum
import proofs.«128750_j2551210574751_2_alg».proof.Proof.LibHostApply
import proofs.«128750_j2551210574751_2_alg».proof.Proof.LibIndexNorm

noncomputable section

namespace Cert.Bridge

open Idealize.ShloMosaic Idealize.ShloMosaic.ValueIdx Cert.LibGather Cert.LibHostApply Finset

/-- The rank-2 array A has the real a i k at (i, k). -/
def IsR2 {n c : Nat} (A : (⟨2, ![n, c]⟩ : Shape).Idx → EReal) (a : Fin n → Fin c → ℝ) : Prop :=
  ∀ i k, A (ix2 i k) = (a i k : EReal)

/-- The rank-1 array A has the real a i at i. -/
def IsR1 {n : Nat} (A : (⟨1, ![n]⟩ : Shape).Idx → EReal) (a : Fin n → ℝ) : Prop :=
  ∀ i, A (ix1 i) = (a i : EReal)

theorem IsR2.at {n c : Nat} {A : (⟨2, ![n, c]⟩ : Shape).Idx → EReal} {a : Fin n → Fin c → ℝ} (h : IsR2 A a)
    (j : (⟨2, ![n, c]⟩ : Shape).Idx) : A j = (a (j 0) (j 1) : EReal) := by
  rw [eq_ix2 j]; exact h (j 0) (j 1)

theorem IsR1.at {n : Nat} {A : (⟨1, ![n]⟩ : Shape).Idx → EReal} {a : Fin n → ℝ} (h : IsR1 A a)
    (j : (⟨1, ![n]⟩ : Shape).Idx) : A j = (a (j 0) : EReal) := by
  rw [eq_ix1 j]; exact h (j 0)

/-- An array all of whose entries are real numbers is the array of its real parts. -/
theorem isR2_toReal {n c : Nat} (A : (⟨2, ![n, c]⟩ : Shape).Idx → EReal) (h : ∀ j, A j ≠ ⊤ ∧ A j ≠ ⊥) :
    IsR2 A (fun i k => (A (ix2 i k)).toReal) := fun i k => (EReal.coe_toReal (h _).1 (h _).2).symm

theorem isR1_toReal {n : Nat} (A : (⟨1, ![n]⟩ : Shape).Idx → EReal) (h : ∀ j, A j ≠ ⊤ ∧ A j ≠ ⊥) :
    IsR1 A (fun i => (A (ix1 i)).toReal) := fun i => (EReal.coe_toReal (h _).1 (h _).2).symm

/-- A finite sum of products of real numbers, taken in the extended reals, is the real sum. -/
theorem sum_mul_coe {ι : Type*} (s : Finset ι) (f g : ι → ℝ) :
    ∑ t ∈ s, ((f t : EReal) * (g t : EReal)) = ((∑ t ∈ s, f t * g t : ℝ) : EReal) := by
  rw [Cert.LibEReal.coe_sum]
  exact Finset.sum_congr rfl fun t _ => (EReal.coe_mul _ _).symm

/-- The maximum of a real number and zero. -/
theorem max_coe_zero (r : ℝ) : max (r : EReal) 0 = ((max r 0 : ℝ) : EReal) := by
  rw [← EReal.coe_zero]; exact (EReal.coe_strictMono.monotone.map_max).symm

/-- The f32 pattern of +0 is zero. -/
theorem ofBits_zero : Ideal.ofBits .f32 0x00000000#32 = 0 := by simp [Ideal.ofBits, Ideal.ieee]

/-- A matrix product of real arrays is the real matrix product. -/
theorem dot_isR2 {n k c : Nat} {φ₁ φ₂ : FTy} (wf) (prec : Option ContractPrecision)
    (A : FVec Ideal ⟨2, ![n, k]⟩ φ₁) (B : FVec Ideal ⟨2, ![k, c]⟩ φ₂) (a : Fin n → Fin k → ℝ) (b : Fin k → Fin c → ℝ)
    (hA : IsR2 A a) (hB : IsR2 B b) :
    IsR2 (Host.dotGeneral (mmDims n k c wf) prec A B : (⟨2, ![n, c]⟩ : Shape).Idx → EReal) (mmR a b) := by
  intro i j
  rw [dotGeneral_mm_apply]
  unfold mmR
  rw [← sum_mul_coe]
  exact Finset.sum_congr rfl fun t _ => by rw [hA, hB]

/-- A row gather of a real array at start indices that are nonnegative words: the rows the words name. -/
theorem gather_isR2 {N E C w : Nat} (hN : 0 < N) (wf) (X : (⟨2, ![N, C]⟩ : Shape).Idx → EReal) (idx : IVec ⟨2, ![E, 1]⟩ w)
    (x : Fin N → Fin C → ℝ) (hX : IsR2 X x) :
    IsR2 (Host.gather (rowsDims N E C wf) X idx) (fun e f => x (clampRow N hN (idx (ix2 e 0))) f) := by
  intro e f
  rw [gather_rows_apply hN]
  exact hX _ _

/-- A row scatter-add of real updates into zeros: the edge sum. -/
theorem scatterAdd_isR2 {N E C w : Nat} (wf) (Z : (⟨2, ![N, C]⟩ : Shape).Idx → EReal) (idx : IVec ⟨2, ![E, 1]⟩ w)
    (U : (⟨2, ![E, C]⟩ : Shape).Idx → EReal) (u : Fin E → Fin C → ℝ) (hZ : ∀ j, Z j = 0) (hU : IsR2 U u) :
    IsR2 (Ideal.hostScatterAdd (rowsScatter N E C wf) Z idx U)
      (fun i k => ∑ e : Fin E, if (idx (ix2 e 0)).toInt = (i.val : Int) then u e k else 0) := by
  intro i k
  rw [rowsScatterAdd_coe wf Z idx U (fun _ _ => 0) u (fun i k => by rw [hZ, EReal.coe_zero]) hU, zero_add]

/-! ## The twelve arguments as real arrays, and the four results -/

/-- A start index in [0, N) names, clamped, the row it says. -/
theorem clampRow_eq_iff {N w : Nat} (hN : 0 < N) (b : BitVec w) (h : 0 ≤ b.toInt ∧ b.toInt < (N : Int)) (i : Fin N) :
    b.toInt = (i.val : Int) ↔ clampRow N hN b = i := by
  refine ⟨clampRow_of_lands hN b i, fun hh => ?_⟩
  rw [← hh]
  show b.toInt = ((min b.toInt.toNat (N - 1) : Nat) : Int)
  omega

/-- The real parts of the twelve arguments; an index word is read signed and clamped into [0, 8192). -/
def argsOf (x0 : (⟨2, ![8192, 512]⟩ : Shape).Idx → EReal) (x1 : (⟨1, ![262144]⟩ : Shape).Idx → EReal)
    (x2 : (⟨2, ![8192, 64]⟩ : Shape).Idx → EReal) (x3 : (⟨2, ![512, 256]⟩ : Shape).Idx → EReal)
    (x4 x5 : (⟨2, ![256, 64]⟩ : Shape).Idx → EReal) (x6 : (⟨2, ![64, 64]⟩ : Shape).Idx → EReal)
    (x7 : (⟨1, ![64]⟩ : Shape).Idx → EReal) (x8 : (⟨2, ![64, 512]⟩ : Shape).Idx → EReal)
    (x9 : (⟨1, ![512]⟩ : Shape).Idx → EReal) (x10 x11 : IVec ⟨1, ![262144]⟩ 32) : Args where
  X i c := (x0 (ix2 i c)).toReal
  w e := (x1 (ix1 e)).toReal
  eps i c := (x2 (ix2 i c)).toReal
  W1 i c := (x3 (ix2 i c)).toReal
  W2mu i c := (x4 (ix2 i c)).toReal
  W2ls i c := (x5 (ix2 i c)).toReal
  D1w i c := (x6 (ix2 i c)).toReal
  D1b c := (x7 (ix1 c)).toReal
  D2w i c := (x8 (ix2 i c)).toReal
  D2b c := (x9 (ix1 c)).toReal
  row e := clampRow 8192 (by decide) (x10 (ix1 e))
  col e := clampRow 8192 (by decide) (x11 (ix1 e))

/-- The four results, as arrays of extended reals: each entry the real number the specification gives. -/
def G_recon (a : Args) : (⟨1, ![67108864]⟩ : Shape).Idx → EReal := fun j =>
  (a.recon ⟨(j 0).val / 8192, by have h0 : (j 0).val < 67108864 := (j 0).isLt; omega⟩
    ⟨(j 0).val % 8192, by omega⟩ : EReal)
def G_mu (a : Args) : (⟨2, ![8192, 64]⟩ : Shape).Idx → EReal := fun j => (a.mu (j 0) (j 1) : EReal)
def G_ls (a : Args) : (⟨2, ![8192, 64]⟩ : Shape).Idx → EReal := fun j => (a.ls (j 0) (j 1) : EReal)
def G_exprec (a : Args) : (⟨2, ![8192, 512]⟩ : Shape).Idx → EReal := fun j => (a.exprec (j 0) (j 1) : EReal)

end Cert.Bridge

end
-- ==== Proof.KI.GReal.lean ====
/-
  The kernel side's whole-array functions keep real arrays real, and on real arrays they are the real matrix
  products of the specification: a finite sum of products of real numbers is a real number.
-/
import proofs.«128750_j2551210574751_2_alg».proof.Proof.KI.Val0
import proofs.«128750_j2551210574751_2_alg».proof.Proof.KI.Val2
import proofs.«128750_j2551210574751_2_alg».proof.Proof.Layers

noncomputable section

namespace Cert.KernelIdeal.Hand

open Idealize.ShloMosaic Idealize.ShloMosaic.ValueIdx Cert.Bridge Finset

/-- The first projection of real arrays is the real matrix product. -/
theorem G0_isR2 {X : S8192x512.Idx → EReal} {W : S512x256.Idx → EReal} {x : Fin 8192 → Fin 512 → ℝ} {w : Fin 512 → Fin 256 → ℝ}
    (hX : IsR2 X x) (hW : IsR2 W w) : IsR2 (G0 X W) (mmR x w) := by
  intro i k
  show ∑ t : Fin 512, X (ix2 (⟨((ix2 i k : S8192x256.Idx) 0).val, _⟩ : Fin 8192) t) * W (ix2 t (⟨((ix2 i k : S8192x256.Idx) 1).val, _⟩ : Fin 256)) = _
  unfold mmR
  rw [← sum_mul_coe]
  exact Finset.sum_congr rfl fun t _ => by rw [← hX i t, ← hW t k]

/-- The second projection: the rectified real array times the real weights. -/
theorem G2_isR2 {H : S8192x256.Idx → EReal} {W : S256x128.Idx → EReal} {h : Fin 8192 → Fin 256 → ℝ} {w : Fin 256 → Fin 128 → ℝ}
    (hH : IsR2 H h) (hW : IsR2 W w) : IsR2 (G2 H W) (mmR (fun i t => max (h i t) 0) w) := by
  intro i k
  show ∑ t : Fin 256, max (H (ix2 (⟨((ix2 i k : S8192x128.Idx) 0).val, _⟩ : Fin 8192) t)) 0 * W (ix2 t (⟨((ix2 i k : S8192x128.Idx) 1).val, _⟩ : Fin 128)) = _
  unfold mmR
  rw [← sum_mul_coe]
  exact Finset.sum_congr rfl fun t _ => by
    rw [← max_coe_zero, ← hH i t, ← hW t k]

end Cert.KernelIdeal.Hand

end
-- ==== Proof.KI.GReal4.lean ====
/-
  Region 4's whole-array functions, and the three plain sums of products of the other regions, keep real arrays
  real: on arrays whose entries are real numbers each is the array of the corresponding real expression. A slice
  of a real array is real; a sum, a product, an exponential and a maximum with zero of real numbers are real
  numbers; a finite sum of products of real numbers is a real number — so nothing ever meets an infinity.
-/
import proofs.«128750_j2551210574751_2_alg».proof.Proof.KI.Val4
import proofs.«128750_j2551210574751_2_alg».proof.Proof.Layers

noncomputable section

namespace Cert.KernelIdeal.Hand

open Idealize.ShloMosaic Idealize.ShloMosaic.ValueIdx Cert.Bridge Finset

/-! ## Region 4 -/

/-- The mean of a real array: its left 64 columns. -/
theorem G4_6_isR2 {C : S8192x128.Idx → EReal} {cc : Fin 8192 → Fin 128 → ℝ} (hC : IsR2 C cc) :
    IsR2 (G4_6 C) (fun (i : Fin 8192) (k : Fin 64) => cc i ⟨k.val, by omega⟩) := by
  intro i k
  show C (ix2 (⟨((ix2 i k : S8192x64.Idx) 0).val, _⟩ : Fin 8192) (⟨((ix2 i k : S8192x64.Idx) 1).val, _⟩ : Fin 128)) = _
  exact hC _ _

/-- The log-deviation of a real array: its right 64 columns. -/
theorem G4_7_isR2 {C : S8192x128.Idx → EReal} {cc : Fin 8192 → Fin 128 → ℝ} (hC : IsR2 C cc) :
    IsR2 (G4_7 C) (fun (i : Fin 8192) (k : Fin 64) => cc i ⟨64 + k.val, by omega⟩) := by
  intro i k
  show C (ix2 (⟨((ix2 i k : S8192x64.Idx) 0).val, _⟩ : Fin 8192) (⟨64 + ((ix2 i k : S8192x64.Idx) 1).val, _⟩ : Fin 128)) = _
  exact hC _ _

/-- The sample of real arrays: mean + noise · exp(log-deviation), over the reals. -/
theorem G4_8_isR2 {C : S8192x128.Idx → EReal} {E : S8192x64.Idx → EReal} {cc : Fin 8192 → Fin 128 → ℝ} {e : Fin 8192 → Fin 64 → ℝ}
    (hC : IsR2 C cc) (hE : IsR2 E e) :
    IsR2 (G4_8 C E) (fun (i : Fin 8192) (k : Fin 64) => cc i ⟨k.val, by omega⟩ + e i k * Real.exp (cc i ⟨64 + k.val, by omega⟩)) := by
  intro i k
  show G4_6 C (ix2 i k) + E (ix2 i k) * Ideal.exp (G4_7 C (ix2 i k)) = _
  rw [G4_6_isR2 hC i k, G4_7_isR2 hC i k, hE i k, Ideal.exp_coe, ← EReal.coe_mul, ← EReal.coe_add]

/-- The decoder on real arrays: both layers over the reals. -/
theorem G4_9_isR2 {C : S8192x128.Idx → EReal} {E : S8192x64.Idx → EReal} {D1w : S64x64.Idx → EReal} {D1b : S1x64.Idx → EReal}
    {D2w : S64x512.Idx → EReal} {D2b : S1x512.Idx → EReal}
    {cc : Fin 8192 → Fin 128 → ℝ} {e : Fin 8192 → Fin 64 → ℝ} {d1w : Fin 64 → Fin 64 → ℝ} {b1 : Fin 1 → Fin 64 → ℝ}
    {d2w : Fin 64 → Fin 512 → ℝ} {b2 : Fin 1 → Fin 512 → ℝ}
    (hC : IsR2 C cc) (hE : IsR2 E e) (h1w : IsR2 D1w d1w) (h1b : IsR2 D1b b1) (h2w : IsR2 D2w d2w) (h2b : IsR2 D2b b2) :
    IsR2 (G4_9 C E D1w D1b D2w D2b)
      (fun (i : Fin 8192) (c : Fin 512) => max ((∑ k : Fin 64, max ((∑ l : Fin 64,
          (cc i ⟨l.val, by omega⟩ + e i l * Real.exp (cc i ⟨64 + l.val, by omega⟩)) * d1w l k) + b1 0 k) 0 * d2w k c) + b2 0 c) 0) := by
  intro i c
  show max ((∑ k : Fin 64, max ((∑ l : Fin 64, G4_8 C E (ix2 i l) * D1w (ix2 l k)) + D1b (ix2 (0 : Fin 1) k)) 0 * D2w (ix2 k c))
    + D2b (ix2 (0 : Fin 1) c)) 0 = _
  have hz := G4_8_isR2 hC hE
  have hidden : ∀ k : Fin 64, max ((∑ l : Fin 64, G4_8 C E (ix2 i l) * D1w (ix2 l k)) + D1b (ix2 (0 : Fin 1) k)) 0
      = ((max ((∑ l : Fin 64, (cc i ⟨l.val, by omega⟩ + e i l * Real.exp (cc i ⟨64 + l.val, by omega⟩)) * d1w l k) + b1 0 k) 0 : ℝ) : EReal) := by
    intro k
    rw [Finset.sum_congr rfl (fun l _ => by rw [hz i l, h1w l k] :
        ∀ l ∈ (Finset.univ : Finset (Fin 64)), G4_8 C E (ix2 i l) * D1w (ix2 l k)
          = ((cc i ⟨l.val, by omega⟩ + e i l * Real.exp (cc i ⟨64 + l.val, by omega⟩) : ℝ) : EReal) * ((d1w l k : ℝ) : EReal)),
      sum_mul_coe, h1b 0 k, ← EReal.coe_add, max_coe_zero]
  rw [Finset.sum_congr rfl (fun k _ => by rw [hidden k, h2w k c] :
      ∀ k ∈ (Finset.univ : Finset (Fin 64)), max ((∑ l : Fin 64, G4_8 C E (ix2 i l) * D1w (ix2 l k)) + D1b (ix2 (0 : Fin 1) k)) 0 * D2w (ix2 k c)
        = ((max ((∑ l : Fin 64, (cc i ⟨l.val, by omega⟩ + e i l * Real.exp (cc i ⟨64 + l.val, by omega⟩)) * d1w l k) + b1 0 k) 0 : ℝ) : EReal) * ((d2w k c : ℝ) : EReal)),
    sum_mul_coe, h2b 0 c, ← EReal.coe_add, max_coe_zero]

/-! ## The plain sums of products of the other regions -/

/-- The dense aggregation of real arrays, 256 columns: the real matrix product. -/
theorem sumA_isR2 {A : S8192x8192.Idx → EReal} {M : S8192x256.Idx → EReal} {a : Fin 8192 → Fin 8192 → ℝ} {mm : Fin 8192 → Fin 256 → ℝ}
    (hA : IsR2 A a) (hM : IsR2 M mm) :
    IsR2 (fun i : S8192x256.Idx => ∑ j : Fin 8192, A (ix2 (⟨(i 0).val, (i 0).isLt⟩ : Fin 8192) j) * M (ix2 j (⟨(i 1).val, (i 1).isLt⟩ : Fin 256))) (mmR a mm) := by
  intro i k
  show ∑ j : Fin 8192, A (ix2 (⟨((ix2 i k : S8192x256.Idx) 0).val, _⟩ : Fin 8192) j) * M (ix2 j (⟨((ix2 i k : S8192x256.Idx) 1).val, _⟩ : Fin 256)) = _
  unfold mmR
  rw [← sum_mul_coe]
  exact Finset.sum_congr rfl fun t _ => by rw [← hA i t, ← hM t k]

/-- The dense aggregation of real arrays, 128 columns: the real matrix product. -/
theorem sumA128_isR2 {A : S8192x8192.Idx → EReal} {M : S8192x128.Idx → EReal} {a : Fin 8192 → Fin 8192 → ℝ} {mm : Fin 8192 → Fin 128 → ℝ}
    (hA : IsR2 A a) (hM : IsR2 M mm) :
    IsR2 (fun i : S8192x128.Idx => ∑ j : Fin 8192, A (ix2 (⟨(i 0).val, (i 0).isLt⟩ : Fin 8192) j) * M (ix2 j (⟨(i 1).val, (i 1).isLt⟩ : Fin 128))) (mmR a mm) := by
  intro i k
  show ∑ j : Fin 8192, A (ix2 (⟨((ix2 i k : S8192x128.Idx) 0).val, _⟩ : Fin 8192) j) * M (ix2 j (⟨((ix2 i k : S8192x128.Idx) 1).val, _⟩ : Fin 128)) = _
  unfold mmR
  rw [← sum_mul_coe]
  exact Finset.sum_congr rfl fun t _ => by rw [← hA i t, ← hM t k]

/-- The inner products of the two halves of a real array's rows: row i's first 32 entries against row j's last 32. -/
theorem halves_isR2 {Z : S8192x64.Idx → EReal} {z : Fin 8192 → Fin 64 → ℝ} (hZ : IsR2 Z z) :
    IsR2 (fun i : S8192x8192.Idx => ∑ k : Fin 32, Z (ix2 (⟨(i 0).val, (i 0).isLt⟩ : Fin 8192) (⟨k.val, Nat.lt_of_lt_of_le k.isLt (by decide)⟩ : Fin 64))
        * Z (ix2 (⟨(i 1).val, (i 1).isLt⟩ : Fin 8192) (⟨32 + k.val, Nat.lt_of_lt_of_le (Nat.add_lt_add_left k.isLt 32) (by decide)⟩ : Fin 64)))
      (fun (i j : Fin 8192) => ∑ k : Fin 32, z i ⟨k.val, by omega⟩ * z j ⟨32 + k.val, by omega⟩) := by
  intro i j
  show ∑ k : Fin 32, Z (ix2 (⟨((ix2 i j : S8192x8192.Idx) 0).val, _⟩ : Fin 8192) (⟨k.val, _⟩ : Fin 64))
      * Z (ix2 (⟨((ix2 i j : S8192x8192.Idx) 1).val, _⟩ : Fin 8192) (⟨32 + k.val, _⟩ : Fin 64)) = _
  rw [← sum_mul_coe]
  exact Finset.sum_congr rfl fun k _ => by rw [← hZ i ⟨k.val, by omega⟩, ← hZ j ⟨32 + k.val, by omega⟩]

end Cert.KernelIdeal.Hand

end
-- ==== Proof.KI.ReconFlat.lean ====
/-
  The kernel's first result is the specification's reconstruction. The last host stretch flattens the [8192,8192]
  array of inner products row by row: entry j of the flat array is entry (j / 8192, j % 8192) of the square one, the
  sum over k < 32 of Z(j / 8192, k) · Z(j % 8192, 32 + k) — on a latent matrix whose entries are the real numbers z,
  the real sum the specification names.
-/
import proofs.«128750_j2551210574751_2_alg».proof.Proof.KI.Val5
import proofs.«128750_j2551210574751_2_alg».proof.Proof.KI.GReal4
import proofs.«128750_j2551210574751_2_alg».proof.Proof.Layers

noncomputable section

namespace Cert.KernelIdeal.Hand

open Cert.KernelIdeal Cert.KernelIdeal.Gen
open Idealize.ShloMosaic Idealize.ShloMosaic.ValueIdx Cert.Bridge

/-- The flattened inner products of the two halves of a real latent matrix's rows are the specification's
    reconstruction. -/
theorem flat_recon {Z : S8192x64.Idx → EReal} (a : Args) (hZ : IsR2 Z a.z) :
    shapeCast S67108864 (G5 Z) shapeCasts_S8192x8192_S67108864 = G_recon a := by
  funext j
  have h0 : (j 0).val < 67108864 := (j 0).isLt
  rw [shapeCast_apply (G5 Z) shapeCasts_S8192x8192_S67108864 j
    (ix2 (⟨(j 0).val / 8192, by omega⟩ : Fin 8192) (⟨(j 0).val % 8192, by omega⟩ : Fin 8192))
    (by rewrite [Shape.rowMajor_val_two, Shape.rowMajor_val_one]
        show (j 0).val / 8192 * 8192 + (j 0).val % 8192 = (j 0).val
        omega)]
  exact halves_isR2 hZ ⟨(j 0).val / 8192, by omega⟩ ⟨(j 0).val % 8192, by omega⟩

end Cert.KernelIdeal.Hand

end
-- ==== Proof.RealChain.lean ====
/-
  The concatenated second layer, over the real numbers.

  The kernel computes the two second-layer branches at once: it multiplies the hidden features by the matrix whose
  left 64 columns are W2mu and whose right 64 columns are W2ls, and aggregates the 128-column product with the dense
  adjacency. Column k < 64 of that is the mean's column k and column 64 + k is the log-deviation's column k, because
  a column of a matrix product depends on that column of the right factor alone, and the dense adjacency applied to a
  matrix is the sparse product. From there the sample, the decoder and the reconstruction are the specification's,
  term for term.
-/
import proofs.«128750_j2551210574751_2_alg».proof.Proof.Spec

noncomputable section

namespace Cert.Bridge

open Finset

/-- The two second-layer weight matrices side by side: W2mu in columns 0 … 63, W2ls in columns 64 … 127. -/
def Args.w2c (a : Args) : Fin 256 → Fin 128 → ℝ :=
  fun t k => if h : k.val < 64 then a.W2mu t ⟨k.val, h⟩ else a.W2ls t ⟨k.val - 64, by omega⟩

/-- The hidden features times the concatenated weights. -/
def Args.m2 (a : Args) : Fin 8192 → Fin 128 → ℝ := mmR a.hidden a.w2c

/-- The dense adjacency applied to that product: both branches' aggregations side by side. -/
def Args.comb (a : Args) : Fin 8192 → Fin 128 → ℝ := mmR (adjR a.w a.row a.col) a.m2

/-- The dense adjacency applied to the first projection is the first sparse aggregation. -/
theorem Args.hpre_eq (a : Args) : mmR (adjR a.w a.row a.col) a.m1 = a.hpre := by
  funext i k
  exact spmm_law a.w a.row a.col a.m1 i k

/-- A left column of the concatenated weights is that column of W2mu. -/
theorem Args.w2c_lo (a : Args) (t : Fin 256) (k : Fin 64) : a.w2c t ⟨k.val, by omega⟩ = a.W2mu t k := by
  unfold Args.w2c
  exact dif_pos k.isLt

/-- A right column of the concatenated weights is that column of W2ls. -/
theorem Args.w2c_hi (a : Args) (t : Fin 256) (k : Fin 64) : a.w2c t ⟨64 + k.val, by omega⟩ = a.W2ls t k := by
  unfold Args.w2c
  have hn : ¬ (64 + k.val < 64) := by omega
  exact (dif_neg hn).trans (congrArg (a.W2ls t) (Fin.ext (Nat.add_sub_cancel_left 64 k.val)))

/-- A left column of the concatenated product is that column of the mean branch's product. -/
theorem Args.m2_lo (a : Args) (j : Fin 8192) (k : Fin 64) : a.m2 j ⟨k.val, by omega⟩ = a.pmu j k := by
  unfold Args.m2 Args.pmu mmR
  exact Finset.sum_congr rfl fun t _ => by rw [a.w2c_lo t k]

/-- A right column of the concatenated product is that column of the log-deviation branch's product. -/
theorem Args.m2_hi (a : Args) (j : Fin 8192) (k : Fin 64) : a.m2 j ⟨64 + k.val, by omega⟩ = a.pls j k := by
  unfold Args.m2 Args.pls mmR
  exact Finset.sum_congr rfl fun t _ => by rw [a.w2c_hi t k]

/-- A left column of the aggregated concatenation is the mean. -/
theorem Args.comb_lo (a : Args) (i : Fin 8192) (k : Fin 64) : a.comb i ⟨k.val, by omega⟩ = a.mu i k := by
  unfold Args.comb Args.mu
  rw [← spmm_law]
  unfold mmR
  exact Finset.sum_congr rfl fun j _ => by rw [a.m2_lo j k]

/-- A right column of the aggregated concatenation is the log-deviation. -/
theorem Args.comb_hi (a : Args) (i : Fin 8192) (k : Fin 64) : a.comb i ⟨64 + k.val, by omega⟩ = a.ls i k := by
  unfold Args.comb Args.ls
  rw [← spmm_law]
  unfold mmR
  exact Finset.sum_congr rfl fun j _ => by rw [a.m2_hi j k]

/-- The sample read off the aggregated concatenation is the specification's sample. -/
theorem Args.z_eq (a : Args) (i : Fin 8192) (k : Fin 64) :
    a.comb i ⟨k.val, by omega⟩ + a.eps i k * Real.exp (a.comb i ⟨64 + k.val, by omega⟩) = a.z i k := by
  rw [a.comb_lo i k, a.comb_hi i k]
  rfl

/-- The decoder on the sample read off the aggregated concatenation, with the biases given as one-row matrices,
    is the specification's decoder. -/
theorem Args.exprec_eq (a : Args) (b1 : Fin 1 → Fin 64 → ℝ) (b2 : Fin 1 → Fin 512 → ℝ) (h1 : ∀ k, b1 0 k = a.D1b k) (h2 : ∀ c, b2 0 c = a.D2b c)
    (i : Fin 8192) (c : Fin 512) :
    max ((∑ k : Fin 64, max ((∑ l : Fin 64, (a.comb i ⟨l.val, by omega⟩ + a.eps i l * Real.exp (a.comb i ⟨64 + l.val, by omega⟩)) * a.D1w l k) + b1 0 k) 0 * a.D2w k c) + b2 0 c) 0
      = a.exprec i c := by
  unfold Args.exprec Args.d1 mmR
  rw [h2 c]
  refine congrArg (max · 0) (congrArg (· + a.D2b c) (Finset.sum_congr rfl fun k _ => congrArg (· * a.D2w k c) ?_))
  rw [h1 k]
  exact congrArg (max · 0) (congrArg (· + a.D1b k) (Finset.sum_congr rfl fun l _ => by rw [a.z_eq i l]))

/-- The inner products of the halves of the sample's rows are the specification's reconstruction. -/
theorem Args.recon_eq (a : Args) (i j : Fin 8192) :
    (∑ k : Fin 32, a.z i ⟨k.val, by omega⟩ * a.z j ⟨32 + k.val, by omega⟩) = a.recon i j := rfl

end Cert.Bridge

end
-- ==== Proof.HostLayout.lean ====
/-
  Two layout operations of the host stretches read at an index, for arrays of real numbers.

  Two matrices with the same number of rows laid side by side have, at (t, k), the first matrix's entry (t, k) when k is
  below its width and the second's entry (t, k − width) otherwise.  A vector recast as a one-row matrix has the
  vector's entry k at (0, k).
-/
import proofs.«128750_j2551210574751_2_alg».proof.Proof.Layers

noncomputable section

namespace Cert.Bridge

open Idealize.ShloMosaic Idealize.ShloMosaic.ValueIdx Cert.LibGather Cert.LibHostApply Finset

/-- Two real matrices side by side along the column axis: at (t, k) the left one for k below its width c₁, the right one
    at column k − c₁ otherwise. -/
theorem concat_cols_isR2 {n c₁ c₂ c : Nat} (hc : c = c₁ + c₂)
    (A : (⟨2, ![n, c₁]⟩ : Shape).Idx → EReal) (B : (⟨2, ![n, c₂]⟩ : Shape).Idx → EReal)
    (h : Shape.Concatenates [(⟨2, ![n, c₁]⟩ : Shape), (⟨2, ![n, c₂]⟩ : Shape)] (⟨2, ![n, c]⟩ : Shape) (1 : Fin 2))
    (a : Fin n → Fin c₁ → ℝ) (b : Fin n → Fin c₂ → ℝ) (hA : IsR2 A a) (hB : IsR2 B b) :
    IsR2 (concatenate (⟨2, ![n, c]⟩ : Shape) (1 : Fin 2) [⟨(⟨2, ![n, c₁]⟩ : Shape), A⟩, ⟨(⟨2, ![n, c₂]⟩ : Shape), B⟩] h)
      (fun t k => if hk : k.val < c₁ then a t ⟨k.val, hk⟩ else b t ⟨k.val - c₁, by have := k.isLt; omega⟩) := by
  intro t k
  beta_reduce
  by_cases hk : k.val < c₁
  · rw [dif_pos hk]
    refine (concatenate_pair_apply_left (t := ⟨2, ![n, c]⟩) (s₁ := ⟨2, ![n, c₁]⟩) (s₂ := ⟨2, ![n, c₂]⟩) (1 : Fin 2) A B h
      (ix2 t k) rfl (ix2 t (⟨k.val, hk⟩ : Fin c₁)) (fun bb => by
        match bb with
        | ⟨0, _⟩ => rfl
        | ⟨1, _⟩ => rfl)).trans ?_
    exact hA _ _
  · rw [dif_neg hk]
    refine (concatenate_pair_apply_right (t := ⟨2, ![n, c]⟩) (s₁ := ⟨2, ![n, c₁]⟩) (s₂ := ⟨2, ![n, c₂]⟩) (1 : Fin 2) A B h
      (ix2 t k) rfl rfl (ix2 t (⟨k.val - c₁, by have := k.isLt; omega⟩ : Fin c₂)) (fun bb hb => by
        match bb with
        | ⟨0, _⟩ => rfl
        | ⟨1, _⟩ => exact absurd rfl hb) (by
        show k.val - c₁ + c₁ = k.val; omega)).trans ?_
    exact hB _ _

/-- A real vector recast as a one-row matrix: the vector's entry k at (0, k). -/
theorem row_of_isR1 {n : Nat} (x : (⟨1, ![n]⟩ : Shape).Idx → EReal)
    (h : (⟨1, ![n]⟩ : Shape).ShapeCasts ⟨2, ![1, n]⟩) (xr : Fin n → ℝ) (hx : IsR1 x xr) (k : Fin n) :
    shapeCast ⟨2, ![1, n]⟩ x h (ix2 (0 : Fin 1) k) = (xr k : EReal) := by
  rw [shapeCast_row_apply]; exact hx k

/-- The same as an array of real numbers: the one-row matrix of the vector. -/
theorem row_isR2 {n : Nat} (x : (⟨1, ![n]⟩ : Shape).Idx → EReal)
    (h : (⟨1, ![n]⟩ : Shape).ShapeCasts ⟨2, ![1, n]⟩) (xr : Fin n → ℝ) (hx : IsR1 x xr) :
    IsR2 (shapeCast ⟨2, ![1, n]⟩ x h) (fun _ k => xr k) := by
  intro u k
  have hu : u = (0 : Fin 1) := Subsingleton.elim _ _
  rw [hu]; exact row_of_isR1 x h xr hx k

end Cert.Bridge

end
-- ==== Proof.AdjDense.lean ====
/-
  A point scatter-add into a matrix as a sum over the edges.

  Scattering the entries of u : [E] into x : [N, M] at the index pairs idx : [E, 2] sends entry e to element
  (idx (e, 0), idx (e, 1)) when both words, read signed, are inside the matrix, and drops it otherwise.  So at (i, j)
  the scatter-add is x (i, j) plus the sum over the edges e with idx (e, 0) = i and idx (e, 1) = j of u e: the dense
  adjacency matrix of a weighted edge list.
-/
import Idealize.ShloMosaic.PureOps.Ideal
import Idealize.ShloMosaic.Lib.Pipeline.Value
import proofs.«128750_j2551210574751_2_alg».proof.Proof.Layers

noncomputable section

namespace Cert.Bridge

open Idealize.ShloMosaic Idealize.ShloMosaic.ValueIdx Finset

/-- The dimension numbers of x.at[idx[:, 0], idx[:, 1]].add(u) for x : [N, M], idx : [E, 2], u : [E]. -/
abbrev pointScatter (N M E : Nat) (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

theorem pointScatter_start0 {N M E w : Nat} (wf) (idx : IVec ⟨2, ![E, 2]⟩ w) (e : Fin E) :
    (pointScatter N M E wf).start (ix1 e) idx 0 = (idx (ix2 e 0)).toInt := by
  unfold ScatterDims.start
  rw [dif_pos (show (0 : Fin 2) ∈ (pointScatter N M E wf).scatterDimsToOperandDims by simp [pointScatter])]
  have hsi : (pointScatter N M E wf).siIdx (ix1 e) ⟨List.idxOf (0 : Fin 2) (pointScatter N M E wf).scatterDimsToOperandDims,
      List.idxOf_lt_length_iff.2 (by simp [pointScatter])⟩ = ix2 e 0 := by
    funext b; refine Fin.ext ?_
    match b with
    | ⟨0, _⟩ => rfl
    | ⟨1, _⟩ => rfl
  rw [hsi]

theorem pointScatter_start1 {N M E w : Nat} (wf) (idx : IVec ⟨2, ![E, 2]⟩ w) (e : Fin E) :
    (pointScatter N M E wf).start (ix1 e) idx 1 = (idx (ix2 e 1)).toInt := by
  unfold ScatterDims.start
  rw [dif_pos (show (1 : Fin 2) ∈ (pointScatter N M E wf).scatterDimsToOperandDims by simp [pointScatter])]
  have hsi : (pointScatter N M E wf).siIdx (ix1 e) ⟨List.idxOf (1 : Fin 2) (pointScatter N M E wf).scatterDimsToOperandDims,
      List.idxOf_lt_length_iff.2 (by simp [pointScatter])⟩ = ix2 e 1 := by
    funext b; refine Fin.ext ?_
    match b with
    | ⟨0, _⟩ => rfl
    | ⟨1, _⟩ => rfl
  rw [hsi]

theorem pointScatter_window {N M E : Nat} (wf) (e : Fin E) (a : Fin 2) :
    (pointScatter N M E wf).window (ix1 e) a = 0 := by
  unfold ScatterDims.window
  rw [dif_neg]
  match a with
  | ⟨0, _⟩ => simp [ScatterDims.sKept, Shape.kept]
  | ⟨1, _⟩ => simp [ScatterDims.sKept, Shape.kept]

/-- Entry e lands on element i exactly when its two index words say i 0 and i 1. -/
theorem pointScatter_resultIdx_iff {N M E w : Nat} (wf) (idx : IVec ⟨2, ![E, 2]⟩ w) (e : Fin E)
    (i : (⟨2, ![N, M]⟩ : Shape).Idx) :
    (pointScatter N M E wf).resultIdx? (ix1 e) idx = some i
      ↔ (idx (ix2 e 0)).toInt = ((i 0).val : Int) ∧ (idx (ix2 e 1)).toInt = ((i 1).val : Int) := by
  unfold ScatterDims.resultIdx?
  constructor
  · intro h
    split at h
    · rename_i hr
      have hi := Option.some.inj h
      have h0 := hr 0
      have h1 := hr 1
      have e0 : ((pointScatter N M E wf).start (ix1 e) idx 0 + ((pointScatter N M E wf).window (ix1 e) 0 : Nat)).toNat = (i 0).val :=
        congrArg (fun g => (g 0).val) hi
      have e1 : ((pointScatter N M E wf).start (ix1 e) idx 1 + ((pointScatter N M E wf).window (ix1 e) 1 : Nat)).toNat = (i 1).val :=
        congrArg (fun g => (g 1).val) hi
      rw [pointScatter_start0, pointScatter_window] at e0 h0
      rw [pointScatter_start1, pointScatter_window] at e1 h1
      exact ⟨by omega, by omega⟩
    · exact absurd h (by simp)
  · rintro ⟨h0, h1⟩
    have c0 : 0 ≤ (pointScatter N M E wf).start (ix1 e) idx 0 + ((pointScatter N M E wf).window (ix1 e) 0 : Nat)
        ∧ (pointScatter N M E wf).start (ix1 e) idx 0 + ((pointScatter N M E wf).window (ix1 e) 0 : Nat) < (N : Int) := by
      rw [pointScatter_start0, pointScatter_window, h0]
      have h' : (i 0).val < N := (i 0).isLt
      omega
    have c1 : 0 ≤ (pointScatter N M E wf).start (ix1 e) idx 1 + ((pointScatter N M E wf).window (ix1 e) 1 : Nat)
        ∧ (pointScatter N M E wf).start (ix1 e) idx 1 + ((pointScatter N M E wf).window (ix1 e) 1 : Nat) < (M : Int) := by
      rw [pointScatter_start1, pointScatter_window, h1]
      have h' : (i 1).val < M := (i 1).isLt
      omega
    have hc : ∀ a, 0 ≤ (pointScatter N M E wf).start (ix1 e) idx a + ((pointScatter N M E wf).window (ix1 e) a : Nat)
        ∧ (pointScatter N M E wf).start (ix1 e) idx a + ((pointScatter N M E wf).window (ix1 e) a : Nat)
          < (⟨2, ![N, M]⟩ : Shape).size a := by
      intro a
      match a with
      | ⟨0, _⟩ => exact c0
      | ⟨1, _⟩ => exact c1
    rw [dif_pos hc]
    refine congrArg some (funext fun a => Fin.ext ?_)
    match a with
    | ⟨0, _⟩ =>
      show ((pointScatter N M E wf).start (ix1 e) idx 0 + ((pointScatter N M E wf).window (ix1 e) 0 : Nat)).toNat = (i 0).val
      rw [pointScatter_start0, pointScatter_window, h0]
      omega
    | ⟨1, _⟩ =>
      show ((pointScatter N M E wf).start (ix1 e) idx 1 + ((pointScatter N M E wf).window (ix1 e) 1 : Nat)).toNat = (i 1).val
      rw [pointScatter_start1, pointScatter_window, h1]
      omega

/-- The point scatter-add at (i, j): the operand's element plus the sum over the edges whose index pair is (i, j). -/
theorem pointScatterAdd_apply {N M E w : Nat} (wf) (x : (⟨2, ![N, M]⟩ : Shape).Idx → EReal) (idx : IVec ⟨2, ![E, 2]⟩ w)
    (u : (⟨1, ![E]⟩ : Shape).Idx → EReal) (i : Fin N) (j : Fin M) :
    Ideal.hostScatterAdd (pointScatter N M E wf) x idx u (ix2 i j)
      = x (ix2 i j) + ∑ e : Fin E,
          if (idx (ix2 e 0)).toInt = (i.val : Int) ∧ (idx (ix2 e 1)).toInt = (j.val : Int) then u (ix1 e) else 0 := by
  unfold Ideal.hostScatterAdd
  refine congrArg (x (ix2 i j) + ·) ?_
  rw [Finset.sum_filter]
  have hs : ∀ f : (⟨1, ![E]⟩ : Shape).Idx → EReal, ∑ t, f t = ∑ e : Fin E, f (ix1 e) := fun f => by
    refine (Fintype.sum_equiv (⟨fun t => t 0, ix1, fun t => (eq_ix1 t).symm, fun _ => rfl⟩ : (⟨1, ![E]⟩ : Shape).Idx ≃ Fin E) _ _ fun t => ?_)
    exact congrArg f (eq_ix1 t)
  rw [hs]
  refine Finset.sum_congr rfl fun e _ => ?_
  exact if_congr (pointScatter_resultIdx_iff wf idx e (ix2 i j)) rfl rfl

/-- The same into zeros with real entries: the real edge sum. -/
theorem pointScatterAdd_isR2 {N M E w : Nat} (wf) (Z : (⟨2, ![N, M]⟩ : Shape).Idx → EReal) (idx : IVec ⟨2, ![E, 2]⟩ w)
    (U : (⟨1, ![E]⟩ : Shape).Idx → EReal) (u : Fin E → ℝ) (hZ : ∀ t, Z t = 0) (hU : IsR1 U u) :
    IsR2 (Ideal.hostScatterAdd (pointScatter N M E wf) Z idx U)
      (fun i j => ∑ e : Fin E,
        if (idx (ix2 e 0)).toInt = (i.val : Int) ∧ (idx (ix2 e 1)).toInt = (j.val : Int) then u e else 0) := by
  intro i j
  rw [pointScatterAdd_apply, hZ, zero_add, Cert.LibEReal.coe_sum]
  refine Finset.sum_congr rfl fun e _ => ?_
  by_cases h : (idx (ix2 e 0)).toInt = (i.val : Int) ∧ (idx (ix2 e 1)).toInt = (j.val : Int)
  · rw [if_pos h, if_pos h, hU]
  · rw [if_neg h, if_neg h, EReal.coe_zero]

/-! ## Two columns side by side -/

/-- Two [E, 1] columns concatenated along axis 1, read in column 0: the first. -/
theorem concatCols_left {α : Type} {E : Nat} (a b : (⟨2, ![E, 1]⟩ : Shape).Idx → α)
    (h : Shape.Concatenates [(⟨2, ![E, 1]⟩ : Shape), ⟨2, ![E, 1]⟩] ⟨2, ![E, 2]⟩ 1) (e : Fin E) :
    concatenate ⟨2, ![E, 2]⟩ 1 [⟨⟨2, ![E, 1]⟩, a⟩, ⟨⟨2, ![E, 1]⟩, b⟩] h (ix2 e 0) = a (ix2 e 0) :=
  concatenate_pair_apply_left (t := ⟨2, ![E, 2]⟩) (s₁ := ⟨2, ![E, 1]⟩) (s₂ := ⟨2, ![E, 1]⟩) (1 : Fin 2) a b h
    (ix2 e (0 : Fin 2)) rfl (ix2 e (0 : Fin 1)) (fun c => by
    match c with
    | ⟨0, _⟩ => rfl
    | ⟨1, _⟩ => rfl)

/-- Two [E, 1] columns concatenated along axis 1, read in column 1: the second. -/
theorem concatCols_right {α : Type} {E : Nat} (a b : (⟨2, ![E, 1]⟩ : Shape).Idx → α)
    (h : Shape.Concatenates [(⟨2, ![E, 1]⟩ : Shape), ⟨2, ![E, 1]⟩] ⟨2, ![E, 2]⟩ 1) (e : Fin E) :
    concatenate ⟨2, ![E, 2]⟩ 1 [⟨⟨2, ![E, 1]⟩, a⟩, ⟨⟨2, ![E, 1]⟩, b⟩] h (ix2 e 1) = b (ix2 e 0) :=
  concatenate_pair_apply_right (t := ⟨2, ![E, 2]⟩) (s₁ := ⟨2, ![E, 1]⟩) (s₂ := ⟨2, ![E, 1]⟩) (1 : Fin 2) a b h
    (ix2 e (1 : Fin 2)) rfl rfl (ix2 e (0 : Fin 1)) (fun c hc => by
    match c with
    | ⟨0, _⟩ => rfl
    | ⟨1, _⟩ => exact absurd rfl hc) (by rfl)

end Cert.Bridge

end
-- ==== Proof.PreDecode.lean ====
/-
  The precondition, decoded.  The printed predicate is a conjunction of twelve "all" reductions: for each of the ten
  float arguments, |x| < +∞ at every entry, and for each of the two index arguments, 0 ≤ x and x < 8192 (signed) at every
  entry.  Being 1, it gives: every float entry is a real number, every index entry is a natural number below 8192.
-/
import proofs.«128750_j2551210574751_2_alg».proof.Pre_finite_inputs
import proofs.«128750_j2551210574751_2_alg».proof.Proof.Gen.Pre_finite_inputs
import Idealize.ShloMosaic.Lib.ReduceAll
import Idealize.ShloMosaic.Lib.ValueIdx
import Idealize.ShloMosaic.PureOps.Ideal

noncomputable section

namespace Cert.Bridge

open Idealize.ShloMosaic Idealize.ShloMosaic.ValueIdx Cert.Pre_finite_inputs

/-- The rank-0 shape has one index. -/
instance subsingleton_S_ : Subsingleton S_.Idx := ⟨fun a b => funext fun d => d.elim0⟩

/-- An extended real that is neither infinity: a real number. -/
def Fin' (x : EReal) : Prop := x ≠ ⊤ ∧ x ≠ ⊥

theorem Fin'.exists_coe {x : EReal} (h : Fin' x) : ∃ r : ℝ, x = (r : EReal) := by
  induction x using EReal.rec with
  | bot => exact absurd rfl h.2
  | coe r => exact ⟨r, rfl⟩
  | top => exact absurd rfl h.1

theorem Fin'.coe (r : ℝ) : Fin' (r : EReal) := ⟨EReal.coe_ne_top r, EReal.coe_ne_bot r⟩

/-- |x| < +∞ says x is a real number. -/
theorem fin_of_abs_lt (x : EReal)
    (h : Ideal.cmp .olt (max x (-x)) (Ideal.ofBits .f32 0x7F800000#32) = 1#1) : Fin' x := by
  have hinf : Ideal.ofBits .f32 0x7F800000#32 = ⊤ := by simp [Ideal.ofBits, Ideal.ieee]
  rw [hinf] at h
  induction x using EReal.rec with
  | bot => simp [Ideal.cmp] at h
  | coe r => exact Fin'.coe r
  | top => simp [Ideal.cmp] at h

/-- One "all |x| < +∞" reduction being 1: every entry of x is a real number. -/
theorem fin_of_all {s : Shape} {axes : List (Fin s.rank)} (x : FVec Ideal s .f32) (hb : S_.BroadcastsInDim s ![])
    (hr : s.ReducesTo axes S_) (hu : 0 < S_.numel) (init : IVec S_ 1)
    (e : Host.reduce IntOp.andi (cmpf .olt (Host.absf x) (broadcastInDim s ![] hb (constant (F := Ideal) S_ .f32 0x7F800000#32))) init hr hu ix0 = 1#1)
    (i : s.Idx) : Fin' (x i) :=
  fin_of_abs_lt (x i) (Host.reduce_andi_all _ init hr hu ix0 e i)

/-- The two "all" reductions on an index array being 1: every entry, read signed, is in [0, 8192). -/
theorem range_of_all (x : IVec S262144 32) (hb : S_.BroadcastsInDim S262144 ![])
    (hr : S262144.ReducesTo [0] S_) (hu : 0 < S_.numel) (init init' : IVec S_ 1)
    (e0 : Host.reduce IntOp.andi (cmpi .sge x (broadcastInDim S262144 ![] hb (constantI S_ 32 0#32))) init hr hu ix0 = 1#1)
    (e1 : Host.reduce IntOp.andi (cmpi .slt x (broadcastInDim S262144 ![] hb (constantI S_ 32 8192#32))) init' hr hu ix0 = 1#1)
    (i : S262144.Idx) : 0 ≤ (x i).toInt ∧ (x i).toInt < 8192 := by
  have h0 := Host.reduce_andi_all _ init hr hu ix0 e0 i
  have h1 := Host.reduce_andi_all _ init' hr hu ix0 e1 i
  have h0' : IntOp.cmpi .sge (x i) 0#32 = 1#1 := h0
  have h1' : IntOp.cmpi .slt (x i) 8192#32 = 1#1 := h1
  rw [IntOp.cmpi_sge] at h0'
  rw [IntOp.cmpi_slt] at h1'
  exact ⟨h0', h1'⟩

/-- What the precondition says of the twelve arguments. -/
structure Decoded (a0 : FVec Ideal S8192x512 .f32) (a1 : FVec Ideal S262144 .f32) (a2 : FVec Ideal S8192x64 .f32)
    (a3 : FVec Ideal S512x256 .f32) (a4 : FVec Ideal S256x64 .f32) (a5 : FVec Ideal S256x64 .f32)
    (a6 : FVec Ideal S64x64 .f32) (a7 : FVec Ideal S64 .f32) (a8 : FVec Ideal S64x512 .f32) (a9 : FVec Ideal S512 .f32)
    (a10 : IVec S262144 32) (a11 : IVec S262144 32) : Prop where
  f0 : ∀ i, Fin' (a0 i)
  f1 : ∀ i, Fin' (a1 i)
  f2 : ∀ i, Fin' (a2 i)
  f3 : ∀ i, Fin' (a3 i)
  f4 : ∀ i, Fin' (a4 i)
  f5 : ∀ i, Fin' (a5 i)
  f6 : ∀ i, Fin' (a6 i)
  f7 : ∀ i, Fin' (a7 i)
  f8 : ∀ i, Fin' (a8 i)
  f9 : ∀ i, Fin' (a9 i)
  row : ∀ e, 0 ≤ (a10 e).toInt ∧ (a10 e).toInt < 8192
  col : ∀ e, 0 ≤ (a11 e).toInt ∧ (a11 e).toInt < 8192

open Cert.Pre_finite_inputs.Gen in
/-- The precondition decoded. -/
theorem decode (a0 : FVec Ideal S8192x512 .f32) (a1 : FVec Ideal S262144 .f32) (a2 : FVec Ideal S8192x64 .f32)
    (a3 : FVec Ideal S512x256 .f32) (a4 : FVec Ideal S256x64 .f32) (a5 : FVec Ideal S256x64 .f32)
    (a6 : FVec Ideal S64x64 .f32) (a7 : FVec Ideal S64 .f32) (a8 : FVec Ideal S64x512 .f32) (a9 : FVec Ideal S512 .f32)
    (a10 : IVec S262144 32) (a11 : IVec S262144 32)
    (h : Cert.Pre_finite_inputs.fn (F := Ideal) a0 a1 a2 a3 a4 a5 a6 a7 a8 a9 a10 a11 = fun _ => 1#1) :
    Decoded a0 a1 a2 a3 a4 a5 a6 a7 a8 a9 a10 a11 := by
  have e := congrFun h ix0
  dsimp only [Cert.Pre_finite_inputs.fn, fn_part1, fn_part2, fn_part3] at e
  simp only [andi, IntOp.andi_eq_one] at e
  obtain ⟨⟨⟨⟨⟨⟨⟨⟨⟨⟨⟨⟨⟨e0, e1⟩, e2⟩, e3⟩, e4⟩, e5⟩, e6⟩, e7⟩, e8⟩, e9⟩, r0⟩, r1⟩, c0⟩, c1⟩ := e
  exact
    { f0 := fin_of_all a0 _ _ _ _ e0
      f1 := fin_of_all a1 _ _ _ _ e1
      f2 := fin_of_all a2 _ _ _ _ e2
      f3 := fin_of_all a3 _ _ _ _ e3
      f4 := fin_of_all a4 _ _ _ _ e4
      f5 := fin_of_all a5 _ _ _ _ e5
      f6 := fin_of_all a6 _ _ _ _ e6
      f7 := fin_of_all a7 _ _ _ _ e7
      f8 := fin_of_all a8 _ _ _ _ e8
      f9 := fin_of_all a9 _ _ _ _ e9
      row := range_of_all a10 _ _ _ _ _ r0 r1
      col := range_of_all a11 _ _ _ _ _ c0 c1 }

end Cert.Bridge

end
-- ==== Proof.AdjKernel.lean ====
/-
  The dense adjacency the kernel program builds on the host, read at an index.

  The host stretch before the first kernel sign-normalizes the row and column words of the edges, lays them side by
  side as index pairs, scatter-adds the edge weights into an 8192 × 8192 array of zeros at those pairs and narrows the
  result (the identity on extended reals).  Under the decoded precondition its entry (i, j) is the real number
  Σ over the edges e with (row e, col e) = (i, j) of w e.
-/
import proofs.«128750_j2551210574751_2_alg».proof.Proof.Gen.KernelIdeal
import proofs.«128750_j2551210574751_2_alg».proof.Proof.KI.AdjOf
import proofs.«128750_j2551210574751_2_alg».proof.Proof.AdjDense
import proofs.«128750_j2551210574751_2_alg».proof.Proof.PreDecode

noncomputable section

namespace Cert.Bridge.Kern

open Cert.KernelIdeal Cert.KernelIdeal.Gen
open Idealize.ShloMosaic Idealize.ShloMosaic.ValueIdx Cert.LibGather Cert.LibHostApply Cert.LibIndexNorm Cert.Bridge

/-- A word array with Python's negative-index convention undone: x + 8192 where x < 0, x elsewhere. -/
def signNorm (x : IVec S262144 32) : IVec S262144 32 :=
  select (cmpi .slt x (broadcastInDim S262144 ![] Facts₀.bcast_S_S262144 (constantI S_ 32 0#32)))
    (addi x (broadcastInDim S262144 ![] Facts₀.bcast_S_S262144 (constantI S_ 32 8192#32))) x

/-- The index pairs the host scatters at: the normalized row and column words side by side. -/
def adjIdx (row col : IVec S262144 32) : IVec S262144x2 32 :=
  concatenate S262144x2 1
    [⟨S262144x1, broadcastInDim S262144x1 ![0] Facts₀.bcast_S262144_S262144x1_0 (signNorm row)⟩,
     ⟨S262144x1, broadcastInDim S262144x1 ![0] Facts₀.bcast_S262144_S262144x1_0 (signNorm col)⟩]
    Facts₀.concatenates_S262144x1_S262144x1_S262144x2_d1

/-- The dense adjacency as the host computes it. -/
def adjTerm (w : FVec Ideal S262144 .f32) (row col : IVec S262144 32) : FVec Ideal S8192x8192 .bf16 :=
  truncf .bf16 (Host.scatterAdd scatter_S8192x8192_S262144x2_S262144_n_01_01_1
    (broadcastInDim S8192x8192 ![] Facts₀.bcast_S_S8192x8192 (constant S_ .f32 0x00000000#32)) (adjIdx row col) w)
    Facts₀.bitsLt_bf16_f32

theorem signNorm_apply (x : IVec S262144 32) (e : Fin 262144) (h : 0 ≤ (x (ix1 e)).toInt) :
    signNorm x (ix1 e) = x (ix1 e) :=
  signNorm_of_nonneg (x (ix1 e)) _ _ rfl h

theorem adjIdx_row (row col : IVec S262144 32) (e : Fin 262144) (h : 0 ≤ (row (ix1 e)).toInt) :
    adjIdx row col (ix2 e 0) = row (ix1 e) := by
  unfold adjIdx
  rw [concatCols_left, broadcastInDim_col_apply, signNorm_apply row e h]

theorem adjIdx_col (row col : IVec S262144 32) (e : Fin 262144) (h : 0 ≤ (col (ix1 e)).toInt) :
    adjIdx row col (ix2 e 1) = col (ix1 e) := by
  unfold adjIdx
  rw [concatCols_right, broadcastInDim_col_apply, signNorm_apply col e h]

variable (x0 : FVec Ideal S8192x512 .f32) (x1 : FVec Ideal S262144 .f32) (x2 : FVec Ideal S8192x64 .f32)
  (x3 : FVec Ideal S512x256 .f32) (x4 x5 : FVec Ideal S256x64 .f32) (x6 : FVec Ideal S64x64 .f32)
  (x7 : FVec Ideal S64 .f32) (x8 : FVec Ideal S64x512 .f32) (x9 : FVec Ideal S512 .f32)
  (x10 x11 : IVec S262144 32)

/-- The host's dense adjacency is the real adjacency of the edge list. -/
theorem adjTerm_isR2 (D : Decoded x0 x1 x2 x3 x4 x5 x6 x7 x8 x9 x10 x11) :
    IsR2 (adjTerm x1 x10 x11 : (⟨2, ![8192, 8192]⟩ : Shape).Idx → EReal)
      (adjR (argsOf x0 x1 x2 x3 x4 x5 x6 x7 x8 x9 x10 x11).w (argsOf x0 x1 x2 x3 x4 x5 x6 x7 x8 x9 x10 x11).row
        (argsOf x0 x1 x2 x3 x4 x5 x6 x7 x8 x9 x10 x11).col) := by
  have hs := pointScatterAdd_isR2 (N := 8192) (M := 8192) (E := 262144)
    Facts₀.scatter_S8192x8192_S262144x2_S262144_n_01_01_1_wf
    (broadcastInDim S8192x8192 ![] Facts₀.bcast_S_S8192x8192 (constant (F := Ideal) S_ .f32 0x00000000#32))
    (adjIdx x10 x11) x1 _ (fun t => ofBits_zero) (isR1_toReal x1 D.f1)
  intro i j
  refine (hs i j).trans (congrArg _ ?_)
  unfold adjR
  refine Finset.sum_congr rfl fun e _ => ?_
  rw [adjIdx_row x10 x11 e (D.row (ix1 e)).1, adjIdx_col x10 x11 e (D.col (ix1 e)).1]
  exact if_congr (and_congr (clampRow_eq_iff (by decide) (x10 (ix1 e)) (D.row (ix1 e)) i)
    (clampRow_eq_iff (by decide) (x11 (ix1 e)) (D.col (ix1 e)) j)) rfl rfl

/-- The same of the adjacency as the kernel program's host stretch names it. -/
theorem adjOf_eq (w : FVec Ideal S262144 .f32) (row col : IVec S262144 32) :
    Cert.KernelIdeal.Hand.adjOf (F := Ideal) w row col = adjTerm w row col := rfl

theorem adjOf_isR2 (D : Decoded x0 x1 x2 x3 x4 x5 x6 x7 x8 x9 x10 x11) :
    IsR2 (Cert.KernelIdeal.Hand.adjOf (F := Ideal) x1 x10 x11 : (⟨2, ![8192, 8192]⟩ : Shape).Idx → EReal)
      (adjR (argsOf x0 x1 x2 x3 x4 x5 x6 x7 x8 x9 x10 x11).w (argsOf x0 x1 x2 x3 x4 x5 x6 x7 x8 x9 x10 x11).row
        (argsOf x0 x1 x2 x3 x4 x5 x6 x7 x8 x9 x10 x11).col) := by
  rw [adjOf_eq]
  exact adjTerm_isR2 x0 x1 x2 x3 x4 x5 x6 x7 x8 x9 x10 x11 D

end Cert.Bridge.Kern

end
-- ==== Proof.KI.KernelIsSpec.lean ====
/-
  The kernel program's four results are the specification's. Under the decoded precondition every argument
  entry is a real number and every edge index is in range, so every intermediate array is an array of real
  numbers, layer by layer: the dense adjacency is the edge-weight sum A, the first projection the real product
  X·W1, the first aggregation A·(X·W1) — which is the edge sum of the specification —, the second projection
  through the two weight matrices side by side, the second aggregation with the mean's and the log-deviation's
  columns side by side, then the mean, the log-deviation, the sample z = mu + eps·exp(ls), the decoded features,
  and the inner products of z's two halves, flattened.
-/
import proofs.«128750_j2551210574751_2_alg».proof.Proof.KI.KernelValue
import proofs.«128750_j2551210574751_2_alg».proof.Proof.KI.HostVals
import proofs.«128750_j2551210574751_2_alg».proof.Proof.KI.GReal
import proofs.«128750_j2551210574751_2_alg».proof.Proof.KI.GReal4
import proofs.«128750_j2551210574751_2_alg».proof.Proof.KI.ReconFlat
import proofs.«128750_j2551210574751_2_alg».proof.Proof.RealChain
import proofs.«128750_j2551210574751_2_alg».proof.Proof.HostLayout
import proofs.«128750_j2551210574751_2_alg».proof.Proof.AdjKernel
import proofs.«128750_j2551210574751_2_alg».proof.Proof.PreDecode

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Cert.Bridge

variable (m : (ℓ : Loc nD τ sig) → Buf (Elt Ideal) ℓ) (ρ : Dev nD → PrngReg) (c : Dev nD)

/-- The twelve arguments on core c, as real arrays. -/
abbrev kArgs : Args := argsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

variable (D : Decoded (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))

include D

theorem arg_X : IsR2 (m ((c : Thread nD τ).loc main_arg0)) (kArgs m c).X := isR2_toReal _ D.f0
theorem arg_w : IsR1 (m ((c : Thread nD τ).loc main_arg1)) (kArgs m c).w := isR1_toReal _ D.f1
theorem arg_eps : IsR2 (m ((c : Thread nD τ).loc main_arg2)) (kArgs m c).eps := isR2_toReal _ D.f2
theorem arg_W1 : IsR2 (m ((c : Thread nD τ).loc main_arg3)) (kArgs m c).W1 := isR2_toReal _ D.f3
theorem arg_W2mu : IsR2 (m ((c : Thread nD τ).loc main_arg4)) (kArgs m c).W2mu := isR2_toReal _ D.f4
theorem arg_W2ls : IsR2 (m ((c : Thread nD τ).loc main_arg5)) (kArgs m c).W2ls := isR2_toReal _ D.f5
theorem arg_D1w : IsR2 (m ((c : Thread nD τ).loc main_arg6)) (kArgs m c).D1w := isR2_toReal _ D.f6
theorem arg_D1b : IsR1 (m ((c : Thread nD τ).loc main_arg7)) (kArgs m c).D1b := isR1_toReal _ D.f7
theorem arg_D2w : IsR2 (m ((c : Thread nD τ).loc main_arg8)) (kArgs m c).D2w := isR2_toReal _ D.f8
theorem arg_D2b : IsR1 (m ((c : Thread nD τ).loc main_arg9)) (kArgs m c).D2b := isR1_toReal _ D.f9

/-- The dense adjacency is the edge-weight sum. -/
theorem spec_adj : IsR2 (kAdj m ρ c) (adjR (kArgs m c).w (kArgs m c).row (kArgs m c).col) := by
  rw [show kAdj m ρ c = adjOf (F := Ideal) (m ((c : Thread nD τ).loc main_arg1)) (m ((c : Thread nD τ).loc main_arg10)) (m ((c : Thread nD τ).loc main_arg11)) from adj_term m ρ c]
  exact Kern.adjOf_isR2 _ _ _ _ _ _ _ _ _ _ _ _ D

/-- The first projection. -/
theorem spec_m1 : IsR2 (kM1 m c) (kArgs m c).m1 := G0_isR2 (arg_X m c D) (arg_W1 m c D)

/-- The first aggregation is the specification's edge sum. -/
theorem spec_hpre : IsR2 (kHpre m ρ c) (kArgs m c).hpre := by
  have h := sumA_isR2 (spec_adj m ρ c D) (spec_m1 m c D)
  rw [Args.hpre_eq] at h
  exact h

/-- The two second-layer weight matrices side by side. -/
theorem spec_w2 : IsR2 (kW2 m ρ c) (kArgs m c).w2c := by
  rw [show kW2 m ρ c = _ from w2_term m ρ c, pre2_w2mu, pre2_w2ls]
  exact concat_cols_isR2 rfl _ _ _ _ _ (arg_W2mu m c D) (arg_W2ls m c D)

/-- The second projection. -/
theorem spec_m2 : IsR2 (kM2 m ρ c) (kArgs m c).m2 := G2_isR2 (spec_hpre m ρ c D) (spec_w2 m ρ c D)

/-- The second aggregation: the mean's and the log-deviation's columns side by side. -/
theorem spec_comb : IsR2 (kComb m ρ c) (kArgs m c).comb := sumA128_isR2 (spec_adj m ρ c D) (spec_m2 m ρ c D)

/-- The decoder's biases as one-row matrices. -/
theorem spec_b1 : IsR2 (kB1 m ρ c) (fun _ k => (kArgs m c).D1b k) := by
  rw [show kB1 m ρ c = _ from b1_term m ρ c, pre4_d1b]
  exact row_isR2 _ _ _ (arg_D1b m c D)
theorem spec_b2 : IsR2 (kB2 m ρ c) (fun _ k => (kArgs m c).D2b k) := by
  rw [show kB2 m ρ c = _ from b2_term m ρ c, pre4_d2b]
  exact row_isR2 _ _ _ (arg_D2b m c D)

/-- The sample z. -/
theorem spec_z : IsR2 (kZ m ρ c) (kArgs m c).z :=
  fun i k => (G4_8_isR2 (spec_comb m ρ c D) (arg_eps m c D) i k).trans (congrArg _ ((kArgs m c).z_eq i k))

/-! ## The four results -/

theorem spec_zmean : W10 m ρ c (Proc.devRef .tc main_v23_0) = G_mu (kArgs m c) :=
  (k_zmean m ρ c).trans (funext fun j => IsR2.at
    (fun i k => (G4_6_isR2 (spec_comb m ρ c D) i k).trans (congrArg _ ((kArgs m c).comb_lo i k)) : IsR2 (G4_6 (kComb m ρ c)) (kArgs m c).mu) j)

theorem spec_zlogstd : W10 m ρ c (Proc.devRef .tc main_v23_1) = G_ls (kArgs m c) :=
  (k_zlogstd m ρ c).trans (funext fun j => IsR2.at
    (fun i k => (G4_7_isR2 (spec_comb m ρ c D) i k).trans (congrArg _ ((kArgs m c).comb_hi i k)) : IsR2 (G4_7 (kComb m ρ c)) (kArgs m c).ls) j)

theorem spec_exprec : W10 m ρ c (Proc.devRef .tc main_v23_3) = G_exprec (kArgs m c) := by
  have h9 : IsR2 (G4_9 (kComb m ρ c) (m ((c : Thread nD τ).loc main_arg2)) (m ((c : Thread nD τ).loc main_arg6)) (kB1 m ρ c)
      (m ((c : Thread nD τ).loc main_arg8)) (kB2 m ρ c)) (kArgs m c).exprec := by
    intro i k
    rw [G4_9_isR2 (spec_comb m ρ c D) (arg_eps m c D) (arg_D1w m c D) (spec_b1 m ρ c D) (arg_D2w m c D) (spec_b2 m ρ c D) i k]
    exact congrArg (fun r : ℝ => (r : EReal))
      ((kArgs m c).exprec_eq (fun _ k => (kArgs m c).D1b k) (fun _ k => (kArgs m c).D2b k) (fun _ => rfl) (fun _ => rfl) i k)
  exact (k_exprec m ρ c).trans (funext fun j => h9.at j)

theorem spec_recon : W10 m ρ c (Proc.devRef .tc main_v25) = G_recon (kArgs m c) :=
  (k_recon m ρ c).trans (flat_recon (kArgs m c) (spec_z m ρ c D))

end Cert.KernelIdeal.Hand

end
-- ==== Proof.KI.KernelSide.lean ====
/-
  The kernel program's run, re-posted at the common specification: from a memory whose argument arrays satisfy the
  decoded precondition, every weakly fair execution ends with the four results at the specification's four arrays
  of the arguments, and the arguments unchanged.
-/
import proofs.«128750_j2551210574751_2_alg».proof.Proof.KI.Run
import proofs.«128750_j2551210574751_2_alg».proof.Proof.KI.KernelIsSpec

noncomputable section

namespace Cert.KernelIdeal.Hand

open Cert.KernelIdeal Cert.KernelIdeal.Gen
open Idealize.ShloMosaic Idealize.ShloMosaic.TcCoe Idealize.SL.Sem Cert.Bridge

theorem run_spec (m : (ℓ : Loc nD τ sig) → Buf (Elt Ideal) ℓ) (ρ : Dev nD → PrngReg)
    (hD : ∀ c : Dev nD, Decoded (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :
    θ_run defs (onTc (τ := τ) (main (F := Ideal))) ⟨m, fun _ => 0, ρ⟩ (fun r => ∀ c : Dev nD,
      r.2.mem ((c.tc : Thread nD τ).loc main_v25) = G_recon (kArgs m c)
      ∧ r.2.mem ((c.tc : Thread nD τ).loc main_v23_0) = G_mu (kArgs m c)
      ∧ r.2.mem ((c.tc : Thread nD τ).loc main_v23_1) = G_ls (kArgs m c)
      ∧ r.2.mem ((c.tc : Thread nD τ).loc main_v23_3) = G_exprec (kArgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨
    (h c _ (mem_uc main_v25 (by decide))).trans (spec_recon m ρ c (hD c)),
    (h c _ (mem_uc main_v23_0 (by decide))).trans (spec_zmean m ρ c (hD c)),
    (h c _ (mem_uc main_v23_1 (by decide))).trans (spec_zlogstd m ρ c (hD c)),
    (h c _ (mem_uc main_v23_3 (by decide))).trans (spec_exprec m ρ c (hD c)),
    (h c _ (mem_uc main_arg0 (by decide))).trans (W10_main_arg0 m ρ c),
    (h c _ (mem_uc main_arg1 (by decide))).trans (W10_main_arg1 m ρ c),
    (h c _ (mem_uc main_arg2 (by decide))).trans (W10_main_arg2 m ρ c),
    (h c _ (mem_uc main_arg3 (by decide))).trans (W10_main_arg3 m ρ c),
    (h c _ (mem_uc main_arg4 (by decide))).trans (W10_main_arg4 m ρ c),
    (h c _ (mem_uc main_arg5 (by decide))).trans (W10_main_arg5 m ρ c),
    (h c _ (mem_uc main_arg6 (by decide))).trans (W10_main_arg6 m ρ c),
    (h c _ (mem_uc main_arg7 (by decide))).trans (W10_main_arg7 m ρ c),
    (h c _ (mem_uc main_arg8 (by decide))).trans (W10_main_arg8 m ρ c),
    (h c _ (mem_uc main_arg9 (by decide))).trans (W10_main_arg9 m ρ c),
    (h c _ (mem_uc main_arg10 (by decide))).trans (W10_main_arg10 m ρ c),
    (h c _ (mem_uc main_arg11 (by decide))).trans (W10_main_arg11 m ρ c)⟩) (run_all m ρ)

end Cert.KernelIdeal.Hand

end
-- ==== Proof.RefA.lean ====
/-
  The reference program computes the specification: the first layer.

  Under the decoded precondition (every float entry a real number, every index word in [0, 8192)), each stage of the
  reference, read at an index, is the real number the specification gives: the products are real matrix products, the
  sign normalization of a nonnegative index word is the identity, a row gather reads the row the word names, and a row
  scatter-add into zeros is the sum over the edges that end in that row.
-/
import proofs.«128750_j2551210574751_2_alg».proof.Proof.Gen.ReferenceIdeal.Read
import proofs.«128750_j2551210574751_2_alg».proof.Proof.Layers
import proofs.«128750_j2551210574751_2_alg».proof.Proof.PreDecode

noncomputable section

namespace Cert.Bridge.Ref

open Cert.ReferenceIdeal Cert.ReferenceIdeal.Gen Cert.ReferenceIdeal.Read
open Idealize.ShloMosaic Idealize.ShloMosaic.ValueIdx Cert.LibGather Cert.LibHostApply Cert.LibIndexNorm Cert.Bridge

variable (x0 : FVec Ideal S8192x512 .f32) (x1 : FVec Ideal S262144 .f32) (x2 : FVec Ideal S8192x64 .f32)
  (x3 : FVec Ideal S512x256 .f32) (x4 x5 : FVec Ideal S256x64 .f32) (x6 : FVec Ideal S64x64 .f32)
  (x7 : FVec Ideal S64 .f32) (x8 : FVec Ideal S64x512 .f32) (x9 : FVec Ideal S512 .f32)
  (x10 x11 : IVec S262144 32)

local notation "𝐚" => argsOf x0 x1 x2 x3 x4 x5 x6 x7 x8 x9 x10 x11
local notation "𝐃" => Decoded x0 x1 x2 x3 x4 x5 x6 x7 x8 x9 x10 x11

/-! ## The arguments -/

theorem h0 (D : 𝐃) : IsR2 x0 (𝐚).X := isR2_toReal x0 D.f0
theorem h1 (D : 𝐃) : IsR1 x1 (𝐚).w := isR1_toReal x1 D.f1
theorem h2 (D : 𝐃) : IsR2 x2 (𝐚).eps := isR2_toReal x2 D.f2
theorem h3 (D : 𝐃) : IsR2 x3 (𝐚).W1 := isR2_toReal x3 D.f3
theorem h4 (D : 𝐃) : IsR2 x4 (𝐚).W2mu := isR2_toReal x4 D.f4
theorem h5 (D : 𝐃) : IsR2 x5 (𝐚).W2ls := isR2_toReal x5 D.f5
theorem h6 (D : 𝐃) : IsR2 x6 (𝐚).D1w := isR2_toReal x6 D.f6
theorem h7 (D : 𝐃) : IsR1 x7 (𝐚).D1b := isR1_toReal x7 D.f7
theorem h8 (D : 𝐃) : IsR2 x8 (𝐚).D2w := isR2_toReal x8 D.f8
theorem h9 (D : 𝐃) : IsR1 x9 (𝐚).D2b := isR1_toReal x9 D.f9

/-- An edge ends in row i exactly when its row word says i. -/
theorem row_iff (D : 𝐃) (e : Fin 262144) (i : Fin 8192) :
    (x10 (ix1 e)).toInt = (i.val : Int) ↔ (𝐚).row e = i :=
  clampRow_eq_iff (by decide) (x10 (ix1 e)) (D.row (ix1 e)) i

/-! ## The index words the gathers and scatters read -/

/-- The sign-normalized column word of an edge is the column word. -/
theorem v7_eq (D : 𝐃) (e : Fin 262144) : val_main_v7 (F := Ideal) x11 (ix2 e 0) = x11 (ix1 e) := by
  unfold val_main_v7
  rw [broadcastInDim_col_apply]
  exact signNorm_of_nonneg (x11 (ix1 e)) _ _ rfl (D.col (ix1 e)).1
theorem v22_eq (D : 𝐃) (e : Fin 262144) : val_main_v22 (F := Ideal) x11 (ix2 e 0) = x11 (ix1 e) := by
  unfold val_main_v22
  rw [broadcastInDim_col_apply]
  exact signNorm_of_nonneg (x11 (ix1 e)) _ _ rfl (D.col (ix1 e)).1
theorem v36_eq (D : 𝐃) (e : Fin 262144) : val_main_v36 (F := Ideal) x11 (ix2 e 0) = x11 (ix1 e) := by
  unfold val_main_v36
  rw [broadcastInDim_col_apply]
  exact signNorm_of_nonneg (x11 (ix1 e)) _ _ rfl (D.col (ix1 e)).1

theorem v12_eq (e : Fin 262144) : val_main_v12 (F := Ideal) x10 (ix2 e 0) = x10 (ix1 e) := by
  unfold val_main_v12; rw [broadcastInDim_col_apply]
theorem v27_eq (e : Fin 262144) : val_main_v27 (F := Ideal) x10 (ix2 e 0) = x10 (ix1 e) := by
  unfold val_main_v27; rw [broadcastInDim_col_apply]
theorem v41_eq (e : Fin 262144) : val_main_v41 (F := Ideal) x10 (ix2 e 0) = x10 (ix1 e) := by
  unfold val_main_v41; rw [broadcastInDim_col_apply]

/-- The weight of an edge, repeated across a row of the update array. -/
theorem v9_eq (D : 𝐃) (e : Fin 262144) (f : Fin 256) : val_main_v9 (F := Ideal) x1 (ix2 e f) = ((𝐚).w e : EReal) := by
  unfold val_main_v9 val_main_v1
  rw [broadcastInDim_cols_apply, broadcastInDim_col_apply]
  exact h1 x0 x1 x2 x3 x4 x5 x6 x7 x8 x9 x10 x11 D e
theorem v24_eq (D : 𝐃) (e : Fin 262144) (f : Fin 64) : val_main_v24 (F := Ideal) x1 (ix2 e f) = ((𝐚).w e : EReal) := by
  unfold val_main_v24 val_main_v16
  rw [broadcastInDim_cols_apply, broadcastInDim_col_apply]
  exact h1 x0 x1 x2 x3 x4 x5 x6 x7 x8 x9 x10 x11 D e
theorem v38_eq (D : 𝐃) (e : Fin 262144) (f : Fin 64) : val_main_v38 (F := Ideal) x1 (ix2 e f) = ((𝐚).w e : EReal) := by
  unfold val_main_v38 val_main_v30
  rw [broadcastInDim_cols_apply, broadcastInDim_col_apply]
  exact h1 x0 x1 x2 x3 x4 x5 x6 x7 x8 x9 x10 x11 D e

/-! ## The first layer -/

theorem s0 (D : 𝐃) : IsR2 (val_main_v0 (F := Ideal) x0 x3) (𝐚).m1 := by
  unfold val_main_v0
  exact dot_isR2 _ none x0 x3 _ _ (h0 x0 x1 x2 x3 x4 x5 x6 x7 x8 x9 x10 x11 D) (h3 x0 x1 x2 x3 x4 x5 x6 x7 x8 x9 x10 x11 D)

theorem s10 (D : 𝐃) : IsR2 (val_main_v10 (F := Ideal) x0 x1 x3 x11) (fun e f => (𝐚).w e * (𝐚).m1 ((𝐚).col e) f) := by
  intro e f
  show val_main_v9 (F := Ideal) x1 (ix2 e f) * val_main_v8 (F := Ideal) x0 x3 x11 (ix2 e f) = _
  rw [v9_eq x0 x1 x2 x3 x4 x5 x6 x7 x8 x9 x10 x11 D e f]
  have hg : val_main_v8 (F := Ideal) x0 x3 x11 (ix2 e f) = _ :=
    gather_rows_apply (N := 8192) (E := 262144) (C := 256) (by decide)
      Facts₀.gather_S8192x256_S262144x1_S262144x256_1_0_n_n_0_1_1256_wf
      (val_main_v0 (F := Ideal) x0 x3) (val_main_v7 (F := Ideal) x11) e f
  rw [hg, v7_eq x0 x1 x2 x3 x4 x5 x6 x7 x8 x9 x10 x11 D e, s0 x0 x1 x2 x3 x4 x5 x6 x7 x8 x9 x10 x11 D]
  exact (EReal.coe_mul _ _).symm

theorem s13 (D : 𝐃) : IsR2 (val_main_v13 (F := Ideal) x0 x1 x3 x10 x11) (𝐚).hpre := by
  unfold val_main_v13
  have hs := scatterAdd_isR2 Facts₀.scatter_S8192x256_S262144x1_S262144x256_1_0_0_1_wf (val_main_v11 (F := Ideal)) (val_main_v12 (F := Ideal) x10) (val_main_v10 (F := Ideal) x0 x1 x3 x11) _
    (fun j => ofBits_zero) (s10 x0 x1 x2 x3 x4 x5 x6 x7 x8 x9 x10 x11 D)
  intro i k
  refine (hs i k).trans (congrArg _ ?_)
  unfold Args.hpre spmmR
  refine Finset.sum_congr rfl fun e _ => ?_
  rw [v12_eq]
  exact if_congr (row_iff x0 x1 x2 x3 x4 x5 x6 x7 x8 x9 x10 x11 D e i) rfl rfl

theorem s14 (D : 𝐃) : IsR2 (val_main_v14 (F := Ideal) x0 x1 x3 x10 x11) (𝐚).hidden := by
  intro i k
  show max (val_main_v13 (F := Ideal) x0 x1 x3 x10 x11 (ix2 i k)) (Ideal.ofBits .f32 0x00000000#32) = _
  rw [s13 x0 x1 x2 x3 x4 x5 x6 x7 x8 x9 x10 x11 D, ofBits_zero, max_coe_zero]
  rfl

end Cert.Bridge.Ref

end
-- ==== Proof.RefB.lean ====
/-
  The reference program computes the specification: the second layer (the mean and the log-deviation, each the sparse
  product of the hidden layer times a weight matrix) and the sample z = mean + eps · exp(log-deviation).
-/
import proofs.«128750_j2551210574751_2_alg».proof.Proof.RefA

noncomputable section

namespace Cert.Bridge.Ref

open Cert.ReferenceIdeal Cert.ReferenceIdeal.Gen Cert.ReferenceIdeal.Read
open Idealize.ShloMosaic Idealize.ShloMosaic.ValueIdx Cert.LibGather Cert.LibHostApply Cert.LibIndexNorm Cert.Bridge

variable (x0 : FVec Ideal S8192x512 .f32) (x1 : FVec Ideal S262144 .f32) (x2 : FVec Ideal S8192x64 .f32)
  (x3 : FVec Ideal S512x256 .f32) (x4 x5 : FVec Ideal S256x64 .f32) (x6 : FVec Ideal S64x64 .f32)
  (x7 : FVec Ideal S64 .f32) (x8 : FVec Ideal S64x512 .f32) (x9 : FVec Ideal S512 .f32)
  (x10 x11 : IVec S262144 32)

local notation "𝐚" => argsOf x0 x1 x2 x3 x4 x5 x6 x7 x8 x9 x10 x11
local notation "𝐃" => Decoded x0 x1 x2 x3 x4 x5 x6 x7 x8 x9 x10 x11

/-! ## The second layer: the mean and the log-deviation -/

theorem s15 (D : 𝐃) : IsR2 (val_main_v15 (F := Ideal) x0 x1 x3 x4 x10 x11) (𝐚).pmu := by
  unfold val_main_v15
  exact dot_isR2 _ none _ x4 _ _ (s14 x0 x1 x2 x3 x4 x5 x6 x7 x8 x9 x10 x11 D) (h4 x0 x1 x2 x3 x4 x5 x6 x7 x8 x9 x10 x11 D)

theorem s25 (D : 𝐃) : IsR2 (val_main_v25 (F := Ideal) x0 x1 x3 x4 x10 x11) (fun e f => (𝐚).w e * (𝐚).pmu ((𝐚).col e) f) := by
  intro e f
  show val_main_v24 (F := Ideal) x1 (ix2 e f) * val_main_v23 (F := Ideal) x0 x1 x3 x4 x10 x11 (ix2 e f) = _
  rw [v24_eq x0 x1 x2 x3 x4 x5 x6 x7 x8 x9 x10 x11 D e f]
  have hg : val_main_v23 (F := Ideal) x0 x1 x3 x4 x10 x11 (ix2 e f) = _ :=
    gather_rows_apply (N := 8192) (E := 262144) (C := 64) (by decide)
      Facts₀.gather_S8192x64_S262144x1_S262144x64_1_0_n_n_0_1_164_wf
      (val_main_v15 (F := Ideal) x0 x1 x3 x4 x10 x11) (val_main_v22 (F := Ideal) x11) e f
  rw [hg, v22_eq x0 x1 x2 x3 x4 x5 x6 x7 x8 x9 x10 x11 D e, s15 x0 x1 x2 x3 x4 x5 x6 x7 x8 x9 x10 x11 D]
  exact (EReal.coe_mul _ _).symm

theorem s28 (D : 𝐃) : IsR2 (val_main_v28 (F := Ideal) x0 x1 x3 x4 x10 x11) (𝐚).mu := by
  unfold val_main_v28
  have hs := scatterAdd_isR2 Facts₀.scatter_S8192x64_S262144x1_S262144x64_1_0_0_1_wf (val_main_v26 (F := Ideal)) (val_main_v27 (F := Ideal) x10) (val_main_v25 (F := Ideal) x0 x1 x3 x4 x10 x11) _
    (fun j => ofBits_zero) (s25 x0 x1 x2 x3 x4 x5 x6 x7 x8 x9 x10 x11 D)
  intro i k
  refine (hs i k).trans (congrArg _ ?_)
  unfold Args.mu spmmR
  refine Finset.sum_congr rfl fun e _ => ?_
  rw [v27_eq]
  exact if_congr (row_iff x0 x1 x2 x3 x4 x5 x6 x7 x8 x9 x10 x11 D e i) rfl rfl

theorem s29 (D : 𝐃) : IsR2 (val_main_v29 (F := Ideal) x0 x1 x3 x5 x10 x11) (𝐚).pls := by
  unfold val_main_v29
  exact dot_isR2 _ none _ x5 _ _ (s14 x0 x1 x2 x3 x4 x5 x6 x7 x8 x9 x10 x11 D) (h5 x0 x1 x2 x3 x4 x5 x6 x7 x8 x9 x10 x11 D)

theorem s39 (D : 𝐃) : IsR2 (val_main_v39 (F := Ideal) x0 x1 x3 x5 x10 x11) (fun e f => (𝐚).w e * (𝐚).pls ((𝐚).col e) f) := by
  intro e f
  show val_main_v38 (F := Ideal) x1 (ix2 e f) * val_main_v37 (F := Ideal) x0 x1 x3 x5 x10 x11 (ix2 e f) = _
  rw [v38_eq x0 x1 x2 x3 x4 x5 x6 x7 x8 x9 x10 x11 D e f]
  have hg : val_main_v37 (F := Ideal) x0 x1 x3 x5 x10 x11 (ix2 e f) = _ :=
    gather_rows_apply (N := 8192) (E := 262144) (C := 64) (by decide)
      Facts₀.gather_S8192x64_S262144x1_S262144x64_1_0_n_n_0_1_164_wf
      (val_main_v29 (F := Ideal) x0 x1 x3 x5 x10 x11) (val_main_v36 (F := Ideal) x11) e f
  rw [hg, v36_eq x0 x1 x2 x3 x4 x5 x6 x7 x8 x9 x10 x11 D e, s29 x0 x1 x2 x3 x4 x5 x6 x7 x8 x9 x10 x11 D]
  exact (EReal.coe_mul _ _).symm

theorem s42 (D : 𝐃) : IsR2 (val_main_v42 (F := Ideal) x0 x1 x3 x5 x10 x11) (𝐚).ls := by
  unfold val_main_v42
  have hs := scatterAdd_isR2 Facts₀.scatter_S8192x64_S262144x1_S262144x64_1_0_0_1_wf (val_main_v40 (F := Ideal)) (val_main_v41 (F := Ideal) x10) (val_main_v39 (F := Ideal) x0 x1 x3 x5 x10 x11) _
    (fun j => ofBits_zero) (s39 x0 x1 x2 x3 x4 x5 x6 x7 x8 x9 x10 x11 D)
  intro i k
  refine (hs i k).trans (congrArg _ ?_)
  unfold Args.ls spmmR
  refine Finset.sum_congr rfl fun e _ => ?_
  rw [v41_eq]
  exact if_congr (row_iff x0 x1 x2 x3 x4 x5 x6 x7 x8 x9 x10 x11 D e i) rfl rfl

/-! ## The sample -/

theorem s45 (D : 𝐃) : IsR2 (val_main_v45 (F := Ideal) x0 x1 x2 x3 x4 x5 x10 x11) (𝐚).z := by
  intro i k
  rw [val_main_v45_apply, val_main_v44_apply, val_main_v43_apply, s28 x0 x1 x2 x3 x4 x5 x6 x7 x8 x9 x10 x11 D, s42 x0 x1 x2 x3 x4 x5 x6 x7 x8 x9 x10 x11 D, h2 x0 x1 x2 x3 x4 x5 x6 x7 x8 x9 x10 x11 D]
  show ((𝐚).mu i k : EReal) + ((𝐚).eps i k : EReal) * Ideal.exp (((𝐚).ls i k : ℝ) : EReal) = _
  rw [Ideal.exp_coe, ← EReal.coe_mul, ← EReal.coe_add]
  rfl

end Cert.Bridge.Ref

end
-- ==== Proof.RefC.lean ====
/-
  The reference program computes the specification: the reconstruction z[:, :32] · z[:, 32:]ᵀ flattened, the two-layer
  decoder, and the four results as the specification's arrays.
-/
import proofs.«128750_j2551210574751_2_alg».proof.Proof.RefB

noncomputable section

namespace Cert.Bridge.Ref

open Cert.ReferenceIdeal Cert.ReferenceIdeal.Gen Cert.ReferenceIdeal.Read
open Idealize.ShloMosaic Idealize.ShloMosaic.ValueIdx Cert.LibGather Cert.LibHostApply Cert.LibIndexNorm Cert.Bridge

variable (x0 : FVec Ideal S8192x512 .f32) (x1 : FVec Ideal S262144 .f32) (x2 : FVec Ideal S8192x64 .f32)
  (x3 : FVec Ideal S512x256 .f32) (x4 x5 : FVec Ideal S256x64 .f32) (x6 : FVec Ideal S64x64 .f32)
  (x7 : FVec Ideal S64 .f32) (x8 : FVec Ideal S64x512 .f32) (x9 : FVec Ideal S512 .f32)
  (x10 x11 : IVec S262144 32)

local notation "𝐚" => argsOf x0 x1 x2 x3 x4 x5 x6 x7 x8 x9 x10 x11
local notation "𝐃" => Decoded x0 x1 x2 x3 x4 x5 x6 x7 x8 x9 x10 x11

/-! ## The reconstruction -/

theorem s46 (D : 𝐃) : IsR2 (val_main_v46 (F := Ideal) x0 x1 x2 x3 x4 x5 x10 x11) (fun i k => (𝐚).z i (Args.lo32 k)) := by
  intro i k
  rw [val_main_v46_apply]
  exact (s45 x0 x1 x2 x3 x4 x5 x6 x7 x8 x9 x10 x11 D).at _

theorem s48 (D : 𝐃) : IsR2 (val_main_v48 (F := Ideal) x0 x1 x2 x3 x4 x5 x10 x11) (fun k j => (𝐚).z j (Args.hi32 k)) := by
  intro k j
  rw [val_main_v48_apply, val_main_v47_apply]
  exact (s45 x0 x1 x2 x3 x4 x5 x6 x7 x8 x9 x10 x11 D).at _

theorem s49 (D : 𝐃) : IsR2 (val_main_v49 (F := Ideal) x0 x1 x2 x3 x4 x5 x10 x11) (𝐚).recon := by
  unfold val_main_v49
  intro i j
  exact dot_isR2 _ none _ _ _ _ (s46 x0 x1 x2 x3 x4 x5 x6 x7 x8 x9 x10 x11 D) (s48 x0 x1 x2 x3 x4 x5 x6 x7 x8 x9 x10 x11 D) i j

/-! ## The decoder -/

theorem s51 (D : 𝐃) : IsR2 (val_main_v51 (F := Ideal) x0 x1 x2 x3 x4 x5 x6 x10 x11) (mmR (𝐚).z (𝐚).D1w) := by
  unfold val_main_v51
  exact dot_isR2 _ none _ x6 _ _ (s45 x0 x1 x2 x3 x4 x5 x6 x7 x8 x9 x10 x11 D) (h6 x0 x1 x2 x3 x4 x5 x6 x7 x8 x9 x10 x11 D)

theorem v53_eq (D : 𝐃) (i : Fin 8192) (k : Fin 64) : val_main_v53 (F := Ideal) x7 (ix2 i k) = ((𝐚).D1b k : EReal) := by
  unfold val_main_v53 val_main_v52
  rw [broadcastInDim_rows_apply, broadcastInDim_row_apply]
  exact h7 x0 x1 x2 x3 x4 x5 x6 x7 x8 x9 x10 x11 D k

theorem s55 (D : 𝐃) : IsR2 (val_main_v55 (F := Ideal) x0 x1 x2 x3 x4 x5 x6 x7 x10 x11) (𝐚).d1 := by
  intro i k
  rw [val_main_v55_apply, val_main_v54_apply, s51 x0 x1 x2 x3 x4 x5 x6 x7 x8 x9 x10 x11 D, v53_eq x0 x1 x2 x3 x4 x5 x6 x7 x8 x9 x10 x11 D]
  show max ((mmR (𝐚).z (𝐚).D1w i k : ℝ) + ((𝐚).D1b k : ℝ) : EReal) (Ideal.ofBits .f32 0x00000000#32) = _
  rw [ofBits_zero, ← EReal.coe_add, max_coe_zero]
  rfl

theorem s56 (D : 𝐃) : IsR2 (val_main_v56 (F := Ideal) x0 x1 x2 x3 x4 x5 x6 x7 x8 x10 x11) (mmR (𝐚).d1 (𝐚).D2w) := by
  unfold val_main_v56
  exact dot_isR2 _ none _ x8 _ _ (s55 x0 x1 x2 x3 x4 x5 x6 x7 x8 x9 x10 x11 D) (h8 x0 x1 x2 x3 x4 x5 x6 x7 x8 x9 x10 x11 D)

theorem v58_eq (D : 𝐃) (i : Fin 8192) (k : Fin 512) : val_main_v58 (F := Ideal) x9 (ix2 i k) = ((𝐚).D2b k : EReal) := by
  unfold val_main_v58 val_main_v57
  rw [broadcastInDim_rows_apply, broadcastInDim_row_apply]
  exact h9 x0 x1 x2 x3 x4 x5 x6 x7 x8 x9 x10 x11 D k

theorem s60 (D : 𝐃) : IsR2 (val_main_v60 (F := Ideal) x0 x1 x2 x3 x4 x5 x6 x7 x8 x9 x10 x11) (𝐚).exprec := by
  intro i k
  rw [val_main_v60_apply, val_main_v59_apply, s56 x0 x1 x2 x3 x4 x5 x6 x7 x8 x9 x10 x11 D, v58_eq x0 x1 x2 x3 x4 x5 x6 x7 x8 x9 x10 x11 D]
  show max ((mmR (𝐚).d1 (𝐚).D2w i k : ℝ) + ((𝐚).D2b k : ℝ) : EReal) (Ideal.ofBits .f32 0x00000000#32) = _
  rw [ofBits_zero, ← EReal.coe_add, max_coe_zero]
  rfl

/-! ## The four results -/

/-- The reference's reconstructions are the specification's. -/
theorem ref_recon (D : 𝐃) : val_main_v50 (F := Ideal) x0 x1 x2 x3 x4 x5 x10 x11 = G_recon 𝐚 := by
  funext j
  rw [val_main_v50_apply]
  exact (s49 x0 x1 x2 x3 x4 x5 x6 x7 x8 x9 x10 x11 D).at _

/-- The reference's mean is the specification's. -/
theorem ref_mu (D : 𝐃) : val_main_v28 (F := Ideal) x0 x1 x3 x4 x10 x11 = G_mu 𝐚 :=
  funext fun j => (s28 x0 x1 x2 x3 x4 x5 x6 x7 x8 x9 x10 x11 D).at j

/-- The reference's log-deviation is the specification's. -/
theorem ref_ls (D : 𝐃) : val_main_v42 (F := Ideal) x0 x1 x3 x5 x10 x11 = G_ls 𝐚 :=
  funext fun j => (s42 x0 x1 x2 x3 x4 x5 x6 x7 x8 x9 x10 x11 D).at j

/-- The reference's decoded features are the specification's. -/
theorem ref_exprec (D : 𝐃) : val_main_v60 (F := Ideal) x0 x1 x2 x3 x4 x5 x6 x7 x8 x9 x10 x11 = G_exprec 𝐚 :=
  funext fun j => (s60 x0 x1 x2 x3 x4 x5 x6 x7 x8 x9 x10 x11 D).at j

end Cert.Bridge.Ref

end
-- ==== Proof.RefSide.lean ====
/-
  The reference's run, re-posted at the common specification: from a memory whose twelve argument arrays are given
  arrays satisfying the decoded precondition (every float entry a real number, every edge index in range), every
  weakly fair execution ends with the four results at the specification's four arrays of those arguments, and the
  arguments unchanged.
-/
import proofs.«128750_j2551210574751_2_alg».proof.Proof.RefC
import proofs.«128750_j2551210574751_2_alg».proof.Proof.Gen.ReferenceIdeal.Run

noncomputable section

namespace Cert.Bridge.Ref

open Cert.ReferenceIdeal Cert.ReferenceIdeal.Gen Cert.ReferenceIdeal.Read
open Idealize.ShloMosaic Idealize.ShloMosaic.TcCoe Idealize.SL.Sem Cert.Bridge

theorem run_spec (m' : (ℓ : Loc nD τ sig) → Buf (Elt Ideal) ℓ) (ρ' : Dev nD → PrngReg)
    (x0 : Dev nD → FVec Ideal S8192x512 .f32) (x1 : Dev nD → FVec Ideal S262144 .f32) (x2 : Dev nD → FVec Ideal S8192x64 .f32) (x3 : Dev nD → FVec Ideal S512x256 .f32) (x4 : Dev nD → FVec Ideal S256x64 .f32) (x5 : Dev nD → FVec Ideal S256x64 .f32) (x6 : Dev nD → FVec Ideal S64x64 .f32) (x7 : Dev nD → FVec Ideal S64 .f32) (x8 : Dev nD → FVec Ideal S64x512 .f32) (x9 : Dev nD → FVec Ideal S512 .f32) (x10 : Dev nD → IVec S262144 32) (x11 : Dev nD → IVec S262144 32)
    (hx : ∀ c : Dev nD, m' ((c.tc : Thread nD τ).loc main_arg0) = x0 c ∧ m' ((c.tc : Thread nD τ).loc main_arg1) = x1 c ∧ m' ((c.tc : Thread nD τ).loc main_arg2) = x2 c ∧ m' ((c.tc : Thread nD τ).loc main_arg3) = x3 c ∧ m' ((c.tc : Thread nD τ).loc main_arg4) = x4 c ∧ m' ((c.tc : Thread nD τ).loc main_arg5) = x5 c ∧ m' ((c.tc : Thread nD τ).loc main_arg6) = x6 c ∧ m' ((c.tc : Thread nD τ).loc main_arg7) = x7 c ∧ m' ((c.tc : Thread nD τ).loc main_arg8) = x8 c ∧ m' ((c.tc : Thread nD τ).loc main_arg9) = x9 c ∧ m' ((c.tc : Thread nD τ).loc main_arg10) = x10 c ∧ m' ((c.tc : Thread nD τ).loc main_arg11) = x11 c)
    (hD : ∀ c : Dev nD, Decoded (x0 c) (x1 c) (x2 c) (x3 c) (x4 c) (x5 c) (x6 c) (x7 c) (x8 c) (x9 c) (x10 c) (x11 c)) :
    θ_run defs (onTc (τ := τ) (main (F := Ideal))) ⟨m', fun _ => 0, ρ'⟩ fun r => ∀ c : Dev nD,
      r.2.mem ((c.tc : Thread nD τ).loc main_v50) = G_recon (argsOf (x0 c) (x1 c) (x2 c) (x3 c) (x4 c) (x5 c) (x6 c) (x7 c) (x8 c) (x9 c) (x10 c) (x11 c))
      ∧ r.2.mem ((c.tc : Thread nD τ).loc main_v28) = G_mu (argsOf (x0 c) (x1 c) (x2 c) (x3 c) (x4 c) (x5 c) (x6 c) (x7 c) (x8 c) (x9 c) (x10 c) (x11 c))
      ∧ r.2.mem ((c.tc : Thread nD τ).loc main_v42) = G_ls (argsOf (x0 c) (x1 c) (x2 c) (x3 c) (x4 c) (x5 c) (x6 c) (x7 c) (x8 c) (x9 c) (x10 c) (x11 c))
      ∧ r.2.mem ((c.tc : Thread nD τ).loc main_v60) = G_exprec (argsOf (x0 c) (x1 c) (x2 c) (x3 c) (x4 c) (x5 c) (x6 c) (x7 c) (x8 c) (x9 c) (x10 c) (x11 c))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11) :=
  (θ_run defs _ _).mono (fun _ h c => by
    obtain ⟨e0, e1, e2, e3, e4, e5, e6, e7, e8, e9, e10, e11⟩ := hx c
    refine ⟨?_, ?_, ?_, ?_, (h c).2.2.2.2⟩
    · rw [(h c).1, val_main_v50_eq, e0, e1, e2, e3, e4, e5, e10, e11]
      exact ref_recon (x0 c) (x1 c) (x2 c) (x3 c) (x4 c) (x5 c) (x6 c) (x7 c) (x8 c) (x9 c) (x10 c) (x11 c) (hD c)
    · rw [(h c).2.1, val_main_v28_eq, e0, e1, e3, e4, e10, e11]
      exact ref_mu (x0 c) (x1 c) (x2 c) (x3 c) (x4 c) (x5 c) (x6 c) (x7 c) (x8 c) (x9 c) (x10 c) (x11 c) (hD c)
    · rw [(h c).2.2.1, val_main_v42_eq, e0, e1, e3, e5, e10, e11]
      exact ref_ls (x0 c) (x1 c) (x2 c) (x3 c) (x4 c) (x5 c) (x6 c) (x7 c) (x8 c) (x9 c) (x10 c) (x11 c) (hD c)
    · rw [(h c).2.2.2.1, val_main_v60_eq, e0, e1, e2, e3, e4, e5, e6, e7, e8, e9, e10, e11]
      exact ref_exprec (x0 c) (x1 c) (x2 c) (x3 c) (x4 c) (x5 c) (x6 c) (x7 c) (x8 c) (x9 c) (x10 c) (x11 c) (hD c))
    (Cert.ReferenceIdeal.Value.run (F := Ideal) m' ρ')

end Cert.Bridge.Ref

end
-- ==== Proof.lean ====
/-
  The certificate of the graph auto-encoder kernel against its jnp reference.

  The kernel program is six kernel regions among short host stretches: a host scatter-add builds the dense
  adjacency A once; then X·W1 (region 0), A·(X·W1) accumulated over four column blocks in a scratch buffer
  (region 1), relu(·)·[W2mu | W2ls] (region 2), A·(…) again (region 3), the reparameterisation
  z = mu + eps·exp(ls) with the two-layer decoder (region 4), and the inner products z[:, :32]·z[:, 32:]ᵀ
  (region 5). Its frame is proved region by region and assembled over the boundaries' contents (the modules
  under K/ for the program as printed, under KI/ for its idealization, the same text at any float instance).
  The reference is a straight-line host program whose run is its operations' composed term.
  The idealization rewrote nothing, so what it preserves is trivially so.
  The two idealized programs agree: under the precondition — every float input finite and every edge index in
  [0, 8192) — both end with the four results at ONE specification of the arguments, stated over the real numbers:
  the reference's edge sums Σ over the edges into i of w·h[col] are the kernel's dense products Σ_j A(i,j)·h(j,·)
  with A(i,j) the total weight of the edges from j to i, by exchanging the two finite sums of real numbers.
-/
import proofs.«128750_j2551210574751_2_alg».proof.Defs
import proofs.«128750_j2551210574751_2_alg».proof.Proof.Gen.Kernel
import proofs.«128750_j2551210574751_2_alg».proof.Proof.Gen.KernelIdeal
import proofs.«128750_j2551210574751_2_alg».proof.Proof.Gen.ReferenceIdeal
import proofs.«128750_j2551210574751_2_alg».proof.Proof.Gen.Pre_finite_inputs
import proofs.«128750_j2551210574751_2_alg».proof.Proof.Gen.ReferenceIdeal.Run
import proofs.«128750_j2551210574751_2_alg».proof.Proof.K.Run
import proofs.«128750_j2551210574751_2_alg».proof.Proof.KI.Run
import proofs.«128750_j2551210574751_2_alg».proof.Proof.KI.KernelSide
import proofs.«128750_j2551210574751_2_alg».proof.Proof.RefSide
import Idealize.ShloMosaic.Adequacy
import Idealize.ShloMosaic.Init

noncomputable section

namespace Cert.Proof

open Idealize.ShloMosaic Idealize.SL.Sem

/-- The program as printed runs to the end, faults nowhere and leaves its arguments as launched. -/
theorem frame_k : @Cert.frame_Kernel Cert.Kernel.Gen.facts Cert.Pre_finite_inputs.Gen.facts :=
  fun m ρ _ => Cert.Kernel.Hand.frame m ρ

/-- So does its idealization. -/
theorem frame_ki : @Cert.frame_KernelIdeal Cert.KernelIdeal.Gen.facts Cert.Pre_finite_inputs.Gen.facts :=
  fun m ρ _ => Cert.KernelIdeal.Hand.frame m ρ

/-- And the reference: its run, the results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2.2.2)
    (Cert.ReferenceIdeal.Value.run (F := Ideal) m ρ)

/-- From memories that agree on the arguments both idealized programs end with the specification's four arrays. -/
theorem algebraic : @Cert.algebraic_KernelIdeal_ReferenceIdeal Cert.KernelIdeal.Gen.facts Cert.ReferenceIdeal.Gen.facts Cert.Pre_finite_inputs.Gen.facts := by
  intro m ρ m' ρ' hpre hagree
  have hD : ∀ c : Dev Cert.KernelIdeal.nD, Cert.Bridge.Decoded (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) :=
    fun c => Cert.Bridge.decode _ _ _ _ _ _ _ _ _ _ _ _ (hpre c)
  exact ⟨fun c => Cert.Bridge.G_recon (Cert.KernelIdeal.Hand.kArgs m c), fun c => Cert.Bridge.G_mu (Cert.KernelIdeal.Hand.kArgs m c),
    fun c => Cert.Bridge.G_ls (Cert.KernelIdeal.Hand.kArgs m c), fun c => Cert.Bridge.G_exprec (Cert.KernelIdeal.Hand.kArgs m c),
    Cert.KernelIdeal.Hand.run_spec m ρ hD,
    Cert.Bridge.Ref.run_spec m' ρ' (fun c => m ((c.tc : Thread Cert.KernelIdeal.nD Cert.KernelIdeal.τ).loc Cert.KernelIdeal.main_arg0)) (fun c => m ((c.tc : Thread Cert.KernelIdeal.nD Cert.KernelIdeal.τ).loc Cert.KernelIdeal.main_arg1)) (fun c => m ((c.tc : Thread Cert.KernelIdeal.nD Cert.KernelIdeal.τ).loc Cert.KernelIdeal.main_arg2)) (fun c => m ((c.tc : Thread Cert.KernelIdeal.nD Cert.KernelIdeal.τ).loc Cert.KernelIdeal.main_arg3)) (fun c => m ((c.tc : Thread Cert.KernelIdeal.nD Cert.KernelIdeal.τ).loc Cert.KernelIdeal.main_arg4)) (fun c => m ((c.tc : Thread Cert.KernelIdeal.nD Cert.KernelIdeal.τ).loc Cert.KernelIdeal.main_arg5)) (fun c => m ((c.tc : Thread Cert.KernelIdeal.nD Cert.KernelIdeal.τ).loc Cert.KernelIdeal.main_arg6)) (fun c => m ((c.tc : Thread Cert.KernelIdeal.nD Cert.KernelIdeal.τ).loc Cert.KernelIdeal.main_arg7)) (fun c => m ((c.tc : Thread Cert.KernelIdeal.nD Cert.KernelIdeal.τ).loc Cert.KernelIdeal.main_arg8)) (fun c => m ((c.tc : Thread Cert.KernelIdeal.nD Cert.KernelIdeal.τ).loc Cert.KernelIdeal.main_arg9)) (fun c => m ((c.tc : Thread Cert.KernelIdeal.nD Cert.KernelIdeal.τ).loc Cert.KernelIdeal.main_arg10)) (fun c => m ((c.tc : Thread Cert.KernelIdeal.nD Cert.KernelIdeal.τ).loc Cert.KernelIdeal.main_arg11)) hagree hD⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
